-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S3x128x128 : Shape := ⟨3, ![3, 128, 128]⟩
abbrev S3x128 : Shape := ⟨2, ![3, 128]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg9 : FVec F S3x128 .f32) (main_arg10 : FVec F S3x128 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  main_v43

def fn_part1 {F : FTy → Type} [FloatOps F] (main_arg6 : FVec F S3x128x128 .f32) (main_arg7 : FVec F S3x128 .f32) (main_arg8 : FVec F S3 .f32) (main_arg9 : FVec F S3x128 .f32) (main_arg10 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3 .f32 := Host.absf main_arg8
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S800000 32) (main_arg3 : FVec F S800000 .f32) (main_arg4 : FVec F S3x128x128 .f32) (main_arg5 : FVec F S3x128 .f32) (main_arg6 : FVec F S3x128x128 .f32) (main_arg7 : FVec F S3x128 .f32) (main_arg8 : FVec F S3 .f32) (main_arg9 : FVec F S3x128 .f32) (main_arg10 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S3x128x128 : Shape := ⟨3, ![3, 128, 128]⟩
abbrev S3x128 : Shape := ⟨2, ![3, 128]⟩
abbrev S3 : Shape := ⟨1, ![3]⟩
abbrev S1x800000 : Shape := ⟨2, ![1, 800000]⟩
abbrev S800000x1 : Shape := ⟨2, ![800000, 1]⟩
abbrev S_ : Shape := ⟨0, ![]⟩
abbrev S800000x128 : Shape := ⟨2, ![800000, 128]⟩
abbrev S1 : Shape := ⟨1, ![1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩

abbrev nBuf : Space → Nat
  | .hbm => 175
  | .vmem => 72
  | .smem => 0
  | _ => 0

abbrev hbmTy0_0 (i : Nat) : BufTy := match i % 128 with
  | 0 => ⟨S50000x128, .f32⟩
  | 1 => ⟨S2x800000, .i32⟩
  | 2 => ⟨S800000, .i32⟩
  | 3 => ⟨S800000, .f32⟩
  | 4 => ⟨S3x128x128, .f32⟩
  | 5 => ⟨S3x128, .f32⟩
  | 6 => ⟨S3x128x128, .f32⟩
  | 7 => ⟨S3x128, .f32⟩
  | 8 => ⟨S3, .f32⟩
  | 9 => ⟨S3x128, .f32⟩
  | 10 => ⟨S3x128, .f32⟩
  | 11 => ⟨S1x800000, .i32⟩
  | 12 => ⟨S800000, .i32⟩
  | 13 => ⟨S1x800000, .i32⟩
  | 14 => ⟨S800000, .i32⟩
  | 15 => ⟨S800000x1, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S800000x128, .f32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S1, .f32⟩
  | 32 => ⟨S_, .f32⟩
  | 33 => ⟨S_, .f32⟩
  | 34 => ⟨S_, .f32⟩
  | 35 => ⟨S50000x128, .f32⟩
  | 36 => ⟨S50000x128, .f32⟩
  | 37 => ⟨S1x128x128, .f32⟩
  | 38 => ⟨S128x128, .f32⟩
  | 39 => ⟨S1x128, .f32⟩
  | 40 => ⟨S128, .f32⟩
  | 41 => ⟨S1x128x128, .f32⟩
  | 42 => ⟨S128x128, .f32⟩
  | 43 => ⟨S1x128, .f32⟩
  | 44 => ⟨S128, .f32⟩
  | 45 => ⟨S1x128, .f32⟩
  | 46 => ⟨S1x128, .f32⟩
  | 47 => ⟨S50000x128, .f32⟩
  | 48 => ⟨S1x128, .f32⟩
  | 49 => ⟨S1x128, .f32⟩
  | 50 => ⟨S128, .f32⟩
  | 51 => ⟨S_, .f32⟩
  | 52 => ⟨S128, .f32⟩
  | 53 => ⟨S128, .f32⟩
  | 54 => ⟨S128, .f32⟩
  | 55 => ⟨S_, .f32⟩
  | 56 => ⟨S128, .f32⟩
  | 57 => ⟨S128, .f32⟩
  | 58 => ⟨S128, .f32⟩
  | 59 => ⟨S128, .f32⟩
  | 60 => ⟨S1x128, .f32⟩
  | 61 => ⟨S128, .f32⟩
  | 62 => ⟨S1x128, .f32⟩
  | 63 => ⟨S128, .f32⟩
  | 64 => ⟨S1x128, .f32⟩
  | 65 => ⟨S1x128, .f32⟩
  | 66 => ⟨S1x128, .f32⟩
  | 67 => ⟨S1x128, .f32⟩
  | 68 => ⟨S50000x128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S800000x128, .f32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S1, .f32⟩
  | 85 => ⟨S_, .f32⟩
  | 86 => ⟨S_, .f32⟩
  | 87 => ⟨S_, .f32⟩
  | 88 => ⟨S50000x128, .f32⟩
  | 89 => ⟨S50000x128, .f32⟩
  | 90 => ⟨S1x128x128, .f32⟩
  | 91 => ⟨S128x128, .f32⟩
  | 92 => ⟨S1x128, .f32⟩
  | 93 => ⟨S128, .f32⟩
  | 94 => ⟨S1x128x128, .f32⟩
  | 95 => ⟨S128x128, .f32⟩
  | 96 => ⟨S1x128, .f32⟩
  | 97 => ⟨S128, .f32⟩
  | 98 => ⟨S1x128, .f32⟩
  | 99 => ⟨S1x128, .f32⟩
  | 100 => ⟨S50000x128, .f32⟩
  | 101 => ⟨S1x128, .f32⟩
  | 102 => ⟨S1x128, .f32⟩
  | 103 => ⟨S128, .f32⟩
  | 104 => ⟨S_, .f32⟩
  | 105 => ⟨S128, .f32⟩
  | 106 => ⟨S128, .f32⟩
  | 107 => ⟨S128, .f32⟩
  | 108 => ⟨S_, .f32⟩
  | 109 => ⟨S128, .f32⟩
  | 110 => ⟨S128, .f32⟩
  | 111 => ⟨S128, .f32⟩
  | 112 => ⟨S128, .f32⟩
  | 113 => ⟨S1x128, .f32⟩
  | 114 => ⟨S128, .f32⟩
  | 115 => ⟨S1x128, .f32⟩
  | 116 => ⟨S128, .f32⟩
  | 117 => ⟨S1x128, .f32⟩
  | 118 => ⟨S1x128, .f32⟩
  | 119 => ⟨S1x128, .f32⟩
  | 120 => ⟨S1x128, .f32⟩
  | 121 => ⟨S50000x128, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_1 (i : Nat) : BufTy := match i % 128 with
  | 0 => ⟨S800000, .i32⟩
  | 1 => ⟨S800000x1, .i32⟩
  | 2 => ⟨S800000x128, .f32⟩
  | 3 => ⟨S800000x128, .f32⟩
  | 4 => ⟨S800000x128, .f32⟩
  | 5 => ⟨S_, .f32⟩
  | 6 => ⟨S50000x128, .f32⟩
  | 7 => ⟨S800000x1, .i32⟩
  | 8 => ⟨S50000x128, .f32⟩
  | 9 => ⟨S1, .f32⟩
  | 10 => ⟨S_, .f32⟩
  | 11 => ⟨S_, .f32⟩
  | 12 => ⟨S_, .f32⟩
  | 13 => ⟨S50000x128, .f32⟩
  | 14 => ⟨S50000x128, .f32⟩
  | 15 => ⟨S1x128x128, .f32⟩
  | 16 => ⟨S128x128, .f32⟩
  | 17 => ⟨S1x128, .f32⟩
  | 18 => ⟨S128, .f32⟩
  | 19 => ⟨S1x128x128, .f32⟩
  | 20 => ⟨S128x128, .f32⟩
  | 21 => ⟨S1x128, .f32⟩
  | 22 => ⟨S128, .f32⟩
  | 23 => ⟨S1x128, .f32⟩
  | 24 => ⟨S1x128, .f32⟩
  | 25 => ⟨S50000x128, .f32⟩
  | 26 => ⟨S1x128, .f32⟩
  | 27 => ⟨S1x128, .f32⟩
  | 28 => ⟨S128, .f32⟩
  | 29 => ⟨S_, .f32⟩
  | 30 => ⟨S128, .f32⟩
  | 31 => ⟨S128, .f32⟩
  | 32 => ⟨S128, .f32⟩
  | 33 => ⟨S_, .f32⟩
  | 34 => ⟨S128, .f32⟩
  | 35 => ⟨S128, .f32⟩
  | 36 => ⟨S128, .f32⟩
  | 37 => ⟨S128, .f32⟩
  | 38 => ⟨S1x128, .f32⟩
  | 39 => ⟨S128, .f32⟩
  | 40 => ⟨S1x128, .f32⟩
  | 41 => ⟨S128, .f32⟩
  | 42 => ⟨S1x128, .f32⟩
  | 43 => ⟨S1x128, .f32⟩
  | 44 => ⟨S1x128, .f32⟩
  | 45 => ⟨S1x128, .f32⟩
  | 46 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S128x128, .f32⟩
  | .local _ .vmem, ⟨53, _⟩ => ⟨S1x128, .f32⟩
  | .local _ .vmem, ⟨54, _⟩ => ⟨S128x128, .f32⟩
  | .local _ .vmem, ⟨55, _⟩ => ⟨S1x128, .f32⟩
  | .local _ .vmem, ⟨56, _⟩ => ⟨S2000x128, .f32⟩
  | .local _ .vmem, ⟨57, _⟩ => ⟨S2000x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S2000x128, .f32⟩
  | .local _ .vmem, ⟨71, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_v32_2 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_4 : Ref sig .tc := ⟨.hbm, 69, rfl⟩
abbrev main_v50 : Ref sig .tc := ⟨.hbm, 70, rfl⟩
abbrev main_v51 : Ref sig .tc := ⟨.hbm, 71, rfl⟩
abbrev main_c_5 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_6 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_7 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77_0 : Ref sig .tc := ⟨.hbm, 100, rfl⟩
abbrev main_v77_1 : Ref sig .tc := ⟨.hbm, 101, rfl⟩
abbrev main_v77_2 : Ref sig .tc := ⟨.hbm, 102, rfl⟩
abbrev main_v78 : Ref sig .tc := ⟨.hbm, 103, rfl⟩
abbrev main_cst_8 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_9 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_c_10 : Ref sig .tc := ⟨.hbm, 122, rfl⟩
abbrev main_v95 : Ref sig .tc := ⟨.hbm, 123, rfl⟩
abbrev main_v96 : Ref sig .tc := ⟨.hbm, 124, rfl⟩
abbrev main_c_11 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_12 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_13 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122_0 : Ref sig .tc := ⟨.hbm, 153, rfl⟩
abbrev main_v122_1 : Ref sig .tc := ⟨.hbm, 154, rfl⟩
abbrev main_v122_2 : Ref sig .tc := ⟨.hbm, 155, rfl⟩
abbrev main_v123 : Ref sig .tc := ⟨.hbm, 156, rfl⟩
abbrev main_cst_14 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_15 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg8_0 : Ref sig .tc := ⟨.vmem, 35, rfl⟩
abbrev cc2_scratch0 : Ref sig .tc := ⟨.vmem, 36, rfl⟩
abbrev cc2_scratch1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg6_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg3_0 : Ref sig .tc := ⟨.vmem, 53, rfl⟩
abbrev cc4_stg4_0 : Ref sig .tc := ⟨.vmem, 54, rfl⟩
abbrev cc4_stg5_0 : Ref sig .tc := ⟨.vmem, 55, rfl⟩
abbrev cc4_stg6_0 : Ref sig .tc := ⟨.vmem, 56, rfl⟩
abbrev cc4_stg6_1 : Ref sig .tc := ⟨.vmem, 57, rfl⟩
abbrev cc4_stg7_0 : Ref sig .tc := ⟨.vmem, 58, rfl⟩
abbrev cc4_stg8_0 : Ref sig .tc := ⟨.vmem, 59, rfl⟩
abbrev cc4_scratch0 : Ref sig .tc := ⟨.vmem, 60, rfl⟩
abbrev cc4_scratch1 : Ref sig .tc := ⟨.vmem, 61, rfl⟩
abbrev cc5_stg0_0 : Ref sig .tc := ⟨.vmem, 62, rfl⟩
abbrev cc5_stg0_1 : Ref sig .tc := ⟨.vmem, 63, rfl⟩
abbrev cc5_stg1_0 : Ref sig .tc := ⟨.vmem, 64, rfl⟩
abbrev cc5_stg1_1 : Ref sig .tc := ⟨.vmem, 65, rfl⟩
abbrev cc5_stg2_0 : Ref sig .tc := ⟨.vmem, 66, rfl⟩
abbrev cc5_stg3_0 : Ref sig .tc := ⟨.vmem, 67, rfl⟩
abbrev cc5_stg4_0 : Ref sig .tc := ⟨.vmem, 68, rfl⟩
abbrev cc5_stg5_0 : Ref sig .tc := ⟨.vmem, 69, rfl⟩
abbrev cc5_stg6_0 : Ref sig .tc := ⟨.vmem, 70, rfl⟩
abbrev cc5_stg6_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem8_0 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem6_1 : DmaSem sig := 53
abbrev cc4_sem7_0 : DmaSem sig := 54
abbrev cc4_sem8_0 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem3_0 : DmaSem sig := 61
abbrev cc5_sem4_0 : DmaSem sig := 62
abbrev cc5_sem5_0 : DmaSem sig := 63
abbrev cc5_sem6_0 : DmaSem sig := 64
abbrev cc5_sem6_1 : DmaSem sig := 65

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v44 : BitVec 1 := Scalar.cmpi .eq arg0 c24_i32
  let v45 : BitVec 32 := Scalar.extui v44
  let c0_i32_26 : BitVec 32 := 0#32
  let v46 : BitVec 1 := Scalar.cmpi .ne v45 c0_i32_26
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v44 : BitVec 1 := Scalar.cmpi .eq arg0 c24_i32
  let v45 : BitVec 32 := Scalar.extui v44
  let c0_i32_26 : BitVec 32 := 0#32
  let v46 : BitVec 1 := Scalar.cmpi .ne v45 c0_i32_26
  v46

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v44 : BitVec 1 := Scalar.cmpi .eq arg0 c24_i32
  let v45 : BitVec 32 := Scalar.extui v44
  let c0_i32_26 : BitVec 32 := 0#32
  let v46 : BitVec 1 := Scalar.cmpi .ne v45 c0_i32_26
  v46

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3_S1_0 : S3.Slices ![0] S1
  shapeCasts_S1_S_ : S1.ShapeCasts S_
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  broadcasts_S1x128_S2000x128 : S1x128.Broadcasts S2000x128
  reduces_S2000x128_S128 : S2000x128.Reduces [0] S128
  bcast_S_S128 : S_.BroadcastsInDim S128 (![] : Fin 0 → Fin S128.rank)
  slices_S3_S1_1 : S3.Slices ![1] S1
  slices_S3x128x128_S1x128x128_1_0_0 : S3x128x128.Slices ![1, 0, 0] S1x128x128
  slices_S3x128_S1x128_1_0 : S3x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S50000x128.size a
  hwx5_6 : ∀ i : grid5.Coords, EltTy.bits .f32 = 32 ∨ (Rect.block (s := S50000x128) S2000x128.size (cc5_transform_6 i) (hinb5_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v32_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v32_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v32_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v66) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v68) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v76) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v77_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v77_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v77_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v77_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v90) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v91) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v92) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v93) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v94) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v111) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v106) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v113) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v120) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v117) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v121) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v122_0) S2000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v122_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v122_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun i => !(k4_cond2 i == 1#1) | 8 => fun i => !(k4_cond2 i == 1#1) | ⟨_ + 9, h⟩ => absurd h (Nat.not_lt.2 (Nat.le_add_left _ _))

abbrev win5_0 : Pipeline.Window sig grid5 :=
  Pipeline.Window.ofSpec (Memref.whole main_v122_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v94) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v135) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v136) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v137) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v138) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v139) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S3x128x128 : Shape := ⟨3, ![3, 128, 128]⟩
abbrev S3x128 : Shape := ⟨2, ![3, 128]⟩
abbrev S3 : Shape := ⟨1, ![3]⟩
abbrev S1x800000 : Shape := ⟨2, ![1, 800000]⟩
abbrev S800000x1 : Shape := ⟨2, ![800000, 1]⟩
abbrev S_ : Shape := ⟨0, ![]⟩
abbrev S800000x128 : Shape := ⟨2, ![800000, 128]⟩
abbrev S1 : Shape := ⟨1, ![1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 253
  | .vmem => 0
  | .smem => 0
  | _ => 0

abbrev hbmTy0_0 (i : Nat) : BufTy := match i % 128 with
  | 0 => ⟨S50000x128, .f32⟩
  | 1 => ⟨S2x800000, .i32⟩
  | 2 => ⟨S800000, .i32⟩
  | 3 => ⟨S800000, .f32⟩
  | 4 => ⟨S3x128x128, .f32⟩
  | 5 => ⟨S3x128, .f32⟩
  | 6 => ⟨S3x128x128, .f32⟩
  | 7 => ⟨S3x128, .f32⟩
  | 8 => ⟨S3, .f32⟩
  | 9 => ⟨S3x128, .f32⟩
  | 10 => ⟨S3x128, .f32⟩
  | 11 => ⟨S1x800000, .i32⟩
  | 12 => ⟨S800000, .i32⟩
  | 13 => ⟨S1x800000, .i32⟩
  | 14 => ⟨S800000, .i32⟩
  | 15 => ⟨S800000x1, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S800000x128, .f32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S1, .f32⟩
  | 32 => ⟨S_, .f32⟩
  | 33 => ⟨S_, .f32⟩
  | 34 => ⟨S_, .f32⟩
  | 35 => ⟨S50000x128, .f32⟩
  | 36 => ⟨S50000x128, .f32⟩
  | 37 => ⟨S50000x128, .f32⟩
  | 38 => ⟨S1x128x128, .f32⟩
  | 39 => ⟨S128x128, .f32⟩
  | 40 => ⟨S50000x128, .f32⟩
  | 41 => ⟨S1x128, .f32⟩
  | 42 => ⟨S128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S1x128x128, .f32⟩
  | 50 => ⟨S128x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S_, .f32⟩
  | 58 => ⟨S128, .f32⟩
  | 59 => ⟨S_, .f32⟩
  | 60 => ⟨S128, .f32⟩
  | 61 => ⟨S128, .f32⟩
  | 62 => ⟨S1x128, .f32⟩
  | 63 => ⟨S50000x128, .f32⟩
  | 64 => ⟨S50000x128, .f32⟩
  | 65 => ⟨S50000x128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S128, .f32⟩
  | 82 => ⟨S128, .f32⟩
  | 83 => ⟨S1x128, .f32⟩
  | 84 => ⟨S50000x128, .f32⟩
  | 85 => ⟨S50000x128, .f32⟩
  | 86 => ⟨S1x128, .f32⟩
  | 87 => ⟨S128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S800000x128, .f32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S1, .f32⟩
  | 111 => ⟨S_, .f32⟩
  | 112 => ⟨S_, .f32⟩
  | 113 => ⟨S_, .f32⟩
  | 114 => ⟨S50000x128, .f32⟩
  | 115 => ⟨S50000x128, .f32⟩
  | 116 => ⟨S50000x128, .f32⟩
  | 117 => ⟨S1x128x128, .f32⟩
  | 118 => ⟨S128x128, .f32⟩
  | 119 => ⟨S50000x128, .f32⟩
  | 120 => ⟨S1x128, .f32⟩
  | 121 => ⟨S128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S1x128x128, .f32⟩
  | 1 => ⟨S128x128, .f32⟩
  | 2 => ⟨S50000x128, .f32⟩
  | 3 => ⟨S1x128, .f32⟩
  | 4 => ⟨S128, .f32⟩
  | 5 => ⟨S1x128, .f32⟩
  | 6 => ⟨S50000x128, .f32⟩
  | 7 => ⟨S50000x128, .f32⟩
  | 8 => ⟨S_, .f32⟩
  | 9 => ⟨S128, .f32⟩
  | 10 => ⟨S_, .f32⟩
  | 11 => ⟨S128, .f32⟩
  | 12 => ⟨S128, .f32⟩
  | 13 => ⟨S1x128, .f32⟩
  | 14 => ⟨S50000x128, .f32⟩
  | 15 => ⟨S50000x128, .f32⟩
  | 16 => ⟨S50000x128, .f32⟩
  | 17 => ⟨S_, .f32⟩
  | 18 => ⟨S128, .f32⟩
  | 19 => ⟨S_, .f32⟩
  | 20 => ⟨S128, .f32⟩
  | 21 => ⟨S128, .f32⟩
  | 22 => ⟨S1x128, .f32⟩
  | 23 => ⟨S128, .f32⟩
  | 24 => ⟨S1x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S_, .f32⟩
  | 31 => ⟨S128, .f32⟩
  | 32 => ⟨S128, .f32⟩
  | 33 => ⟨S128, .f32⟩
  | 34 => ⟨S1x128, .f32⟩
  | 35 => ⟨S50000x128, .f32⟩
  | 36 => ⟨S50000x128, .f32⟩
  | 37 => ⟨S1x128, .f32⟩
  | 38 => ⟨S128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S50000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x128, .f32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S1, .f32⟩
  | 62 => ⟨S_, .f32⟩
  | 63 => ⟨S_, .f32⟩
  | 64 => ⟨S_, .f32⟩
  | 65 => ⟨S50000x128, .f32⟩
  | 66 => ⟨S50000x128, .f32⟩
  | 67 => ⟨S50000x128, .f32⟩
  | 68 => ⟨S1x128x128, .f32⟩
  | 69 => ⟨S128x128, .f32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S1x128x128, .f32⟩
  | 80 => ⟨S128x128, .f32⟩
  | 81 => ⟨S50000x128, .f32⟩
  | 82 => ⟨S1x128, .f32⟩
  | 83 => ⟨S128, .f32⟩
  | 84 => ⟨S1x128, .f32⟩
  | 85 => ⟨S50000x128, .f32⟩
  | 86 => ⟨S50000x128, .f32⟩
  | 87 => ⟨S_, .f32⟩
  | 88 => ⟨S128, .f32⟩
  | 89 => ⟨S_, .f32⟩
  | 90 => ⟨S128, .f32⟩
  | 91 => ⟨S128, .f32⟩
  | 92 => ⟨S1x128, .f32⟩
  | 93 => ⟨S50000x128, .f32⟩
  | 94 => ⟨S50000x128, .f32⟩
  | 95 => ⟨S50000x128, .f32⟩
  | 96 => ⟨S_, .f32⟩
  | 97 => ⟨S128, .f32⟩
  | 98 => ⟨S_, .f32⟩
  | 99 => ⟨S128, .f32⟩
  | 100 => ⟨S128, .f32⟩
  | 101 => ⟨S1x128, .f32⟩
  | 102 => ⟨S128, .f32⟩
  | 103 => ⟨S1x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S128, .f32⟩
  | 111 => ⟨S128, .f32⟩
  | 112 => ⟨S128, .f32⟩
  | 113 => ⟨S1x128, .f32⟩
  | 114 => ⟨S50000x128, .f32⟩
  | 115 => ⟨S50000x128, .f32⟩
  | 116 => ⟨S1x128, .f32⟩
  | 117 => ⟨S128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_3 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_5 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_7 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_8 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_9 : Ref sig .tc := ⟨.hbm, 95, rfl⟩
abbrev main_v73 : Ref sig .tc := ⟨.hbm, 96, rfl⟩
abbrev main_v74 : Ref sig .tc := ⟨.hbm, 97, rfl⟩
abbrev main_c_10 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_11 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_12 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_13 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_14 : Ref sig .tc := ⟨.hbm, 136, rfl⟩
abbrev main_v109 : Ref sig .tc := ⟨.hbm, 137, rfl⟩
abbrev main_cst_15 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_16 : Ref sig .tc := ⟨.hbm, 145, rfl⟩
abbrev main_v116 : Ref sig .tc := ⟨.hbm, 146, rfl⟩
abbrev main_cst_17 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_18 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_cst_19 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_c_20 : Ref sig .tc := ⟨.hbm, 174, rfl⟩
abbrev main_v141 : Ref sig .tc := ⟨.hbm, 175, rfl⟩
abbrev main_v142 : Ref sig .tc := ⟨.hbm, 176, rfl⟩
abbrev main_c_21 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_cst_22 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_cst_23 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_cst_24 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_cst_25 : Ref sig .tc := ⟨.hbm, 215, rfl⟩
abbrev main_v177 : Ref sig .tc := ⟨.hbm, 216, rfl⟩
abbrev main_cst_26 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_cst_27 : Ref sig .tc := ⟨.hbm, 224, rfl⟩
abbrev main_v184 : Ref sig .tc := ⟨.hbm, 225, rfl⟩
abbrev main_cst_28 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_cst_29 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_cst_30 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3_S1_0 : S3.Slices ![0] S1
  shapeCasts_S1_S_ : S1.ShapeCasts S_
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S3_S1_1 : S3.Slices ![1] S1
  slices_S3x128x128_S1x128x128_1_0_0 : S3x128x128.Slices ![1, 0, 0] S1x128x128
  slices_S3x128_S1x128_1_0 : S3x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KMlp0Base.lean ====
/-
  Region 0 of @main (the two-layer perceptron over a block of 2000 rows, with the per-column sums of its result and of
  its squares accumulated in two rows of scratch across the 25 grid points): what the case runs and the proof data share.
  The first grid point resets both accumulators, the last copies them to the two row outputs; at every other point those
  two outputs are idle (the pipeline neither writes them back nor reads them).  Stated at any float instance and at the
  buffer contents `V` the region is entered from.
-/
import proofs.«124822_j54752243090034_1_alg».proof.Proof.Gen.Kernel.Launch
import proofs.«124822_j54752243090034_1_alg».proof.Proof.Gen.Kernel.Skeleton
import proofs.«124822_j54752243090034_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block of rows at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (an unfetched window's
    block index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (an unfetched window's
    block index has not moved), for any proof data over `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (an unfetched window's
    block index has not moved), for any proof data over `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not (an unfetched window's
    block index has not moved), for any proof data over `V` whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not (an unfetched window's
    block index has not moved), for any proof data over `V` whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not (an unfetched window's
    block index has not moved), for any proof data over `V` whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branch conditions, decided over the grid -/

/-- "This is the first grid point" as the body computes it from the coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last grid point". -/
abbrev cond0_1 (i : grid0.Coords) : Prop := k0_cond2 i = 1#1
theorem hcond0_1 : ∀ t : Fin cfg0.N, cond0_1 (grid0.coords t) ↔ t.val = 24 :=
  (by decide +kernel : ∀ t : Fin grid0.N, cond0_1 (grid0.coords t) ↔ t.val = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Off the last point the row output 7 is idle and is not written back; at the last point it is live. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7_C : ∀ t : Fin cfg0.N, cond0_1 (grid0.coords t) → cfg0.idle 7 (grid0.coords t) = false := by decide +kernel
/-- Off the last point the row output 8 is idle and is not written back; at the last point it is live. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8_C : ∀ t : Fin cfg0.N, cond0_1 (grid0.coords t) → cfg0.idle 8 (grid0.coords t) = false := by decide +kernel

/-! ## The staging and scratch memrefs the body is called with -/

abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- The two accumulator rows: whole scoped buffers of the kernel's own. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := (scM0_0).view
abbrev VS0_1 : View sig .tc .vmem S1x128 .f32 := (scM0_1).view
/-- One staging buffer per output window, through which its contents are stated. -/
abbrev VO0_6 : View sig .tc .vmem S2000x128 .f32 := (Memref.whole cc0_stg6_0 : Memref sig .tc .vmem S2000x128 .f32).view
abbrev VO0_7 : View sig .tc .vmem S1x128 .f32 := (Memref.whole cc0_stg7_0 : Memref sig .tc .vmem S1x128 .f32).view
abbrev VO0_8 : View sig .tc .vmem S1x128 .f32 := (Memref.whole cc0_stg8_0 : Memref sig .tc .vmem S1x128 .f32).view

/-- What the launch hands the region beside the windows — every scoped buffer no window stages and the generator
    register — with the two accumulator rows split out, each whole at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Hand

end
-- ==== Proof.KMlp0RunA.lean ====
/-
  Region 0, the body run at the first grid point (both accumulators reset first): on whole staging memrefs, the six inputs at given contents, the body
  runs to its return leaving the inputs as they were, the block output with its store written, and each accumulator row
  with its stores written; what was stored is found by the run.
-/
import proofs.«124822_j54752243090034_1_alg».proof.Proof.KMlp0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc0__mlp_kernel_eq_skeleton]; unfold cc0__mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hf7; obtain rfl := harg9.eq_unread hf8

    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.KMlp0RunB.lean ====
/-
  Region 0, the body run at a grid point that is neither first nor last: on whole staging memrefs, the six inputs at given contents, the body
  runs to its return leaving the inputs as they were, the block output with its store written, and each accumulator row
  with its stores written; what was stored is found by the run.
-/
import proofs.«124822_j54752243090034_1_alg».proof.Proof.KMlp0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc0__mlp_kernel_eq_skeleton]; unfold cc0__mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.KMlp0RunC.lean ====
/-
  Region 0, the body run at the last grid point (the accumulators copied to the two row outputs): on whole staging memrefs, the six inputs at given contents, the body
  runs to its return leaving the inputs as they were, the block output with its store written, and each accumulator row
  with its stores written; what was stored is found by the run.
-/
import proofs.«124822_j54752243090034_1_alg».proof.Proof.KMlp0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__mlp_kernel_eq_skeleton]; unfold cc0__mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5

    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.KMlp0.lean ====
/-
  Region 0: what the block output, the two row outputs and the two accumulator rows hold after each grid point (a
  recursion over the points: the first resets the accumulators, every later one adds to what the point before left, the
  last also copies them out), the proof data built from that, and the body obligation at every point.
-/
import proofs.«124822_j54752243090034_1_alg».proof.Proof.KMlp0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave, read back -/

theorem cover0_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (y : S2000x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S2000x128.size (by sl_kernel_rfl) y
def out0_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1)
def out0_A_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)
def out0_A_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)
theorem scover0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x128.size (by sl_kernel_rfl) y
def sout0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)
theorem scover0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x128.size (by sl_kernel_rfl) y
def sout0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

theorem cover0_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S2000x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
def out0_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S2000x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
def out0_B_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
def out0_B_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
theorem scover0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
def sout0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)
theorem scover0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
def sout0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

theorem cover0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S2000x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
def out0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S2000x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
theorem cover0_C_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
def out0_C_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
theorem cover0_C_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
def out0_C_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
theorem scover0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
def sout0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)
theorem scover0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
def sout0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

section
variable (V : (c : Dev nD) → (b : Ref sig .tc) → Buf (Elt F) ((c : Thread nD τ).loc b))

/-! ## The accumulation, point by point -/

/-- After the body at position `n`: the block output, the two row outputs, the two accumulator rows. -/
def outsAt0 (c : Dev nD) : (n : ℕ) → n < cfg0.N → Vec F S2000x128 .f32 × Vec F S1x128 .f32 × Vec F S1x128 .f32 × Vec F S1x128 .f32 × Vec F S1x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 24 by decide)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 24 by decide)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 24 by decide)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 24 by decide)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 24 by decide)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h1 : n + 1 = 24 then
      (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val = 0) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t) (iblk0 V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t) (iblk0 V c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t) (iblk0 V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t) (iblk0 V c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t) (iblk0 V c 5 t)) := by
  obtain ⟨n, hn⟩ := t
  cases n with
  | zero => rfl
  | succ n => exact absurd h0 (Nat.succ_ne_zero n)

theorem outsAt0_B (c : Dev nD) (t : Fin cfg0.N) (h0 : ¬t.val = 0) (h1 : ¬t.val = 24) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 24) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The region's invariant before position `n`: before the first point whatever the launch hands over; afterwards the
    two accumulator rows at what the point before left, every other scoped buffer and the generator register untouched. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 25 := lt_of_lt_of_eq t.isLt (show cfg0.N = 25 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val = 0
  · have hc1 : ¬cond0_1 (grid0.coords t) := fun h => absurd ((hcond0_1 t).mp h) (by omega)
    rw [Dat.leavesExact_idle (dat0 V c) 7 t (idleAt0_7 t hc1) (noFlush0_7 t hc1),
      Dat.leavesExact_idle (dat0 V c) 8 t (idleAt0_8 t hc1) (noFlush0_8 t hc1)]
    rw [outsAt0_A V c t h0]
    unfold out0_A_6 sout0_A_0 sout0_A_1; (try dsimp only)
    rw [PhiS0_castSucc V c t, PhiS0_zero V c _ _ h0, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ ((hcond0_0 t).mpr h0) (fun h => absurd ((hcond0_1 t).mp h) (by omega)) (iblk0 V c 0 t) (iblk0 V c 1 t) (iblk0 V c 2 t) (iblk0 V c 3 t) (iblk0 V c 4 t) (iblk0 V c 5 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ )
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _ )
    isplitl [H7]; · iexists _; iexact H7
    iexists _; iexact H8
  · by_cases h1 : t.val = 24
    · rw [show (dat0 V c).leavesExact 7 t = owns (c : Thread nD τ) (ms0_7 t) fullShare ((dat0 V c).after 7 t) from by
        unfold Dat.leavesExact; rw [liveAt0_7_C t ((hcond0_1 t).mpr h1)], after0_7]
      rw [show (dat0 V c).leavesExact 8 t = owns (c : Thread nD τ) (ms0_8 t) fullShare ((dat0 V c).after 8 t) from by
        unfold Dat.leavesExact; rw [liveAt0_8_C t ((hcond0_1 t).mpr h1)], after0_8]
      rw [outsAt0_C V c t h0 h1]
      unfold out0_C_6 out0_C_7 out0_C_8 sout0_C_0 sout0_C_1; (try dsimp only)
      rw [PhiS0_castSucc V c t, PhiS0_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _ )
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _ )
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _ )
    · have hc1 : ¬cond0_1 (grid0.coords t) := fun h => h1 ((hcond0_1 t).mp h)
      rw [Dat.leavesExact_idle (dat0 V c) 7 t (idleAt0_7 t hc1) (noFlush0_7 t hc1),
        Dat.leavesExact_idle (dat0 V c) 8 t (idleAt0_8 t hc1) (noFlush0_8 t hc1)]
      rw [outsAt0_B V c t h0 h1]
      unfold out0_B_6 sout0_B_0 sout0_B_1; (try dsimp only)
      rw [PhiS0_castSucc V c t, PhiS0_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ )
      isplitl [H7]; · iexists _; iexact H7
      iexists _; iexact H8

theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and after the last point the invariant gives it back, the accumulators' contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 25 := N_0; omega), PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end

end Cert.Kernel.Hand

end
-- ==== Proof.KMlp2Base.lean ====
/-
  Region 2 of @main (the two-layer perceptron over a block of 2000 rows, with the per-column sums of its result and of
  its squares accumulated in two rows of scratch across the 25 grid points): what the case runs and the proof data share.
  The first grid point resets both accumulators, the last copies them to the two row outputs; at every other point those
  two outputs are idle (the pipeline neither writes them back nor reads them).  Stated at any float instance and at the
  buffer contents `V` the region is entered from.
-/
import proofs.«124822_j54752243090034_1_alg».proof.Proof.Gen.Kernel.Launch
import proofs.«124822_j54752243090034_1_alg».proof.Proof.Gen.Kernel.Skeleton
import proofs.«124822_j54752243090034_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block of rows at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (an unfetched window's
    block index has not moved), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (an unfetched window's
    block index has not moved), for any proof data over `V` whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (an unfetched window's
    block index has not moved), for any proof data over `V` whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not (an unfetched window's
    block index has not moved), for any proof data over `V` whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not (an unfetched window's
    block index has not moved), for any proof data over `V` whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, fetched there or not (an unfetched window's
    block index has not moved), for any proof data over `V` whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end

/-! ## The two branch conditions, decided over the grid -/

/-- "This is the first grid point" as the body computes it from the coordinate. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- "This is the last grid point". -/
abbrev cond2_1 (i : grid2.Coords) : Prop := k2_cond2 i = 1#1
theorem hcond2_1 : ∀ t : Fin cfg2.N, cond2_1 (grid2.coords t) ↔ t.val = 24 :=
  (by decide +kernel : ∀ t : Fin grid2.N, cond2_1 (grid2.coords t) ↔ t.val = 24)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Off the last point the row output 7 is idle and is not written back; at the last point it is live. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7_C : ∀ t : Fin cfg2.N, cond2_1 (grid2.coords t) → cfg2.idle 7 (grid2.coords t) = false := by decide +kernel
/-- Off the last point the row output 8 is idle and is not written back; at the last point it is live. -/
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
theorem liveAt2_8_C : ∀ t : Fin cfg2.N, cond2_1 (grid2.coords t) → cfg2.idle 8 (grid2.coords t) = false := by decide +kernel

/-! ## The staging and scratch memrefs the body is called with -/

abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
/-- The two accumulator rows: whole scoped buffers of the kernel's own. -/
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := (scM2_0).view
abbrev VS2_1 : View sig .tc .vmem S1x128 .f32 := (scM2_1).view
/-- One staging buffer per output window, through which its contents are stated. -/
abbrev VO2_6 : View sig .tc .vmem S2000x128 .f32 := (Memref.whole cc2_stg6_0 : Memref sig .tc .vmem S2000x128 .f32).view
abbrev VO2_7 : View sig .tc .vmem S1x128 .f32 := (Memref.whole cc2_stg7_0 : Memref sig .tc .vmem S1x128 .f32).view
abbrev VO2_8 : View sig .tc .vmem S1x128 .f32 := (Memref.whole cc2_stg8_0 : Memref sig .tc .vmem S1x128 .f32).view

/-- What the launch hands the region beside the windows — every scoped buffer no window stages and the generator
    register — with the two accumulator rows split out, each whole at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.Kernel.Hand

end
-- ==== Proof.KMlp2RunA.lean ====
/-
  Region 2, the body run at the first grid point (both accumulators reset first): on whole staging memrefs, the six inputs at given contents, the body
  runs to its return leaving the inputs as they were, the block output with its store written, and each accumulator row
  with its stores written; what was stored is found by the run.
-/
import proofs.«124822_j54752243090034_1_alg».proof.Proof.KMlp2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hf7; obtain rfl := harg9.eq_unread hf8

    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.KMlp2RunB.lean ====
/-
  Region 2, the body run at a grid point that is neither first nor last: on whole staging memrefs, the six inputs at given contents, the body
  runs to its return leaving the inputs as they were, the block output with its store written, and each accumulator row
  with its stores written; what was stored is found by the run.
-/
import proofs.«124822_j54752243090034_1_alg».proof.Proof.KMlp2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.KMlp2RunC.lean ====
/-
  Region 2, the body run at the last grid point (the accumulators copied to the two row outputs): on whole staging memrefs, the six inputs at given contents, the body
  runs to its return leaving the inputs as they were, the block output with its store written, and each accumulator row
  with its stores written; what was stored is found by the run.
-/
import proofs.«124822_j54752243090034_1_alg».proof.Proof.KMlp2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5

    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.KMlp2.lean ====
/-
  Region 2: what the block output, the two row outputs and the two accumulator rows hold after each grid point (a
  recursion over the points: the first resets the accumulators, every later one adds to what the point before left, the
  last also copies them out), the proof data built from that, and the body obligation at every point.
-/
import proofs.«124822_j54752243090034_1_alg».proof.Proof.KMlp2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave, read back -/

theorem cover2_A_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (y : S2000x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1 S2000x128.size (by sl_kernel_rfl) y
def out2_A_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1)
def out2_A_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1)
def out2_A_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1)
theorem scover2_A_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x128.size (by sl_kernel_rfl) y
def sout2_A_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)
theorem scover2_A_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x128.size (by sl_kernel_rfl) y
def sout2_A_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

theorem cover2_B_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S2000x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
def out2_B_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S2000x128 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
def out2_B_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
def out2_B_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
theorem scover2_B_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
def sout2_B_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)
theorem scover2_B_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
def sout2_B_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

theorem cover2_C_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S2000x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
def out2_C_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S2000x128 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
theorem cover2_C_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
def out2_C_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
theorem cover2_C_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
def out2_C_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO2_8.read (Elt F) (VO2_8.writes (Elt F) VO2_8.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
theorem scover2_C_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
def sout2_C_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)
theorem scover2_C_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
def sout2_C_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

section
variable (V : (c : Dev nD) → (b : Ref sig .tc) → Buf (Elt F) ((c : Thread nD τ).loc b))

/-! ## The accumulation, point by point -/

/-- After the body at position `n`: the block output, the two row outputs, the two accumulator rows. -/
def outsAt2 (c : Dev nD) : (n : ℕ) → n < cfg2.N → Vec F S2000x128 .f32 × Vec F S1x128 .f32 × Vec F S1x128 .f32 × Vec F S1x128 .f32 × Vec F S1x128 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => absurd ((hcond2_1 ⟨0, hn⟩).mp h) (show ¬ (0 : ℕ) = 24 by decide)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => absurd ((hcond2_1 ⟨0, hn⟩).mp h) (show ¬ (0 : ℕ) = 24 by decide)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => absurd ((hcond2_1 ⟨0, hn⟩).mp h) (show ¬ (0 : ℕ) = 24 by decide)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => absurd ((hcond2_1 ⟨0, hn⟩).mp h) (show ¬ (0 : ℕ) = 24 by decide)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => absurd ((hcond2_1 ⟨0, hn⟩).mp h) (show ¬ (0 : ℕ) = 24 by decide)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h1 : n + 1 = 24 then
      (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)
    else
      (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)

theorem outsAt2_A (c : Dev nD) (t : Fin cfg2.N) (h0 : t.val = 0) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => absurd ((hcond2_1 t).mp h) (by omega)) (iblk2 V c 0 t) (iblk2 V c 1 t) (iblk2 V c 2 t) (iblk2 V c 3 t) (iblk2 V c 4 t) (iblk2 V c 5 t), out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => absurd ((hcond2_1 t).mp h) (by omega)) (iblk2 V c 0 t) (iblk2 V c 1 t) (iblk2 V c 2 t) (iblk2 V c 3 t) (iblk2 V c 4 t) (iblk2 V c 5 t), out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => absurd ((hcond2_1 t).mp h) (by omega)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => absurd ((hcond2_1 t).mp h) (by omega)) (iblk2 V c 0 t) (iblk2 V c 1 t) (iblk2 V c 2 t) (iblk2 V c 3 t) (iblk2 V c 4 t) (iblk2 V c 5 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => absurd ((hcond2_1 t).mp h) (by omega)) (iblk2 V c 0 t) (iblk2 V c 1 t) (iblk2 V c 2 t) (iblk2 V c 3 t) (iblk2 V c 4 t) (iblk2 V c 5 t)) := by
  obtain ⟨n, hn⟩ := t
  cases n with
  | zero => rfl
  | succ n => exact absurd h0 (Nat.succ_ne_zero n)

theorem outsAt2_B (c : Dev nD) (t : Fin cfg2.N) (h0 : ¬t.val = 0) (h1 : ¬t.val = 24) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 24) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The region's invariant before position `n`: before the first point whatever the launch hands over; afterwards the
    two accumulator rows at what the point before left, every other scoped buffer and the generator register untouched. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt (show cfg2.N = 25 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  by_cases h0 : t.val = 0
  · have hc1 : ¬cond2_1 (grid2.coords t) := fun h => absurd ((hcond2_1 t).mp h) (by omega)
    rw [Dat.leavesExact_idle (dat2 V c) 7 t (idleAt2_7 t hc1) (noFlush2_7 t hc1),
      Dat.leavesExact_idle (dat2 V c) 8 t (idleAt2_8 t hc1) (noFlush2_8 t hc1)]
    rw [outsAt2_A V c t h0]
    unfold out2_A_6 sout2_A_0 sout2_A_1; (try dsimp only)
    rw [PhiS2_castSucc V c t, PhiS2_zero V c _ _ h0, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ _ _ _ _ ((hcond2_0 t).mpr h0) (fun h => absurd ((hcond2_1 t).mp h) (by omega)) (iblk2 V c 0 t) (iblk2 V c 1 t) (iblk2 V c 2 t) (iblk2 V c 3 t) (iblk2 V c 4 t) (iblk2 V c 5 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _ _ _ )
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _ _ _ _ _ _ _ _ )
    isplitl [H7]; · iexists _; iexact H7
    iexists _; iexact H8
  · by_cases h1 : t.val = 24
    · rw [show (dat2 V c).leavesExact 7 t = owns (c : Thread nD τ) (ms2_7 t) fullShare ((dat2 V c).after 7 t) from by
        unfold Dat.leavesExact; rw [liveAt2_7_C t ((hcond2_1 t).mpr h1)], after2_7]
      rw [show (dat2 V c).leavesExact 8 t = owns (c : Thread nD τ) (ms2_8 t) fullShare ((dat2 V c).after 8 t) from by
        unfold Dat.leavesExact; rw [liveAt2_8_C t ((hcond2_1 t).mpr h1)], after2_8]
      rw [outsAt2_C V c t h0 h1]
      unfold out2_C_6 out2_C_7 out2_C_8 sout2_C_0 sout2_C_1; (try dsimp only)
      rw [PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _ _ _ _ )
      isplitl [H7]
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _ _ _ _ )
      unfold owns; iexists _; isplitr
      swap; · iexact H8
      ipureintro; exact View.read_writes_of_cover _ _ _ _ _ (cover2_C_8 c _ _ _ _ _ _ _ _ _ _ _ _ _ _ _ _ _ _ _ _ _ _ _ _ _ _ _ _ _ _ _ _ _ )
    · have hc1 : ¬cond2_1 (grid2.coords t) := fun h => h1 ((hcond2_1 t).mp h)
      rw [Dat.leavesExact_idle (dat2 V c) 7 t (idleAt2_7 t hc1) (noFlush2_7 t hc1),
        Dat.leavesExact_idle (dat2 V c) 8 t (idleAt2_8 t hc1) (noFlush2_8 t hc1)]
      rw [outsAt2_B V c t h0 h1]
      unfold out2_B_6 sout2_B_0 sout2_B_1; (try dsimp only)
      rw [PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_B_6 c _ _ _ _ _ _ _ _ _ _ _ _ _ _ _ _ _ _ _ _ _ _ _ _ _ _ _ _ _ _ _ _ _ )
      isplitl [H7]; · iexists _; iexact H7
      iexists _; iexact H8

theorem body_obligation2 (c : Dev nD) : BodyObligation (dat2 (F := F) V c) (defs₀ (F := F)) Variants.none () Set.univ := fun t => by
  rw [bigSep_W2, bigSep_W2]
  exact sound_body2 V c t

/-- What the launch hands the region is the invariant before the first point, -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- and after the last point the invariant gives it back, the accumulators' contents forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 25 := N_2; omega), PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end

end Cert.Kernel.Hand

end
-- ==== Proof.KMlp4Base.lean ====
/-
  Region 4 of @main (the two-layer perceptron over a block of 2000 rows, with the per-column sums of its result and of
  its squares accumulated in two rows of scratch across the 25 grid points): what the case runs and the proof data share.
  The first grid point resets both accumulators, the last copies them to the two row outputs; at every other point those
  two outputs are idle (the pipeline neither writes them back nor reads them).  Stated at any float instance and at the
  buffer contents `V` the region is entered from.
-/
import proofs.«124822_j54752243090034_1_alg».proof.Proof.Gen.Kernel.Launch
import proofs.«124822_j54752243090034_1_alg».proof.Proof.Gen.Kernel.Skeleton
import proofs.«124822_j54752243090034_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block of rows at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not (an unfetched window's
    block index has not moved), for any proof data over `V` whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not (an unfetched window's
    block index has not moved), for any proof data over `V` whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not (an unfetched window's
    block index has not moved), for any proof data over `V` whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not (an unfetched window's
    block index has not moved), for any proof data over `V` whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or not (an unfetched window's
    block index has not moved), for any proof data over `V` whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's staging buffer holds its block at every point, fetched there or not (an unfetched window's
    block index has not moved), for any proof data over `V` whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

end

/-! ## The two branch conditions, decided over the grid -/

/-- "This is the first grid point" as the body computes it from the coordinate. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- "This is the last grid point". -/
abbrev cond4_1 (i : grid4.Coords) : Prop := k4_cond2 i = 1#1
theorem hcond4_1 : ∀ t : Fin cfg4.N, cond4_1 (grid4.coords t) ↔ t.val = 24 :=
  (by decide +kernel : ∀ t : Fin grid4.N, cond4_1 (grid4.coords t) ↔ t.val = 24)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
theorem liveAt4_6 : ∀ t : Fin cfg4.N, cfg4.idle 6 (grid4.coords t) = false := by decide +kernel
/-- Off the last point the row output 7 is idle and is not written back; at the last point it is live. -/
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem liveAt4_7_C : ∀ t : Fin cfg4.N, cond4_1 (grid4.coords t) → cfg4.idle 7 (grid4.coords t) = false := by decide +kernel
/-- Off the last point the row output 8 is idle and is not written back; at the last point it is live. -/
theorem idleAt4_8 : ∀ t : Fin cfg4.N, ¬cond4_1 (grid4.coords t) → cfg4.idle 8 (grid4.coords t) = true := by decide +kernel
theorem noFlush4_8 : ∀ t : Fin cfg4.N, ¬cond4_1 (grid4.coords t) → (cfg4.win 8).flush t = false := by decide +kernel
theorem liveAt4_8_C : ∀ t : Fin cfg4.N, cond4_1 (grid4.coords t) → cfg4.idle 8 (grid4.coords t) = false := by decide +kernel

/-! ## The staging and scratch memrefs the body is called with -/

abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2000x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)
/-- The two accumulator rows: whole scoped buffers of the kernel's own. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := (scM4_0).view
abbrev VS4_1 : View sig .tc .vmem S1x128 .f32 := (scM4_1).view
/-- One staging buffer per output window, through which its contents are stated. -/
abbrev VO4_6 : View sig .tc .vmem S2000x128 .f32 := (Memref.whole cc4_stg6_0 : Memref sig .tc .vmem S2000x128 .f32).view
abbrev VO4_7 : View sig .tc .vmem S1x128 .f32 := (Memref.whole cc4_stg7_0 : Memref sig .tc .vmem S1x128 .f32).view
abbrev VO4_8 : View sig .tc .vmem S1x128 .f32 := (Memref.whole cc4_stg8_0 : Memref sig .tc .vmem S1x128 .f32).view

/-- What the launch hands the region beside the windows — every scoped buffer no window stages and the generator
    register — with the two accumulator rows split out, each whole at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.Kernel.Hand

end
-- ==== Proof.KMlp4RunA.lean ====
/-
  Region 4, the body run at the first grid point (both accumulators reset first): on whole staging memrefs, the six inputs at given contents, the body
  runs to its return leaving the inputs as they were, the block output with its store written, and each accumulator row
  with its stores written; what was stored is found by the run.
-/
import proofs.«124822_j54752243090034_1_alg».proof.Proof.KMlp4Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_A (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__mlp_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc4__mlp_kernel_eq_skeleton]; unfold cc4__mlp_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hf7; obtain rfl := harg9.eq_unread hf8

    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.KMlp4RunB.lean ====
/-
  Region 4, the body run at a grid point that is neither first nor last: on whole staging memrefs, the six inputs at given contents, the body
  runs to its return leaving the inputs as they were, the block output with its store written, and each accumulator row
  with its stores written; what was stored is found by the run.
-/
import proofs.«124822_j54752243090034_1_alg».proof.Proof.KMlp4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_B (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__mlp_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc4__mlp_kernel_eq_skeleton]; unfold cc4__mlp_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.KMlp4RunC.lean ====
/-
  Region 4, the body run at the last grid point (the accumulators copied to the two row outputs): on whole staging memrefs, the six inputs at given contents, the body
  runs to its return leaving the inputs as they were, the block output with its store written, and each accumulator row
  with its stores written; what was stored is found by the run.
-/
import proofs.«124822_j54752243090034_1_alg».proof.Proof.KMlp4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_C (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__mlp_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc4__mlp_kernel_eq_skeleton]; unfold cc4__mlp_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5

    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.KMlp4.lean ====
/-
  Region 4: what the block output, the two row outputs and the two accumulator rows hold after each grid point (a
  recursion over the points: the first resets the accumulators, every later one adds to what the point before left, the
  last also copies them out), the proof data built from that, and the body obligation at every point.
-/
import proofs.«124822_j54752243090034_1_alg».proof.Proof.KMlp4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave, read back -/

theorem cover4_A_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (y : S2000x128.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1 S2000x128.size (by sl_kernel_rfl) y
def out4_A_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1)
def out4_A_7 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VO4_7.read (Elt F) (VO4_7.writes (Elt F) VO4_7.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.1)
def out4_A_8 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VO4_8.read (Elt F) (VO4_8.writes (Elt F) VO4_8.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.1)
theorem scover4_A_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x128.size (by sl_kernel_rfl) y
def sout4_A_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)
theorem scover4_A_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x128.size (by sl_kernel_rfl) y
def sout4_A_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

theorem cover4_B_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S2000x128.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
def out4_B_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S2000x128 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
def out4_B_7 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO4_7.read (Elt F) (VO4_7.writes (Elt F) VO4_7.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
def out4_B_8 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO4_8.read (Elt F) (VO4_8.writes (Elt F) VO4_8.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
theorem scover4_B_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
def sout4_B_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)
theorem scover4_B_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
def sout4_B_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

theorem cover4_C_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S2000x128.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
def out4_C_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S2000x128 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
theorem cover4_C_7 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
def out4_C_7 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO4_7.read (Elt F) (VO4_7.writes (Elt F) VO4_7.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
theorem cover4_C_8 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
def out4_C_8 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO4_8.read (Elt F) (VO4_8.writes (Elt F) VO4_8.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
theorem scover4_C_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
def sout4_C_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)
theorem scover4_C_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
def sout4_C_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

section
variable (V : (c : Dev nD) → (b : Ref sig .tc) → Buf (Elt F) ((c : Thread nD τ).loc b))

/-! ## The accumulation, point by point -/

/-- After the body at position `n`: the block output, the two row outputs, the two accumulator rows. -/
def outsAt4 (c : Dev nD) : (n : ℕ) → n < cfg4.N → Vec F S2000x128 .f32 × Vec F S1x128 .f32 × Vec F S1x128 .f32 × Vec F S1x128 .f32 × Vec F S1x128 .f32
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => absurd ((hcond4_1 ⟨0, hn⟩).mp h) (show ¬ (0 : ℕ) = 24 by decide)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => absurd ((hcond4_1 ⟨0, hn⟩).mp h) (show ¬ (0 : ℕ) = 24 by decide)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), out4_A_8 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => absurd ((hcond4_1 ⟨0, hn⟩).mp h) (show ¬ (0 : ℕ) = 24 by decide)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => absurd ((hcond4_1 ⟨0, hn⟩).mp h) (show ¬ (0 : ℕ) = 24 by decide)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => absurd ((hcond4_1 ⟨0, hn⟩).mp h) (show ¬ (0 : ℕ) = 24 by decide)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h1 : n + 1 = 24 then
      (out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, out4_C_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, out4_C_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2)
    else
      (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, out4_B_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2)

theorem outsAt4_A (c : Dev nD) (t : Fin cfg4.N) (h0 : t.val = 0) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => absurd ((hcond4_1 t).mp h) (by omega)) (iblk4 V c 0 t) (iblk4 V c 1 t) (iblk4 V c 2 t) (iblk4 V c 3 t) (iblk4 V c 4 t) (iblk4 V c 5 t), out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => absurd ((hcond4_1 t).mp h) (by omega)) (iblk4 V c 0 t) (iblk4 V c 1 t) (iblk4 V c 2 t) (iblk4 V c 3 t) (iblk4 V c 4 t) (iblk4 V c 5 t), out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => absurd ((hcond4_1 t).mp h) (by omega)) (iblk4 V c 0 t) (iblk4 V c 1 t) (iblk4 V c 2 t) (iblk4 V c 3 t) (iblk4 V c 4 t) (iblk4 V c 5 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => absurd ((hcond4_1 t).mp h) (by omega)) (iblk4 V c 0 t) (iblk4 V c 1 t) (iblk4 V c 2 t) (iblk4 V c 3 t) (iblk4 V c 4 t) (iblk4 V c 5 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => absurd ((hcond4_1 t).mp h) (by omega)) (iblk4 V c 0 t) (iblk4 V c 1 t) (iblk4 V c 2 t) (iblk4 V c 3 t) (iblk4 V c 4 t) (iblk4 V c 5 t)) := by
  obtain ⟨n, hn⟩ := t
  cases n with
  | zero => rfl
  | succ n => exact absurd h0 (Nat.succ_ne_zero n)

theorem outsAt4_B (c : Dev nD) (t : Fin cfg4.N) (h0 : ¬t.val = 0) (h1 : ¬t.val = 24) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt4_C (c : Dev nD) (t : Fin cfg4.N) (h0 : ¬t.val = 0) (h1 : t.val = 24) :
    outsAt4 V c t.val t.isLt = (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The region's invariant before position `n`: before the first point whatever the launch hands over; afterwards the
    two accumulator rows at what the point before left, every other scoped buffer and the generator register untouched. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1]) ∗ (∃ r, prngReg c r)) := rfl
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2.1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 25 := lt_of_lt_of_eq t.isLt (show cfg4.N = 25 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  rw [show (dat4 V c).leavesExact 6 t = owns (c : Thread nD τ) (ms4_6 t) fullShare ((dat4 V c).after 6 t) from by
    unfold Dat.leavesExact; rw [liveAt4_6 t], after4_6]
  by_cases h0 : t.val = 0
  · have hc1 : ¬cond4_1 (grid4.coords t) := fun h => absurd ((hcond4_1 t).mp h) (by omega)
    rw [Dat.leavesExact_idle (dat4 V c) 7 t (idleAt4_7 t hc1) (noFlush4_7 t hc1),
      Dat.leavesExact_idle (dat4 V c) 8 t (idleAt4_8 t hc1) (noFlush4_8 t hc1)]
    rw [outsAt4_A V c t h0]
    unfold out4_A_6 sout4_A_0 sout4_A_1; (try dsimp only)
    rw [PhiS4_castSucc V c t, PhiS4_zero V c _ _ h0, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_A c (grid4.coords t) _ _ _ _ _ _ _ _ _ _ _ _ _ _ _ _ _ _ _ _ _ _ ((hcond4_0 t).mpr h0) (fun h => absurd ((hcond4_1 t).mp h) (by omega)) (iblk4 V c 0 t) (iblk4 V c 1 t) (iblk4 V c 2 t) (iblk4 V c 3 t) (iblk4 V c 4 t) (iblk4 V c 5 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover4_A_1 c _ _ _ _ _ _ _ _ _ _ _ _ _ _ _ _ _ _ _ _ _ _ _ _ _ _ _ _ _ _ _ )
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _ _ _ _ _ _ _ _ _ )
    isplitl [H7]; · iexists _; iexact H7
    iexists _; iexact H8
  · by_cases h1 : t.val = 24
    · rw [show (dat4 V c).leavesExact 7 t = owns (c : Thread nD τ) (ms4_7 t) fullShare ((dat4 V c).after 7 t) from by
        unfold Dat.leavesExact; rw [liveAt4_7_C t ((hcond4_1 t).mpr h1)], after4_7]
      rw [show (dat4 V c).leavesExact 8 t = owns (c : Thread nD τ) (ms4_8 t) fullShare ((dat4 V c).after 8 t) from by
        unfold Dat.leavesExact; rw [liveAt4_8_C t ((hcond4_1 t).mpr h1)], after4_8]
      rw [outsAt4_C V c t h0 h1]
      unfold out4_C_6 out4_C_7 out4_C_8 sout4_C_0 sout4_C_1; (try dsimp only)
      rw [PhiS4_castSucc V c t, PhiS4_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_C c (grid4.coords t) _ _ _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover4_C_1 c _ _ _ _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_C_6 c _ _ _ _ _ _ _ _ _ _ _ _ _ _ _ _ _ _ _ _ _ _ _ _ _ _ _ _ _ _ _ _ _ )
      isplitl [H7]
      · unfold owns; iexists _; isplitr
        swap; · iexact H7
        ipureintro; exact View.read_writes_of_cover _ _ _ _ _ (cover4_C_7 c _ _ _ _ _ _ _ _ _ _ _ _ _ _ _ _ _ _ _ _ _ _ _ _ _ _ _ _ _ _ _ _ _ )
      unfold owns; iexists _; isplitr
      swap; · iexact H8
      ipureintro; exact View.read_writes_of_cover _ _ _ _ _ (cover4_C_8 c _ _ _ _ _ _ _ _ _ _ _ _ _ _ _ _ _ _ _ _ _ _ _ _ _ _ _ _ _ _ _ _ _ )
    · have hc1 : ¬cond4_1 (grid4.coords t) := fun h => h1 ((hcond4_1 t).mp h)
      rw [Dat.leavesExact_idle (dat4 V c) 7 t (idleAt4_7 t hc1) (noFlush4_7 t hc1),
        Dat.leavesExact_idle (dat4 V c) 8 t (idleAt4_8 t hc1) (noFlush4_8 t hc1)]
      rw [outsAt4_B V c t h0 h1]
      unfold out4_B_6 sout4_B_0 sout4_B_1; (try dsimp only)
      rw [PhiS4_castSucc V c t, PhiS4_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_B c (grid4.coords t) _ _ _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover4_B_1 c _ _ _ _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_B_6 c _ _ _ _ _ _ _ _ _ _ _ _ _ _ _ _ _ _ _ _ _ _ _ _ _ _ _ _ _ _ _ _ _ )
      isplitl [H7]; · iexists _; iexact H7
      iexists _; iexact H8

theorem body_obligation4 (c : Dev nD) : BodyObligation (dat4 (F := F) V c) (defs₀ (F := F)) Variants.none () Set.univ := fun t => by
  rw [bigSep_W4, bigSep_W4]
  exact sound_body4 V c t

/-- What the launch hands the region is the invariant before the first point, -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- and after the last point the invariant gives it back, the accumulators' contents forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 25 := N_4; omega), PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end

end Cert.Kernel.Hand

end
-- ==== Proof.KBn1.lean ====
import proofs.«124822_j54752243090034_1_alg».proof.Proof.Gen.Kernel.Launch
import proofs.«124822_j54752243090034_1_alg».proof.Proof.Gen.Kernel.Skeleton
import proofs.«124822_j54752243090034_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueLayout
import Idealize.ShloMosaic.PureOps.Ideal.Laws

/-!
# The normalisation region of pallas call 1, at arbitrary region-entry contents

The kernel of pallas call 1 walks 25 row blocks. At each block it reads six staging buffers whole — the block of
`h` (2000 × 128), the block of `x` (2000 × 128) and the four rows mean, var, gamma, beta (1 × 128 each, the same
row at every block) — and overwrites the whole 2000 × 128 output buffer with one value computed from those six. It
keeps nothing from one block to the next and branches on nothing.

So what the body leaves in the output buffer is a closed function `out1_6` of the six blocks, and what it finds in
an input buffer is that window's block of the array as the region found it, whether or not the pipeline copied the
block in at that very point (the four rows are copied in once, at the first point). This file states exactly that,
for any float interpretation `F` and for ANY contents `V` of the core's buffers at region entry:

* `iblk1` — a window's block at a grid point, read off `V`;
* `out1_6` — the output buffer after the body, from the six input blocks;
* `sound_kernel1` — the body's triple on whole staging buffers;
* `dat1` — the pipeline's proof data (arrays `V`, full shares, nothing owed, the scoped rest untouched);
* `body_obligation1` — the pipeline library's body obligation for that proof data.

A last section reads `out1_6` at one index over the extended reals (`out1_6_apply`).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Bn1
-- what each core holds in each of its unscoped buffers at the moment the region starts
variable (V : (c : Dev nD) → (b : Ref sig .tc) → Buf (Elt F) ((c : Thread nD τ).loc b))

/-! ## The windows' blocks -/

/-- Window `w`'s block at grid point `t`: the part of the window's array, as the region finds it, that the
    window's index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whatever proof data has the region-entry array (`hA`) and leaves the block where it was
    (`hafter`), the staging buffer handed to the body at point `t` reads as the window's block there. A point that
    does not fetch the window has the block index of the point before it, so the buffer still holds the right block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: whatever proof data has the region-entry array (`hA`) and leaves the block where it was
    (`hafter`), the staging buffer handed to the body at point `t` reads as the window's block there. A point that
    does not fetch the window has the block index of the point before it, so the buffer still holds the right block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: whatever proof data has the region-entry array (`hA`) and leaves the block where it was
    (`hafter`), the staging buffer handed to the body at point `t` reads as the window's block there. A point that
    does not fetch the window has the block index of the point before it, so the buffer still holds the right block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: whatever proof data has the region-entry array (`hA`) and leaves the block where it was
    (`hafter`), the staging buffer handed to the body at point `t` reads as the window's block there. A point that
    does not fetch the window has the block index of the point before it, so the buffer still holds the right block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: whatever proof data has the region-entry array (`hA`) and leaves the block where it was
    (`hafter`), the staging buffer handed to the body at point `t` reads as the window's block there. A point that
    does not fetch the window has the block index of the point before it, so the buffer still holds the right block. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5: whatever proof data has the region-entry array (`hA`) and leaves the block where it was
    (`hafter`), the staging buffer handed to the body at point `t` reads as the window's block there. A point that
    does not fetch the window has the block index of the point before it, so the buffer still holds the right block. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's two access rectangles: a whole 2000 × 128 buffer, a whole 1 × 128 row -/

abbrev r1_blk : Rect S2000x128 := Rect.unit (s := S2000x128) ![0, 0] S2000x128.size inb_S2000x128_S2000x128_0_0
abbrev r1_row : Rect S1x128 := Rect.unit (s := S1x128) ![0, 0] S1x128.size inb_S1x128_S1x128_0_0

/-! ## What the body leaves in the output buffer -/

/-- The output buffer after the body, from the six input blocks `x0` (h), `x1` (x), `x2 … x5` (mean, var, gamma,
    beta): its single whole-buffer store, whose payload is the kernel's value of the six loads. -/
def out1_6 (x0 : Vec F S2000x128 .f32) (x1 : Vec F S2000x128 .f32) (x2 : Vec F S1x128 .f32) (x3 : Vec F S1x128 .f32) (x4 : Vec F S1x128 .f32) (x5 : Vec F S1x128 .f32) : Vec F S2000x128 .f32 :=
  View.canon [⟨r1_blk, k1_pay1 (View.ld x0 r1_blk) (View.ld x2 r1_row) (View.ld x3 r1_row) (View.ld x4 r1_row) (View.ld x5 r1_row) (View.ld x1 r1_blk)⟩]

/-- One store through the whole-buffer rectangle covers every index of the buffer. -/
theorem cover1_6 (p0 : Vec F S2000x128 .f32) (y : S2000x128.Idx) :
    ∃ pc ∈ ([⟨r1_blk, p0⟩] : List (View.Piece (Elt F) S2000x128 .f32)), y ∈ pc.1.set :=
  View.cover_of_tiledL [⟨r1_blk, p0⟩] S2000x128.size (by sl_kernel_rfl) y

/-! ## The body's triple -/

set_option maxHeartbeats 1000000 in
/-- The body on seven whole staging buffers — the six inputs' reading `x0 … x5`, the output's holding anything —
    runs to a continuation that gets the inputs back unchanged and the output buffer reading `out1_6` of them. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__bn_kernel i arg1 harg1 arg2 harg2 arg3 harg3 arg4 harg4 arg5 harg5 arg6 harg6 arg7 harg7) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: every window's array is what the region finds (`V`); after the body at
    point `t` an input's buffer still reads its block and the output's reads `out1_6` of the six input blocks; the
    invariant is "the scoped rest and the generator register are untouched"; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer reads its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`: the invariant, the core's debts, and each window's current staging
    buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the input buffers read their blocks (`before1_w`), so the kernel's triple applies; the
    invariant and the debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Bn1

/-! ## The output buffer at an index, over the extended reals -/

section AtIdeal1

open Idealize.ShloMosaic.ValueIdx

/-- The body's rectangles start at offset zero on both axes. -/
theorem zero_off1 : (![0, 0] : Fin 2 → Nat) = fun _ => 0 := funext fun a => by fin_cases a <;> rfl

/-- With exact arithmetic, the body leaves at row `p`, column `q` of the output buffer
    `x + max (gamma * (h − mean) * rsqrt (var + ε) + beta) 0`, the four rows read at column `q`, `h` and `x` at
    `(p, q)`, and `ε` the single-precision constant nearest 1e-5. -/
theorem out1_6_apply (x0 x1 : Vec Ideal S2000x128 .f32) (x2 x3 x4 x5 : Vec Ideal S1x128 .f32) (p : Fin 2000) (q : Fin 128) :
    out1_6 x0 x1 x2 x3 x4 x5 (ix2 p q)
      = x1 (ix2 p q) + max (x4 (ix2 (0 : Fin 1) q) * (x0 (ix2 p q) - x2 (ix2 (0 : Fin 1) q))
          * Ideal.rsqrt (x3 (ix2 (0 : Fin 1) q) + Ideal.ofBits .f32 0x3727C5AC#32) + x5 (ix2 (0 : Fin 1) q)) 0 := by
  unfold out1_6
  rw [View.canon_unit_zero zero_off1]
  simp only [View.ld_unit_zero (S := S2000x128) zero_off1, View.ld_unit_zero (S := S1x128) zero_off1]
  unfold k1_pay1
  simp only [shapeCast_self]
  simp only [addf_apply, maximumf_apply, mulf_apply, subf_apply, broadcast_apply, broadcastTo_1b_ab_apply]
  rw [← Ideal.ofBits_zero_f32]
  rfl

end AtIdeal1

end Cert.Kernel.Hand

end
-- ==== Proof.KBn3.lean ====
import proofs.«124822_j54752243090034_1_alg».proof.Proof.Gen.Kernel.Launch
import proofs.«124822_j54752243090034_1_alg».proof.Proof.Gen.Kernel.Skeleton
import proofs.«124822_j54752243090034_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueLayout
import Idealize.ShloMosaic.PureOps.Ideal.Laws

/-!
# The normalisation region of pallas call 3, at arbitrary region-entry contents

The kernel of pallas call 3 walks 25 row blocks. At each block it reads six staging buffers whole — the block of
`h` (2000 × 128), the block of `x` (2000 × 128) and the four rows mean, var, gamma, beta (1 × 128 each, the same
row at every block) — and overwrites the whole 2000 × 128 output buffer with one value computed from those six. It
keeps nothing from one block to the next and branches on nothing.

So what the body leaves in the output buffer is a closed function `out3_6` of the six blocks, and what it finds in
an input buffer is that window's block of the array as the region found it, whether or not the pipeline copied the
block in at that very point (the four rows are copied in once, at the first point). This file states exactly that,
for any float interpretation `F` and for ANY contents `V` of the core's buffers at region entry:

* `iblk3` — a window's block at a grid point, read off `V`;
* `out3_6` — the output buffer after the body, from the six input blocks;
* `sound_kernel3` — the body's triple on whole staging buffers;
* `dat3` — the pipeline's proof data (arrays `V`, full shares, nothing owed, the scoped rest untouched);
* `body_obligation3` — the pipeline library's body obligation for that proof data.

A last section reads `out3_6` at one index over the extended reals (`out3_6_apply`).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Bn3
-- what each core holds in each of its unscoped buffers at the moment the region starts
variable (V : (c : Dev nD) → (b : Ref sig .tc) → Buf (Elt F) ((c : Thread nD τ).loc b))

/-! ## The windows' blocks -/

/-- Window `w`'s block at grid point `t`: the part of the window's array, as the region finds it, that the
    window's index map selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whatever proof data has the region-entry array (`hA`) and leaves the block where it was
    (`hafter`), the staging buffer handed to the body at point `t` reads as the window's block there. A point that
    does not fetch the window has the block index of the point before it, so the buffer still holds the right block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: whatever proof data has the region-entry array (`hA`) and leaves the block where it was
    (`hafter`), the staging buffer handed to the body at point `t` reads as the window's block there. A point that
    does not fetch the window has the block index of the point before it, so the buffer still holds the right block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: whatever proof data has the region-entry array (`hA`) and leaves the block where it was
    (`hafter`), the staging buffer handed to the body at point `t` reads as the window's block there. A point that
    does not fetch the window has the block index of the point before it, so the buffer still holds the right block. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: whatever proof data has the region-entry array (`hA`) and leaves the block where it was
    (`hafter`), the staging buffer handed to the body at point `t` reads as the window's block there. A point that
    does not fetch the window has the block index of the point before it, so the buffer still holds the right block. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4: whatever proof data has the region-entry array (`hA`) and leaves the block where it was
    (`hafter`), the staging buffer handed to the body at point `t` reads as the window's block there. A point that
    does not fetch the window has the block index of the point before it, so the buffer still holds the right block. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5: whatever proof data has the region-entry array (`hA`) and leaves the block where it was
    (`hafter`), the staging buffer handed to the body at point `t` reads as the window's block there. A point that
    does not fetch the window has the block index of the point before it, so the buffer still holds the right block. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's two access rectangles: a whole 2000 × 128 buffer, a whole 1 × 128 row -/

abbrev r3_blk : Rect S2000x128 := Rect.unit (s := S2000x128) ![0, 0] S2000x128.size inb_S2000x128_S2000x128_0_0
abbrev r3_row : Rect S1x128 := Rect.unit (s := S1x128) ![0, 0] S1x128.size inb_S1x128_S1x128_0_0

/-! ## What the body leaves in the output buffer -/

/-- The output buffer after the body, from the six input blocks `x0` (h), `x1` (x), `x2 … x5` (mean, var, gamma,
    beta): its single whole-buffer store, whose payload is the kernel's value of the six loads. -/
def out3_6 (x0 : Vec F S2000x128 .f32) (x1 : Vec F S2000x128 .f32) (x2 : Vec F S1x128 .f32) (x3 : Vec F S1x128 .f32) (x4 : Vec F S1x128 .f32) (x5 : Vec F S1x128 .f32) : Vec F S2000x128 .f32 :=
  View.canon [⟨r3_blk, k3_pay1 (View.ld x0 r3_blk) (View.ld x2 r3_row) (View.ld x3 r3_row) (View.ld x4 r3_row) (View.ld x5 r3_row) (View.ld x1 r3_blk)⟩]

/-- One store through the whole-buffer rectangle covers every index of the buffer. -/
theorem cover3_6 (p0 : Vec F S2000x128 .f32) (y : S2000x128.Idx) :
    ∃ pc ∈ ([⟨r3_blk, p0⟩] : List (View.Piece (Elt F) S2000x128 .f32)), y ∈ pc.1.set :=
  View.cover_of_tiledL [⟨r3_blk, p0⟩] S2000x128.size (by sl_kernel_rfl) y

/-! ## The body's triple -/

set_option maxHeartbeats 1000000 in
/-- The body on seven whole staging buffers — the six inputs' reading `x0 … x5`, the output's holding anything —
    runs to a continuation that gets the inputs back unchanged and the output buffer reading `out3_6` of them. -/
theorem sound_kernel3 (c : Dev nD) (E : Set ℕ) (i : grid3.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__bn_kernel i arg1 harg1 arg2 harg2 arg3 harg3 arg4 harg4 arg5 harg5 arg6 harg6 arg7 harg7) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of pipeline 3 on core `c`: every window's array is what the region finds (`V`); after the body at
    point `t` an input's buffer still reads its block and the output's reads `out3_6` of the six input blocks; the
    invariant is "the scoped rest and the generator register are untouched"; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

/-- Each input's current staging buffer reads its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`: the invariant, the core's debts, and each window's current staging
    buffer at what the pipeline left there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the input buffers read their blocks (`before3_w`), so the kernel's triple applies; the
    invariant and the debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Bn3

/-! ## The output buffer at an index, over the extended reals -/

section AtIdeal3

open Idealize.ShloMosaic.ValueIdx

/-- The body's rectangles start at offset zero on both axes. -/
theorem zero_off3 : (![0, 0] : Fin 2 → Nat) = fun _ => 0 := funext fun a => by fin_cases a <;> rfl

/-- With exact arithmetic, the body leaves at row `p`, column `q` of the output buffer
    `x + max (gamma * (h − mean) * rsqrt (var + ε) + beta) 0`, the four rows read at column `q`, `h` and `x` at
    `(p, q)`, and `ε` the single-precision constant nearest 1e-5. -/
theorem out3_6_apply (x0 x1 : Vec Ideal S2000x128 .f32) (x2 x3 x4 x5 : Vec Ideal S1x128 .f32) (p : Fin 2000) (q : Fin 128) :
    out3_6 x0 x1 x2 x3 x4 x5 (ix2 p q)
      = x1 (ix2 p q) + max (x4 (ix2 (0 : Fin 1) q) * (x0 (ix2 p q) - x2 (ix2 (0 : Fin 1) q))
          * Ideal.rsqrt (x3 (ix2 (0 : Fin 1) q) + Ideal.ofBits .f32 0x3727C5AC#32) + x5 (ix2 (0 : Fin 1) q)) 0 := by
  unfold out3_6
  rw [View.canon_unit_zero zero_off3]
  simp only [View.ld_unit_zero (S := S2000x128) zero_off3, View.ld_unit_zero (S := S1x128) zero_off3]
  unfold k3_pay1
  simp only [shapeCast_self]
  simp only [addf_apply, maximumf_apply, mulf_apply, subf_apply, broadcast_apply, broadcastTo_1b_ab_apply]
  rw [← Ideal.ofBits_zero_f32]
  rfl

end AtIdeal3

end Cert.Kernel.Hand

end
-- ==== Proof.KBn5.lean ====
import proofs.«124822_j54752243090034_1_alg».proof.Proof.Gen.Kernel.Launch
import proofs.«124822_j54752243090034_1_alg».proof.Proof.Gen.Kernel.Skeleton
import proofs.«124822_j54752243090034_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueLayout
import Idealize.ShloMosaic.PureOps.Ideal.Laws

/-!
# The normalisation region of pallas call 5, at arbitrary region-entry contents

The kernel of pallas call 5 walks 25 row blocks. At each block it reads six staging buffers whole — the block of
`h` (2000 × 128), the block of `x` (2000 × 128) and the four rows mean, var, gamma, beta (1 × 128 each, the same
row at every block) — and overwrites the whole 2000 × 128 output buffer with one value computed from those six. It
keeps nothing from one block to the next and branches on nothing.

So what the body leaves in the output buffer is a closed function `out5_6` of the six blocks, and what it finds in
an input buffer is that window's block of the array as the region found it, whether or not the pipeline copied the
block in at that very point (the four rows are copied in once, at the first point). This file states exactly that,
for any float interpretation `F` and for ANY contents `V` of the core's buffers at region entry:

* `iblk5` — a window's block at a grid point, read off `V`;
* `out5_6` — the output buffer after the body, from the six input blocks;
* `sound_kernel5` — the body's triple on whole staging buffers;
* `dat5` — the pipeline's proof data (arrays `V`, full shares, nothing owed, the scoped rest untouched);
* `body_obligation5` — the pipeline library's body obligation for that proof data.

A last section reads `out5_6` at one index over the extended reals (`out5_6_apply`).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Bn5
-- what each core holds in each of its unscoped buffers at the moment the region starts
variable (V : (c : Dev nD) → (b : Ref sig .tc) → Buf (Elt F) ((c : Thread nD τ).loc b))

/-! ## The windows' blocks -/

/-- Window `w`'s block at grid point `t`: the part of the window's array, as the region finds it, that the
    window's index map selects there. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0: whatever proof data has the region-entry array (`hA`) and leaves the block where it was
    (`hafter`), the staging buffer handed to the body at point `t` reads as the window's block there. A point that
    does not fetch the window has the block index of the point before it, so the buffer still holds the right block. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1: whatever proof data has the region-entry array (`hA`) and leaves the block where it was
    (`hafter`), the staging buffer handed to the body at point `t` reads as the window's block there. A point that
    does not fetch the window has the block index of the point before it, so the buffer still holds the right block. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2: whatever proof data has the region-entry array (`hA`) and leaves the block where it was
    (`hafter`), the staging buffer handed to the body at point `t` reads as the window's block there. A point that
    does not fetch the window has the block index of the point before it, so the buffer still holds the right block. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3: whatever proof data has the region-entry array (`hA`) and leaves the block where it was
    (`hafter`), the staging buffer handed to the body at point `t` reads as the window's block there. A point that
    does not fetch the window has the block index of the point before it, so the buffer still holds the right block. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4: whatever proof data has the region-entry array (`hA`) and leaves the block where it was
    (`hafter`), the staging buffer handed to the body at point `t` reads as the window's block there. A point that
    does not fetch the window has the block index of the point before it, so the buffer still holds the right block. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5: whatever proof data has the region-entry array (`hA`) and leaves the block where it was
    (`hafter`), the staging buffer handed to the body at point `t` reads as the window's block there. A point that
    does not fetch the window has the block index of the point before it, so the buffer still holds the right block. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's two access rectangles: a whole 2000 × 128 buffer, a whole 1 × 128 row -/

abbrev r5_blk : Rect S2000x128 := Rect.unit (s := S2000x128) ![0, 0] S2000x128.size inb_S2000x128_S2000x128_0_0
abbrev r5_row : Rect S1x128 := Rect.unit (s := S1x128) ![0, 0] S1x128.size inb_S1x128_S1x128_0_0

/-! ## What the body leaves in the output buffer -/

/-- The output buffer after the body, from the six input blocks `x0` (h), `x1` (x), `x2 … x5` (mean, var, gamma,
    beta): its single whole-buffer store, whose payload is the kernel's value of the six loads. -/
def out5_6 (x0 : Vec F S2000x128 .f32) (x1 : Vec F S2000x128 .f32) (x2 : Vec F S1x128 .f32) (x3 : Vec F S1x128 .f32) (x4 : Vec F S1x128 .f32) (x5 : Vec F S1x128 .f32) : Vec F S2000x128 .f32 :=
  View.canon [⟨r5_blk, k5_pay1 (View.ld x0 r5_blk) (View.ld x2 r5_row) (View.ld x3 r5_row) (View.ld x4 r5_row) (View.ld x5 r5_row) (View.ld x1 r5_blk)⟩]

/-- One store through the whole-buffer rectangle covers every index of the buffer. -/
theorem cover5_6 (p0 : Vec F S2000x128 .f32) (y : S2000x128.Idx) :
    ∃ pc ∈ ([⟨r5_blk, p0⟩] : List (View.Piece (Elt F) S2000x128 .f32)), y ∈ pc.1.set :=
  View.cover_of_tiledL [⟨r5_blk, p0⟩] S2000x128.size (by sl_kernel_rfl) y

/-! ## The body's triple -/

set_option maxHeartbeats 1000000 in
/-- The body on seven whole staging buffers — the six inputs' reading `x0 … x5`, the output's holding anything —
    runs to a continuation that gets the inputs back unchanged and the output buffer reading `out5_6` of them. -/
theorem sound_kernel5 (c : Dev nD) (E : Set ℕ) (i : grid5.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__bn_kernel i arg1 harg1 arg2 harg2 arg3 harg3 arg4 harg4 arg5 harg5 arg6 harg6 arg7 harg7) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of pipeline 5 on core `c`: every window's array is what the region finds (`V`); after the body at
    point `t` an input's buffer still reads its block and the output's reads `out5_6` of the six input blocks; the
    invariant is "the scoped rest and the generator register are untouched"; full shares; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer reads its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`: the invariant, the core's debts, and each window's current staging
    buffer at what the pipeline left there, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it hands back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the input buffers read their blocks (`before5_w`), so the kernel's triple applies; the
    invariant and the debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation5 (c : Dev nD) : BodyObligation (dat5 (F := F) V c) (defs₀ (F := F)) Variants.none () Set.univ := fun t => by
  rw [bigSep_W5, bigSep_W5]
  exact sound_body5 V c t

end Bn5

/-! ## The output buffer at an index, over the extended reals -/

section AtIdeal5

open Idealize.ShloMosaic.ValueIdx

/-- The body's rectangles start at offset zero on both axes. -/
theorem zero_off5 : (![0, 0] : Fin 2 → Nat) = fun _ => 0 := funext fun a => by fin_cases a <;> rfl

/-- With exact arithmetic, the body leaves at row `p`, column `q` of the output buffer
    `x + max (gamma * (h − mean) * rsqrt (var + ε) + beta) 0`, the four rows read at column `q`, `h` and `x` at
    `(p, q)`, and `ε` the single-precision constant nearest 1e-5. -/
theorem out5_6_apply (x0 x1 : Vec Ideal S2000x128 .f32) (x2 x3 x4 x5 : Vec Ideal S1x128 .f32) (p : Fin 2000) (q : Fin 128) :
    out5_6 x0 x1 x2 x3 x4 x5 (ix2 p q)
      = x1 (ix2 p q) + max (x4 (ix2 (0 : Fin 1) q) * (x0 (ix2 p q) - x2 (ix2 (0 : Fin 1) q))
          * Ideal.rsqrt (x3 (ix2 (0 : Fin 1) q) + Ideal.ofBits .f32 0x3727C5AC#32) + x5 (ix2 (0 : Fin 1) q)) 0 := by
  unfold out5_6
  rw [View.canon_unit_zero zero_off5]
  simp only [View.ld_unit_zero (S := S2000x128) zero_off5, View.ld_unit_zero (S := S1x128) zero_off5]
  unfold k5_pay1
  simp only [shapeCast_self]
  simp only [addf_apply, maximumf_apply, mulf_apply, subf_apply, broadcast_apply, broadcastTo_1b_ab_apply]
  rw [← Ideal.ofBits_zero_f32]
  rfl

end AtIdeal5

end Cert.Kernel.Hand

end
-- ==== Proof.KRun.lean ====
/-
  The whole run of @main: twelve segments — a stretch of host operations, then a kernel region, six times over —, the
  buffer contents at every boundary as a fold from the launch memory (a host stretch applies its operations; a region
  leaves its arrays at what its write-backs fold to and every other buffer as entered), each region as a segment over
  the thread state "every unscoped buffer at the boundary's contents, the generator register at some state, nothing owed",
  and the run: every weakly fair execution terminates, nothing faults, every unscoped buffer ends at the last
  boundary's contents — in particular each argument as launched and the result at what region 5 writes back.
-/
import proofs.«124822_j54752243090034_1_alg».proof.Proof.KMlp0
import proofs.«124822_j54752243090034_1_alg».proof.Proof.KMlp2
import proofs.«124822_j54752243090034_1_alg».proof.Proof.KMlp4
import proofs.«124822_j54752243090034_1_alg».proof.Proof.KBn1
import proofs.«124822_j54752243090034_1_alg».proof.Proof.KBn3
import proofs.«124822_j54752243090034_1_alg».proof.Proof.KBn5
import proofs.«124822_j54752243090034_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

abbrev W0 : Dev nD → Valuation τ sig (Elt F) := fun c b => m (c, b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
theorem W1_keep (c : Dev nD) (r : Ref sig .tc) (h : r ∉ hostOps0_W) : W1 m c (Proc.devRef .tc r) = W0 m c (Proc.devRef .tc r) :=
  StableHlo.after_of_writes_sub hostOps0 _ hostOps0_writes h
abbrev W3 : Dev nD → Valuation τ sig (Elt F) := fun c => StableHlo.after hostOps1 (W2 m c)
abbrev U3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
theorem W3_keep (c : Dev nD) (r : Ref sig .tc) (h : r ∉ hostOps1_W) : W3 m c (Proc.devRef .tc r) = W2 m c (Proc.devRef .tc r) :=
  StableHlo.after_of_writes_sub hostOps1 _ hostOps1_writes h
abbrev W5 : Dev nD → Valuation τ sig (Elt F) := fun c => StableHlo.after hostOps2 (W4 m c)
abbrev U5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
theorem W5_keep (c : Dev nD) (r : Ref sig .tc) (h : r ∉ hostOps2_W) : W5 m c (Proc.devRef .tc r) = W4 m c (Proc.devRef .tc r) :=
  StableHlo.after_of_writes_sub hostOps2 _ hostOps2_writes h
abbrev W7 : Dev nD → Valuation τ sig (Elt F) := fun c => StableHlo.after hostOps3 (W6 m c)
abbrev U7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)
theorem W7_keep (c : Dev nD) (r : Ref sig .tc) (h : r ∉ hostOps3_W) : W7 m c (Proc.devRef .tc r) = W6 m c (Proc.devRef .tc r) :=
  StableHlo.after_of_writes_sub hostOps3 _ hostOps3_writes h
abbrev W9 : Dev nD → Valuation τ sig (Elt F) := fun c => StableHlo.after hostOps4 (W8 m c)
abbrev U9 : (c : Dev nD) → (b : Ref sig .tc) → Buf (Elt F) ((c : Thread nD τ).loc b) := fun c b => W9 m c b
def W10 (c : Dev nD) : Valuation τ sig (Elt F) :=
  Pipeline.withArrays spec4 c (W9 m c) fun w => (dat4 (U9 m) c).arrAt w cfg4.N
theorem W10_arr (c : Dev nD) (w : Fin cfg4.W) :
    W10 m c (Proc.devRef .tc (Pipeline.arrRef spec4 w)) = (dat4 (U9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev U10 : (c : Dev nD) → (b : Ref sig .tc) → Buf (Elt F) ((c : Thread nD τ).loc b) := fun c b => W10 m c b
theorem hF4 (c : Dev nD) (w : Fin cfg4.W) : (dat4 (U9 m) c).arrAt w cfg4.N = U10 m c (Pipeline.arrRef spec4 w) :=
  (W10_arr m c w).symm
theorem hrest4 (c : Dev nD) : ∀ b, b ∉ Finset.univ.image (Pipeline.arrRef spec4) → U10 m c b = U9 m c b :=
  fun b hb => W10_of_ne m c b fun w e => hb (Finset.mem_image.mpr ⟨w, Finset.mem_univ _, e⟩)
theorem W9_keep (c : Dev nD) (r : Ref sig .tc) (h : r ∉ hostOps4_W) : W9 m c (Proc.devRef .tc r) = W8 m c (Proc.devRef .tc r) :=
  StableHlo.after_of_writes_sub hostOps4 _ hostOps4_writes h
abbrev W11 : Dev nD → Valuation τ sig (Elt F) := fun c => StableHlo.after hostOps5 (W10 m c)
abbrev U11 : (c : Dev nD) → (b : Ref sig .tc) → Buf (Elt F) ((c : Thread nD τ).loc b) := fun c b => W11 m c b
def W12 (c : Dev nD) : Valuation τ sig (Elt F) :=
  Pipeline.withArrays spec5 c (W11 m c) fun w => (dat5 (U11 m) c).arrAt w cfg5.N
theorem W12_arr (c : Dev nD) (w : Fin cfg5.W) :
    W12 m c (Proc.devRef .tc (Pipeline.arrRef spec5 w)) = (dat5 (U11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev U12 : (c : Dev nD) → (b : Ref sig .tc) → Buf (Elt F) ((c : Thread nD τ).loc b) := fun c b => W12 m c b
theorem hF5 (c : Dev nD) (w : Fin cfg5.W) : (dat5 (U11 m) c).arrAt w cfg5.N = U12 m c (Pipeline.arrRef spec5 w) :=
  (W12_arr m c w).symm
theorem hrest5 (c : Dev nD) : ∀ b, b ∉ Finset.univ.image (Pipeline.arrRef spec5) → U12 m c b = U11 m c b :=
  fun b hb => W12_of_ne m c b fun w e => hb (Finset.mem_image.mpr ⟨w, Finset.mem_univ _, e⟩)
theorem W11_keep (c : Dev nD) (r : Ref sig .tc) (h : r ∉ hostOps5_W) : W11 m c (Proc.devRef .tc r) = W10 m c (Proc.devRef .tc r) :=
  StableHlo.after_of_writes_sub hostOps5 _ hostOps5_writes h

/-! ## No segment changes an argument -/

theorem W12_main_arg0 (c : Dev nD) : W12 m c (Proc.devRef .tc main_arg0) = m ((c : Thread nD τ).loc main_arg0) :=
  (W12_of_ne m c main_arg0 (by decide)).trans <| (W11_keep m c main_arg0 (by decide)).trans <| (W10_of_ne m c main_arg0 (by decide)).trans <| (W9_keep m c main_arg0 (by decide)).trans <| (W8_of_ne m c main_arg0 (by decide)).trans <| (W7_keep m c main_arg0 (by decide)).trans <| (W6_of_ne m c main_arg0 (by decide)).trans <| (W5_keep m c main_arg0 (by decide)).trans <| ((W4_arr m c 1).trans (((dat1 (U3 m) c).arrAt_in 1 rfl _).trans (A_eq1 (U3 m) c 1))).trans <| (W3_keep m c main_arg0 (by decide)).trans <| (W2_of_ne m c main_arg0 (by decide)).trans <| (W1_keep m c main_arg0 (by decide)).trans <| rfl
theorem W12_main_arg1 (c : Dev nD) : W12 m c (Proc.devRef .tc main_arg1) = m ((c : Thread nD τ).loc main_arg1) :=
  (W12_of_ne m c main_arg1 (by decide)).trans <| (W11_keep m c main_arg1 (by decide)).trans <| (W10_of_ne m c main_arg1 (by decide)).trans <| (W9_keep m c main_arg1 (by decide)).trans <| (W8_of_ne m c main_arg1 (by decide)).trans <| (W7_keep m c main_arg1 (by decide)).trans <| (W6_of_ne m c main_arg1 (by decide)).trans <| (W5_keep m c main_arg1 (by decide)).trans <| (W4_of_ne m c main_arg1 (by decide)).trans <| (W3_keep m c main_arg1 (by decide)).trans <| (W2_of_ne m c main_arg1 (by decide)).trans <| (W1_keep m c main_arg1 (by decide)).trans <| rfl
theorem W12_main_arg2 (c : Dev nD) : W12 m c (Proc.devRef .tc main_arg2) = m ((c : Thread nD τ).loc main_arg2) :=
  (W12_of_ne m c main_arg2 (by decide)).trans <| (W11_keep m c main_arg2 (by decide)).trans <| (W10_of_ne m c main_arg2 (by decide)).trans <| (W9_keep m c main_arg2 (by decide)).trans <| (W8_of_ne m c main_arg2 (by decide)).trans <| (W7_keep m c main_arg2 (by decide)).trans <| (W6_of_ne m c main_arg2 (by decide)).trans <| (W5_keep m c main_arg2 (by decide)).trans <| (W4_of_ne m c main_arg2 (by decide)).trans <| (W3_keep m c main_arg2 (by decide)).trans <| (W2_of_ne m c main_arg2 (by decide)).trans <| (W1_keep m c main_arg2 (by decide)).trans <| rfl
theorem W12_main_arg3 (c : Dev nD) : W12 m c (Proc.devRef .tc main_arg3) = m ((c : Thread nD τ).loc main_arg3) :=
  (W12_of_ne m c main_arg3 (by decide)).trans <| (W11_keep m c main_arg3 (by decide)).trans <| (W10_of_ne m c main_arg3 (by decide)).trans <| (W9_keep m c main_arg3 (by decide)).trans <| (W8_of_ne m c main_arg3 (by decide)).trans <| (W7_keep m c main_arg3 (by decide)).trans <| (W6_of_ne m c main_arg3 (by decide)).trans <| (W5_keep m c main_arg3 (by decide)).trans <| (W4_of_ne m c main_arg3 (by decide)).trans <| (W3_keep m c main_arg3 (by decide)).trans <| (W2_of_ne m c main_arg3 (by decide)).trans <| (W1_keep m c main_arg3 (by decide)).trans <| rfl
theorem W12_main_arg4 (c : Dev nD) : W12 m c (Proc.devRef .tc main_arg4) = m ((c : Thread nD τ).loc main_arg4) :=
  (W12_of_ne m c main_arg4 (by decide)).trans <| (W11_keep m c main_arg4 (by decide)).trans <| (W10_of_ne m c main_arg4 (by decide)).trans <| (W9_keep m c main_arg4 (by decide)).trans <| (W8_of_ne m c main_arg4 (by decide)).trans <| (W7_keep m c main_arg4 (by decide)).trans <| (W6_of_ne m c main_arg4 (by decide)).trans <| (W5_keep m c main_arg4 (by decide)).trans <| (W4_of_ne m c main_arg4 (by decide)).trans <| (W3_keep m c main_arg4 (by decide)).trans <| (W2_of_ne m c main_arg4 (by decide)).trans <| (W1_keep m c main_arg4 (by decide)).trans <| rfl
theorem W12_main_arg5 (c : Dev nD) : W12 m c (Proc.devRef .tc main_arg5) = m ((c : Thread nD τ).loc main_arg5) :=
  (W12_of_ne m c main_arg5 (by decide)).trans <| (W11_keep m c main_arg5 (by decide)).trans <| (W10_of_ne m c main_arg5 (by decide)).trans <| (W9_keep m c main_arg5 (by decide)).trans <| (W8_of_ne m c main_arg5 (by decide)).trans <| (W7_keep m c main_arg5 (by decide)).trans <| (W6_of_ne m c main_arg5 (by decide)).trans <| (W5_keep m c main_arg5 (by decide)).trans <| (W4_of_ne m c main_arg5 (by decide)).trans <| (W3_keep m c main_arg5 (by decide)).trans <| (W2_of_ne m c main_arg5 (by decide)).trans <| (W1_keep m c main_arg5 (by decide)).trans <| rfl
theorem W12_main_arg6 (c : Dev nD) : W12 m c (Proc.devRef .tc main_arg6) = m ((c : Thread nD τ).loc main_arg6) :=
  (W12_of_ne m c main_arg6 (by decide)).trans <| (W11_keep m c main_arg6 (by decide)).trans <| (W10_of_ne m c main_arg6 (by decide)).trans <| (W9_keep m c main_arg6 (by decide)).trans <| (W8_of_ne m c main_arg6 (by decide)).trans <| (W7_keep m c main_arg6 (by decide)).trans <| (W6_of_ne m c main_arg6 (by decide)).trans <| (W5_keep m c main_arg6 (by decide)).trans <| (W4_of_ne m c main_arg6 (by decide)).trans <| (W3_keep m c main_arg6 (by decide)).trans <| (W2_of_ne m c main_arg6 (by decide)).trans <| (W1_keep m c main_arg6 (by decide)).trans <| rfl
theorem W12_main_arg7 (c : Dev nD) : W12 m c (Proc.devRef .tc main_arg7) = m ((c : Thread nD τ).loc main_arg7) :=
  (W12_of_ne m c main_arg7 (by decide)).trans <| (W11_keep m c main_arg7 (by decide)).trans <| (W10_of_ne m c main_arg7 (by decide)).trans <| (W9_keep m c main_arg7 (by decide)).trans <| (W8_of_ne m c main_arg7 (by decide)).trans <| (W7_keep m c main_arg7 (by decide)).trans <| (W6_of_ne m c main_arg7 (by decide)).trans <| (W5_keep m c main_arg7 (by decide)).trans <| (W4_of_ne m c main_arg7 (by decide)).trans <| (W3_keep m c main_arg7 (by decide)).trans <| (W2_of_ne m c main_arg7 (by decide)).trans <| (W1_keep m c main_arg7 (by decide)).trans <| rfl
theorem W12_main_arg8 (c : Dev nD) : W12 m c (Proc.devRef .tc main_arg8) = m ((c : Thread nD τ).loc main_arg8) :=
  (W12_of_ne m c main_arg8 (by decide)).trans <| (W11_keep m c main_arg8 (by decide)).trans <| (W10_of_ne m c main_arg8 (by decide)).trans <| (W9_keep m c main_arg8 (by decide)).trans <| (W8_of_ne m c main_arg8 (by decide)).trans <| (W7_keep m c main_arg8 (by decide)).trans <| (W6_of_ne m c main_arg8 (by decide)).trans <| (W5_keep m c main_arg8 (by decide)).trans <| (W4_of_ne m c main_arg8 (by decide)).trans <| (W3_keep m c main_arg8 (by decide)).trans <| (W2_of_ne m c main_arg8 (by decide)).trans <| (W1_keep m c main_arg8 (by decide)).trans <| rfl
theorem W12_main_arg9 (c : Dev nD) : W12 m c (Proc.devRef .tc main_arg9) = m ((c : Thread nD τ).loc main_arg9) :=
  (W12_of_ne m c main_arg9 (by decide)).trans <| (W11_keep m c main_arg9 (by decide)).trans <| (W10_of_ne m c main_arg9 (by decide)).trans <| (W9_keep m c main_arg9 (by decide)).trans <| (W8_of_ne m c main_arg9 (by decide)).trans <| (W7_keep m c main_arg9 (by decide)).trans <| (W6_of_ne m c main_arg9 (by decide)).trans <| (W5_keep m c main_arg9 (by decide)).trans <| (W4_of_ne m c main_arg9 (by decide)).trans <| (W3_keep m c main_arg9 (by decide)).trans <| (W2_of_ne m c main_arg9 (by decide)).trans <| (W1_keep m c main_arg9 (by decide)).trans <| rfl
theorem W12_main_arg10 (c : Dev nD) : W12 m c (Proc.devRef .tc main_arg10) = m ((c : Thread nD τ).loc main_arg10) :=
  (W12_of_ne m c main_arg10 (by decide)).trans <| (W11_keep m c main_arg10 (by decide)).trans <| (W10_of_ne m c main_arg10 (by decide)).trans <| (W9_keep m c main_arg10 (by decide)).trans <| (W8_of_ne m c main_arg10 (by decide)).trans <| (W7_keep m c main_arg10 (by decide)).trans <| (W6_of_ne m c main_arg10 (by decide)).trans <| (W5_keep m c main_arg10 (by decide)).trans <| (W4_of_ne m c main_arg10 (by decide)).trans <| (W3_keep m c main_arg10 (by decide)).trans <| (W2_of_ne m c main_arg10 (by decide)).trans <| (W1_keep m c main_arg10 (by decide)).trans <| rfl

/-! ## The proof data family and the thread state -/

def pdats : (p : Fin 6) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
  | ⟨5, _⟩ => fun c => dat5 (U11 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m c) ∗ ∃ r, prngReg c r)

/-! ## The regions as segments -/

set_option backward.isDefEq.respectTransparency.types false in
/-- Region 0 over the thread state: its arrays split out of the unscoped buffers on entry and put back at the exit
    contents; the generator register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from hout0 (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers on entry and put back at the exit
    contents; the generator register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers on entry and put back at the exit
    contents; the generator register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ (Pipeline.ΦA spec2 c : sProp 𝕄) from hout2 (U5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: its arrays split out of the unscoped buffers on entry and put back at the exit
    contents; the generator register into the invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U7 m c) (U8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: its arrays split out of the unscoped buffers on entry and put back at the exit
    contents; the generator register into the invariant and out; nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (show (pdats m 4 c).Φ (Fin.last _) ⊢ (Pipeline.ΦA spec4 c : sProp 𝕄) from hout4 (U9 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U9 m c) (U10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: its arrays split out of the unscoped buffers on entry and put back at the exit
    contents; the generator register into the invariant and out; nothing owed; no semaphore of the kernel's own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (U11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (U11 m c) (U12 m c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs (c : Dev nD) : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m) ]

set_option backward.isDefEq.respectTransparency.types false in
/-- THE RUN, at any float instance: from any memory with zero counters every weakly fair execution of @main terminates,
    nothing faulting, the result buffer ends at what the last region's write-backs fold to, and every argument as launched. -/
theorem run (ρ : Dev nD → PrngReg) : θ_run defs (onTc (τ := τ) (main (F := F))) ⟨m, fun _ => 0, ρ⟩ (fun r => ∀ c : Dev nD,
      r.2.mem ((c.tc : Thread nD τ).loc main_v139) = W12 m c (Proc.devRef .tc main_v139)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_dev (pcfgs (F := F)) adm (pdats m) () cellOf_inj emb₁ defs₀ 𝒱₀ L lv m ρ main (segs m)
    (fun c Q => by
      rewrite [main_chain c, Seg.run_eq_chain,
        show (segs m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c =>
      ⟨h c _ (mem_uc main_v139 (by decide)),
       (h c _ (mem_uc main_arg0 (by decide))).trans (W12_main_arg0 m c),
       (h c _ (mem_uc main_arg1 (by decide))).trans (W12_main_arg1 m c),
       (h c _ (mem_uc main_arg2 (by decide))).trans (W12_main_arg2 m c),
       (h c _ (mem_uc main_arg3 (by decide))).trans (W12_main_arg3 m c),
       (h c _ (mem_uc main_arg4 (by decide))).trans (W12_main_arg4 m c),
       (h c _ (mem_uc main_arg5 (by decide))).trans (W12_main_arg5 m c),
       (h c _ (mem_uc main_arg6 (by decide))).trans (W12_main_arg6 m c),
       (h c _ (mem_uc main_arg7 (by decide))).trans (W12_main_arg7 m c),
       (h c _ (mem_uc main_arg8 (by decide))).trans (W12_main_arg8 m c),
       (h c _ (mem_uc main_arg9 (by decide))).trans (W12_main_arg9 m c),
       (h c _ (mem_uc main_arg10 (by decide))).trans (W12_main_arg10 m c)⟩)

end Cert.Kernel.Hand

end
-- ==== Proof.KiMlp0Base.lean ====
/-
  Region 0 of @main (the two-layer perceptron over a block of 2000 rows, with the per-column sums of its result and of
  its squares accumulated in two rows of scratch across the 25 grid points): what the case runs and the proof data share.
  The first grid point resets both accumulators, the last copies them to the two row outputs; at every other point those
  two outputs are idle (the pipeline neither writes them back nor reads them).  Stated at any float instance and at the
  buffer contents `V` the region is entered from.
-/
import proofs.«124822_j54752243090034_1_alg».proof.Proof.Gen.KernelIdeal.Launch
import proofs.«124822_j54752243090034_1_alg».proof.Proof.Gen.KernelIdeal.Skeleton
import proofs.«124822_j54752243090034_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block of rows at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (an unfetched window's
    block index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (an unfetched window's
    block index has not moved), for any proof data over `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (an unfetched window's
    block index has not moved), for any proof data over `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not (an unfetched window's
    block index has not moved), for any proof data over `V` whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not (an unfetched window's
    block index has not moved), for any proof data over `V` whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not (an unfetched window's
    block index has not moved), for any proof data over `V` whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branch conditions, decided over the grid -/

/-- "This is the first grid point" as the body computes it from the coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last grid point". -/
abbrev cond0_1 (i : grid0.Coords) : Prop := k0_cond2 i = 1#1
theorem hcond0_1 : ∀ t : Fin cfg0.N, cond0_1 (grid0.coords t) ↔ t.val = 24 :=
  (by decide +kernel : ∀ t : Fin grid0.N, cond0_1 (grid0.coords t) ↔ t.val = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Off the last point the row output 7 is idle and is not written back; at the last point it is live. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7_C : ∀ t : Fin cfg0.N, cond0_1 (grid0.coords t) → cfg0.idle 7 (grid0.coords t) = false := by decide +kernel
/-- Off the last point the row output 8 is idle and is not written back; at the last point it is live. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8_C : ∀ t : Fin cfg0.N, cond0_1 (grid0.coords t) → cfg0.idle 8 (grid0.coords t) = false := by decide +kernel

/-! ## The staging and scratch memrefs the body is called with -/

abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- The two accumulator rows: whole scoped buffers of the kernel's own. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := (scM0_0).view
abbrev VS0_1 : View sig .tc .vmem S1x128 .f32 := (scM0_1).view
/-- One staging buffer per output window, through which its contents are stated. -/
abbrev VO0_6 : View sig .tc .vmem S2000x128 .f32 := (Memref.whole cc0_stg6_0 : Memref sig .tc .vmem S2000x128 .f32).view
abbrev VO0_7 : View sig .tc .vmem S1x128 .f32 := (Memref.whole cc0_stg7_0 : Memref sig .tc .vmem S1x128 .f32).view
abbrev VO0_8 : View sig .tc .vmem S1x128 .f32 := (Memref.whole cc0_stg8_0 : Memref sig .tc .vmem S1x128 .f32).view

/-- What the launch hands the region beside the windows — every scoped buffer no window stages and the generator
    register — with the two accumulator rows split out, each whole at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Hand

end
-- ==== Proof.KiMlp0RunA.lean ====
/-
  Region 0, the body run at the first grid point (both accumulators reset first): on whole staging memrefs, the six inputs at given contents, the body
  runs to its return leaving the inputs as they were, the block output with its store written, and each accumulator row
  with its stores written; what was stored is found by the run.
-/
import proofs.«124822_j54752243090034_1_alg».proof.Proof.KiMlp0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc0__mlp_kernel_eq_skeleton]; unfold cc0__mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hf7; obtain rfl := harg9.eq_unread hf8

    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KiMlp0RunB.lean ====
/-
  Region 0, the body run at a grid point that is neither first nor last: on whole staging memrefs, the six inputs at given contents, the body
  runs to its return leaving the inputs as they were, the block output with its store written, and each accumulator row
  with its stores written; what was stored is found by the run.
-/
import proofs.«124822_j54752243090034_1_alg».proof.Proof.KiMlp0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc0__mlp_kernel_eq_skeleton]; unfold cc0__mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KiMlp0RunC.lean ====
/-
  Region 0, the body run at the last grid point (the accumulators copied to the two row outputs): on whole staging memrefs, the six inputs at given contents, the body
  runs to its return leaving the inputs as they were, the block output with its store written, and each accumulator row
  with its stores written; what was stored is found by the run.
-/
import proofs.«124822_j54752243090034_1_alg».proof.Proof.KiMlp0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__mlp_kernel_eq_skeleton]; unfold cc0__mlp_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5

    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KiMlp0.lean ====
/-
  Region 0: what the block output, the two row outputs and the two accumulator rows hold after each grid point (a
  recursion over the points: the first resets the accumulators, every later one adds to what the point before left, the
  last also copies them out), the proof data built from that, and the body obligation at every point.
-/
import proofs.«124822_j54752243090034_1_alg».proof.Proof.KiMlp0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave, read back -/

theorem cover0_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (y : S2000x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S2000x128.size (by sl_kernel_rfl) y
def out0_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1)
def out0_A_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)
def out0_A_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)
theorem scover0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x128.size (by sl_kernel_rfl) y
def sout0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)
theorem scover0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x128.size (by sl_kernel_rfl) y
def sout0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

theorem cover0_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S2000x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
def out0_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S2000x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
def out0_B_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
def out0_B_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
theorem scover0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
def sout0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)
theorem scover0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
def sout0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

theorem cover0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S2000x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
def out0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S2000x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
theorem cover0_C_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
def out0_C_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
theorem cover0_C_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
def out0_C_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
theorem scover0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
def sout0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)
theorem scover0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
def sout0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

section
variable (V : (c : Dev nD) → (b : Ref sig .tc) → Buf (Elt F) ((c : Thread nD τ).loc b))

/-! ## The accumulation, point by point -/

/-- After the body at position `n`: the block output, the two row outputs, the two accumulator rows. -/
def outsAt0 (c : Dev nD) : (n : ℕ) → n < cfg0.N → Vec F S2000x128 .f32 × Vec F S1x128 .f32 × Vec F S1x128 .f32 × Vec F S1x128 .f32 × Vec F S1x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 24 by decide)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 24 by decide)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 24 by decide)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 24 by decide)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 24 by decide)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h1 : n + 1 = 24 then
      (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val = 0) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t) (iblk0 V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t) (iblk0 V c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t) (iblk0 V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t) (iblk0 V c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t) (iblk0 V c 5 t)) := by
  obtain ⟨n, hn⟩ := t
  cases n with
  | zero => rfl
  | succ n => exact absurd h0 (Nat.succ_ne_zero n)

theorem outsAt0_B (c : Dev nD) (t : Fin cfg0.N) (h0 : ¬t.val = 0) (h1 : ¬t.val = 24) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 24) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The region's invariant before position `n`: before the first point whatever the launch hands over; afterwards the
    two accumulator rows at what the point before left, every other scoped buffer and the generator register untouched. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 25 := lt_of_lt_of_eq t.isLt (show cfg0.N = 25 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val = 0
  · have hc1 : ¬cond0_1 (grid0.coords t) := fun h => absurd ((hcond0_1 t).mp h) (by omega)
    rw [Dat.leavesExact_idle (dat0 V c) 7 t (idleAt0_7 t hc1) (noFlush0_7 t hc1),
      Dat.leavesExact_idle (dat0 V c) 8 t (idleAt0_8 t hc1) (noFlush0_8 t hc1)]
    rw [outsAt0_A V c t h0]
    unfold out0_A_6 sout0_A_0 sout0_A_1; (try dsimp only)
    rw [PhiS0_castSucc V c t, PhiS0_zero V c _ _ h0, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ ((hcond0_0 t).mpr h0) (fun h => absurd ((hcond0_1 t).mp h) (by omega)) (iblk0 V c 0 t) (iblk0 V c 1 t) (iblk0 V c 2 t) (iblk0 V c 3 t) (iblk0 V c 4 t) (iblk0 V c 5 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ )
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _ )
    isplitl [H7]; · iexists _; iexact H7
    iexists _; iexact H8
  · by_cases h1 : t.val = 24
    · rw [show (dat0 V c).leavesExact 7 t = owns (c : Thread nD τ) (ms0_7 t) fullShare ((dat0 V c).after 7 t) from by
        unfold Dat.leavesExact; rw [liveAt0_7_C t ((hcond0_1 t).mpr h1)], after0_7]
      rw [show (dat0 V c).leavesExact 8 t = owns (c : Thread nD τ) (ms0_8 t) fullShare ((dat0 V c).after 8 t) from by
        unfold Dat.leavesExact; rw [liveAt0_8_C t ((hcond0_1 t).mpr h1)], after0_8]
      rw [outsAt0_C V c t h0 h1]
      unfold out0_C_6 out0_C_7 out0_C_8 sout0_C_0 sout0_C_1; (try dsimp only)
      rw [PhiS0_castSucc V c t, PhiS0_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _ )
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _ )
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _ )
    · have hc1 : ¬cond0_1 (grid0.coords t) := fun h => h1 ((hcond0_1 t).mp h)
      rw [Dat.leavesExact_idle (dat0 V c) 7 t (idleAt0_7 t hc1) (noFlush0_7 t hc1),
        Dat.leavesExact_idle (dat0 V c) 8 t (idleAt0_8 t hc1) (noFlush0_8 t hc1)]
      rw [outsAt0_B V c t h0 h1]
      unfold out0_B_6 sout0_B_0 sout0_B_1; (try dsimp only)
      rw [PhiS0_castSucc V c t, PhiS0_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ )
      isplitl [H7]; · iexists _; iexact H7
      iexists _; iexact H8

theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and after the last point the invariant gives it back, the accumulators' contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 25 := N_0; omega), PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end

end Cert.KernelIdeal.Hand

end
-- ==== Proof.KiMlp2Base.lean ====
/-
  Region 2 of @main (the two-layer perceptron over a block of 2000 rows, with the per-column sums of its result and of
  its squares accumulated in two rows of scratch across the 25 grid points): what the case runs and the proof data share.
  The first grid point resets both accumulators, the last copies them to the two row outputs; at every other point those
  two outputs are idle (the pipeline neither writes them back nor reads them).  Stated at any float instance and at the
  buffer contents `V` the region is entered from.
-/
import proofs.«124822_j54752243090034_1_alg».proof.Proof.Gen.KernelIdeal.Launch
import proofs.«124822_j54752243090034_1_alg».proof.Proof.Gen.KernelIdeal.Skeleton
import proofs.«124822_j54752243090034_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block of rows at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (an unfetched window's
    block index has not moved), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (an unfetched window's
    block index has not moved), for any proof data over `V` whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (an unfetched window's
    block index has not moved), for any proof data over `V` whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not (an unfetched window's
    block index has not moved), for any proof data over `V` whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not (an unfetched window's
    block index has not moved), for any proof data over `V` whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, fetched there or not (an unfetched window's
    block index has not moved), for any proof data over `V` whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end

/-! ## The two branch conditions, decided over the grid -/

/-- "This is the first grid point" as the body computes it from the coordinate. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- "This is the last grid point". -/
abbrev cond2_1 (i : grid2.Coords) : Prop := k2_cond2 i = 1#1
theorem hcond2_1 : ∀ t : Fin cfg2.N, cond2_1 (grid2.coords t) ↔ t.val = 24 :=
  (by decide +kernel : ∀ t : Fin grid2.N, cond2_1 (grid2.coords t) ↔ t.val = 24)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Off the last point the row output 7 is idle and is not written back; at the last point it is live. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7_C : ∀ t : Fin cfg2.N, cond2_1 (grid2.coords t) → cfg2.idle 7 (grid2.coords t) = false := by decide +kernel
/-- Off the last point the row output 8 is idle and is not written back; at the last point it is live. -/
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
theorem liveAt2_8_C : ∀ t : Fin cfg2.N, cond2_1 (grid2.coords t) → cfg2.idle 8 (grid2.coords t) = false := by decide +kernel

/-! ## The staging and scratch memrefs the body is called with -/

abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
/-- The two accumulator rows: whole scoped buffers of the kernel's own. -/
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := (scM2_0).view
abbrev VS2_1 : View sig .tc .vmem S1x128 .f32 := (scM2_1).view
/-- One staging buffer per output window, through which its contents are stated. -/
abbrev VO2_6 : View sig .tc .vmem S2000x128 .f32 := (Memref.whole cc2_stg6_0 : Memref sig .tc .vmem S2000x128 .f32).view
abbrev VO2_7 : View sig .tc .vmem S1x128 .f32 := (Memref.whole cc2_stg7_0 : Memref sig .tc .vmem S1x128 .f32).view
abbrev VO2_8 : View sig .tc .vmem S1x128 .f32 := (Memref.whole cc2_stg8_0 : Memref sig .tc .vmem S1x128 .f32).view

/-- What the launch hands the region beside the windows — every scoped buffer no window stages and the generator
    register — with the two accumulator rows split out, each whole at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.KernelIdeal.Hand

end
-- ==== Proof.KiMlp2RunA.lean ====
/-
  Region 2, the body run at the first grid point (both accumulators reset first): on whole staging memrefs, the six inputs at given contents, the body
  runs to its return leaving the inputs as they were, the block output with its store written, and each accumulator row
  with its stores written; what was stored is found by the run.
-/
import proofs.«124822_j54752243090034_1_alg».proof.Proof.KiMlp2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hf7; obtain rfl := harg9.eq_unread hf8

    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KiMlp2RunB.lean ====
/-
  Region 2, the body run at a grid point that is neither first nor last: on whole staging memrefs, the six inputs at given contents, the body
  runs to its return leaving the inputs as they were, the block output with its store written, and each accumulator row
  with its stores written; what was stored is found by the run.
-/
import proofs.«124822_j54752243090034_1_alg».proof.Proof.KiMlp2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KiMlp2RunC.lean ====
/-
  Region 2, the body run at the last grid point (the accumulators copied to the two row outputs): on whole staging memrefs, the six inputs at given contents, the body
  runs to its return leaving the inputs as they were, the block output with its store written, and each accumulator row
  with its stores written; what was stored is found by the run.
-/
import proofs.«124822_j54752243090034_1_alg».proof.Proof.KiMlp2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5

    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KiMlp2.lean ====
/-
  Region 2: what the block output, the two row outputs and the two accumulator rows hold after each grid point (a
  recursion over the points: the first resets the accumulators, every later one adds to what the point before left, the
  last also copies them out), the proof data built from that, and the body obligation at every point.
-/
import proofs.«124822_j54752243090034_1_alg».proof.Proof.KiMlp2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave, read back -/

theorem cover2_A_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (y : S2000x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1 S2000x128.size (by sl_kernel_rfl) y
def out2_A_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1)
def out2_A_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1)
def out2_A_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1)
theorem scover2_A_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x128.size (by sl_kernel_rfl) y
def sout2_A_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)
theorem scover2_A_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x128.size (by sl_kernel_rfl) y
def sout2_A_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

theorem cover2_B_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S2000x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
def out2_B_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S2000x128 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
def out2_B_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
def out2_B_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
theorem scover2_B_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
def sout2_B_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)
theorem scover2_B_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
def sout2_B_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

theorem cover2_C_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S2000x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
def out2_C_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S2000x128 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
theorem cover2_C_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
def out2_C_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
theorem cover2_C_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
def out2_C_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO2_8.read (Elt F) (VO2_8.writes (Elt F) VO2_8.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
theorem scover2_C_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
def sout2_C_0 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)
theorem scover2_C_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
def sout2_C_1 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

section
variable (V : (c : Dev nD) → (b : Ref sig .tc) → Buf (Elt F) ((c : Thread nD τ).loc b))

/-! ## The accumulation, point by point -/

/-- After the body at position `n`: the block output, the two row outputs, the two accumulator rows. -/
def outsAt2 (c : Dev nD) : (n : ℕ) → n < cfg2.N → Vec F S2000x128 .f32 × Vec F S1x128 .f32 × Vec F S1x128 .f32 × Vec F S1x128 .f32 × Vec F S1x128 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => absurd ((hcond2_1 ⟨0, hn⟩).mp h) (show ¬ (0 : ℕ) = 24 by decide)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => absurd ((hcond2_1 ⟨0, hn⟩).mp h) (show ¬ (0 : ℕ) = 24 by decide)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => absurd ((hcond2_1 ⟨0, hn⟩).mp h) (show ¬ (0 : ℕ) = 24 by decide)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => absurd ((hcond2_1 ⟨0, hn⟩).mp h) (show ¬ (0 : ℕ) = 24 by decide)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => absurd ((hcond2_1 ⟨0, hn⟩).mp h) (show ¬ (0 : ℕ) = 24 by decide)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h1 : n + 1 = 24 then
      (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)
    else
      (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)

theorem outsAt2_A (c : Dev nD) (t : Fin cfg2.N) (h0 : t.val = 0) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => absurd ((hcond2_1 t).mp h) (by omega)) (iblk2 V c 0 t) (iblk2 V c 1 t) (iblk2 V c 2 t) (iblk2 V c 3 t) (iblk2 V c 4 t) (iblk2 V c 5 t), out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => absurd ((hcond2_1 t).mp h) (by omega)) (iblk2 V c 0 t) (iblk2 V c 1 t) (iblk2 V c 2 t) (iblk2 V c 3 t) (iblk2 V c 4 t) (iblk2 V c 5 t), out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => absurd ((hcond2_1 t).mp h) (by omega)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => absurd ((hcond2_1 t).mp h) (by omega)) (iblk2 V c 0 t) (iblk2 V c 1 t) (iblk2 V c 2 t) (iblk2 V c 3 t) (iblk2 V c 4 t) (iblk2 V c 5 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => absurd ((hcond2_1 t).mp h) (by omega)) (iblk2 V c 0 t) (iblk2 V c 1 t) (iblk2 V c 2 t) (iblk2 V c 3 t) (iblk2 V c 4 t) (iblk2 V c 5 t)) := by
  obtain ⟨n, hn⟩ := t
  cases n with
  | zero => rfl
  | succ n => exact absurd h0 (Nat.succ_ne_zero n)

theorem outsAt2_B (c : Dev nD) (t : Fin cfg2.N) (h0 : ¬t.val = 0) (h1 : ¬t.val = 24) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 24) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The region's invariant before position `n`: before the first point whatever the launch hands over; afterwards the
    two accumulator rows at what the point before left, every other scoped buffer and the generator register untouched. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt (show cfg2.N = 25 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  by_cases h0 : t.val = 0
  · have hc1 : ¬cond2_1 (grid2.coords t) := fun h => absurd ((hcond2_1 t).mp h) (by omega)
    rw [Dat.leavesExact_idle (dat2 V c) 7 t (idleAt2_7 t hc1) (noFlush2_7 t hc1),
      Dat.leavesExact_idle (dat2 V c) 8 t (idleAt2_8 t hc1) (noFlush2_8 t hc1)]
    rw [outsAt2_A V c t h0]
    unfold out2_A_6 sout2_A_0 sout2_A_1; (try dsimp only)
    rw [PhiS2_castSucc V c t, PhiS2_zero V c _ _ h0, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ _ _ _ _ ((hcond2_0 t).mpr h0) (fun h => absurd ((hcond2_1 t).mp h) (by omega)) (iblk2 V c 0 t) (iblk2 V c 1 t) (iblk2 V c 2 t) (iblk2 V c 3 t) (iblk2 V c 4 t) (iblk2 V c 5 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _ _ _ )
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _ _ _ _ _ _ _ _ )
    isplitl [H7]; · iexists _; iexact H7
    iexists _; iexact H8
  · by_cases h1 : t.val = 24
    · rw [show (dat2 V c).leavesExact 7 t = owns (c : Thread nD τ) (ms2_7 t) fullShare ((dat2 V c).after 7 t) from by
        unfold Dat.leavesExact; rw [liveAt2_7_C t ((hcond2_1 t).mpr h1)], after2_7]
      rw [show (dat2 V c).leavesExact 8 t = owns (c : Thread nD τ) (ms2_8 t) fullShare ((dat2 V c).after 8 t) from by
        unfold Dat.leavesExact; rw [liveAt2_8_C t ((hcond2_1 t).mpr h1)], after2_8]
      rw [outsAt2_C V c t h0 h1]
      unfold out2_C_6 out2_C_7 out2_C_8 sout2_C_0 sout2_C_1; (try dsimp only)
      rw [PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _ _ _ _ )
      isplitl [H7]
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _ _ _ _ )
      unfold owns; iexists _; isplitr
      swap; · iexact H8
      ipureintro; exact View.read_writes_of_cover _ _ _ _ _ (cover2_C_8 c _ _ _ _ _ _ _ _ _ _ _ _ _ _ _ _ _ _ _ _ _ _ _ _ _ _ _ _ _ _ _ _ _ )
    · have hc1 : ¬cond2_1 (grid2.coords t) := fun h => h1 ((hcond2_1 t).mp h)
      rw [Dat.leavesExact_idle (dat2 V c) 7 t (idleAt2_7 t hc1) (noFlush2_7 t hc1),
        Dat.leavesExact_idle (dat2 V c) 8 t (idleAt2_8 t hc1) (noFlush2_8 t hc1)]
      rw [outsAt2_B V c t h0 h1]
      unfold out2_B_6 sout2_B_0 sout2_B_1; (try dsimp only)
      rw [PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_B_6 c _ _ _ _ _ _ _ _ _ _ _ _ _ _ _ _ _ _ _ _ _ _ _ _ _ _ _ _ _ _ _ _ _ )
      isplitl [H7]; · iexists _; iexact H7
      iexists _; iexact H8

theorem body_obligation2 (c : Dev nD) : BodyObligation (dat2 (F := F) V c) (defs₀ (F := F)) Variants.none () Set.univ := fun t => by
  rw [bigSep_W2, bigSep_W2]
  exact sound_body2 V c t

/-- What the launch hands the region is the invariant before the first point, -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- and after the last point the invariant gives it back, the accumulators' contents forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 25 := N_2; omega), PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end

end Cert.KernelIdeal.Hand

end
-- ==== Proof.KiMlp4Base.lean ====
/-
  Region 4 of @main (the two-layer perceptron over a block of 2000 rows, with the per-column sums of its result and of
  its squares accumulated in two rows of scratch across the 25 grid points): what the case runs and the proof data share.
  The first grid point resets both accumulators, the last copies them to the two row outputs; at every other point those
  two outputs are idle (the pipeline neither writes them back nor reads them).  Stated at any float instance and at the
  buffer contents `V` the region is entered from.
-/
import proofs.«124822_j54752243090034_1_alg».proof.Proof.Gen.KernelIdeal.Launch
import proofs.«124822_j54752243090034_1_alg».proof.Proof.Gen.KernelIdeal.Skeleton
import proofs.«124822_j54752243090034_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block of rows at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not (an unfetched window's
    block index has not moved), for any proof data over `V` whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not (an unfetched window's
    block index has not moved), for any proof data over `V` whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not (an unfetched window's
    block index has not moved), for any proof data over `V` whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not (an unfetched window's
    block index has not moved), for any proof data over `V` whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or not (an unfetched window's
    block index has not moved), for any proof data over `V` whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's staging buffer holds its block at every point, fetched there or not (an unfetched window's
    block index has not moved), for any proof data over `V` whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

end

/-! ## The two branch conditions, decided over the grid -/

/-- "This is the first grid point" as the body computes it from the coordinate. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- "This is the last grid point". -/
abbrev cond4_1 (i : grid4.Coords) : Prop := k4_cond2 i = 1#1
theorem hcond4_1 : ∀ t : Fin cfg4.N, cond4_1 (grid4.coords t) ↔ t.val = 24 :=
  (by decide +kernel : ∀ t : Fin grid4.N, cond4_1 (grid4.coords t) ↔ t.val = 24)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
theorem liveAt4_6 : ∀ t : Fin cfg4.N, cfg4.idle 6 (grid4.coords t) = false := by decide +kernel
/-- Off the last point the row output 7 is idle and is not written back; at the last point it is live. -/
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem liveAt4_7_C : ∀ t : Fin cfg4.N, cond4_1 (grid4.coords t) → cfg4.idle 7 (grid4.coords t) = false := by decide +kernel
/-- Off the last point the row output 8 is idle and is not written back; at the last point it is live. -/
theorem idleAt4_8 : ∀ t : Fin cfg4.N, ¬cond4_1 (grid4.coords t) → cfg4.idle 8 (grid4.coords t) = true := by decide +kernel
theorem noFlush4_8 : ∀ t : Fin cfg4.N, ¬cond4_1 (grid4.coords t) → (cfg4.win 8).flush t = false := by decide +kernel
theorem liveAt4_8_C : ∀ t : Fin cfg4.N, cond4_1 (grid4.coords t) → cfg4.idle 8 (grid4.coords t) = false := by decide +kernel

/-! ## The staging and scratch memrefs the body is called with -/

abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2000x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)
/-- The two accumulator rows: whole scoped buffers of the kernel's own. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := (scM4_0).view
abbrev VS4_1 : View sig .tc .vmem S1x128 .f32 := (scM4_1).view
/-- One staging buffer per output window, through which its contents are stated. -/
abbrev VO4_6 : View sig .tc .vmem S2000x128 .f32 := (Memref.whole cc4_stg6_0 : Memref sig .tc .vmem S2000x128 .f32).view
abbrev VO4_7 : View sig .tc .vmem S1x128 .f32 := (Memref.whole cc4_stg7_0 : Memref sig .tc .vmem S1x128 .f32).view
abbrev VO4_8 : View sig .tc .vmem S1x128 .f32 := (Memref.whole cc4_stg8_0 : Memref sig .tc .vmem S1x128 .f32).view

/-- What the launch hands the region beside the windows — every scoped buffer no window stages and the generator
    register — with the two accumulator rows split out, each whole at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.KernelIdeal.Hand

end
-- ==== Proof.KiMlp4RunA.lean ====
/-
  Region 4, the body run at the first grid point (both accumulators reset first): on whole staging memrefs, the six inputs at given contents, the body
  runs to its return leaving the inputs as they were, the block output with its store written, and each accumulator row
  with its stores written; what was stored is found by the run.
-/
import proofs.«124822_j54752243090034_1_alg».proof.Proof.KiMlp4Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_A (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__mlp_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc4__mlp_kernel_eq_skeleton]; unfold cc4__mlp_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hf7; obtain rfl := harg9.eq_unread hf8

    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KiMlp4RunB.lean ====
/-
  Region 4, the body run at a grid point that is neither first nor last: on whole staging memrefs, the six inputs at given contents, the body
  runs to its return leaving the inputs as they were, the block output with its store written, and each accumulator row
  with its stores written; what was stored is found by the run.
-/
import proofs.«124822_j54752243090034_1_alg».proof.Proof.KiMlp4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_B (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__mlp_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc4__mlp_kernel_eq_skeleton]; unfold cc4__mlp_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KiMlp4RunC.lean ====
/-
  Region 4, the body run at the last grid point (the accumulators copied to the two row outputs): on whole staging memrefs, the six inputs at given contents, the body
  runs to its return leaving the inputs as they were, the block output with its store written, and each accumulator row
  with its stores written; what was stored is found by the run.
-/
import proofs.«124822_j54752243090034_1_alg».proof.Proof.KiMlp4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_C (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__mlp_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc4__mlp_kernel_eq_skeleton]; unfold cc4__mlp_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5

    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KiMlp4.lean ====
/-
  Region 4: what the block output, the two row outputs and the two accumulator rows hold after each grid point (a
  recursion over the points: the first resets the accumulators, every later one adds to what the point before left, the
  last also copies them out), the proof data built from that, and the body obligation at every point.
-/
import proofs.«124822_j54752243090034_1_alg».proof.Proof.KiMlp4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave, read back -/

theorem cover4_A_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (y : S2000x128.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1 S2000x128.size (by sl_kernel_rfl) y
def out4_A_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1)
def out4_A_7 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VO4_7.read (Elt F) (VO4_7.writes (Elt F) VO4_7.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.1)
def out4_A_8 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VO4_8.read (Elt F) (VO4_8.writes (Elt F) VO4_8.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.1)
theorem scover4_A_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x128.size (by sl_kernel_rfl) y
def sout4_A_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)
theorem scover4_A_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x128.size (by sl_kernel_rfl) y
def sout4_A_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

theorem cover4_B_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S2000x128.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
def out4_B_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S2000x128 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
def out4_B_7 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO4_7.read (Elt F) (VO4_7.writes (Elt F) VO4_7.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
def out4_B_8 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO4_8.read (Elt F) (VO4_8.writes (Elt F) VO4_8.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
theorem scover4_B_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
def sout4_B_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)
theorem scover4_B_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
def sout4_B_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

theorem cover4_C_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S2000x128.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y
def out4_C_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S2000x128 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
theorem cover4_C_7 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
def out4_C_7 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO4_7.read (Elt F) (VO4_7.writes (Elt F) VO4_7.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
theorem cover4_C_8 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
def out4_C_8 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO4_8.read (Elt F) (VO4_8.writes (Elt F) VO4_8.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
theorem scover4_C_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
def sout4_C_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)
theorem scover4_C_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
def sout4_C_1 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

section
variable (V : (c : Dev nD) → (b : Ref sig .tc) → Buf (Elt F) ((c : Thread nD τ).loc b))

/-! ## The accumulation, point by point -/

/-- After the body at position `n`: the block output, the two row outputs, the two accumulator rows. -/
def outsAt4 (c : Dev nD) : (n : ℕ) → n < cfg4.N → Vec F S2000x128 .f32 × Vec F S1x128 .f32 × Vec F S1x128 .f32 × Vec F S1x128 .f32 × Vec F S1x128 .f32
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => absurd ((hcond4_1 ⟨0, hn⟩).mp h) (show ¬ (0 : ℕ) = 24 by decide)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => absurd ((hcond4_1 ⟨0, hn⟩).mp h) (show ¬ (0 : ℕ) = 24 by decide)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), out4_A_8 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => absurd ((hcond4_1 ⟨0, hn⟩).mp h) (show ¬ (0 : ℕ) = 24 by decide)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => absurd ((hcond4_1 ⟨0, hn⟩).mp h) (show ¬ (0 : ℕ) = 24 by decide)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => absurd ((hcond4_1 ⟨0, hn⟩).mp h) (show ¬ (0 : ℕ) = 24 by decide)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h1 : n + 1 = 24 then
      (out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, out4_C_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, out4_C_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2)
    else
      (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, out4_B_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2)

theorem outsAt4_A (c : Dev nD) (t : Fin cfg4.N) (h0 : t.val = 0) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => absurd ((hcond4_1 t).mp h) (by omega)) (iblk4 V c 0 t) (iblk4 V c 1 t) (iblk4 V c 2 t) (iblk4 V c 3 t) (iblk4 V c 4 t) (iblk4 V c 5 t), out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => absurd ((hcond4_1 t).mp h) (by omega)) (iblk4 V c 0 t) (iblk4 V c 1 t) (iblk4 V c 2 t) (iblk4 V c 3 t) (iblk4 V c 4 t) (iblk4 V c 5 t), out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => absurd ((hcond4_1 t).mp h) (by omega)) (iblk4 V c 0 t) (iblk4 V c 1 t) (iblk4 V c 2 t) (iblk4 V c 3 t) (iblk4 V c 4 t) (iblk4 V c 5 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => absurd ((hcond4_1 t).mp h) (by omega)) (iblk4 V c 0 t) (iblk4 V c 1 t) (iblk4 V c 2 t) (iblk4 V c 3 t) (iblk4 V c 4 t) (iblk4 V c 5 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => absurd ((hcond4_1 t).mp h) (by omega)) (iblk4 V c 0 t) (iblk4 V c 1 t) (iblk4 V c 2 t) (iblk4 V c 3 t) (iblk4 V c 4 t) (iblk4 V c 5 t)) := by
  obtain ⟨n, hn⟩ := t
  cases n with
  | zero => rfl
  | succ n => exact absurd h0 (Nat.succ_ne_zero n)

theorem outsAt4_B (c : Dev nD) (t : Fin cfg4.N) (h0 : ¬t.val = 0) (h1 : ¬t.val = 24) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_neg h1).trans rfl

theorem outsAt4_C (c : Dev nD) (t : Fin cfg4.N) (h0 : ¬t.val = 0) (h1 : t.val = 24) :
    outsAt4 V c t.val t.isLt = (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The region's invariant before position `n`: before the first point whatever the launch hands over; afterwards the
    two accumulator rows at what the point before left, every other scoped buffer and the generator register untouched. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1]) ∗ (∃ r, prngReg c r)) := rfl
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2.1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 25 := lt_of_lt_of_eq t.isLt (show cfg4.N = 25 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  rw [show (dat4 V c).leavesExact 6 t = owns (c : Thread nD τ) (ms4_6 t) fullShare ((dat4 V c).after 6 t) from by
    unfold Dat.leavesExact; rw [liveAt4_6 t], after4_6]
  by_cases h0 : t.val = 0
  · have hc1 : ¬cond4_1 (grid4.coords t) := fun h => absurd ((hcond4_1 t).mp h) (by omega)
    rw [Dat.leavesExact_idle (dat4 V c) 7 t (idleAt4_7 t hc1) (noFlush4_7 t hc1),
      Dat.leavesExact_idle (dat4 V c) 8 t (idleAt4_8 t hc1) (noFlush4_8 t hc1)]
    rw [outsAt4_A V c t h0]
    unfold out4_A_6 sout4_A_0 sout4_A_1; (try dsimp only)
    rw [PhiS4_castSucc V c t, PhiS4_zero V c _ _ h0, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_A c (grid4.coords t) _ _ _ _ _ _ _ _ _ _ _ _ _ _ _ _ _ _ _ _ _ _ ((hcond4_0 t).mpr h0) (fun h => absurd ((hcond4_1 t).mp h) (by omega)) (iblk4 V c 0 t) (iblk4 V c 1 t) (iblk4 V c 2 t) (iblk4 V c 3 t) (iblk4 V c 4 t) (iblk4 V c 5 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover4_A_1 c _ _ _ _ _ _ _ _ _ _ _ _ _ _ _ _ _ _ _ _ _ _ _ _ _ _ _ _ _ _ _ )
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _ _ _ _ _ _ _ _ _ )
    isplitl [H7]; · iexists _; iexact H7
    iexists _; iexact H8
  · by_cases h1 : t.val = 24
    · rw [show (dat4 V c).leavesExact 7 t = owns (c : Thread nD τ) (ms4_7 t) fullShare ((dat4 V c).after 7 t) from by
        unfold Dat.leavesExact; rw [liveAt4_7_C t ((hcond4_1 t).mpr h1)], after4_7]
      rw [show (dat4 V c).leavesExact 8 t = owns (c : Thread nD τ) (ms4_8 t) fullShare ((dat4 V c).after 8 t) from by
        unfold Dat.leavesExact; rw [liveAt4_8_C t ((hcond4_1 t).mpr h1)], after4_8]
      rw [outsAt4_C V c t h0 h1]
      unfold out4_C_6 out4_C_7 out4_C_8 sout4_C_0 sout4_C_1; (try dsimp only)
      rw [PhiS4_castSucc V c t, PhiS4_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_C c (grid4.coords t) _ _ _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover4_C_1 c _ _ _ _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_C_6 c _ _ _ _ _ _ _ _ _ _ _ _ _ _ _ _ _ _ _ _ _ _ _ _ _ _ _ _ _ _ _ _ _ )
      isplitl [H7]
      · unfold owns; iexists _; isplitr
        swap; · iexact H7
        ipureintro; exact View.read_writes_of_cover _ _ _ _ _ (cover4_C_7 c _ _ _ _ _ _ _ _ _ _ _ _ _ _ _ _ _ _ _ _ _ _ _ _ _ _ _ _ _ _ _ _ _ )
      unfold owns; iexists _; isplitr
      swap; · iexact H8
      ipureintro; exact View.read_writes_of_cover _ _ _ _ _ (cover4_C_8 c _ _ _ _ _ _ _ _ _ _ _ _ _ _ _ _ _ _ _ _ _ _ _ _ _ _ _ _ _ _ _ _ _ )
    · have hc1 : ¬cond4_1 (grid4.coords t) := fun h => h1 ((hcond4_1 t).mp h)
      rw [Dat.leavesExact_idle (dat4 V c) 7 t (idleAt4_7 t hc1) (noFlush4_7 t hc1),
        Dat.leavesExact_idle (dat4 V c) 8 t (idleAt4_8 t hc1) (noFlush4_8 t hc1)]
      rw [outsAt4_B V c t h0 h1]
      unfold out4_B_6 sout4_B_0 sout4_B_1; (try dsimp only)
      rw [PhiS4_castSucc V c t, PhiS4_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_B c (grid4.coords t) _ _ _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _ _ _ _ _ )
            · unfold owns; iexists _; isplitr
              swap; · iexact HS1
              ipureintro; exact View.read_writes_of_cover _ _ _ _ _ (scover4_B_1 c _ _ _ _ _ _ _ _ _ _ _ _ _ _ _ _ _ _ _ _ _ _ _ _ _ _ _ _ _ _ _ _ _ )
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_B_6 c _ _ _ _ _ _ _ _ _ _ _ _ _ _ _ _ _ _ _ _ _ _ _ _ _ _ _ _ _ _ _ _ _ )
      isplitl [H7]; · iexists _; iexact H7
      iexists _; iexact H8

theorem body_obligation4 (c : Dev nD) : BodyObligation (dat4 (F := F) V c) (defs₀ (F := F)) Variants.none () Set.univ := fun t => by
  rw [bigSep_W4, bigSep_W4]
  exact sound_body4 V c t

/-- What the launch hands the region is the invariant before the first point, -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- and after the last point the invariant gives it back, the accumulators' contents forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 25 := N_4; omega), PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end

end Cert.KernelIdeal.Hand

end
-- ==== Proof.KiBn1.lean ====
import proofs.«124822_j54752243090034_1_alg».proof.Proof.Gen.KernelIdeal.Launch
import proofs.«124822_j54752243090034_1_alg».proof.Proof.Gen.KernelIdeal.Skeleton
import proofs.«124822_j54752243090034_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueLayout
import Idealize.ShloMosaic.PureOps.Ideal.Laws

/-!
# The normalisation region of pallas call 1, at arbitrary region-entry contents

The kernel of pallas call 1 walks 25 row blocks. At each block it reads six staging buffers whole — the block of
`h` (2000 × 128), the block of `x` (2000 × 128) and the four rows mean, var, gamma, beta (1 × 128 each, the same
row at every block) — and overwrites the whole 2000 × 128 output buffer with one value computed from those six. It
keeps nothing from one block to the next and branches on nothing.

So what the body leaves in the output buffer is a closed function `out1_6` of the six blocks, and what it finds in
an input buffer is that window's block of the array as the region found it, whether or not the pipeline copied the
block in at that very point (the four rows are copied in once, at the first point). This file states exactly that,
for any float interpretation `F` and for ANY contents `V` of the core's buffers at region entry:

* `iblk1` — a window's block at a grid point, read off `V`;
* `out1_6` — the output buffer after the body, from the six input blocks;
* `sound_kernel1` — the body's triple on whole staging buffers;
* `dat1` — the pipeline's proof data (arrays `V`, full shares, nothing owed, the scoped rest untouched);
* `body_obligation1` — the pipeline library's body obligation for that proof data.

A last section reads `out1_6` at one index over the extended reals (`out1_6_apply`).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Bn1
-- what each core holds in each of its unscoped buffers at the moment the region starts
variable (V : (c : Dev nD) → (b : Ref sig .tc) → Buf (Elt F) ((c : Thread nD τ).loc b))

/-! ## The windows' blocks -/

/-- Window `w`'s block at grid point `t`: the part of the window's array, as the region finds it, that the
    window's index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whatever proof data has the region-entry array (`hA`) and leaves the block where it was
    (`hafter`), the staging buffer handed to the body at point `t` reads as the window's block there. A point that
    does not fetch the window has the block index of the point before it, so the buffer still holds the right block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: whatever proof data has the region-entry array (`hA`) and leaves the block where it was
    (`hafter`), the staging buffer handed to the body at point `t` reads as the window's block there. A point that
    does not fetch the window has the block index of the point before it, so the buffer still holds the right block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: whatever proof data has the region-entry array (`hA`) and leaves the block where it was
    (`hafter`), the staging buffer handed to the body at point `t` reads as the window's block there. A point that
    does not fetch the window has the block index of the point before it, so the buffer still holds the right block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: whatever proof data has the region-entry array (`hA`) and leaves the block where it was
    (`hafter`), the staging buffer handed to the body at point `t` reads as the window's block there. A point that
    does not fetch the window has the block index of the point before it, so the buffer still holds the right block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: whatever proof data has the region-entry array (`hA`) and leaves the block where it was
    (`hafter`), the staging buffer handed to the body at point `t` reads as the window's block there. A point that
    does not fetch the window has the block index of the point before it, so the buffer still holds the right block. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5: whatever proof data has the region-entry array (`hA`) and leaves the block where it was
    (`hafter`), the staging buffer handed to the body at point `t` reads as the window's block there. A point that
    does not fetch the window has the block index of the point before it, so the buffer still holds the right block. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's two access rectangles: a whole 2000 × 128 buffer, a whole 1 × 128 row -/

abbrev r1_blk : Rect S2000x128 := Rect.unit (s := S2000x128) ![0, 0] S2000x128.size inb_S2000x128_S2000x128_0_0
abbrev r1_row : Rect S1x128 := Rect.unit (s := S1x128) ![0, 0] S1x128.size inb_S1x128_S1x128_0_0

/-! ## What the body leaves in the output buffer -/

/-- The output buffer after the body, from the six input blocks `x0` (h), `x1` (x), `x2 … x5` (mean, var, gamma,
    beta): its single whole-buffer store, whose payload is the kernel's value of the six loads. -/
def out1_6 (x0 : Vec F S2000x128 .f32) (x1 : Vec F S2000x128 .f32) (x2 : Vec F S1x128 .f32) (x3 : Vec F S1x128 .f32) (x4 : Vec F S1x128 .f32) (x5 : Vec F S1x128 .f32) : Vec F S2000x128 .f32 :=
  View.canon [⟨r1_blk, k1_pay1 (View.ld x0 r1_blk) (View.ld x2 r1_row) (View.ld x3 r1_row) (View.ld x4 r1_row) (View.ld x5 r1_row) (View.ld x1 r1_blk)⟩]

/-- One store through the whole-buffer rectangle covers every index of the buffer. -/
theorem cover1_6 (p0 : Vec F S2000x128 .f32) (y : S2000x128.Idx) :
    ∃ pc ∈ ([⟨r1_blk, p0⟩] : List (View.Piece (Elt F) S2000x128 .f32)), y ∈ pc.1.set :=
  View.cover_of_tiledL [⟨r1_blk, p0⟩] S2000x128.size (by sl_kernel_rfl) y

/-! ## The body's triple -/

set_option maxHeartbeats 1000000 in
/-- The body on seven whole staging buffers — the six inputs' reading `x0 … x5`, the output's holding anything —
    runs to a continuation that gets the inputs back unchanged and the output buffer reading `out1_6` of them. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__bn_kernel i arg1 harg1 arg2 harg2 arg3 harg3 arg4 harg4 arg5 harg5 arg6 harg6 arg7 harg7) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: every window's array is what the region finds (`V`); after the body at
    point `t` an input's buffer still reads its block and the output's reads `out1_6` of the six input blocks; the
    invariant is "the scoped rest and the generator register are untouched"; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer reads its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`: the invariant, the core's debts, and each window's current staging
    buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the input buffers read their blocks (`before1_w`), so the kernel's triple applies; the
    invariant and the debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Bn1

/-! ## The output buffer at an index, over the extended reals -/

section AtIdeal1

open Idealize.ShloMosaic.ValueIdx

/-- The body's rectangles start at offset zero on both axes. -/
theorem zero_off1 : (![0, 0] : Fin 2 → Nat) = fun _ => 0 := funext fun a => by fin_cases a <;> rfl

/-- With exact arithmetic, the body leaves at row `p`, column `q` of the output buffer
    `x + max (gamma * (h − mean) * rsqrt (var + ε) + beta) 0`, the four rows read at column `q`, `h` and `x` at
    `(p, q)`, and `ε` the single-precision constant nearest 1e-5. -/
theorem out1_6_apply (x0 x1 : Vec Ideal S2000x128 .f32) (x2 x3 x4 x5 : Vec Ideal S1x128 .f32) (p : Fin 2000) (q : Fin 128) :
    out1_6 x0 x1 x2 x3 x4 x5 (ix2 p q)
      = x1 (ix2 p q) + max (x4 (ix2 (0 : Fin 1) q) * (x0 (ix2 p q) - x2 (ix2 (0 : Fin 1) q))
          * Ideal.rsqrt (x3 (ix2 (0 : Fin 1) q) + Ideal.ofBits .f32 0x3727C5AC#32) + x5 (ix2 (0 : Fin 1) q)) 0 := by
  unfold out1_6
  rw [View.canon_unit_zero zero_off1]
  simp only [View.ld_unit_zero (S := S2000x128) zero_off1, View.ld_unit_zero (S := S1x128) zero_off1]
  unfold k1_pay1
  simp only [shapeCast_self]
  simp only [addf_apply, maximumf_apply, mulf_apply, subf_apply, broadcast_apply, broadcastTo_1b_ab_apply]
  rw [← Ideal.ofBits_zero_f32]
  rfl

end AtIdeal1

end Cert.KernelIdeal.Hand

end
-- ==== Proof.KiBn3.lean ====
import proofs.«124822_j54752243090034_1_alg».proof.Proof.Gen.KernelIdeal.Launch
import proofs.«124822_j54752243090034_1_alg».proof.Proof.Gen.KernelIdeal.Skeleton
import proofs.«124822_j54752243090034_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueLayout
import Idealize.ShloMosaic.PureOps.Ideal.Laws

/-!
# The normalisation region of pallas call 3, at arbitrary region-entry contents

The kernel of pallas call 3 walks 25 row blocks. At each block it reads six staging buffers whole — the block of
`h` (2000 × 128), the block of `x` (2000 × 128) and the four rows mean, var, gamma, beta (1 × 128 each, the same
row at every block) — and overwrites the whole 2000 × 128 output buffer with one value computed from those six. It
keeps nothing from one block to the next and branches on nothing.

So what the body leaves in the output buffer is a closed function `out3_6` of the six blocks, and what it finds in
an input buffer is that window's block of the array as the region found it, whether or not the pipeline copied the
block in at that very point (the four rows are copied in once, at the first point). This file states exactly that,
for any float interpretation `F` and for ANY contents `V` of the core's buffers at region entry:

* `iblk3` — a window's block at a grid point, read off `V`;
* `out3_6` — the output buffer after the body, from the six input blocks;
* `sound_kernel3` — the body's triple on whole staging buffers;
* `dat3` — the pipeline's proof data (arrays `V`, full shares, nothing owed, the scoped rest untouched);
* `body_obligation3` — the pipeline library's body obligation for that proof data.

A last section reads `out3_6` at one index over the extended reals (`out3_6_apply`).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Bn3
-- what each core holds in each of its unscoped buffers at the moment the region starts
variable (V : (c : Dev nD) → (b : Ref sig .tc) → Buf (Elt F) ((c : Thread nD τ).loc b))

/-! ## The windows' blocks -/

/-- Window `w`'s block at grid point `t`: the part of the window's array, as the region finds it, that the
    window's index map selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whatever proof data has the region-entry array (`hA`) and leaves the block where it was
    (`hafter`), the staging buffer handed to the body at point `t` reads as the window's block there. A point that
    does not fetch the window has the block index of the point before it, so the buffer still holds the right block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: whatever proof data has the region-entry array (`hA`) and leaves the block where it was
    (`hafter`), the staging buffer handed to the body at point `t` reads as the window's block there. A point that
    does not fetch the window has the block index of the point before it, so the buffer still holds the right block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: whatever proof data has the region-entry array (`hA`) and leaves the block where it was
    (`hafter`), the staging buffer handed to the body at point `t` reads as the window's block there. A point that
    does not fetch the window has the block index of the point before it, so the buffer still holds the right block. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: whatever proof data has the region-entry array (`hA`) and leaves the block where it was
    (`hafter`), the staging buffer handed to the body at point `t` reads as the window's block there. A point that
    does not fetch the window has the block index of the point before it, so the buffer still holds the right block. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4: whatever proof data has the region-entry array (`hA`) and leaves the block where it was
    (`hafter`), the staging buffer handed to the body at point `t` reads as the window's block there. A point that
    does not fetch the window has the block index of the point before it, so the buffer still holds the right block. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5: whatever proof data has the region-entry array (`hA`) and leaves the block where it was
    (`hafter`), the staging buffer handed to the body at point `t` reads as the window's block there. A point that
    does not fetch the window has the block index of the point before it, so the buffer still holds the right block. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's two access rectangles: a whole 2000 × 128 buffer, a whole 1 × 128 row -/

abbrev r3_blk : Rect S2000x128 := Rect.unit (s := S2000x128) ![0, 0] S2000x128.size inb_S2000x128_S2000x128_0_0
abbrev r3_row : Rect S1x128 := Rect.unit (s := S1x128) ![0, 0] S1x128.size inb_S1x128_S1x128_0_0

/-! ## What the body leaves in the output buffer -/

/-- The output buffer after the body, from the six input blocks `x0` (h), `x1` (x), `x2 … x5` (mean, var, gamma,
    beta): its single whole-buffer store, whose payload is the kernel's value of the six loads. -/
def out3_6 (x0 : Vec F S2000x128 .f32) (x1 : Vec F S2000x128 .f32) (x2 : Vec F S1x128 .f32) (x3 : Vec F S1x128 .f32) (x4 : Vec F S1x128 .f32) (x5 : Vec F S1x128 .f32) : Vec F S2000x128 .f32 :=
  View.canon [⟨r3_blk, k3_pay1 (View.ld x0 r3_blk) (View.ld x2 r3_row) (View.ld x3 r3_row) (View.ld x4 r3_row) (View.ld x5 r3_row) (View.ld x1 r3_blk)⟩]

/-- One store through the whole-buffer rectangle covers every index of the buffer. -/
theorem cover3_6 (p0 : Vec F S2000x128 .f32) (y : S2000x128.Idx) :
    ∃ pc ∈ ([⟨r3_blk, p0⟩] : List (View.Piece (Elt F) S2000x128 .f32)), y ∈ pc.1.set :=
  View.cover_of_tiledL [⟨r3_blk, p0⟩] S2000x128.size (by sl_kernel_rfl) y

/-! ## The body's triple -/

set_option maxHeartbeats 1000000 in
/-- The body on seven whole staging buffers — the six inputs' reading `x0 … x5`, the output's holding anything —
    runs to a continuation that gets the inputs back unchanged and the output buffer reading `out3_6` of them. -/
theorem sound_kernel3 (c : Dev nD) (E : Set ℕ) (i : grid3.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__bn_kernel i arg1 harg1 arg2 harg2 arg3 harg3 arg4 harg4 arg5 harg5 arg6 harg6 arg7 harg7) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of pipeline 3 on core `c`: every window's array is what the region finds (`V`); after the body at
    point `t` an input's buffer still reads its block and the output's reads `out3_6` of the six input blocks; the
    invariant is "the scoped rest and the generator register are untouched"; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

/-- Each input's current staging buffer reads its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`: the invariant, the core's debts, and each window's current staging
    buffer at what the pipeline left there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the input buffers read their blocks (`before3_w`), so the kernel's triple applies; the
    invariant and the debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Bn3

/-! ## The output buffer at an index, over the extended reals -/

section AtIdeal3

open Idealize.ShloMosaic.ValueIdx

/-- The body's rectangles start at offset zero on both axes. -/
theorem zero_off3 : (![0, 0] : Fin 2 → Nat) = fun _ => 0 := funext fun a => by fin_cases a <;> rfl

/-- With exact arithmetic, the body leaves at row `p`, column `q` of the output buffer
    `x + max (gamma * (h − mean) * rsqrt (var + ε) + beta) 0`, the four rows read at column `q`, `h` and `x` at
    `(p, q)`, and `ε` the single-precision constant nearest 1e-5. -/
theorem out3_6_apply (x0 x1 : Vec Ideal S2000x128 .f32) (x2 x3 x4 x5 : Vec Ideal S1x128 .f32) (p : Fin 2000) (q : Fin 128) :
    out3_6 x0 x1 x2 x3 x4 x5 (ix2 p q)
      = x1 (ix2 p q) + max (x4 (ix2 (0 : Fin 1) q) * (x0 (ix2 p q) - x2 (ix2 (0 : Fin 1) q))
          * Ideal.rsqrt (x3 (ix2 (0 : Fin 1) q) + Ideal.ofBits .f32 0x3727C5AC#32) + x5 (ix2 (0 : Fin 1) q)) 0 := by
  unfold out3_6
  rw [View.canon_unit_zero zero_off3]
  simp only [View.ld_unit_zero (S := S2000x128) zero_off3, View.ld_unit_zero (S := S1x128) zero_off3]
  unfold k3_pay1
  simp only [shapeCast_self]
  simp only [addf_apply, maximumf_apply, mulf_apply, subf_apply, broadcast_apply, broadcastTo_1b_ab_apply]
  rw [← Ideal.ofBits_zero_f32]
  rfl

end AtIdeal3

end Cert.KernelIdeal.Hand

end
-- ==== Proof.KiBn5.lean ====
import proofs.«124822_j54752243090034_1_alg».proof.Proof.Gen.KernelIdeal.Launch
import proofs.«124822_j54752243090034_1_alg».proof.Proof.Gen.KernelIdeal.Skeleton
import proofs.«124822_j54752243090034_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueLayout
import Idealize.ShloMosaic.PureOps.Ideal.Laws

/-!
# The normalisation region of pallas call 5, at arbitrary region-entry contents

The kernel of pallas call 5 walks 25 row blocks. At each block it reads six staging buffers whole — the block of
`h` (2000 × 128), the block of `x` (2000 × 128) and the four rows mean, var, gamma, beta (1 × 128 each, the same
row at every block) — and overwrites the whole 2000 × 128 output buffer with one value computed from those six. It
keeps nothing from one block to the next and branches on nothing.

So what the body leaves in the output buffer is a closed function `out5_6` of the six blocks, and what it finds in
an input buffer is that window's block of the array as the region found it, whether or not the pipeline copied the
block in at that very point (the four rows are copied in once, at the first point). This file states exactly that,
for any float interpretation `F` and for ANY contents `V` of the core's buffers at region entry:

* `iblk5` — a window's block at a grid point, read off `V`;
* `out5_6` — the output buffer after the body, from the six input blocks;
* `sound_kernel5` — the body's triple on whole staging buffers;
* `dat5` — the pipeline's proof data (arrays `V`, full shares, nothing owed, the scoped rest untouched);
* `body_obligation5` — the pipeline library's body obligation for that proof data.

A last section reads `out5_6` at one index over the extended reals (`out5_6_apply`).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Bn5
-- what each core holds in each of its unscoped buffers at the moment the region starts
variable (V : (c : Dev nD) → (b : Ref sig .tc) → Buf (Elt F) ((c : Thread nD τ).loc b))

/-! ## The windows' blocks -/

/-- Window `w`'s block at grid point `t`: the part of the window's array, as the region finds it, that the
    window's index map selects there. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0: whatever proof data has the region-entry array (`hA`) and leaves the block where it was
    (`hafter`), the staging buffer handed to the body at point `t` reads as the window's block there. A point that
    does not fetch the window has the block index of the point before it, so the buffer still holds the right block. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1: whatever proof data has the region-entry array (`hA`) and leaves the block where it was
    (`hafter`), the staging buffer handed to the body at point `t` reads as the window's block there. A point that
    does not fetch the window has the block index of the point before it, so the buffer still holds the right block. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2: whatever proof data has the region-entry array (`hA`) and leaves the block where it was
    (`hafter`), the staging buffer handed to the body at point `t` reads as the window's block there. A point that
    does not fetch the window has the block index of the point before it, so the buffer still holds the right block. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3: whatever proof data has the region-entry array (`hA`) and leaves the block where it was
    (`hafter`), the staging buffer handed to the body at point `t` reads as the window's block there. A point that
    does not fetch the window has the block index of the point before it, so the buffer still holds the right block. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4: whatever proof data has the region-entry array (`hA`) and leaves the block where it was
    (`hafter`), the staging buffer handed to the body at point `t` reads as the window's block there. A point that
    does not fetch the window has the block index of the point before it, so the buffer still holds the right block. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5: whatever proof data has the region-entry array (`hA`) and leaves the block where it was
    (`hafter`), the staging buffer handed to the body at point `t` reads as the window's block there. A point that
    does not fetch the window has the block index of the point before it, so the buffer still holds the right block. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's two access rectangles: a whole 2000 × 128 buffer, a whole 1 × 128 row -/

abbrev r5_blk : Rect S2000x128 := Rect.unit (s := S2000x128) ![0, 0] S2000x128.size inb_S2000x128_S2000x128_0_0
abbrev r5_row : Rect S1x128 := Rect.unit (s := S1x128) ![0, 0] S1x128.size inb_S1x128_S1x128_0_0

/-! ## What the body leaves in the output buffer -/

/-- The output buffer after the body, from the six input blocks `x0` (h), `x1` (x), `x2 … x5` (mean, var, gamma,
    beta): its single whole-buffer store, whose payload is the kernel's value of the six loads. -/
def out5_6 (x0 : Vec F S2000x128 .f32) (x1 : Vec F S2000x128 .f32) (x2 : Vec F S1x128 .f32) (x3 : Vec F S1x128 .f32) (x4 : Vec F S1x128 .f32) (x5 : Vec F S1x128 .f32) : Vec F S2000x128 .f32 :=
  View.canon [⟨r5_blk, k5_pay1 (View.ld x0 r5_blk) (View.ld x2 r5_row) (View.ld x3 r5_row) (View.ld x4 r5_row) (View.ld x5 r5_row) (View.ld x1 r5_blk)⟩]

/-- One store through the whole-buffer rectangle covers every index of the buffer. -/
theorem cover5_6 (p0 : Vec F S2000x128 .f32) (y : S2000x128.Idx) :
    ∃ pc ∈ ([⟨r5_blk, p0⟩] : List (View.Piece (Elt F) S2000x128 .f32)), y ∈ pc.1.set :=
  View.cover_of_tiledL [⟨r5_blk, p0⟩] S2000x128.size (by sl_kernel_rfl) y

/-! ## The body's triple -/

set_option maxHeartbeats 1000000 in
/-- The body on seven whole staging buffers — the six inputs' reading `x0 … x5`, the output's holding anything —
    runs to a continuation that gets the inputs back unchanged and the output buffer reading `out5_6` of them. -/
theorem sound_kernel5 (c : Dev nD) (E : Set ℕ) (i : grid5.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__bn_kernel i arg1 harg1 arg2 harg2 arg3 harg3 arg4 harg4 arg5 harg5 arg6 harg6 arg7 harg7) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of pipeline 5 on core `c`: every window's array is what the region finds (`V`); after the body at
    point `t` an input's buffer still reads its block and the output's reads `out5_6` of the six input blocks; the
    invariant is "the scoped rest and the generator register are untouched"; full shares; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer reads its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`: the invariant, the core's debts, and each window's current staging
    buffer at what the pipeline left there, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it hands back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the input buffers read their blocks (`before5_w`), so the kernel's triple applies; the
    invariant and the debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation5 (c : Dev nD) : BodyObligation (dat5 (F := F) V c) (defs₀ (F := F)) Variants.none () Set.univ := fun t => by
  rw [bigSep_W5, bigSep_W5]
  exact sound_body5 V c t

end Bn5

/-! ## The output buffer at an index, over the extended reals -/

section AtIdeal5

open Idealize.ShloMosaic.ValueIdx

/-- The body's rectangles start at offset zero on both axes. -/
theorem zero_off5 : (![0, 0] : Fin 2 → Nat) = fun _ => 0 := funext fun a => by fin_cases a <;> rfl

/-- With exact arithmetic, the body leaves at row `p`, column `q` of the output buffer
    `x + max (gamma * (h − mean) * rsqrt (var + ε) + beta) 0`, the four rows read at column `q`, `h` and `x` at
    `(p, q)`, and `ε` the single-precision constant nearest 1e-5. -/
theorem out5_6_apply (x0 x1 : Vec Ideal S2000x128 .f32) (x2 x3 x4 x5 : Vec Ideal S1x128 .f32) (p : Fin 2000) (q : Fin 128) :
    out5_6 x0 x1 x2 x3 x4 x5 (ix2 p q)
      = x1 (ix2 p q) + max (x4 (ix2 (0 : Fin 1) q) * (x0 (ix2 p q) - x2 (ix2 (0 : Fin 1) q))
          * Ideal.rsqrt (x3 (ix2 (0 : Fin 1) q) + Ideal.ofBits .f32 0x3727C5AC#32) + x5 (ix2 (0 : Fin 1) q)) 0 := by
  unfold out5_6
  rw [View.canon_unit_zero zero_off5]
  simp only [View.ld_unit_zero (S := S2000x128) zero_off5, View.ld_unit_zero (S := S1x128) zero_off5]
  unfold k5_pay1
  simp only [shapeCast_self]
  simp only [addf_apply, maximumf_apply, mulf_apply, subf_apply, broadcast_apply, broadcastTo_1b_ab_apply]
  rw [← Ideal.ofBits_zero_f32]
  rfl

end AtIdeal5

end Cert.KernelIdeal.Hand

end
-- ==== Proof.KiRun.lean ====
/-
  The whole run of @main: twelve segments — a stretch of host operations, then a kernel region, six times over —, the
  buffer contents at every boundary as a fold from the launch memory (a host stretch applies its operations; a region
  leaves its arrays at what its write-backs fold to and every other buffer as entered), each region as a segment over
  the thread state "every unscoped buffer at the boundary's contents, the generator register at some state, nothing owed",
  and the run: every weakly fair execution terminates, nothing faults, every unscoped buffer ends at the last
  boundary's contents — in particular each argument as launched and the result at what region 5 writes back.
-/
import proofs.«124822_j54752243090034_1_alg».proof.Proof.KiMlp0
import proofs.«124822_j54752243090034_1_alg».proof.Proof.KiMlp2
import proofs.«124822_j54752243090034_1_alg».proof.Proof.KiMlp4
import proofs.«124822_j54752243090034_1_alg».proof.Proof.KiBn1
import proofs.«124822_j54752243090034_1_alg».proof.Proof.KiBn3
import proofs.«124822_j54752243090034_1_alg».proof.Proof.KiBn5
import proofs.«124822_j54752243090034_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

abbrev W0 : Dev nD → Valuation τ sig (Elt F) := fun c b => m (c, b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
theorem W1_keep (c : Dev nD) (r : Ref sig .tc) (h : r ∉ hostOps0_W) : W1 m c (Proc.devRef .tc r) = W0 m c (Proc.devRef .tc r) :=
  StableHlo.after_of_writes_sub hostOps0 _ hostOps0_writes h
abbrev W3 : Dev nD → Valuation τ sig (Elt F) := fun c => StableHlo.after hostOps1 (W2 m c)
abbrev U3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
theorem W3_keep (c : Dev nD) (r : Ref sig .tc) (h : r ∉ hostOps1_W) : W3 m c (Proc.devRef .tc r) = W2 m c (Proc.devRef .tc r) :=
  StableHlo.after_of_writes_sub hostOps1 _ hostOps1_writes h
abbrev W5 : Dev nD → Valuation τ sig (Elt F) := fun c => StableHlo.after hostOps2 (W4 m c)
abbrev U5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
theorem W5_keep (c : Dev nD) (r : Ref sig .tc) (h : r ∉ hostOps2_W) : W5 m c (Proc.devRef .tc r) = W4 m c (Proc.devRef .tc r) :=
  StableHlo.after_of_writes_sub hostOps2 _ hostOps2_writes h
abbrev W7 : Dev nD → Valuation τ sig (Elt F) := fun c => StableHlo.after hostOps3 (W6 m c)
abbrev U7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)
theorem W7_keep (c : Dev nD) (r : Ref sig .tc) (h : r ∉ hostOps3_W) : W7 m c (Proc.devRef .tc r) = W6 m c (Proc.devRef .tc r) :=
  StableHlo.after_of_writes_sub hostOps3 _ hostOps3_writes h
abbrev W9 : Dev nD → Valuation τ sig (Elt F) := fun c => StableHlo.after hostOps4 (W8 m c)
abbrev U9 : (c : Dev nD) → (b : Ref sig .tc) → Buf (Elt F) ((c : Thread nD τ).loc b) := fun c b => W9 m c b
def W10 (c : Dev nD) : Valuation τ sig (Elt F) :=
  Pipeline.withArrays spec4 c (W9 m c) fun w => (dat4 (U9 m) c).arrAt w cfg4.N
theorem W10_arr (c : Dev nD) (w : Fin cfg4.W) :
    W10 m c (Proc.devRef .tc (Pipeline.arrRef spec4 w)) = (dat4 (U9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev U10 : (c : Dev nD) → (b : Ref sig .tc) → Buf (Elt F) ((c : Thread nD τ).loc b) := fun c b => W10 m c b
theorem hF4 (c : Dev nD) (w : Fin cfg4.W) : (dat4 (U9 m) c).arrAt w cfg4.N = U10 m c (Pipeline.arrRef spec4 w) :=
  (W10_arr m c w).symm
theorem hrest4 (c : Dev nD) : ∀ b, b ∉ Finset.univ.image (Pipeline.arrRef spec4) → U10 m c b = U9 m c b :=
  fun b hb => W10_of_ne m c b fun w e => hb (Finset.mem_image.mpr ⟨w, Finset.mem_univ _, e⟩)
theorem W9_keep (c : Dev nD) (r : Ref sig .tc) (h : r ∉ hostOps4_W) : W9 m c (Proc.devRef .tc r) = W8 m c (Proc.devRef .tc r) :=
  StableHlo.after_of_writes_sub hostOps4 _ hostOps4_writes h
abbrev W11 : Dev nD → Valuation τ sig (Elt F) := fun c => StableHlo.after hostOps5 (W10 m c)
abbrev U11 : (c : Dev nD) → (b : Ref sig .tc) → Buf (Elt F) ((c : Thread nD τ).loc b) := fun c b => W11 m c b
def W12 (c : Dev nD) : Valuation τ sig (Elt F) :=
  Pipeline.withArrays spec5 c (W11 m c) fun w => (dat5 (U11 m) c).arrAt w cfg5.N
theorem W12_arr (c : Dev nD) (w : Fin cfg5.W) :
    W12 m c (Proc.devRef .tc (Pipeline.arrRef spec5 w)) = (dat5 (U11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev U12 : (c : Dev nD) → (b : Ref sig .tc) → Buf (Elt F) ((c : Thread nD τ).loc b) := fun c b => W12 m c b
theorem hF5 (c : Dev nD) (w : Fin cfg5.W) : (dat5 (U11 m) c).arrAt w cfg5.N = U12 m c (Pipeline.arrRef spec5 w) :=
  (W12_arr m c w).symm
theorem hrest5 (c : Dev nD) : ∀ b, b ∉ Finset.univ.image (Pipeline.arrRef spec5) → U12 m c b = U11 m c b :=
  fun b hb => W12_of_ne m c b fun w e => hb (Finset.mem_image.mpr ⟨w, Finset.mem_univ _, e⟩)
theorem W11_keep (c : Dev nD) (r : Ref sig .tc) (h : r ∉ hostOps5_W) : W11 m c (Proc.devRef .tc r) = W10 m c (Proc.devRef .tc r) :=
  StableHlo.after_of_writes_sub hostOps5 _ hostOps5_writes h

/-! ## No segment changes an argument -/

theorem W12_main_arg0 (c : Dev nD) : W12 m c (Proc.devRef .tc main_arg0) = m ((c : Thread nD τ).loc main_arg0) :=
  (W12_of_ne m c main_arg0 (by decide)).trans <| (W11_keep m c main_arg0 (by decide)).trans <| (W10_of_ne m c main_arg0 (by decide)).trans <| (W9_keep m c main_arg0 (by decide)).trans <| (W8_of_ne m c main_arg0 (by decide)).trans <| (W7_keep m c main_arg0 (by decide)).trans <| (W6_of_ne m c main_arg0 (by decide)).trans <| (W5_keep m c main_arg0 (by decide)).trans <| ((W4_arr m c 1).trans (((dat1 (U3 m) c).arrAt_in 1 rfl _).trans (A_eq1 (U3 m) c 1))).trans <| (W3_keep m c main_arg0 (by decide)).trans <| (W2_of_ne m c main_arg0 (by decide)).trans <| (W1_keep m c main_arg0 (by decide)).trans <| rfl
theorem W12_main_arg1 (c : Dev nD) : W12 m c (Proc.devRef .tc main_arg1) = m ((c : Thread nD τ).loc main_arg1) :=
  (W12_of_ne m c main_arg1 (by decide)).trans <| (W11_keep m c main_arg1 (by decide)).trans <| (W10_of_ne m c main_arg1 (by decide)).trans <| (W9_keep m c main_arg1 (by decide)).trans <| (W8_of_ne m c main_arg1 (by decide)).trans <| (W7_keep m c main_arg1 (by decide)).trans <| (W6_of_ne m c main_arg1 (by decide)).trans <| (W5_keep m c main_arg1 (by decide)).trans <| (W4_of_ne m c main_arg1 (by decide)).trans <| (W3_keep m c main_arg1 (by decide)).trans <| (W2_of_ne m c main_arg1 (by decide)).trans <| (W1_keep m c main_arg1 (by decide)).trans <| rfl
theorem W12_main_arg2 (c : Dev nD) : W12 m c (Proc.devRef .tc main_arg2) = m ((c : Thread nD τ).loc main_arg2) :=
  (W12_of_ne m c main_arg2 (by decide)).trans <| (W11_keep m c main_arg2 (by decide)).trans <| (W10_of_ne m c main_arg2 (by decide)).trans <| (W9_keep m c main_arg2 (by decide)).trans <| (W8_of_ne m c main_arg2 (by decide)).trans <| (W7_keep m c main_arg2 (by decide)).trans <| (W6_of_ne m c main_arg2 (by decide)).trans <| (W5_keep m c main_arg2 (by decide)).trans <| (W4_of_ne m c main_arg2 (by decide)).trans <| (W3_keep m c main_arg2 (by decide)).trans <| (W2_of_ne m c main_arg2 (by decide)).trans <| (W1_keep m c main_arg2 (by decide)).trans <| rfl
theorem W12_main_arg3 (c : Dev nD) : W12 m c (Proc.devRef .tc main_arg3) = m ((c : Thread nD τ).loc main_arg3) :=
  (W12_of_ne m c main_arg3 (by decide)).trans <| (W11_keep m c main_arg3 (by decide)).trans <| (W10_of_ne m c main_arg3 (by decide)).trans <| (W9_keep m c main_arg3 (by decide)).trans <| (W8_of_ne m c main_arg3 (by decide)).trans <| (W7_keep m c main_arg3 (by decide)).trans <| (W6_of_ne m c main_arg3 (by decide)).trans <| (W5_keep m c main_arg3 (by decide)).trans <| (W4_of_ne m c main_arg3 (by decide)).trans <| (W3_keep m c main_arg3 (by decide)).trans <| (W2_of_ne m c main_arg3 (by decide)).trans <| (W1_keep m c main_arg3 (by decide)).trans <| rfl
theorem W12_main_arg4 (c : Dev nD) : W12 m c (Proc.devRef .tc main_arg4) = m ((c : Thread nD τ).loc main_arg4) :=
  (W12_of_ne m c main_arg4 (by decide)).trans <| (W11_keep m c main_arg4 (by decide)).trans <| (W10_of_ne m c main_arg4 (by decide)).trans <| (W9_keep m c main_arg4 (by decide)).trans <| (W8_of_ne m c main_arg4 (by decide)).trans <| (W7_keep m c main_arg4 (by decide)).trans <| (W6_of_ne m c main_arg4 (by decide)).trans <| (W5_keep m c main_arg4 (by decide)).trans <| (W4_of_ne m c main_arg4 (by decide)).trans <| (W3_keep m c main_arg4 (by decide)).trans <| (W2_of_ne m c main_arg4 (by decide)).trans <| (W1_keep m c main_arg4 (by decide)).trans <| rfl
theorem W12_main_arg5 (c : Dev nD) : W12 m c (Proc.devRef .tc main_arg5) = m ((c : Thread nD τ).loc main_arg5) :=
  (W12_of_ne m c main_arg5 (by decide)).trans <| (W11_keep m c main_arg5 (by decide)).trans <| (W10_of_ne m c main_arg5 (by decide)).trans <| (W9_keep m c main_arg5 (by decide)).trans <| (W8_of_ne m c main_arg5 (by decide)).trans <| (W7_keep m c main_arg5 (by decide)).trans <| (W6_of_ne m c main_arg5 (by decide)).trans <| (W5_keep m c main_arg5 (by decide)).trans <| (W4_of_ne m c main_arg5 (by decide)).trans <| (W3_keep m c main_arg5 (by decide)).trans <| (W2_of_ne m c main_arg5 (by decide)).trans <| (W1_keep m c main_arg5 (by decide)).trans <| rfl
theorem W12_main_arg6 (c : Dev nD) : W12 m c (Proc.devRef .tc main_arg6) = m ((c : Thread nD τ).loc main_arg6) :=
  (W12_of_ne m c main_arg6 (by decide)).trans <| (W11_keep m c main_arg6 (by decide)).trans <| (W10_of_ne m c main_arg6 (by decide)).trans <| (W9_keep m c main_arg6 (by decide)).trans <| (W8_of_ne m c main_arg6 (by decide)).trans <| (W7_keep m c main_arg6 (by decide)).trans <| (W6_of_ne m c main_arg6 (by decide)).trans <| (W5_keep m c main_arg6 (by decide)).trans <| (W4_of_ne m c main_arg6 (by decide)).trans <| (W3_keep m c main_arg6 (by decide)).trans <| (W2_of_ne m c main_arg6 (by decide)).trans <| (W1_keep m c main_arg6 (by decide)).trans <| rfl
theorem W12_main_arg7 (c : Dev nD) : W12 m c (Proc.devRef .tc main_arg7) = m ((c : Thread nD τ).loc main_arg7) :=
  (W12_of_ne m c main_arg7 (by decide)).trans <| (W11_keep m c main_arg7 (by decide)).trans <| (W10_of_ne m c main_arg7 (by decide)).trans <| (W9_keep m c main_arg7 (by decide)).trans <| (W8_of_ne m c main_arg7 (by decide)).trans <| (W7_keep m c main_arg7 (by decide)).trans <| (W6_of_ne m c main_arg7 (by decide)).trans <| (W5_keep m c main_arg7 (by decide)).trans <| (W4_of_ne m c main_arg7 (by decide)).trans <| (W3_keep m c main_arg7 (by decide)).trans <| (W2_of_ne m c main_arg7 (by decide)).trans <| (W1_keep m c main_arg7 (by decide)).trans <| rfl
theorem W12_main_arg8 (c : Dev nD) : W12 m c (Proc.devRef .tc main_arg8) = m ((c : Thread nD τ).loc main_arg8) :=
  (W12_of_ne m c main_arg8 (by decide)).trans <| (W11_keep m c main_arg8 (by decide)).trans <| (W10_of_ne m c main_arg8 (by decide)).trans <| (W9_keep m c main_arg8 (by decide)).trans <| (W8_of_ne m c main_arg8 (by decide)).trans <| (W7_keep m c main_arg8 (by decide)).trans <| (W6_of_ne m c main_arg8 (by decide)).trans <| (W5_keep m c main_arg8 (by decide)).trans <| (W4_of_ne m c main_arg8 (by decide)).trans <| (W3_keep m c main_arg8 (by decide)).trans <| (W2_of_ne m c main_arg8 (by decide)).trans <| (W1_keep m c main_arg8 (by decide)).trans <| rfl
theorem W12_main_arg9 (c : Dev nD) : W12 m c (Proc.devRef .tc main_arg9) = m ((c : Thread nD τ).loc main_arg9) :=
  (W12_of_ne m c main_arg9 (by decide)).trans <| (W11_keep m c main_arg9 (by decide)).trans <| (W10_of_ne m c main_arg9 (by decide)).trans <| (W9_keep m c main_arg9 (by decide)).trans <| (W8_of_ne m c main_arg9 (by decide)).trans <| (W7_keep m c main_arg9 (by decide)).trans <| (W6_of_ne m c main_arg9 (by decide)).trans <| (W5_keep m c main_arg9 (by decide)).trans <| (W4_of_ne m c main_arg9 (by decide)).trans <| (W3_keep m c main_arg9 (by decide)).trans <| (W2_of_ne m c main_arg9 (by decide)).trans <| (W1_keep m c main_arg9 (by decide)).trans <| rfl
theorem W12_main_arg10 (c : Dev nD) : W12 m c (Proc.devRef .tc main_arg10) = m ((c : Thread nD τ).loc main_arg10) :=
  (W12_of_ne m c main_arg10 (by decide)).trans <| (W11_keep m c main_arg10 (by decide)).trans <| (W10_of_ne m c main_arg10 (by decide)).trans <| (W9_keep m c main_arg10 (by decide)).trans <| (W8_of_ne m c main_arg10 (by decide)).trans <| (W7_keep m c main_arg10 (by decide)).trans <| (W6_of_ne m c main_arg10 (by decide)).trans <| (W5_keep m c main_arg10 (by decide)).trans <| (W4_of_ne m c main_arg10 (by decide)).trans <| (W3_keep m c main_arg10 (by decide)).trans <| (W2_of_ne m c main_arg10 (by decide)).trans <| (W1_keep m c main_arg10 (by decide)).trans <| rfl

/-! ## The proof data family and the thread state -/

def pdats : (p : Fin 6) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
  | ⟨5, _⟩ => fun c => dat5 (U11 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m c) ∗ ∃ r, prngReg c r)

/-! ## The regions as segments -/

set_option backward.isDefEq.respectTransparency.types false in
/-- Region 0 over the thread state: its arrays split out of the unscoped buffers on entry and put back at the exit
    contents; the generator register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from hout0 (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers on entry and put back at the exit
    contents; the generator register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers on entry and put back at the exit
    contents; the generator register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ (Pipeline.ΦA spec2 c : sProp 𝕄) from hout2 (U5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: its arrays split out of the unscoped buffers on entry and put back at the exit
    contents; the generator register into the invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U7 m c) (U8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: its arrays split out of the unscoped buffers on entry and put back at the exit
    contents; the generator register into the invariant and out; nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (show (pdats m 4 c).Φ (Fin.last _) ⊢ (Pipeline.ΦA spec4 c : sProp 𝕄) from hout4 (U9 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U9 m c) (U10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: its arrays split out of the unscoped buffers on entry and put back at the exit
    contents; the generator register into the invariant and out; nothing owed; no semaphore of the kernel's own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (U11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (U11 m c) (U12 m c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs (c : Dev nD) : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m) ]

set_option backward.isDefEq.respectTransparency.types false in
/-- THE RUN, at any float instance: from any memory with zero counters every weakly fair execution of @main terminates,
    nothing faulting, the result buffer ends at what the last region's write-backs fold to, and every argument as launched. -/
theorem run (ρ : Dev nD → PrngReg) : θ_run defs (onTc (τ := τ) (main (F := F))) ⟨m, fun _ => 0, ρ⟩ (fun r => ∀ c : Dev nD,
      r.2.mem ((c.tc : Thread nD τ).loc main_v139) = W12 m c (Proc.devRef .tc main_v139)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_dev (pcfgs (F := F)) adm (pdats m) () cellOf_inj emb₁ defs₀ 𝒱₀ L lv m ρ main (segs m)
    (fun c Q => by
      rewrite [main_chain c, Seg.run_eq_chain,
        show (segs m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c =>
      ⟨h c _ (mem_uc main_v139 (by decide)),
       (h c _ (mem_uc main_arg0 (by decide))).trans (W12_main_arg0 m c),
       (h c _ (mem_uc main_arg1 (by decide))).trans (W12_main_arg1 m c),
       (h c _ (mem_uc main_arg2 (by decide))).trans (W12_main_arg2 m c),
       (h c _ (mem_uc main_arg3 (by decide))).trans (W12_main_arg3 m c),
       (h c _ (mem_uc main_arg4 (by decide))).trans (W12_main_arg4 m c),
       (h c _ (mem_uc main_arg5 (by decide))).trans (W12_main_arg5 m c),
       (h c _ (mem_uc main_arg6 (by decide))).trans (W12_main_arg6 m c),
       (h c _ (mem_uc main_arg7 (by decide))).trans (W12_main_arg7 m c),
       (h c _ (mem_uc main_arg8 (by decide))).trans (W12_main_arg8 m c),
       (h c _ (mem_uc main_arg9 (by decide))).trans (W12_main_arg9 m c),
       (h c _ (mem_uc main_arg10 (by decide))).trans (W12_main_arg10 m c)⟩)

end Cert.KernelIdeal.Hand

end
-- ==== Proof.RefLayer.lean ====
/-
  One layer of the reference network as a single term, and the whole reference as three layers.

  A layer takes the node features x (50000 rows of 128), the graph (a source and a destination node per edge
  and a weight per edge) and its own parameters. It computes

    agg   = for every node, the sum over the edges arriving there of (weight · features of the edge's source),
    h     = relu(((1 + eps) · x + agg) · W1 + b1) · W2 + b2            (a two-layer perceptron, row by row),
    mean  = for every column, (sum of h over the rows) / 50000,
    var   = for every column, (sum over the rows of (h - mean)²) / 50000,
    out   = x + relu(gamma · (h - mean) · rsqrt(var + 1e-5) + beta).

  The reference applies this three times, layer i reading slice i of each stacked parameter; every layer uses the
  same graph.
-/
import proofs.«124822_j54752243090034_1_alg».proof.Proof.Gen.ReferenceIdeal.Run

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo

variable {F : FTy → Type} [FloatOps F]

/-- What a layer reads besides the node features: the graph (one source row and one destination row per edge, as
    columns of 800000 start indices, and one weight per edge) and the layer's own parameters. -/
structure LayerParams (F : FTy → Type) where
  /-- the source node of each edge -/
  srcI : IVec S800000x1 32
  /-- the destination node of each edge -/
  dstI : IVec S800000x1 32
  /-- the weight of each edge -/
  ew : FVec F S800000 .f32
  /-- the self-loop coefficient: the node's own features enter with the factor 1 + eps -/
  eps : FVec F S_ .f32
  W1 : FVec F S128x128 .f32
  b1 : FVec F S128 .f32
  W2 : FVec F S128x128 .f32
  b2 : FVec F S128 .f32
  /-- scale and shift of the normalisation -/
  gamma : FVec F S128 .f32
  beta : FVec F S128 .f32

/-- A vector of 128 numbers repeated on each of the 50000 rows. -/
def rowB (v : FVec F S128 .f32) : FVec F S50000x128 .f32 :=
  broadcastInDim S50000x128 ![0, 1] bcast_S1x128_S50000x128_0_1 (broadcastInDim S1x128 ![1] bcast_S128_S1x128_1 v)

/-- The array of zeros. -/
def zeros : FVec F S50000x128 .f32 :=
  broadcastInDim S50000x128 ![] bcast_S_S50000x128 (constant S_ .f32 0x00000000#32)

/-- The number of rows, 50000, in every column. -/
def count : FVec F S128 .f32 := broadcastInDim S128 ![] bcast_S_S128 (constant S_ .f32 0x47435000#32)

/-- The small constant 1e-5 added to a variance, in every column. -/
def epsBN : FVec F S128 .f32 := broadcastInDim S128 ![] bcast_S_S128 (constant S_ .f32 0x3727C5AC#32)

/-- The sum of each column over the 50000 rows, from zero. -/
def colSum (a : FVec F S50000x128 .f32) : FVec F S128 .f32 :=
  Host.reduceAdd a (constant S_ .f32 0x00000000#32) reducesTo_S50000x128_S128_d0 h_S_

/-- The weighted sum, at every node, of the features of the sources of the edges arriving there. -/
def agg (x : FVec F S50000x128 .f32) (p : LayerParams F) : FVec F S50000x128 .f32 :=
  Host.scatterAdd scatter_S50000x128_S800000x1_S800000x128_1_0_0_1 zeros p.dstI
    (mulf (Host.gather gather_S50000x128_S800000x1_S800000x128_1_0_n_n_0_1_1128 x p.srcI)
      (broadcastInDim S800000x128 ![0, 1] bcast_S800000x1_S800000x128_0_1
        (broadcastInDim S800000x1 ![0] bcast_S800000_S800000x1_0 p.ew)))

/-- The perceptron's input: (1 + eps) · x + agg. -/
def pre (x : FVec F S50000x128 .f32) (p : LayerParams F) : FVec F S50000x128 .f32 :=
  addf (mulf (broadcastInDim S50000x128 ![] bcast_S_S50000x128 (addf (constant S_ .f32 0x3F800000#32) p.eps)) x) (agg x p)

/-- The perceptron's output: relu(pre · W1 + b1) · W2 + b2. -/
def hidden (x : FVec F S50000x128 .f32) (p : LayerParams F) : FVec F S50000x128 .f32 :=
  addf (Host.dotGeneral dot_S50000x128_S128x128_S50000x128_1_0_0_1_n_n none
      (maximumf (addf (Host.dotGeneral dot_S50000x128_S128x128_S50000x128_1_0_0_1_n_n none (pre x p) p.W1) (rowB p.b1)) zeros)
      p.W2)
    (rowB p.b2)

/-- The mean of each column of the perceptron's output. -/
def mean (x : FVec F S50000x128 .f32) (p : LayerParams F) : FVec F S128 .f32 :=
  Host.divf (colSum (hidden x p)) count

/-- The perceptron's output minus its column means. -/
def centred (x : FVec F S50000x128 .f32) (p : LayerParams F) : FVec F S50000x128 .f32 :=
  subf (hidden x p) (rowB (mean x p))

/-- The variance of each column: the mean of the squared deviations from the column's mean. -/
def varR (x : FVec F S50000x128 .f32) (p : LayerParams F) : FVec F S128 .f32 :=
  Host.divf (colSum (mulf (centred x p) (centred x p))) count

/-- One layer: x + relu(gamma · (h - mean) · rsqrt(var + 1e-5) + beta). -/
def layerR (x : FVec F S50000x128 .f32) (p : LayerParams F) : FVec F S50000x128 .f32 :=
  addf x
    (maximumf
      (addf (mulf (mulf (rowB p.gamma) (subf (hidden x p) (rowB (mean x p)))) (rowB (Host.rsqrt (addf (varR x p) epsBN))))
        (rowB p.beta))
      zeros)

/-! ### The graph and the three layers' parameters, as the program slices them out of its arguments -/

/-- The source nodes: row 0 of the edge list, a negative number counted from the end (50000 added), as a column. -/
def srcOf (V0 : Valuation τ sig (Elt F)) : IVec S800000x1 32 :=
  broadcastInDim S800000x1 ![0] bcast_S800000_S800000x1_0
    (select (cmpi .slt (res_main_v1 V0) (broadcastInDim S800000 ![] bcast_S_S800000 (constantI S_ 32 0#32)))
      (addi (res_main_v1 V0) (broadcastInDim S800000 ![] bcast_S_S800000 (constantI S_ 32 50000#32))) (res_main_v1 V0))

/-- The destination nodes: row 1 of the edge list, as a column. -/
def dstOf (V0 : Valuation τ sig (Elt F)) : IVec S800000x1 32 :=
  broadcastInDim S800000x1 ![0] bcast_S800000_S800000x1_0 (res_main_v3 V0)

/-- Layer 0's parameters: slice 0 of every stacked argument. -/
def params0 (V0 : Valuation τ sig (Elt F)) : LayerParams F where
  srcI := srcOf V0
  dstI := dstOf V0
  ew := V0 (Proc.devRef .tc main_arg3)
  eps := shapeCast _ (extractStridedSlice S1 ![0] (V0 (Proc.devRef .tc main_arg8)) slices_S3_S1_0) shapeCasts_S1_S_
  W1 := shapeCast _ (extractStridedSlice S1x128x128 ![0, 0, 0] (V0 (Proc.devRef .tc main_arg4)) slices_S3x128x128_S1x128x128_0_0_0) shapeCasts_S1x128x128_S128x128
  b1 := shapeCast _ (extractStridedSlice S1x128 ![0, 0] (V0 (Proc.devRef .tc main_arg5)) slices_S3x128_S1x128_0_0) shapeCasts_S1x128_S128
  W2 := shapeCast _ (extractStridedSlice S1x128x128 ![0, 0, 0] (V0 (Proc.devRef .tc main_arg6)) slices_S3x128x128_S1x128x128_0_0_0) shapeCasts_S1x128x128_S128x128
  b2 := shapeCast _ (extractStridedSlice S1x128 ![0, 0] (V0 (Proc.devRef .tc main_arg7)) slices_S3x128_S1x128_0_0) shapeCasts_S1x128_S128
  gamma := shapeCast _ (extractStridedSlice S1x128 ![0, 0] (V0 (Proc.devRef .tc main_arg9)) slices_S3x128_S1x128_0_0) shapeCasts_S1x128_S128
  beta := shapeCast _ (extractStridedSlice S1x128 ![0, 0] (V0 (Proc.devRef .tc main_arg10)) slices_S3x128_S1x128_0_0) shapeCasts_S1x128_S128

/-- Layer 1's parameters: slice 1. -/
def params1 (V0 : Valuation τ sig (Elt F)) : LayerParams F where
  srcI := srcOf V0
  dstI := dstOf V0
  ew := V0 (Proc.devRef .tc main_arg3)
  eps := shapeCast _ (extractStridedSlice S1 ![1] (V0 (Proc.devRef .tc main_arg8)) slices_S3_S1_1) shapeCasts_S1_S_
  W1 := shapeCast _ (extractStridedSlice S1x128x128 ![1, 0, 0] (V0 (Proc.devRef .tc main_arg4)) slices_S3x128x128_S1x128x128_1_0_0) shapeCasts_S1x128x128_S128x128
  b1 := shapeCast _ (extractStridedSlice S1x128 ![1, 0] (V0 (Proc.devRef .tc main_arg5)) slices_S3x128_S1x128_1_0) shapeCasts_S1x128_S128
  W2 := shapeCast _ (extractStridedSlice S1x128x128 ![1, 0, 0] (V0 (Proc.devRef .tc main_arg6)) slices_S3x128x128_S1x128x128_1_0_0) shapeCasts_S1x128x128_S128x128
  b2 := shapeCast _ (extractStridedSlice S1x128 ![1, 0] (V0 (Proc.devRef .tc main_arg7)) slices_S3x128_S1x128_1_0) shapeCasts_S1x128_S128
  gamma := shapeCast _ (extractStridedSlice S1x128 ![1, 0] (V0 (Proc.devRef .tc main_arg9)) slices_S3x128_S1x128_1_0) shapeCasts_S1x128_S128
  beta := shapeCast _ (extractStridedSlice S1x128 ![1, 0] (V0 (Proc.devRef .tc main_arg10)) slices_S3x128_S1x128_1_0) shapeCasts_S1x128_S128

/-- Layer 2's parameters: slice 2. -/
def params2 (V0 : Valuation τ sig (Elt F)) : LayerParams F where
  srcI := srcOf V0
  dstI := dstOf V0
  ew := V0 (Proc.devRef .tc main_arg3)
  eps := shapeCast _ (extractStridedSlice S1 ![2] (V0 (Proc.devRef .tc main_arg8)) slices_S3_S1_2) shapeCasts_S1_S_
  W1 := shapeCast _ (extractStridedSlice S1x128x128 ![2, 0, 0] (V0 (Proc.devRef .tc main_arg4)) slices_S3x128x128_S1x128x128_2_0_0) shapeCasts_S1x128x128_S128x128
  b1 := shapeCast _ (extractStridedSlice S1x128 ![2, 0] (V0 (Proc.devRef .tc main_arg5)) slices_S3x128_S1x128_2_0) shapeCasts_S1x128_S128
  W2 := shapeCast _ (extractStridedSlice S1x128x128 ![2, 0, 0] (V0 (Proc.devRef .tc main_arg6)) slices_S3x128x128_S1x128x128_2_0_0) shapeCasts_S1x128x128_S128x128
  b2 := shapeCast _ (extractStridedSlice S1x128 ![2, 0] (V0 (Proc.devRef .tc main_arg7)) slices_S3x128_S1x128_2_0) shapeCasts_S1x128_S128
  gamma := shapeCast _ (extractStridedSlice S1x128 ![2, 0] (V0 (Proc.devRef .tc main_arg9)) slices_S3x128_S1x128_2_0) shapeCasts_S1x128_S128
  beta := shapeCast _ (extractStridedSlice S1x128 ![2, 0] (V0 (Proc.devRef .tc main_arg10)) slices_S3x128_S1x128_2_0) shapeCasts_S1x128_S128

/-! ### The program's intermediate and final arrays are the layers' outputs -/

/-- The perceptron's output inside layer 0. -/
theorem res_main_v40_eq (V0 : Valuation τ sig (Elt F)) :
    res_main_v40 V0 = hidden (V0 (Proc.devRef .tc main_arg0)) (params0 V0) := rfl

/-- After layer 0. -/
theorem res_main_v72_eq (V0 : Valuation τ sig (Elt F)) :
    res_main_v72 V0 = layerR (V0 (Proc.devRef .tc main_arg0)) (params0 V0) := rfl

/-- After layer 1. -/
theorem res_main_v140_eq (V0 : Valuation τ sig (Elt F)) :
    res_main_v140 V0 = layerR (res_main_v72 V0) (params1 V0) := rfl

/-- After layer 2: the program's result. -/
theorem val5_main_v208_eq (V0 : Valuation τ sig (Elt F)) :
    val5 V0 (no_index (Proc.devRef .tc main_v208)) = layerR (res_main_v140 V0) (params2 V0) :=
  (val5_main_v208 V0).trans rfl

/-- The program's result is three layers applied to its first argument. -/
theorem val5_main_v208_eq_three (V0 : Valuation τ sig (Elt F)) :
    val5 V0 (no_index (Proc.devRef .tc main_v208))
      = layerR (layerR (layerR (V0 (Proc.devRef .tc main_arg0)) (params0 V0)) (params1 V0)) (params2 V0) := by
  rw [val5_main_v208_eq, res_main_v140_eq, res_main_v72_eq]

end Cert.ReferenceIdeal.RefValue

end
-- ==== Proof.LibERealMatrix.lean ====
/-
  General facts about finite sums and products of extended reals, as a matrix computation at exact
  arithmetic needs them.

  On the extended reals addition and multiplication are commutative and associative, so regrouping a
  sum (a reduction axis cut into blocks and accumulated block by block) needs no hypothesis. Distributing a
  product over a sum does need one: it fails at the infinities. A triple matrix product can therefore be
  re-associated, (sᵀ A) t = sᵀ (A t), once every entry is a real number; the proof passes to the reals, where
  it is the interchange of two finite sums.
-/
import Mathlib.Data.EReal.Operations
import Mathlib.Algebra.BigOperators.Fin
import Mathlib.Algebra.BigOperators.Ring.Finset
import Mathlib.Algebra.BigOperators.Group.Finset.Sigma
import Mathlib.Logic.Equiv.Fin.Basic
import Mathlib.Tactic.Ring

namespace LibERealMatrix

open Finset

/-- An extended real is FINITE when it is neither infinity: it is the image of a real number. -/
def Fin' (x : EReal) : Prop := x ≠ ⊤ ∧ x ≠ ⊥

theorem Fin'.coe (r : ℝ) : Fin' (r : EReal) := ⟨EReal.coe_ne_top r, EReal.coe_ne_bot r⟩

theorem Fin'.exists_real {x : EReal} (h : Fin' x) : ∃ r : ℝ, x = (r : EReal) :=
  ⟨x.toReal, (EReal.coe_toReal h.1 h.2).symm⟩

/-- A family of finite extended reals is the image of a family of reals. -/
theorem exists_real_family {ι : Type*} (f : ι → EReal) (h : ∀ i, Fin' (f i)) :
    ∃ g : ι → ℝ, ∀ i, f i = (g i : EReal) :=
  ⟨fun i => (f i).toReal, fun i => (EReal.coe_toReal (h i).1 (h i).2).symm⟩

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.add {x y : EReal} (hx : Fin' x) (hy : Fin' y) : Fin' (x + y) := by
  obtain ⟨a, rfl⟩ := hx.exists_real
  obtain ⟨b, rfl⟩ := hy.exists_real
  rw [← EReal.coe_add]; exact Fin'.coe _

theorem Fin'.mul {x y : EReal} (hx : Fin' x) (hy : Fin' y) : Fin' (x * y) := by
  obtain ⟨a, rfl⟩ := hx.exists_real
  obtain ⟨b, rfl⟩ := hy.exists_real
  rw [← EReal.coe_mul]; exact Fin'.coe _

/-- A finite sum of finite extended reals is finite. -/
theorem Fin'.sum {ι : Type*} (s : Finset ι) (f : ι → EReal) (h : ∀ i, Fin' (f i)) :
    Fin' (∑ i ∈ s, f i) := by
  obtain ⟨g, hg⟩ := exists_real_family f h
  simp only [hg]
  rw [← coe_sum]; exact Fin'.coe _

/-- A sum over `Fin (n * b)` is the sum over the `n` blocks of the sums over the `b` positions inside a
    block; the element at block `k`, position `r` is the one numbered `r + b * k`. No hypothesis: only
    commutativity and associativity of the addition are used. -/
theorem sum_fin_mul {M : Type*} [AddCommMonoid M] (n b : ℕ) (f : Fin (n * b) → M) :
    ∑ x, f x = ∑ k : Fin n, ∑ r : Fin b, f (finProdFinEquiv (k, r)) :=
  ((finProdFinEquiv (m := n) (n := b)).sum_comp f).symm.trans (Fintype.sum_prod_type _)

theorem finProdFinEquiv_val (n b : ℕ) (k : Fin n) (r : Fin b) :
    ((finProdFinEquiv (k, r) : Fin (n * b)) : ℕ) = r.val + b * k.val := rfl

/-- A scalar product whose index set is cut into `n` blocks of `b` is the sum of the `n` partial scalar
    products, whatever the entries (infinite ones included). -/
theorem dot_blocked (n b : ℕ) (u v : Fin (n * b) → EReal) :
    ∑ x, u x * v x = ∑ k : Fin n, ∑ r : Fin b, u (finProdFinEquiv (k, r)) * v (finProdFinEquiv (k, r)) :=
  sum_fin_mul n b fun x => u x * v x

/-- The same over ranges of naturals: the numbers below `n * b` are the `r + b * s` with `s < n`, `r < b`. -/
theorem sum_range_mul {M : Type*} [AddCommMonoid M] (n b : ℕ) (f : ℕ → M) :
    ∑ J ∈ range (n * b), f J = ∑ s ∈ range n, ∑ r ∈ range b, f (r + b * s) := by
  rw [← Fin.sum_univ_eq_sum_range f (n * b), sum_fin_mul n b (fun x => f x.val),
    ← Fin.sum_univ_eq_sum_range (fun s => ∑ r ∈ range b, f (r + b * s)) n]
  refine Finset.sum_congr rfl fun s _ => ?_
  rw [← Fin.sum_univ_eq_sum_range (fun r => f (r + b * s.val)) b]
  rfl

/-- An accumulator that starts at zero and takes four partial sums in turn ends at their sum. -/
theorem acc_four {M : Type*} [AddCommMonoid M] (d : Fin 4 → M) :
    (((0 + d 0) + d 1) + d 2) + d 3 = ∑ k, d k := by
  rw [Fin.sum_univ_four, zero_add]

/-- Re-association of a triple product of matrices with FINITE entries:
    `∑ j, (∑ i, s i * A i j) * t j = ∑ i, s i * ∑ j, A i j * t j`. With an infinite entry this fails
    (the product does not distribute over a sum of opposite infinities). -/
theorem sum_mul_sum_assoc {ι κ : Type*} [Fintype ι] [Fintype κ]
    (s : ι → EReal) (A : ι → κ → EReal) (t : κ → EReal)
    (hs : ∀ i, Fin' (s i)) (hA : ∀ i j, Fin' (A i j)) (ht : ∀ j, Fin' (t j)) :
    ∑ j, (∑ i, s i * A i j) * t j = ∑ i, s i * ∑ j, A i j * t j := by
  obtain ⟨s', hs'⟩ := exists_real_family s hs
  obtain ⟨A', hA'⟩ : ∃ g : ι → κ → ℝ, ∀ i j, A i j = (g i j : EReal) :=
    ⟨fun i j => (A i j).toReal, fun i j => (EReal.coe_toReal (hA i j).1 (hA i j).2).symm⟩
  obtain ⟨t', ht'⟩ := exists_real_family t ht
  have hL : ∀ j, (∑ i, s i * A i j) * t j = (((∑ i, s' i * A' i j) * t' j : ℝ) : EReal) := by
    intro j
    rw [EReal.coe_mul, coe_sum, ht']
    refine congrArg (· * (t' j : EReal)) (Finset.sum_congr rfl fun i _ => ?_)
    rw [hs', hA', EReal.coe_mul]
  have hR : ∀ i, s i * ∑ j, A i j * t j = ((s' i * ∑ j, A' i j * t' j : ℝ) : EReal) := by
    intro i
    rw [EReal.coe_mul, coe_sum, hs']
    refine congrArg ((s' i : EReal) * ·) (Finset.sum_congr rfl fun j _ => ?_)
    rw [hA', ht', EReal.coe_mul]
  simp only [hL, hR]
  rw [← coe_sum, ← coe_sum]
  refine congrArg _ ?_
  simp only [Finset.sum_mul, Finset.mul_sum]
  rw [Finset.sum_comm]
  exact Finset.sum_congr rfl fun i _ => Finset.sum_congr rfl fun j _ => by ring

end LibERealMatrix
-- ==== Proof.LibIdealFinite.lean ====
/-
  A finiteness calculus for the exact-arithmetic reading of a program's operations.

  At exact arithmetic a float value is an extended real. Sums and products of extended reals commute and
  associate, but a product distributes over a sum only away from the infinities; so a matrix computation can
  be re-associated once every entry is known to be a real number. This file proves that the operations a
  host program is made of keep entries real ("finite": neither infinity):

  * elementwise sums, differences, products and maxima of finite entries are finite;
  * a re-indexing (broadcast, transpose, slice, reshape, concatenation) only moves entries;
  * a contraction (a finite sum of products) and a sum along axes of finite entries are finite, and a sum of
    non-negative entries from zero is non-negative;
  * a quotient of a finite entry by a nonzero real is finite, and non-negative if the entry is non-negative
    and the divisor positive;
  * the reciprocal square root of a positive real is a positive real;
  * the exponential of a real is a positive real;
  * a maximum along a non-empty axis of finite entries, started from minus infinity, is finite;
  * a row of positive reals divided by its sum is a row of reals (the normalisation of a softmax).

  Nothing here mentions a particular program.
-/
import Idealize.ShloMosaic.PureOps.Ideal.Laws
import proofs.«124822_j54752243090034_1_alg».proof.Proof.LibERealMatrix

noncomputable section

namespace LibIdealFinite

open Idealize.ShloMosaic LibERealMatrix

/-! ### Finite extended reals -/

theorem fin_zero : Fin' (0 : EReal) := by
  have h := Fin'.coe 0
  rwa [EReal.coe_zero] at h

theorem fin_neg {x : EReal} (hx : Fin' x) : Fin' (-x) := by
  obtain ⟨a, rfl⟩ := hx.exists_real
  rw [← EReal.coe_neg]; exact Fin'.coe _

theorem fin_sub {x y : EReal} (hx : Fin' x) (hy : Fin' y) : Fin' (x - y) := by
  obtain ⟨a, rfl⟩ := hx.exists_real
  obtain ⟨b, rfl⟩ := hy.exists_real
  rw [← EReal.coe_sub]; exact Fin'.coe _

theorem fin_max {x y : EReal} (hx : Fin' x) (hy : Fin' y) : Fin' (max x y) := by
  rcases max_choice x y with h | h <;> rw [h] <;> assumption

theorem fin_min {x y : EReal} (hx : Fin' x) (hy : Fin' y) : Fin' (min x y) := by
  rcases min_choice x y with h | h <;> rw [h] <;> assumption

/-- A finite extended real that is positive is the image of a positive real. -/
theorem fin_exists_pos_real {x : EReal} (hx : Fin' x) (h0 : 0 < x) : ∃ r : ℝ, 0 < r ∧ x = (r : EReal) := by
  obtain ⟨a, rfl⟩ := hx.exists_real
  exact ⟨a, EReal.coe_pos.mp h0, rfl⟩

/-- A finite extended real that is non-negative is the image of a non-negative real. -/
theorem fin_exists_nonneg_real {x : EReal} (hx : Fin' x) (h0 : 0 ≤ x) : ∃ r : ℝ, 0 ≤ r ∧ x = (r : EReal) := by
  obtain ⟨a, rfl⟩ := hx.exists_real
  exact ⟨a, EReal.coe_nonneg.mp h0, rfl⟩

/-- The square of a finite extended real is non-negative. -/
theorem fin_mul_self_nonneg {x : EReal} (hx : Fin' x) : 0 ≤ x * x := by
  obtain ⟨a, rfl⟩ := hx.exists_real
  rw [← EReal.coe_mul]; exact EReal.coe_nonneg.mpr (mul_self_nonneg a)

/-- The sum of a non-negative and a positive finite extended real is positive. -/
theorem add_pos_of_nonneg_of_pos' {x y : EReal} (hx : 0 ≤ x) (hy : 0 < y) : 0 < x + y :=
  lt_of_lt_of_le hy (le_add_of_nonneg_left hx)

/-! ### Vectors with finite entries -/

/-- Every entry of the vector is a real number. -/
def AllFin {s : Shape} (v : s.Idx → EReal) : Prop := ∀ i, Fin' (v i)

section Elementwise
variable {s : Shape} {φ : FTy}

theorem allFin_addf {a b : FVec Ideal s φ} (ha : AllFin a) (hb : AllFin b) : AllFin (addf (F := Ideal) a b) :=
  fun i => (ha i).add (hb i)

theorem allFin_subf {a b : FVec Ideal s φ} (ha : AllFin a) (hb : AllFin b) : AllFin (subf (F := Ideal) a b) :=
  fun i => fin_sub (ha i) (hb i)

theorem allFin_mulf {a b : FVec Ideal s φ} (ha : AllFin a) (hb : AllFin b) : AllFin (mulf (F := Ideal) a b) :=
  fun i => (ha i).mul (hb i)

theorem allFin_maximumf {a b : FVec Ideal s φ} (ha : AllFin a) (hb : AllFin b) :
    AllFin (maximumf (F := Ideal) a b) :=
  fun i => fin_max (ha i) (hb i)

theorem allFin_minimumf {a b : FVec Ideal s φ} (ha : AllFin a) (hb : AllFin b) :
    AllFin (minimumf (F := Ideal) a b) :=
  fun i => fin_min (ha i) (hb i)

theorem allFin_negf {a : FVec Ideal s φ} (ha : AllFin a) : AllFin (negf (F := Ideal) a) :=
  fun i => fin_neg (ha i)

/-- The entries of an elementwise sum, difference, product and maximum, spelled out. -/
theorem addf_apply (a b : FVec Ideal s φ) (i : s.Idx) : addf (F := Ideal) a b i = a i + b i := rfl
theorem subf_apply (a b : FVec Ideal s φ) (i : s.Idx) : subf (F := Ideal) a b i = a i - b i := rfl
theorem mulf_apply (a b : FVec Ideal s φ) (i : s.Idx) : mulf (F := Ideal) a b i = a i * b i := rfl
theorem maximumf_apply (a b : FVec Ideal s φ) (i : s.Idx) : maximumf (F := Ideal) a b i = max (a i) (b i) := rfl

/-- A square of finite entries has non-negative entries. -/
theorem mulf_self_nonneg {d : FVec Ideal s φ} (hd : AllFin d) (i : s.Idx) : 0 ≤ mulf (F := Ideal) d d i :=
  fin_mul_self_nonneg (hd i)

/-- A maximum against a non-negative vector (a rectifier's zero) is non-negative. -/
theorem maximumf_nonneg_right (a b : FVec Ideal s φ) (hb : ∀ i, 0 ≤ b i) (i : s.Idx) :
    0 ≤ maximumf (F := Ideal) a b i :=
  le_max_of_le_right (hb i)

theorem maximumf_nonneg_left (a b : FVec Ideal s φ) (ha : ∀ i, 0 ≤ a i) (i : s.Idx) :
    0 ≤ maximumf (F := Ideal) a b i :=
  le_max_of_le_left (ha i)

end Elementwise

/-! ### Contractions and sums along axes -/

section Contract

/-- A host contraction of finite operands is finite: each entry is a finite sum of products. -/
theorem allFin_dotGeneral {sl sr so : Shape} {φ₁ φ₂ : FTy} (d : DotDims sl sr so) (prec : Option ContractPrecision)
    {l : FVec Ideal sl φ₁} {r : FVec Ideal sr φ₂} (hl : AllFin l) (hr : AllFin r) :
    AllFin (Host.dotGeneral (F := Ideal) d prec l r) := by
  intro j
  show Fin' (FloatOps.dotGeneral (F := Ideal) d prec .single l r j)
  rw [Ideal.dotGeneral_apply]
  exact Fin'.sum _ _ fun k => (hl _).mul (hr _)

/-- The same from a description of the entries as sums of products, whatever the index type of the sum. -/
theorem allFin_of_sum_mul {sl sr so : Shape} {κ : Type*} [Fintype κ] {l : sl.Idx → EReal} {r : sr.Idx → EReal}
    (res : so.Idx → EReal) (li : so.Idx → κ → sl.Idx) (ri : so.Idx → κ → sr.Idx)
    (h : ∀ i, res i = ∑ k, l (li i k) * r (ri i k)) (hl : AllFin l) (hr : AllFin r) : AllFin res := by
  intro i
  rw [h i]
  exact Fin'.sum _ _ fun k => (hl _).mul (hr _)

/-- A kernel's contraction onto a finite accumulator is finite as well. -/
theorem allFin_matmul {sl sr so : Shape} {φ₁ φ₂ : FTy} (d : DotDims sl sr so) (prec : Option ContractPrecision)
    {l : FVec Ideal sl φ₁} {r : FVec Ideal sr φ₂} {acc : FVec Ideal so .f32} (hl : AllFin l) (hr : AllFin r)
    (hacc : AllFin acc) : AllFin (matmul (F := Ideal) d prec l r acc) := by
  intro j
  show Fin' (FloatOps.matmul (F := Ideal) d prec l r acc j)
  rw [Ideal.matmul_apply]
  exact (hacc j).add (Fin'.sum _ _ fun k => (hl _).mul (hr _))

variable {s t u : Shape} {φ : FTy} {axes : List (Fin s.rank)}

/-- An entry of a host sum along axes: the initial value plus the sum of the entries that reduce to it. -/
theorem reduceAdd_apply (x : FVec Ideal s φ) (init : u.Idx → Ideal φ) (h : s.ReducesTo axes t) (hu : 0 < u.numel)
    (j : t.Idx) :
    Host.reduceAdd (F := Ideal) x init h hu j
      = init (Shape.Idx.first hu) + ∑ i ∈ Finset.univ.filter (fun i => h.drop i = j), x i := rfl

/-- A host sum along axes of finite entries, from a finite initial value, is finite. -/
theorem allFin_reduceAdd {x : FVec Ideal s φ} {init : u.Idx → Ideal φ} (h : s.ReducesTo axes t) (hu : 0 < u.numel)
    (hx : AllFin x) (hinit : Fin' (init (Shape.Idx.first hu))) :
    AllFin (Host.reduceAdd (F := Ideal) x init h hu) := by
  intro j
  rw [reduceAdd_apply]
  exact hinit.add (Fin'.sum _ _ fun i => hx i)

/-- A host sum along axes of non-negative entries, from zero, is non-negative. -/
theorem reduceAdd_nonneg {x : FVec Ideal s φ} {init : u.Idx → Ideal φ} (h : s.ReducesTo axes t) (hu : 0 < u.numel)
    (hx : ∀ i, 0 ≤ x i) (hinit : init (Shape.Idx.first hu) = 0) (j : t.Idx) :
    0 ≤ Host.reduceAdd (F := Ideal) x init h hu j := by
  rw [reduceAdd_apply, hinit, zero_add]
  exact Finset.sum_nonneg fun i _ => hx i

/-- A host sum along axes of positive entries, from zero, is positive wherever some entry reduces to the index. -/
theorem reduceAdd_pos {x : FVec Ideal s φ} {init : u.Idx → Ideal φ} (h : s.ReducesTo axes t) (hu : 0 < u.numel)
    (hx : ∀ i, 0 < x i) (hinit : init (Shape.Idx.first hu) = 0) (j : t.Idx) (hj : ∃ i, h.drop i = j) :
    0 < Host.reduceAdd (F := Ideal) x init h hu j := by
  rw [reduceAdd_apply, hinit, zero_add]
  obtain ⟨i₀, hi₀⟩ := hj
  have hmem : i₀ ∈ Finset.univ.filter (fun i => h.drop i = j) := Finset.mem_filter.2 ⟨Finset.mem_univ _, hi₀⟩
  rw [← Finset.add_sum_erase _ _ hmem]
  exact lt_of_lt_of_le (hx i₀) (le_add_of_nonneg_right (Finset.sum_nonneg fun i _ => (hx i).le))

/-- Along ONE axis of positive extent every result index has an entry reducing to it. -/
theorem exists_drop_eq {a : Fin s.rank} (h' : s.ReducesTo [a] t) (h : s.Reduces [a] t) (ha : 0 < s.size a) (j : t.Idx) :
    ∃ i, h'.drop i = j :=
  ⟨h.lift j ⟨0, ha⟩, by rw [Shape.ReducesTo.drop_eq_drop h' h]; exact h.drop_lift j _⟩

end Contract

/-! ### Re-indexings: the entries of the result are entries of the operand -/

section Reindex

/-- Every entry of `b` is an entry of `w`. What a broadcast, a transpose, a slice or a reshape does. -/
def EntriesOf {ι κ α : Type*} (b : ι → α) (w : κ → α) : Prop := ∀ i, ∃ j, b i = w j

theorem EntriesOf.refl {ι α : Type*} (w : ι → α) : EntriesOf w w := fun i => ⟨i, rfl⟩

theorem EntriesOf.trans {ι κ μ α : Type*} {a : ι → α} {b : κ → α} {c : μ → α} (hab : EntriesOf a b)
    (hbc : EntriesOf b c) : EntriesOf a c := fun i => by
  obtain ⟨j, hj⟩ := hab i
  obtain ⟨k, hk⟩ := hbc j
  exact ⟨k, hj.trans hk⟩

/-- Any property of single entries passes from the operand to the result. -/
theorem EntriesOf.forall {ι κ α : Type*} {b : ι → α} {w : κ → α} (h : EntriesOf b w) (P : α → Prop)
    (hw : ∀ j, P (w j)) (i : ι) : P (b i) := by
  obtain ⟨j, hj⟩ := h i
  rw [hj]; exact hw j

variable {s t : Shape} {α : Type}

theorem entriesOf_broadcastInDim (t : Shape) (dims : Fin s.rank → Fin t.rank) (h : s.BroadcastsInDim t dims)
    (x : s.Idx → α) : EntriesOf (broadcastInDim t dims h x) x := fun _ => ⟨_, rfl⟩

theorem entriesOf_broadcastTo (t : Shape) (x : s.Idx → α) (h : s.Broadcasts t) : EntriesOf (broadcastTo t x h) x :=
  fun _ => ⟨_, rfl⟩

theorem entriesOf_transpose (t : Shape) (perm : List (Fin s.rank)) (x : s.Idx → α) (h : s.Transposes perm t) :
    EntriesOf (transpose t perm x h) x := fun _ => ⟨_, rfl⟩

theorem entriesOf_shapeCast (t : Shape) (x : s.Idx → α) (h : s.ShapeCasts t) : EntriesOf (shapeCast t x h) x :=
  fun _ => ⟨_, rfl⟩

theorem entriesOf_extractStridedSlice (t : Shape) (off : Fin s.rank → Nat) (x : s.Idx → α) (h : s.Slices off t) :
    EntriesOf (extractStridedSlice t off x h) x := fun _ => ⟨_, rfl⟩

theorem entriesOf_hostSlice (t : Shape) (start strides : Fin s.rank → Nat) (x : s.Idx → α)
    (h : s.SlicesBy start strides t) : EntriesOf (Host.slice t start strides x h) x := fun _ => ⟨_, rfl⟩

/-- Every entry of a concatenation is an entry of one of the pieces. -/
theorem concatenate_entry (t : Shape) (a : Fin t.rank) (xs : List ((s : Shape) × (s.Idx → α)))
    (h : Shape.Concatenates (xs.map (·.1)) t a) (j : t.Idx) : ∃ p ∈ xs, ∃ i, concatenate t a xs h j = p.2 i := by
  unfold concatenate
  exact ⟨_, List.getElem_mem _, _, rfl⟩

theorem allFin_of_entriesOf {ι : Type*} {b : s.Idx → EReal} {w : ι → EReal} (h : EntriesOf b w)
    (hw : ∀ j, Fin' (w j)) : AllFin b := h.forall Fin' hw

theorem allFin_broadcastInDim (t : Shape) (dims : Fin s.rank → Fin t.rank) (h : s.BroadcastsInDim t dims)
    {x : s.Idx → EReal} (hx : AllFin x) : AllFin (broadcastInDim t dims h x) := fun _ => hx _

theorem allFin_broadcastTo (t : Shape) {x : s.Idx → EReal} (h : s.Broadcasts t) (hx : AllFin x) :
    AllFin (broadcastTo t x h) := fun _ => hx _

theorem allFin_transpose (t : Shape) (perm : List (Fin s.rank)) {x : s.Idx → EReal} (h : s.Transposes perm t)
    (hx : AllFin x) : AllFin (transpose t perm x h) := fun _ => hx _

theorem allFin_shapeCast (t : Shape) {x : s.Idx → EReal} (h : s.ShapeCasts t) (hx : AllFin x) :
    AllFin (shapeCast t x h) := fun _ => hx _

theorem allFin_extractStridedSlice (t : Shape) (off : Fin s.rank → Nat) {x : s.Idx → EReal} (h : s.Slices off t)
    (hx : AllFin x) : AllFin (extractStridedSlice t off x h) := fun _ => hx _

theorem allFin_hostSlice (t : Shape) (start strides : Fin s.rank → Nat) {x : s.Idx → EReal}
    (h : s.SlicesBy start strides t) (hx : AllFin x) : AllFin (Host.slice t start strides x h) := fun _ => hx _

/-- A concatenation of vectors with finite entries has finite entries. -/
theorem allFin_concatenate (t : Shape) (a : Fin t.rank) (xs : List ((s : Shape) × (s.Idx → EReal)))
    (h : Shape.Concatenates (xs.map (·.1)) t a) (hxs : ∀ p ∈ xs, AllFin p.2) : AllFin (concatenate t a xs h) := by
  intro j
  obtain ⟨p, hp, i, hi⟩ := concatenate_entry t a xs h j
  rw [hi]; exact hxs p hp i

/-- The concatenation of two pieces. -/
theorem allFin_concatenate₂ (t : Shape) (a : Fin t.rank) {s₁ s₂ : Shape} {x₁ : s₁.Idx → EReal} {x₂ : s₂.Idx → EReal}
    (h : Shape.Concatenates (([⟨s₁, x₁⟩, ⟨s₂, x₂⟩] : List ((s : Shape) × (s.Idx → EReal))).map (·.1)) t a)
    (h₁ : AllFin x₁) (h₂ : AllFin x₂) : AllFin (concatenate t a [⟨s₁, x₁⟩, ⟨s₂, x₂⟩] h) := by
  refine allFin_concatenate t a _ h fun p hp => ?_
  rcases List.mem_cons.1 hp with rfl | hp
  · exact h₁
  · rcases List.mem_cons.1 hp with rfl | hp
    · exact h₂
    · exact absurd hp (List.not_mem_nil)

/-- Positivity, non-negativity and being nonzero pass through a broadcast as well. -/
theorem broadcastInDim_pos (t : Shape) (dims : Fin s.rank → Fin t.rank) (h : s.BroadcastsInDim t dims)
    {x : s.Idx → EReal} (hx : ∀ i, 0 < x i) (j : t.Idx) : 0 < broadcastInDim t dims h x j := hx _

theorem broadcastInDim_nonneg (t : Shape) (dims : Fin s.rank → Fin t.rank) (h : s.BroadcastsInDim t dims)
    {x : s.Idx → EReal} (hx : ∀ i, 0 ≤ x i) (j : t.Idx) : 0 ≤ broadcastInDim t dims h x j := hx _

theorem broadcastInDim_ne_zero (t : Shape) (dims : Fin s.rank → Fin t.rank) (h : s.BroadcastsInDim t dims)
    {x : s.Idx → EReal} (hx : ∀ i, x i ≠ 0) (j : t.Idx) : broadcastInDim t dims h x j ≠ 0 := hx _

/-- A broadcast of a vector all of whose entries are one value has that value everywhere. -/
theorem broadcastInDim_eq_const (t : Shape) (dims : Fin s.rank → Fin t.rank) (h : s.BroadcastsInDim t dims)
    {x : s.Idx → α} {c : α} (hx : ∀ i, x i = c) (j : t.Idx) : broadcastInDim t dims h x j = c := hx _

end Reindex

/-! ### Quotients, reciprocal square roots, exponentials -/

section Scalars

/-- The quotient of a finite extended real by a nonzero finite one is finite. -/
theorem fin_div {x y : EReal} (hx : Fin' x) (hy : Fin' y) (h0 : y ≠ 0) : Fin' (Ideal.div x y) := by
  obtain ⟨a, rfl⟩ := hx.exists_real
  obtain ⟨b, rfl⟩ := hy.exists_real
  have hb : b ≠ 0 := fun h => h0 (by rw [h, EReal.coe_zero])
  rw [Ideal.div_coe hb, ← EReal.coe_mul]; exact Fin'.coe _

/-- The quotient of a real by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem div_nonneg_of_fin {x y : EReal} (hx : Fin' x) (hy : Fin' y) (hx0 : 0 ≤ x) (hy0 : 0 < y) :
    0 ≤ Ideal.div x y := by
  obtain ⟨a, ha, rfl⟩ := fin_exists_nonneg_real hx hx0
  obtain ⟨b, hb, rfl⟩ := fin_exists_pos_real hy hy0
  rw [div_coe_coe a hb.ne']
  exact EReal.coe_nonneg.mpr (div_nonneg ha hb.le)

theorem div_pos_of_fin {x y : EReal} (hx : Fin' x) (hy : Fin' y) (hx0 : 0 < x) (hy0 : 0 < y) :
    0 < Ideal.div x y := by
  obtain ⟨a, ha, rfl⟩ := fin_exists_pos_real hx hx0
  obtain ⟨b, hb, rfl⟩ := fin_exists_pos_real hy hy0
  rw [div_coe_coe a hb.ne']
  exact EReal.coe_pos.mpr (div_pos ha hb)

/-- The reciprocal square root of a positive real is a positive real. -/
theorem fin_rsqrt {x : EReal} (hx : Fin' x) (h0 : 0 < x) : Fin' (Ideal.rsqrt x) ∧ 0 < Ideal.rsqrt x := by
  obtain ⟨r, hr, rfl⟩ := fin_exists_pos_real hx h0
  rw [Ideal.rsqrt_coe, if_neg (not_lt.mpr hr.le), if_neg hr.ne']
  exact ⟨Fin'.coe _, EReal.coe_pos.mpr (inv_pos.mpr (Real.sqrt_pos.mpr hr))⟩

/-- The exponential of a real is a positive real. -/
theorem fin_exp {x : EReal} (hx : Fin' x) : Fin' (Ideal.exp x) ∧ 0 < Ideal.exp x := by
  obtain ⟨r, rfl⟩ := hx.exists_real
  rw [Ideal.exp_coe]
  exact ⟨Fin'.coe _, EReal.coe_pos.mpr (Real.exp_pos r)⟩

end Scalars

section Unary
variable {s : Shape} {φ : FTy}

theorem hostDivf_apply (a b : FVec Ideal s φ) (i : s.Idx) : Host.divf (F := Ideal) a b i = Ideal.div (a i) (b i) := rfl
theorem hostRsqrt_apply (v : FVec Ideal s φ) (i : s.Idx) : Host.rsqrt (F := Ideal) v i = Ideal.rsqrt (v i) := rfl
theorem hostExp_apply (v : FVec Ideal s φ) (i : s.Idx) : Host.exp (F := Ideal) v i = Ideal.exp (v i) := rfl

/-- A host quotient of finite entries by finite nonzero entries is finite. -/
theorem allFin_hostDivf {a b : FVec Ideal s φ} (ha : AllFin a) (hb : AllFin b) (hb0 : ∀ i, b i ≠ 0) :
    AllFin (Host.divf (F := Ideal) a b) := fun i => fin_div (ha i) (hb i) (hb0 i)

/-- A host quotient by a vector all of whose entries are one nonzero real (the broadcast of a constant). -/
theorem allFin_hostDivf_const {a b : FVec Ideal s φ} {c : ℝ} (ha : AllFin a) (hb : ∀ i, b i = (c : EReal))
    (hc : c ≠ 0) : AllFin (Host.divf (F := Ideal) a b) := fun i =>
  fin_div (ha i) (by rw [hb i]; exact Fin'.coe c) (by rw [hb i]; exact_mod_cast hc)

theorem hostDivf_nonneg {a b : FVec Ideal s φ} (ha : AllFin a) (hb : AllFin b) (ha0 : ∀ i, 0 ≤ a i)
    (hb0 : ∀ i, 0 < b i) (i : s.Idx) : 0 ≤ Host.divf (F := Ideal) a b i :=
  div_nonneg_of_fin (ha i) (hb i) (ha0 i) (hb0 i)

theorem hostDivf_pos {a b : FVec Ideal s φ} (ha : AllFin a) (hb : AllFin b) (ha0 : ∀ i, 0 < a i)
    (hb0 : ∀ i, 0 < b i) (i : s.Idx) : 0 < Host.divf (F := Ideal) a b i :=
  div_pos_of_fin (ha i) (hb i) (ha0 i) (hb0 i)

/-- Non-negative finite entries divided by one positive real stay non-negative. -/
theorem hostDivf_const_nonneg {a b : FVec Ideal s φ} {c : ℝ} (ha : AllFin a) (ha0 : ∀ i, 0 ≤ a i)
    (hb : ∀ i, b i = (c : EReal)) (hc : 0 < c) (i : s.Idx) : 0 ≤ Host.divf (F := Ideal) a b i :=
  div_nonneg_of_fin (ha i) (by rw [hb i]; exact Fin'.coe c) (ha0 i) (by rw [hb i]; exact EReal.coe_pos.mpr hc)

/-- The host's reciprocal square root of positive reals: positive reals. -/
theorem allFin_hostRsqrt {v : FVec Ideal s φ} (hv : AllFin v) (h0 : ∀ i, 0 < v i) : AllFin (Host.rsqrt (F := Ideal) v) :=
  fun i => (fin_rsqrt (hv i) (h0 i)).1

theorem hostRsqrt_pos {v : FVec Ideal s φ} (hv : AllFin v) (h0 : ∀ i, 0 < v i) (i : s.Idx) :
    0 < Host.rsqrt (F := Ideal) v i := (fin_rsqrt (hv i) (h0 i)).2

/-- The host's exponential of reals: positive reals. -/
theorem allFin_hostExp {v : FVec Ideal s φ} (hv : AllFin v) : AllFin (Host.exp (F := Ideal) v) :=
  fun i => (fin_exp (hv i)).1

theorem hostExp_pos {v : FVec Ideal s φ} (hv : AllFin v) (i : s.Idx) : 0 < Host.exp (F := Ideal) v i :=
  (fin_exp (hv i)).2

/-- A sum of a non-negative and a positive vector (a variance plus a positive constant) is positive. -/
theorem addf_pos_of_nonneg_of_pos {a b : FVec Ideal s φ} (ha : ∀ i, 0 ≤ a i) (hb : ∀ i, 0 < b i) (i : s.Idx) :
    0 < addf (F := Ideal) a b i := add_pos_of_nonneg_of_pos' (ha i) (hb i)

end Unary

/-! ### A maximum along axes -/

section ReduceMax
variable {s t u : Shape} {φ : FTy} {axes : List (Fin s.rank)}

/-- An entry of a host maximum along axes: the maximum, from the initial value, over the entries that reduce
    to it, in any order. -/
theorem reduceMax_apply (x : FVec Ideal s φ) (init : u.Idx → Ideal φ) (h : s.ReducesTo axes t) (hu : 0 < u.numel)
    (j : t.Idx) :
    Host.reduce (FloatOps.maximumf (F := Ideal) (φ := φ)) x init h hu j
      = (Finset.univ.filter fun i => h.drop i = j).fold max (init (Shape.Idx.first hu)) x :=
  Host.reduce_eq_fold _ x init h hu j

/-- A host maximum along axes of finite entries, from an initial value that is not plus infinity (minus
    infinity, usually), is finite wherever some entry reduces to the index. -/
theorem allFin_reduceMax {x : FVec Ideal s φ} {init : u.Idx → Ideal φ} (h : s.ReducesTo axes t) (hu : 0 < u.numel)
    (hx : AllFin x) (hinit : init (Shape.Idx.first hu) ≠ ⊤) (hsurj : ∀ j, ∃ i, h.drop i = j) :
    AllFin (Host.reduce (FloatOps.maximumf (F := Ideal) (φ := φ)) x init h hu) := by
  intro j
  rw [reduceMax_apply]
  constructor
  · refine ne_of_lt ((Finset.fold_max_lt _).2 ⟨lt_top_iff_ne_top.mpr hinit, fun i _ => lt_top_iff_ne_top.mpr (hx i).1⟩)
  · obtain ⟨i, hi⟩ := hsurj j
    exact ne_of_gt ((Finset.lt_fold_max _).2 (Or.inr ⟨i, Finset.mem_filter.2 ⟨Finset.mem_univ _, hi⟩,
      bot_lt_iff_ne_bot.mpr (hx i).2⟩))

/-- The same along ONE axis of positive extent. -/
theorem allFin_reduceMax_single {a : Fin s.rank} {x : FVec Ideal s φ} {init : u.Idx → Ideal φ}
    (h' : s.ReducesTo [a] t) (h : s.Reduces [a] t) (ha : 0 < s.size a) (hu : 0 < u.numel) (hx : AllFin x)
    (hinit : init (Shape.Idx.first hu) ≠ ⊤) :
    AllFin (Host.reduce (FloatOps.maximumf (F := Ideal) (φ := φ)) x init h' hu) :=
  allFin_reduceMax h' hu hx hinit (exists_drop_eq h' h ha)

/-- Every entry that reduces to an index is at most the maximum there. -/
theorem le_reduceMax (x : FVec Ideal s φ) (init : u.Idx → Ideal φ) (h : s.ReducesTo axes t) (hu : 0 < u.numel)
    (i : s.Idx) : x i ≤ Host.reduce (FloatOps.maximumf (F := Ideal) (φ := φ)) x init h hu (h.drop i) := by
  rw [reduceMax_apply]
  exact (Finset.le_fold_max _).2 (Or.inr ⟨i, Finset.mem_filter.2 ⟨Finset.mem_univ _, rfl⟩, le_rfl⟩)

/-- A maximum against a vector of minus infinities is the other operand. -/
theorem maximumf_bot_left {b w : FVec Ideal s φ} (hb : ∀ i, b i = ⊥) : maximumf (F := Ideal) b w = w :=
  funext fun i => by
    show max (b i) (w i) = w i
    rw [hb i]; exact max_bot_left _

theorem maximumf_bot_right {b w : FVec Ideal s φ} (hb : ∀ i, b i = ⊥) : maximumf (F := Ideal) w b = w :=
  funext fun i => by
    show max (w i) (b i) = w i
    rw [hb i]; exact max_bot_right _

end ReduceMax

/-! ### The normalisation of a row of positive reals by its sum -/

section Normalise
variable {s t u : Shape} {φ : FTy} {axes : List (Fin s.rank)}

/-- The sum along axes, from zero, of positive reals is a vector of positive reals, provided every result
    index has some entry reducing to it. -/
theorem reduceAdd_pos_fin {e : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j) :
    AllFin (Host.reduceAdd (F := Ideal) e init h hu) ∧ ∀ j, 0 < Host.reduceAdd (F := Ideal) e init h hu j :=
  ⟨allFin_reduceAdd h hu he (by rw [hinit]; exact fin_zero), fun j => reduceAdd_pos h hu hpos hinit j (hsurj j)⟩

/-- Positive reals divided by (a re-indexing of) their sums along axes: real, and positive. `b` is the
    divisor as the program builds it; all that is used of it is that each of its entries is an entry of the
    vector of sums. -/
theorem normalise_fin_pos {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) :
    AllFin (Host.divf (F := Ideal) e b) ∧ ∀ i, 0 < Host.divf (F := Ideal) e b i := by
  obtain ⟨hS, hS0⟩ := reduceAdd_pos_fin h hu he hpos hinit hsurj
  have hbF : AllFin b := hb.forall Fin' hS
  have hb0 : ∀ i, 0 < b i := hb.forall (fun y => 0 < y) hS0
  exact ⟨allFin_hostDivf he hbF fun i => (hb0 i).ne', hostDivf_pos he hbF hpos hb0⟩

/-- The normalised row has real entries. -/
theorem allFin_normalise {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) : AllFin (Host.divf (F := Ideal) e b) :=
  (normalise_fin_pos h hu he hpos hinit hsurj hb).1

/-- The normalised row has positive entries. -/
theorem normalise_pos {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) (i : s.Idx) : 0 < Host.divf (F := Ideal) e b i :=
  (normalise_fin_pos h hu he hpos hinit hsurj hb).2 i

/-- An entry of a normalised row is that entry over the sum it reduces to, when the divisor reads at each
    entry the sum of its own row (`hb`). -/
theorem normalise_entry {e b : FVec Ideal s φ} {init : u.Idx → Ideal φ} (h : s.ReducesTo axes t) (hu : 0 < u.numel)
    (hb : ∀ i, b i = Host.reduceAdd (F := Ideal) e init h hu (h.drop i)) (i : s.Idx) :
    Host.divf (F := Ideal) e b i = Ideal.div (e i) (Host.reduceAdd (F := Ideal) e init h hu (h.drop i)) := by
  rw [hostDivf_apply, hb i]

end Normalise

/-! ### Constants -/

section Constants

theorem constant_apply (s : Shape) (φ : FTy) (w : BitVec φ.bits) (i : s.Idx) :
    constant (F := Ideal) s φ w i = Ideal.ofBits φ w := rfl

/-- A constant whose word denotes a real has finite entries. -/
theorem allFin_constant (s : Shape) {φ : FTy} {w : BitVec φ.bits} {c : ℝ} (hc : Ideal.ofBits φ w = (c : EReal)) :
    AllFin (constant (F := Ideal) s φ w) := fun _ => by
  show Fin' (Ideal.ofBits φ w)
  rw [hc]; exact Fin'.coe c

/-- The word of `0.0` denotes zero. -/
theorem ofBits_zero : Ideal.ofBits .f32 0x00000000#32 = 0 := Ideal.ofBits_zero_f32

theorem ofBits_zero_coe : Ideal.ofBits .f32 0x00000000#32 = ((0 : ℝ) : EReal) := by
  rw [ofBits_zero, EReal.coe_zero]

/-- The word of `8192.0` denotes the real 8192. -/
theorem ofBits_8192 : Ideal.ofBits .f32 0x46000000#32 = ((8192 : ℝ) : EReal) := by
  simp [Ideal.ofBits, Ideal.ieee, -EReal.coe_mul]; norm_num

/-- The word of `20.0` denotes the real 20. -/
theorem ofBits_20 : Ideal.ofBits .f32 0x41A00000#32 = ((20 : ℝ) : EReal) := by
  simp [Ideal.ofBits, Ideal.ieee, -EReal.coe_mul]; norm_num

/-- The single-precision number nearest to one hundred-thousandth is `10995116 · 2⁻⁴⁰`. -/
theorem ofBits_1em5 : Ideal.ofBits .f32 0x3727C5AC#32 = ((10995116 * (2 : ℝ) ^ (-40 : Int) : ℝ) : EReal) := by
  simp [Ideal.ofBits, Ideal.ieee, -EReal.coe_mul]

theorem ofBits_1em5_pos : ∃ r : ℝ, 0 < r ∧ Ideal.ofBits .f32 0x3727C5AC#32 = (r : EReal) :=
  ⟨_, by positivity, ofBits_1em5⟩

/-- The word of minus infinity denotes it. -/
theorem ofBits_neg_inf : Ideal.ofBits .f32 0xFF800000#32 = ⊥ := by
  simp [Ideal.ofBits, Ideal.ieee]

theorem constant_neg_inf_apply (s : Shape) (i : s.Idx) : constant (F := Ideal) s .f32 0xFF800000#32 i = ⊥ :=
  ofBits_neg_inf

theorem constant_zero_apply (s : Shape) (i : s.Idx) : constant (F := Ideal) s .f32 0x00000000#32 i = 0 :=
  ofBits_zero

theorem constant_8192_apply (s : Shape) (i : s.Idx) :
    constant (F := Ideal) s .f32 0x46000000#32 i = ((8192 : ℝ) : EReal) := ofBits_8192

theorem constant_20_apply (s : Shape) (i : s.Idx) :
    constant (F := Ideal) s .f32 0x41A00000#32 i = ((20 : ℝ) : EReal) := ofBits_20

/-- A signed integer read as a float is a real number; the integer zero reads as zero. -/
theorem allFin_sitofp {s : Shape} {w : Nat} (φ : FTy) (x : IVec s w) : AllFin (sitofp (F := Ideal) φ x) :=
  fun _ => Fin'.coe _

theorem sitofp_zero_apply {s : Shape} (φ : FTy) (x : IVec s 32) (i : s.Idx) (hx : x i = 0#32) :
    sitofp (F := Ideal) φ x i = ((0 : ℝ) : EReal) := by
  show (((x i).toInt : ℝ) : EReal) = ((0 : ℝ) : EReal)
  rw [hx]; simp

/-- A selection between two vectors with finite entries has finite entries. -/
theorem allFin_select {s : Shape} (c : IVec s 1) {a b : s.Idx → EReal} (ha : AllFin a) (hb : AllFin b) :
    AllFin (select c a b) := fun i => by
  show Fin' (if c i = 1 then a i else b i)
  split <;> [exact ha i; exact hb i]

/-- Where the condition holds a selection is its first operand, whatever the second. -/
theorem select_of_true {s : Shape} {α : Type} (c : IVec s 1) (a b : s.Idx → α) (hc : ∀ i, c i = 1) : select c a b = a :=
  funext fun i => by
    show (if c i = 1 then a i else b i) = a i
    rw [if_pos (hc i)]

end Constants

/-! ### The same facts on the shapes a printed program writes

A proof about a printed program meets these operations applied to broadcasts of constants; stated on that
shape the lemmas apply without unfolding anything. -/

section Printed

/-- The maximum against a broadcast of the constant minus infinity is the other operand. -/
theorem maximumf_bcast_neg_inf_left {s t : Shape} (dims : Fin s.rank → Fin t.rank) (h : s.BroadcastsInDim t dims)
    (w : FVec Ideal t .f32) :
    maximumf (F := Ideal) (broadcastInDim t dims h (constant (F := Ideal) s .f32 0xFF800000#32)) w = w :=
  maximumf_bot_left fun _ => ofBits_neg_inf

theorem maximumf_bcast_neg_inf_right {s t : Shape} (dims : Fin s.rank → Fin t.rank) (h : s.BroadcastsInDim t dims)
    (w : FVec Ideal t .f32) :
    maximumf (F := Ideal) w (broadcastInDim t dims h (constant (F := Ideal) s .f32 0xFF800000#32)) = w :=
  maximumf_bot_right fun _ => ofBits_neg_inf

/-- A rectifier: the maximum against a broadcast of the constant zero keeps finite entries finite and is
    non-negative. -/
theorem allFin_maximumf_bcast_zero {s t : Shape} (dims : Fin s.rank → Fin t.rank) (h : s.BroadcastsInDim t dims)
    {w : FVec Ideal t .f32} (hw : AllFin w) :
    AllFin (maximumf (F := Ideal) w (broadcastInDim t dims h (constant (F := Ideal) s .f32 0x00000000#32))) :=
  allFin_maximumf hw fun _ => by
    show Fin' (Ideal.ofBits .f32 0x00000000#32)
    rw [ofBits_zero]; exact fin_zero

theorem maximumf_bcast_zero_nonneg {s t : Shape} (dims : Fin s.rank → Fin t.rank) (h : s.BroadcastsInDim t dims)
    (w : FVec Ideal t .f32) (i : t.Idx) :
    0 ≤ maximumf (F := Ideal) w (broadcastInDim t dims h (constant (F := Ideal) s .f32 0x00000000#32)) i :=
  maximumf_nonneg_right _ _ (fun _ => by
    show 0 ≤ Ideal.ofBits .f32 0x00000000#32
    rw [ofBits_zero]) i

/-- A host quotient by a broadcast of a constant that denotes a nonzero real. -/
theorem allFin_hostDivf_bcast_constant {s t : Shape} {φ : FTy} (dims : Fin s.rank → Fin t.rank)
    (h : s.BroadcastsInDim t dims) {w : BitVec φ.bits} {c : ℝ} (hw : Ideal.ofBits φ w = (c : EReal)) (hc : c ≠ 0)
    {a : FVec Ideal t φ} (ha : AllFin a) :
    AllFin (Host.divf (F := Ideal) a (broadcastInDim t dims h (constant (F := Ideal) s φ w))) :=
  allFin_hostDivf_const ha (fun _ => hw) hc

/-- ... and it is non-negative when the entries are and the real is positive. -/
theorem hostDivf_bcast_constant_nonneg {s t : Shape} {φ : FTy} (dims : Fin s.rank → Fin t.rank)
    (h : s.BroadcastsInDim t dims) {w : BitVec φ.bits} {c : ℝ} (hw : Ideal.ofBits φ w = (c : EReal)) (hc : 0 < c)
    {a : FVec Ideal t φ} (ha : AllFin a) (ha0 : ∀ i, 0 ≤ a i) (i : t.Idx) :
    0 ≤ Host.divf (F := Ideal) a (broadcastInDim t dims h (constant (F := Ideal) s φ w)) i :=
  hostDivf_const_nonneg ha ha0 (fun _ => hw) hc i

/-- A sum with a broadcast of a constant that denotes a positive real, of non-negative entries, is positive. -/
theorem addf_bcast_constant_pos {s t : Shape} {φ : FTy} (dims : Fin s.rank → Fin t.rank)
    (h : s.BroadcastsInDim t dims) {w : BitVec φ.bits} {c : ℝ} (hw : Ideal.ofBits φ w = (c : EReal)) (hc : 0 < c)
    {a : FVec Ideal t φ} (ha0 : ∀ i, 0 ≤ a i) (i : t.Idx) :
    0 < addf (F := Ideal) a (broadcastInDim t dims h (constant (F := Ideal) s φ w)) i :=
  addf_pos_of_nonneg_of_pos ha0 (fun _ => by
    show 0 < Ideal.ofBits φ w
    rw [hw]; exact EReal.coe_pos.mpr hc) i

theorem allFin_bcast_constant {s t : Shape} {φ : FTy} (dims : Fin s.rank → Fin t.rank)
    (h : s.BroadcastsInDim t dims) {w : BitVec φ.bits} {c : ℝ} (hw : Ideal.ofBits φ w = (c : EReal)) :
    AllFin (broadcastInDim t dims h (constant (F := Ideal) s φ w)) :=
  allFin_broadcastInDim t dims h (allFin_constant s hw)

/-- A constant minus the integer zero read as a float: the constant. (A count `n - 0` of a variance.) -/
theorem subf_constant_sitofp_zero_apply (s : Shape) {w : BitVec 32} {c : ℝ} (hw : Ideal.ofBits .f32 w = (c : EReal))
    (i : s.Idx) :
    subf (F := Ideal) (constant (F := Ideal) s .f32 w) (sitofp (F := Ideal) .f32 (constantI s 32 0#32)) i = (c : EReal) := by
  show Ideal.ofBits .f32 w - ((((0#32 : BitVec 32).toInt : ℝ)) : EReal) = (c : EReal)
  rw [hw]; simp

/-- The comparison "greater than" answers one where it holds. -/
theorem cmpf_ogt_eq_one {s : Shape} {φ : FTy} (x y : FVec Ideal s φ) (i : s.Idx) (h : y i < x i) :
    cmpf (F := Ideal) .ogt x y i = 1#1 := by
  show BitVec.ofBool (decide (y i < x i)) = 1#1
  rw [decide_eq_true h]; rfl

end Printed

end LibIdealFinite

end
-- ==== Proof.LibGatherScatterFinite.lean ====
/-
  A gather and an accumulating scatter keep entries real, at exact arithmetic, whatever the indices are.

  A gather only moves entries: each entry of the result is the operand's entry at a position computed from the
  start indices (read as signed integers and clamped so that the slice fits the operand), so an out-of-range
  start index still reads an entry of the operand. Any property of single entries therefore passes from the
  operand to the result, being a real number in particular.

  An accumulating scatter gives each position of the operand the operand's entry there plus the sum of the
  updates that land on it; an update whose position falls outside the operand lands nowhere and contributes
  nothing. Each entry of the result is thus a finite sum of entries of the operand and of the updates, a real
  number when all of those are. No value other than the operand's and the updates' entries ever enters, so the
  indices play no part in the argument.
-/
import Idealize.ShloMosaic.PureOps.Ideal.Laws
import proofs.«124822_j54752243090034_1_alg».proof.Proof.LibERealMatrix
import proofs.«124822_j54752243090034_1_alg».proof.Proof.LibIdealFinite

noncomputable section

namespace LibGatherScatterFinite

open Idealize.ShloMosaic LibERealMatrix LibIdealFinite

/-! ### Gather -/

section Gather
variable {s si t : Shape} {w : Nat}

/-- An entry of a gather is the operand's entry at the position the dimension numbers compute. -/
theorem gather_apply {α : Type} (d : GatherDims s si t) (x : s.Idx → α) (idx : IVec si w) (j : t.Idx) :
    Host.gather d x idx j = x (d.operandIdx j idx) := rfl

/-- Every entry of a gather is an entry of the operand. -/
theorem entriesOf_gather {α : Type} (d : GatherDims s si t) (x : s.Idx → α) (idx : IVec si w) :
    EntriesOf (Host.gather d x idx) x := fun _ => ⟨_, rfl⟩

/-- A gather of real entries has real entries, for any indices. -/
theorem allFin_gather (d : GatherDims s si t) {x : s.Idx → EReal} (idx : IVec si w) (hx : AllFin x) :
    AllFin (Host.gather d x idx) := fun _ => hx _

/-- Non-negativity and positivity pass through a gather as well. -/
theorem gather_nonneg (d : GatherDims s si t) {x : s.Idx → EReal} (idx : IVec si w) (hx : ∀ i, 0 ≤ x i) (j : t.Idx) :
    0 ≤ Host.gather d x idx j := hx _

theorem gather_pos (d : GatherDims s si t) {x : s.Idx → EReal} (idx : IVec si w) (hx : ∀ i, 0 < x i) (j : t.Idx) :
    0 < Host.gather d x idx j := hx _

end Gather

/-! ### Accumulating scatter -/

section Scatter
variable {s si u : Shape} {φ : FTy} {w : Nat}

/-- An entry of an accumulating scatter: the operand's entry plus the sum of the updates landing there. -/
theorem scatterAdd_apply (d : ScatterDims s si u) (x : FVec Ideal s φ) (idx : IVec si w) (upd : FVec Ideal u φ)
    (i : s.Idx) :
    Host.scatterAdd (F := Ideal) d x idx upd i
      = x i + ∑ j ∈ Finset.univ.filter (fun j => d.resultIdx? j idx = some i), upd j := rfl

/-- An accumulating scatter of real updates onto real entries has real entries, for any indices. -/
theorem allFin_scatterAdd (d : ScatterDims s si u) {x : FVec Ideal s φ} (idx : IVec si w) {upd : FVec Ideal u φ}
    (hx : AllFin x) (hupd : AllFin upd) : AllFin (Host.scatterAdd (F := Ideal) d x idx upd) := by
  intro i
  rw [scatterAdd_apply]
  exact (hx i).add (Fin'.sum _ _ fun j => hupd j)

/-- The same at any schedule key: at exact arithmetic the key plays no part. -/
theorem scatterAddAt_eq (sched : HostSchedule) (d : ScatterDims s si u) (x : FVec Ideal s φ) (idx : IVec si w)
    (upd : FVec Ideal u φ) :
    Host.scatterAddAt (F := Ideal) sched d x idx upd = Host.scatterAdd (F := Ideal) d x idx upd := rfl

theorem allFin_scatterAddAt (sched : HostSchedule) (d : ScatterDims s si u) {x : FVec Ideal s φ} (idx : IVec si w)
    {upd : FVec Ideal u φ} (hx : AllFin x) (hupd : AllFin upd) :
    AllFin (Host.scatterAddAt (F := Ideal) sched d x idx upd) := by
  rw [scatterAddAt_eq]; exact allFin_scatterAdd d idx hx hupd

/-- An accumulating scatter of non-negative updates onto non-negative entries is non-negative. -/
theorem scatterAdd_nonneg (d : ScatterDims s si u) {x : FVec Ideal s φ} (idx : IVec si w) {upd : FVec Ideal u φ}
    (hx : ∀ i, 0 ≤ x i) (hupd : ∀ j, 0 ≤ upd j) (i : s.Idx) : 0 ≤ Host.scatterAdd (F := Ideal) d x idx upd i := by
  rw [scatterAdd_apply]
  exact add_nonneg (hx i) (Finset.sum_nonneg fun j _ => hupd j)

end Scatter

end LibGatherScatterFinite

end
-- ==== Proof.LibTileSums.lean ====
/-
  Finite sums over consecutive naturals, regrouped.

  A sum over the first `n * b` naturals can be taken in `n` consecutive blocks of `b` terms each, block `k`
  holding the naturals `b * k, …, b * k + (b - 1)`; and a sum over the first `b + b` naturals is the sum over
  its lower half plus the sum over its upper half. Both hold in any commutative additive monoid, since there a
  finite sum depends neither on the order nor on the grouping of its terms. The summand is a function of the
  natural number itself, so the statements say nothing about how the index types are spelt.
-/
import Mathlib.Algebra.BigOperators.Fin
import Mathlib.Data.Fintype.BigOperators

namespace LibTileSums

open Finset

variable {M : Type*} [AddCommMonoid M]

/-- The sum of `g` over the naturals below `n * b` is the sum, over the `n` blocks `k`, of the sum of `g`
    over the `b` naturals `b * k + j` (`j < b`) of block `k`: by induction on the number of blocks, the last
    block being split off by `Finset.sum_range_add`. -/
theorem sum_range_tiles (n b : ℕ) (g : ℕ → M) :
    ∑ i ∈ range (n * b), g i = ∑ k ∈ range n, ∑ j ∈ range b, g (b * k + j) := by
  induction n with
  | zero => simp
  | succ n ih => rw [Nat.succ_mul, sum_range_add, ih, sum_range_succ, Nat.mul_comm n b]

/-- A sum over `N = n * b` consecutive naturals, written over `Fin N`, taken in `n` blocks of `b`: the block
    index `k` runs over `range n` and the position `j` inside a block over `Fin b`, the term being `g` at the
    natural `b * k + j`. -/
theorem sum_tiles (n b N : ℕ) (hN : N = n * b) (g : ℕ → M) :
    ∑ c : Fin N, g c.val = ∑ k ∈ Finset.range n, ∑ j : Fin b, g (b * k + j.val) := by
  subst hN
  rw [Fin.sum_univ_eq_sum_range g (n * b), sum_range_tiles]
  exact sum_congr rfl fun k _ => (Fin.sum_univ_eq_sum_range (fun j => g (b * k + j)) b).symm

/-- A sum over `b + b` consecutive naturals, written over `Fin (b + b)`, is the sum over the lower half (the
    naturals `d`, `d < b`) plus the sum over the upper half (the naturals `b + d`, `d < b`). -/
theorem sum_halves (b : ℕ) (g : ℕ → M) :
    ∑ j : Fin (b + b), g j.val = ∑ d : Fin b, g d.val + ∑ d : Fin b, g (b + d.val) := by
  rw [Fin.sum_univ_add]
  simp only [Fin.val_castAdd, Fin.val_natAdd]

end LibTileSums
-- ==== Proof.LibBatchMoments.lean ====
/-
  The mean and the variance of a batch at exact arithmetic, and a column sum taken block by block.

  Let h be a finite family of real numbers with n > 0 members, S = ∑ h its sum, Q = ∑ h² the sum of its squares
  and μ = S / n its mean. The mean of the squared deviations is the mean of the squares minus the square of the
  mean:

      (∑ (h − μ)²) / n  =  Q / n − μ² ,

  because ∑ (h − μ)² = Q − 2 μ S + n μ² and S = n μ. Both sides are a non-negative real, so adding a positive
  real to either gives a positive real, which has a positive real reciprocal square root.

  On the extended reals the same holds as long as every member of the family is a real number (neither
  infinity): choose the real numbers, push the inclusion of the reals out through the sums, the products and the
  quotient by n, and the statement is the real one. With an infinite member it fails (∞ − ∞ appears).
  A program's sum along an axis reads "initial value + ∑", the initial value being zero, so every statement is
  given a second time with such a value in front of each sum.

  The second part: an accumulator that starts at zero and receives, block after block, the sum of the block's
  terms ends at the sum of all the terms. This uses only that the addition is commutative and associative, so
  it holds on the extended reals with no finiteness hypothesis.
-/
import Idealize.ShloMosaic.PureOps.Ideal.Laws
import proofs.«124822_j54752243090034_1_alg».proof.Proof.LibERealMatrix
import proofs.«124822_j54752243090034_1_alg».proof.Proof.LibIdealFinite
import proofs.«124822_j54752243090034_1_alg».proof.Proof.LibTileSums

noncomputable section

namespace LibBatchMoments

open Idealize.ShloMosaic LibERealMatrix LibIdealFinite Finset

/-! ### The identity on the reals -/

section Real
variable {ι : Type*}

/-- The sum of the squared deviations from any number m: ∑ (g − m)² = ∑ g² − 2 m ∑ g + n m², n the number
    of terms. -/
theorem real_sum_sq_dev (s : Finset ι) (g : ι → ℝ) {n : ℝ} (hcard : (s.card : ℝ) = n) (m : ℝ) :
    ∑ i ∈ s, (g i - m) * (g i - m) = (∑ i ∈ s, g i * g i) - 2 * m * (∑ i ∈ s, g i) + n * (m * m) := by
  have hexp : ∀ i, (g i - m) * (g i - m) = g i * g i - 2 * m * g i + m * m := fun i => by ring
  simp only [hexp]
  rw [Finset.sum_add_distrib, Finset.sum_sub_distrib, ← Finset.mul_sum, Finset.sum_const, nsmul_eq_mul, hcard]

/-- The mean of the squared deviations from the mean is the mean of the squares minus the square of the mean. -/
theorem real_mean_sq_dev (s : Finset ι) (g : ι → ℝ) {n : ℝ} (hn : n ≠ 0) (hcard : (s.card : ℝ) = n) :
    (∑ i ∈ s, (g i - (∑ i ∈ s, g i) / n) * (g i - (∑ i ∈ s, g i) / n)) / n
      = (∑ i ∈ s, g i * g i) / n - (∑ i ∈ s, g i) / n * ((∑ i ∈ s, g i) / n) := by
  rw [real_sum_sq_dev s g hcard]
  field_simp
  ring

/-- A mean of squares of real numbers is non-negative. -/
theorem real_mean_sq_nonneg (s : Finset ι) (g : ι → ℝ) {n : ℝ} (hn : 0 < n) (m : ℝ) :
    0 ≤ (∑ i ∈ s, (g i - m) * (g i - m)) / n :=
  div_nonneg (Finset.sum_nonneg fun i _ => mul_self_nonneg _) hn.le

end Real

/-! ### The identity on the extended reals, for a family of real numbers -/

section Extended
variable {ι : Type*}

/-- The word of 50000.0 in single precision denotes the real 50000. -/
theorem ofBits_50000 : Ideal.ofBits .f32 0x47435000#32 = ((50000 : ℝ) : EReal) := by
  simp [Ideal.ofBits, Ideal.ieee, -EReal.coe_mul]; norm_num

/-- The mean of finitely many real numbers, the quotient of their sum by a nonzero real, is a real number. -/
theorem fin_mean (s : Finset ι) (h : ι → EReal) (hh : ∀ i, Fin' (h i)) {N : EReal} {n : ℝ} (hN : N = (n : EReal))
    (hn : n ≠ 0) : Fin' (Ideal.div (∑ i ∈ s, h i) N) :=
  fin_div (Fin'.sum s h hh) (by rw [hN]; exact Fin'.coe n) (by rw [hN]; exact_mod_cast hn)

/-- The mean of the squared deviations of real numbers from ANY real number μ, the divisor a positive real:
    a real number, and non-negative. -/
theorem mean_sq_dev_fin_nonneg (s : Finset ι) (h : ι → EReal) (hh : ∀ i, Fin' (h i)) {N : EReal} {n : ℝ}
    (hN : N = (n : EReal)) (hn : 0 < n) {μ : EReal} (hμ : Fin' μ) :
    Fin' (Ideal.div (∑ i ∈ s, (h i - μ) * (h i - μ)) N) ∧ 0 ≤ Ideal.div (∑ i ∈ s, (h i - μ) * (h i - μ)) N := by
  have hd : ∀ i, Fin' ((h i - μ) * (h i - μ)) := fun i => (fin_sub (hh i) hμ).mul (fin_sub (hh i) hμ)
  have hNf : Fin' N := by rw [hN]; exact Fin'.coe n
  have hN0 : 0 < N := by rw [hN]; exact EReal.coe_pos.mpr hn
  exact ⟨fin_div (Fin'.sum s _ hd) hNf hN0.ne',
    div_nonneg_of_fin (Fin'.sum s _ hd) hNf (Finset.sum_nonneg fun i _ => fin_mul_self_nonneg (fin_sub (hh i) hμ)) hN0⟩

/-- THE VARIANCE LAW. For real numbers h i (i in s), n > 0 their number and μ their mean (∑ h) / n:
    the mean of the squared deviations from μ is the mean of the squares minus μ². -/
theorem mean_sq_dev_eq (s : Finset ι) (h : ι → EReal) (hh : ∀ i, Fin' (h i)) {N : EReal} {n : ℝ}
    (hN : N = (n : EReal)) (hn : 0 < n) (hcard : (s.card : ℝ) = n) {μ : EReal}
    (hμ : μ = Ideal.div (∑ i ∈ s, h i) N) :
    Ideal.div (∑ i ∈ s, (h i - μ) * (h i - μ)) N = Ideal.div (∑ i ∈ s, h i * h i) N - μ * μ := by
  obtain ⟨g, hg⟩ := exists_real_family h hh
  have hn0 : n ≠ 0 := hn.ne'
  have hS : ∑ i ∈ s, h i = ((∑ i ∈ s, g i : ℝ) : EReal) := by
    rw [coe_sum]; exact Finset.sum_congr rfl fun i _ => hg i
  have hμ' : μ = (((∑ i ∈ s, g i) / n : ℝ) : EReal) := by
    rw [hμ, hS, hN, div_coe_coe _ hn0]
  have hD : ∑ i ∈ s, (h i - μ) * (h i - μ)
      = ((∑ i ∈ s, (g i - (∑ i ∈ s, g i) / n) * (g i - (∑ i ∈ s, g i) / n) : ℝ) : EReal) := by
    rw [coe_sum]
    refine Finset.sum_congr rfl fun i _ => ?_
    rw [hg i, hμ', ← EReal.coe_sub, ← EReal.coe_mul]
  have hQ : ∑ i ∈ s, h i * h i = ((∑ i ∈ s, g i * g i : ℝ) : EReal) := by
    rw [coe_sum]
    refine Finset.sum_congr rfl fun i _ => ?_
    rw [hg i, ← EReal.coe_mul]
  rw [hD, hQ, hN, div_coe_coe _ hn0, div_coe_coe _ hn0, hμ', ← EReal.coe_mul, ← EReal.coe_sub]
  exact congrArg _ (real_mean_sq_dev s g hn0 hcard)

/-- Mean of the squares minus the square of the mean: a real number, and non-negative (it is a mean of squared
    deviations). -/
theorem mean_sq_sub_sq_mean_fin_nonneg (s : Finset ι) (h : ι → EReal) (hh : ∀ i, Fin' (h i)) {N : EReal} {n : ℝ}
    (hN : N = (n : EReal)) (hn : 0 < n) (hcard : (s.card : ℝ) = n) {μ : EReal}
    (hμ : μ = Ideal.div (∑ i ∈ s, h i) N) :
    Fin' (Ideal.div (∑ i ∈ s, h i * h i) N - μ * μ) ∧ 0 ≤ Ideal.div (∑ i ∈ s, h i * h i) N - μ * μ := by
  rw [← mean_sq_dev_eq s h hh hN hn hcard hμ]
  exact mean_sq_dev_fin_nonneg s h hh hN hn (by rw [hμ]; exact fin_mean s h hh hN hn.ne')

/-- A non-negative real plus a positive real: a positive real, whose reciprocal square root is a positive real.
    (A variance plus the small constant that keeps the normalisation away from zero.) -/
theorem fin_pos_add {v e : EReal} (hv : Fin' v) (hv0 : 0 ≤ v) (he : Fin' e) (he0 : 0 < e) :
    Fin' (v + e) ∧ 0 < v + e :=
  ⟨hv.add he, add_pos_of_nonneg_of_pos' hv0 he0⟩

theorem fin_rsqrt_add {v e : EReal} (hv : Fin' v) (hv0 : 0 ≤ v) (he : Fin' e) (he0 : 0 < e) :
    Fin' (Ideal.rsqrt (v + e)) ∧ 0 < Ideal.rsqrt (v + e) :=
  fin_rsqrt (fin_pos_add hv hv0 he he0).1 (fin_pos_add hv hv0 he he0).2

/-! #### The same with an initial value, which is zero, in front of each sum -/

/-- The variance law with each sum read as "initial value + ∑", the three initial values being zero. -/
theorem mean_sq_dev_eq_init (s : Finset ι) (h : ι → EReal) (hh : ∀ i, Fin' (h i)) {N : EReal} {n : ℝ}
    (hN : N = (n : EReal)) (hn : 0 < n) (hcard : (s.card : ℝ) = n) {z₁ z₂ z₃ : EReal} (h₁ : z₁ = 0) (h₂ : z₂ = 0)
    (h₃ : z₃ = 0) {μ : EReal} (hμ : μ = Ideal.div (z₁ + ∑ i ∈ s, h i) N) :
    Ideal.div (z₂ + ∑ i ∈ s, (h i - μ) * (h i - μ)) N = Ideal.div (z₃ + ∑ i ∈ s, h i * h i) N - μ * μ := by
  rw [h₁, zero_add] at hμ
  rw [h₂, h₃, zero_add, zero_add]
  exact mean_sq_dev_eq s h hh hN hn hcard hμ

/-- The variance law with 0 + in front of each sum. -/
theorem mean_sq_dev_eq_zero_add (s : Finset ι) (h : ι → EReal) (hh : ∀ i, Fin' (h i)) {N : EReal} {n : ℝ}
    (hN : N = (n : EReal)) (hn : 0 < n) (hcard : (s.card : ℝ) = n) {μ : EReal}
    (hμ : μ = Ideal.div (0 + ∑ i ∈ s, h i) N) :
    Ideal.div (0 + ∑ i ∈ s, (h i - μ) * (h i - μ)) N = Ideal.div (0 + ∑ i ∈ s, h i * h i) N - μ * μ :=
  mean_sq_dev_eq_init s h hh hN hn hcard rfl rfl rfl hμ

theorem fin_mean_init (s : Finset ι) (h : ι → EReal) (hh : ∀ i, Fin' (h i)) {N : EReal} {n : ℝ} (hN : N = (n : EReal))
    (hn : n ≠ 0) {z : EReal} (hz : z = 0) : Fin' (Ideal.div (z + ∑ i ∈ s, h i) N) := by
  rw [hz, zero_add]; exact fin_mean s h hh hN hn

theorem mean_sq_dev_fin_nonneg_init (s : Finset ι) (h : ι → EReal) (hh : ∀ i, Fin' (h i)) {N : EReal} {n : ℝ}
    (hN : N = (n : EReal)) (hn : 0 < n) {μ : EReal} (hμ : Fin' μ) {z : EReal} (hz : z = 0) :
    Fin' (Ideal.div (z + ∑ i ∈ s, (h i - μ) * (h i - μ)) N)
      ∧ 0 ≤ Ideal.div (z + ∑ i ∈ s, (h i - μ) * (h i - μ)) N := by
  rw [hz, zero_add]; exact mean_sq_dev_fin_nonneg s h hh hN hn hμ

theorem mean_sq_sub_sq_mean_fin_nonneg_init (s : Finset ι) (h : ι → EReal) (hh : ∀ i, Fin' (h i)) {N : EReal} {n : ℝ}
    (hN : N = (n : EReal)) (hn : 0 < n) (hcard : (s.card : ℝ) = n) {z₁ z₃ : EReal} (h₁ : z₁ = 0) (h₃ : z₃ = 0)
    {μ : EReal} (hμ : μ = Ideal.div (z₁ + ∑ i ∈ s, h i) N) :
    Fin' (Ideal.div (z₃ + ∑ i ∈ s, h i * h i) N - μ * μ) ∧ 0 ≤ Ideal.div (z₃ + ∑ i ∈ s, h i * h i) N - μ * μ := by
  rw [h₁, zero_add] at hμ
  rw [h₃, zero_add]
  exact mean_sq_sub_sq_mean_fin_nonneg s h hh hN hn hcard hμ

end Extended

/-! ### A set of indices listed without repetition

A sum along an axis runs over the indices that reduce to a given place; listed by a one-to-one family e
(the rows of a column, say), it is a sum over the list, and the set has as many members as the list. -/

section Listed
variable {ι κ : Type*} [Fintype κ] [DecidableEq ι]

theorem eq_image_of_listed (s : Finset ι) (e : κ → ι) (hs : ∀ i, i ∈ s ↔ ∃ k, e k = i) :
    s = Finset.univ.image e := by
  ext i
  rw [hs i, Finset.mem_image]
  exact ⟨fun ⟨k, hk⟩ => ⟨k, Finset.mem_univ k, hk⟩, fun ⟨k, _, hk⟩ => ⟨k, hk⟩⟩

theorem sum_eq_sum_listed {M : Type*} [AddCommMonoid M] (s : Finset ι) (e : κ → ι) (he : Function.Injective e)
    (hs : ∀ i, i ∈ s ↔ ∃ k, e k = i) (f : ι → M) : ∑ i ∈ s, f i = ∑ k, f (e k) := by
  rw [eq_image_of_listed s e hs, Finset.sum_image fun a _ b _ hab => he hab]

theorem card_eq_card_listed (s : Finset ι) (e : κ → ι) (he : Function.Injective e)
    (hs : ∀ i, i ∈ s ↔ ∃ k, e k = i) : s.card = Fintype.card κ := by
  rw [eq_image_of_listed s e hs, Finset.card_image_of_injective _ he, Finset.card_univ]

end Listed

/-! ### A program's sum along ONE axis, read as a sum over that axis's coordinates -/

section OneAxis
variable {s t u : Shape} {φ : FTy} {a : Fin s.rank}

/-- An entry of a host sum along one axis: the initial value plus the sum, over the coordinates k of that axis,
    of the operand's entry at the result's index with k inserted on the axis. -/
theorem reduceAdd_single_apply (x : FVec Ideal s φ) (init : u.Idx → Ideal φ) (h' : s.ReducesTo [a] t)
    (h : s.Reduces [a] t) (hu : 0 < u.numel) (j : t.Idx) :
    Host.reduceAdd (F := Ideal) x init h' hu j
      = init (Shape.Idx.first hu) + ∑ k : Fin (s.size a), x (h.lift j k) := by
  rw [reduceAdd_apply, Shape.ReducesTo.drop_eq_drop h' h, h.sum_filter_drop_single x j]

/-- A vector unit's sum along one axis, likewise (it has no initial value). -/
theorem vectorReduceAdd_single_apply (x : FVec Ideal s φ) (h : s.Reduces [a] t) (j : t.Idx) :
    Ideal.reduceAdd h x j = ∑ k : Fin (s.size a), x (h.lift j k) :=
  h.sum_filter_drop_single x j

/-- As many indices reduce to a place as the axis has coordinates. -/
theorem card_filter_drop_single (h : s.Reduces [a] t) (j : t.Idx) :
    (Finset.univ.filter fun i => h.drop i = j).card = s.size a := by
  classical
  rw [h.filter_drop_eq_image_lift j, Finset.card_image_of_injective _ (h.lift_injective j), Finset.card_univ,
    Fintype.card_fin]

end OneAxis

/-- The number of members of Fin m, as a real. -/
theorem card_univ_fin_cast (m : ℕ) : (((Finset.univ : Finset (Fin m)).card : ℕ) : ℝ) = (m : ℝ) := by
  rw [Finset.card_univ, Fintype.card_fin]

/-! ### A sum accumulated block by block -/

section Blocks
variable {M : Type*} [AddCommMonoid M]

/-- An accumulator that starts at zero and receives one term per step holds, after n steps, the sum of the n
    terms. -/
theorem acc_eq_sum_range (n : ℕ) (acc blk : ℕ → M) (h0 : acc 0 = 0)
    (hstep : ∀ k, k < n → acc (k + 1) = acc k + blk k) : acc n = ∑ k ∈ range n, blk k := by
  have key : ∀ m, m ≤ n → acc m = ∑ k ∈ range m, blk k := by
    intro m
    induction m with
    | zero => intro _; rw [h0, Finset.sum_range_zero]
    | succ m ih =>
      intro hm
      rw [hstep m (Nat.lt_of_succ_le hm), ih (Nat.le_of_succ_le hm), Finset.sum_range_succ]
  exact key n le_rfl

/-- A sum over n · b consecutive naturals accumulated in n blocks of b: the accumulator starts at zero and step k
    adds the sum of f over the b naturals b · k + r (r < b) of block k; after the n steps it holds the sum of f
    over all the naturals below n · b. -/
theorem acc_blocks (n b : ℕ) (f : ℕ → M) (acc : ℕ → M) (h0 : acc 0 = 0)
    (hstep : ∀ k, k < n → acc (k + 1) = acc k + ∑ r : Fin b, f (b * k + r.val)) :
    acc n = ∑ i : Fin (n * b), f i.val := by
  rw [LibTileSums.sum_tiles n b (n * b) rfl f]
  exact acc_eq_sum_range n acc (fun k => ∑ r : Fin b, f (b * k + r.val)) h0 hstep

/-- The same as a program writes it: each block's sum is itself taken from zero, the block's naturals are
    written k · b + r, and the whole sum is read from zero as well. -/
theorem acc_blocks_zero_add (n b : ℕ) (f : ℕ → M) (acc : ℕ → M) (h0 : acc 0 = 0)
    (hstep : ∀ k, k < n → acc (k + 1) = acc k + (0 + ∑ r : Fin b, f (k * b + r.val))) :
    acc n = 0 + ∑ i : Fin (n * b), f i.val := by
  rw [zero_add]
  refine acc_blocks n b f acc h0 fun k hk => ?_
  rw [hstep k hk, zero_add, Nat.mul_comm k b]

/-- The same for a family indexed by the n · b positions themselves: position r of block k is the one numbered
    r + b · k (LibERealMatrix.finProdFinEquiv_val). -/
theorem acc_blocks_fin (n b : ℕ) (f : Fin (n * b) → M) (acc : ℕ → M) (h0 : acc 0 = 0)
    (hstep : ∀ k : Fin n, acc (k.val + 1) = acc k.val + ∑ r : Fin b, f (finProdFinEquiv (k, r))) :
    acc n = ∑ i, f i := by
  rw [LibERealMatrix.sum_fin_mul n b f,
    acc_eq_sum_range n acc (fun k => if hk : k < n then ∑ r : Fin b, f (finProdFinEquiv (⟨k, hk⟩, r)) else 0) h0
      (fun k hk => by rw [dif_pos hk]; exact hstep ⟨k, hk⟩),
    ← Fin.sum_univ_eq_sum_range (fun k => if hk : k < n then ∑ r : Fin b, f (finProdFinEquiv (⟨k, hk⟩, r)) else 0) n]
  exact Finset.sum_congr rfl fun k _ => dif_pos k.isLt

end Blocks

end LibBatchMoments

end
-- ==== Proof.RefLayerFinite.lean ====
/-
  A layer of the reference network keeps every entry a real number.

  At exact arithmetic a float is an extended real. If the node features and all the float parameters of a layer
  have only real entries (no infinity), then so has the layer's output, whatever the edge list's indices are:

  * gathering rows, multiplying by weights and summing onto the destination rows only adds and multiplies reals;
  * the perceptron is sums of products and a maximum with zero;
  * a column mean is a sum of reals divided by 50000;
  * the variance is a sum of squares of reals divided by 50000: a real, and non-negative; adding the positive
    constant 1e-5 gives a positive real, whose reciprocal square root is a (positive) real;
  * the rest is products, sums and a maximum with zero again.
-/
import proofs.«124822_j54752243090034_1_alg».proof.Proof.RefLayer
import proofs.«124822_j54752243090034_1_alg».proof.Proof.LibIdealFinite
import proofs.«124822_j54752243090034_1_alg».proof.Proof.LibGatherScatterFinite
import proofs.«124822_j54752243090034_1_alg».proof.Proof.LibBatchMoments

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo
open LibERealMatrix LibIdealFinite LibGatherScatterFinite LibBatchMoments

/-- Every float parameter of the layer has only real entries. (The indices are integers: nothing is asked of them.) -/
structure FinParams (p : LayerParams Ideal) : Prop where
  ew : AllFin p.ew
  eps : AllFin p.eps
  W1 : AllFin p.W1
  b1 : AllFin p.b1
  W2 : AllFin p.W2
  b2 : AllFin p.b2
  gamma : AllFin p.gamma
  beta : AllFin p.beta

/-- The word of 1.0 in single precision denotes the real 1. -/
theorem ofBits_one : Ideal.ofBits .f32 0x3F800000#32 = ((1 : ℝ) : EReal) := by
  simp [Ideal.ofBits, Ideal.ieee, -EReal.coe_mul]; norm_num

/-! ### The constant arrays -/

theorem allFin_zeros : AllFin (zeros (F := Ideal)) :=
  allFin_bcast_constant _ _ ofBits_zero_coe

theorem allFin_count : AllFin (count (F := Ideal)) :=
  allFin_bcast_constant _ _ ofBits_50000

theorem count_apply (j : S128.Idx) : count (F := Ideal) j = ((50000 : ℝ) : EReal) := ofBits_50000

theorem allFin_epsBN : AllFin (epsBN (F := Ideal)) :=
  allFin_bcast_constant _ _ ofBits_1em5

theorem epsBN_pos (j : S128.Idx) : 0 < epsBN (F := Ideal) j := by
  show 0 < Ideal.ofBits .f32 0x3727C5AC#32
  obtain ⟨r, hr, h⟩ := ofBits_1em5_pos
  rw [h]; exact EReal.coe_pos.mpr hr

theorem allFin_rowB {v : FVec Ideal S128 .f32} (hv : AllFin v) : AllFin (rowB v) :=
  allFin_broadcastInDim _ _ _ (allFin_broadcastInDim _ _ _ hv)

/-- The initial value of a column sum is zero. -/
theorem colSum_init : (constant (F := Ideal) S_ .f32 0x00000000#32) (Shape.Idx.first h_S_) = 0 := ofBits_zero

theorem allFin_colSum {a : FVec Ideal S50000x128 .f32} (ha : AllFin a) : AllFin (colSum a) :=
  allFin_reduceAdd _ _ ha (by rw [colSum_init]; exact fin_zero)

theorem colSum_nonneg {a : FVec Ideal S50000x128 .f32} (ha : ∀ i, 0 ≤ a i) (j : S128.Idx) : 0 ≤ colSum a j :=
  reduceAdd_nonneg _ _ ha colSum_init j

/-! ### The layer, step by step -/

section Layer
variable {x : FVec Ideal S50000x128 .f32} {p : LayerParams Ideal}

theorem allFin_agg (hx : AllFin x) (hp : FinParams p) : AllFin (agg x p) :=
  allFin_scatterAdd _ _ allFin_zeros
    (allFin_mulf (allFin_gather _ _ hx) (allFin_broadcastInDim _ _ _ (allFin_broadcastInDim _ _ _ hp.ew)))

theorem allFin_pre (hx : AllFin x) (hp : FinParams p) : AllFin (pre x p) :=
  allFin_addf
    (allFin_mulf (allFin_broadcastInDim _ _ _ (allFin_addf (allFin_constant S_ ofBits_one) hp.eps)) hx)
    (allFin_agg hx hp)

theorem allFin_hidden (hx : AllFin x) (hp : FinParams p) : AllFin (hidden x p) :=
  allFin_addf
    (allFin_dotGeneral _ none
      (allFin_maximumf (allFin_addf (allFin_dotGeneral _ none (allFin_pre hx hp) hp.W1) (allFin_rowB hp.b1)) allFin_zeros)
      hp.W2)
    (allFin_rowB hp.b2)

/-- From here on only the perceptron's output matters: h with real entries. -/
theorem allFin_mean_of (hh : AllFin (hidden x p)) : AllFin (mean x p) :=
  allFin_hostDivf_const (allFin_colSum hh) count_apply (by norm_num)

theorem allFin_centred_of (hh : AllFin (hidden x p)) : AllFin (centred x p) :=
  allFin_subf hh (allFin_rowB (allFin_mean_of hh))

theorem allFin_varR_of (hh : AllFin (hidden x p)) : AllFin (varR x p) :=
  allFin_hostDivf_const (allFin_colSum (allFin_mulf (allFin_centred_of hh) (allFin_centred_of hh))) count_apply
    (by norm_num)

/-- The variance is non-negative: a sum of squares of reals over a positive real. -/
theorem varR_nonneg_of (hh : AllFin (hidden x p)) (j : S128.Idx) : 0 ≤ varR x p j :=
  hostDivf_const_nonneg (allFin_colSum (allFin_mulf (allFin_centred_of hh) (allFin_centred_of hh)))
    (colSum_nonneg (mulf_self_nonneg (allFin_centred_of hh))) count_apply (by norm_num) j

/-- Variance plus 1e-5: a positive real. -/
theorem allFin_varR_add_eps_of (hh : AllFin (hidden x p)) : AllFin (addf (varR x p) epsBN) :=
  allFin_addf (allFin_varR_of hh) allFin_epsBN

theorem varR_add_eps_pos_of (hh : AllFin (hidden x p)) (j : S128.Idx) : 0 < addf (varR x p) epsBN j :=
  addf_pos_of_nonneg_of_pos (varR_nonneg_of hh) epsBN_pos j

theorem allFin_rsqrtR_of (hh : AllFin (hidden x p)) : AllFin (Host.rsqrt (addf (varR x p) epsBN)) :=
  allFin_hostRsqrt (allFin_varR_add_eps_of hh) (varR_add_eps_pos_of hh)

/-- A layer's output has real entries, given that the features, the scale, the shift and the perceptron's output
    have. -/
theorem allFin_layerR_of (hx : AllFin x) (hg : AllFin p.gamma) (hb : AllFin p.beta) (hh : AllFin (hidden x p)) :
    AllFin (layerR x p) :=
  allFin_addf hx
    (allFin_maximumf
      (allFin_addf
        (allFin_mulf (allFin_mulf (allFin_rowB hg) (allFin_subf hh (allFin_rowB (allFin_mean_of hh))))
          (allFin_rowB (allFin_rsqrtR_of hh)))
        (allFin_rowB hb))
      allFin_zeros)

theorem allFin_mean (hx : AllFin x) (hp : FinParams p) : AllFin (mean x p) := allFin_mean_of (allFin_hidden hx hp)
theorem allFin_varR (hx : AllFin x) (hp : FinParams p) : AllFin (varR x p) := allFin_varR_of (allFin_hidden hx hp)
theorem varR_nonneg (hx : AllFin x) (hp : FinParams p) (j : S128.Idx) : 0 ≤ varR x p j :=
  varR_nonneg_of (allFin_hidden hx hp) j

/-- A LAYER KEEPS ENTRIES REAL: real features and real parameters give real features. -/
theorem allFin_layerR (hx : AllFin x) (hp : FinParams p) : AllFin (layerR x p) :=
  allFin_layerR_of hx hp.gamma hp.beta (allFin_hidden hx hp)

end Layer

/-! ### The three layers' parameters are real when the program's float arguments are -/

section Args
variable (V0 : Valuation τ sig (Elt Ideal))

/-- Every float argument of the program but the features has only real entries. -/
structure FinArgs : Prop where
  ew : AllFin (s := S800000) (V0 (Proc.devRef .tc main_arg3))
  W1 : AllFin (s := S3x128x128) (V0 (Proc.devRef .tc main_arg4))
  b1 : AllFin (s := S3x128) (V0 (Proc.devRef .tc main_arg5))
  W2 : AllFin (s := S3x128x128) (V0 (Proc.devRef .tc main_arg6))
  b2 : AllFin (s := S3x128) (V0 (Proc.devRef .tc main_arg7))
  eps : AllFin (s := S3) (V0 (Proc.devRef .tc main_arg8))
  gamma : AllFin (s := S3x128) (V0 (Proc.devRef .tc main_arg9))
  beta : AllFin (s := S3x128) (V0 (Proc.devRef .tc main_arg10))

variable {V0}

theorem finParams0 (h : FinArgs V0) : FinParams (params0 V0) where
  ew := h.ew
  eps := fun _ => h.eps _
  W1 := fun _ => h.W1 _
  b1 := fun _ => h.b1 _
  W2 := fun _ => h.W2 _
  b2 := fun _ => h.b2 _
  gamma := fun _ => h.gamma _
  beta := fun _ => h.beta _

theorem finParams1 (h : FinArgs V0) : FinParams (params1 V0) where
  ew := h.ew
  eps := fun _ => h.eps _
  W1 := fun _ => h.W1 _
  b1 := fun _ => h.b1 _
  W2 := fun _ => h.W2 _
  b2 := fun _ => h.b2 _
  gamma := fun _ => h.gamma _
  beta := fun _ => h.beta _

theorem finParams2 (h : FinArgs V0) : FinParams (params2 V0) where
  ew := h.ew
  eps := fun _ => h.eps _
  W1 := fun _ => h.W1 _
  b1 := fun _ => h.b1 _
  W2 := fun _ => h.W2 _
  b2 := fun _ => h.b2 _
  gamma := fun _ => h.gamma _
  beta := fun _ => h.beta _

/-- The features after each layer have real entries when the program's float arguments have. -/
theorem allFin_res_main_v72 (hx : AllFin (s := S50000x128) (V0 (Proc.devRef .tc main_arg0))) (h : FinArgs V0) :
    AllFin (s := S50000x128) (res_main_v72 V0) := by
  rw [res_main_v72_eq]; exact allFin_layerR hx (finParams0 h)

theorem allFin_res_main_v140 (hx : AllFin (s := S50000x128) (V0 (Proc.devRef .tc main_arg0))) (h : FinArgs V0) :
    AllFin (s := S50000x128) (res_main_v140 V0) := by
  rw [res_main_v140_eq]; exact allFin_layerR (allFin_res_main_v72 hx h) (finParams1 h)

end Args

end Cert.ReferenceIdeal.RefValue

end
-- ==== Proof.RefLayerMoments.lean ====
/-
  The variance of a layer computed from the sums of h and of h², and the layer with it.

  The reference computes, for each column of the perceptron's output h (50000 rows),

      mean = (∑ h) / 50000 ,      var = (∑ (h - mean)²) / 50000 ,

  reading h twice. The same two numbers come out of ONE pass that accumulates ∑ h and ∑ h²:

      mean = (∑ h) / 50000 ,      var = (∑ h²) / 50000 - mean · mean ,

  provided every entry of h is a real number (on the extended reals the identity fails at infinities). The layer
  written with the second formula, every other operation unchanged, is therefore the same array.
-/
import proofs.«124822_j54752243090034_1_alg».proof.Proof.RefLayer
import proofs.«124822_j54752243090034_1_alg».proof.Proof.RefLayerFinite
import proofs.«124822_j54752243090034_1_alg».proof.Proof.LibBatchMoments

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo
open LibERealMatrix LibIdealFinite LibBatchMoments

section Defs
variable {F : FTy → Type} [FloatOps F]

/-- The variance of each column from the column sums of h and of h · h: (∑ h²) / 50000 - mean · mean. -/
def varK (x : FVec F S50000x128 .f32) (p : LayerParams F) : FVec F S128 .f32 :=
  subf (Host.divf (colSum (mulf (hidden x p) (hidden x p))) count) (mulf (mean x p) (mean x p))

/-- One layer with the variance computed that way; everything else as in the reference's layer. -/
def layerK (x : FVec F S50000x128 .f32) (p : LayerParams F) : FVec F S50000x128 .f32 :=
  addf x
    (maximumf
      (addf (mulf (mulf (rowB p.gamma) (subf (hidden x p) (rowB (mean x p)))) (rowB (Host.rsqrt (addf (varK x p) epsBN))))
        (rowB p.beta))
      zeros)

/-- Dropping the row coordinate of an index of a 50000 × 128 array leaves its column. -/
theorem reduces_d0 : S50000x128.Reduces [0] S128 := by decide

/-- A vector repeated on every row, read at an index, is the vector at the index's column. -/
theorem rowB_apply (v : FVec F S128 .f32) (i : S50000x128.Idx) : rowB v i = v (reduces_d0.drop i) := by
  unfold rowB broadcastInDim
  refine congrArg v (funext fun b => Fin.ext ?_)
  match b with
  | ⟨0, _⟩ => rfl

end Defs

section Ideal
variable {x : FVec Ideal S50000x128 .f32} {p : LayerParams Ideal}

/-- A column sum is the sum over the 50000 rows of the column's entries. -/
theorem colSum_apply (a : FVec Ideal S50000x128 .f32) (j : S128.Idx) :
    colSum a j = ∑ k : Fin (S50000x128.size 0), a (reduces_d0.lift j k) := by
  unfold colSum
  rw [reduceAdd_single_apply a _ reducesTo_S50000x128_S128_d0 reduces_d0, colSum_init, zero_add]

/-- There are 50000 rows. -/
theorem card_rows : (((Finset.univ : Finset (Fin (S50000x128.size 0))).card : ℕ) : ℝ) = (50000 : ℝ) := by
  rw [card_univ_fin_cast]; show ((50000 : ℕ) : ℝ) = 50000; norm_num

/-- The column mean as a quotient of a sum over the rows. -/
theorem mean_apply (j : S128.Idx) :
    mean x p j = Ideal.div (∑ k : Fin (S50000x128.size 0), hidden x p (reduces_d0.lift j k)) ((50000 : ℝ) : EReal) := by
  unfold mean
  rw [hostDivf_apply, colSum_apply, count_apply]

/-- In column j the centred output is h minus that column's mean. -/
theorem centred_lift (j : S128.Idx) (k : Fin (S50000x128.size 0)) :
    centred x p (reduces_d0.lift j k) = hidden x p (reduces_d0.lift j k) - mean x p j := by
  unfold centred
  rw [subf_apply, rowB_apply, reduces_d0.drop_lift]

/-- THE TWO VARIANCES AGREE when the perceptron's output has only real entries. -/
theorem varR_eq_varK (hh : AllFin (hidden x p)) : varR x p = varK x p := by
  funext j
  show Host.divf (colSum (mulf (centred x p) (centred x p))) count j
    = subf (Host.divf (colSum (mulf (hidden x p) (hidden x p))) count) (mulf (mean x p) (mean x p)) j
  rw [subf_apply, mulf_apply, hostDivf_apply, hostDivf_apply, colSum_apply, colSum_apply, count_apply]
  simp only [mulf_apply, centred_lift]
  exact mean_sq_dev_eq Finset.univ (fun k => hidden x p (reduces_d0.lift j k)) (fun k => hh _) rfl (by norm_num)
    card_rows (mean_apply j)

/-- THE TWO LAYERS AGREE when the perceptron's output has only real entries. -/
theorem layerR_eq_layerK_of (hh : AllFin (hidden x p)) : layerR x p = layerK x p := by
  unfold layerR layerK
  rw [varR_eq_varK hh]

/-- ... in particular when the features and the layer's float parameters have only real entries. -/
theorem layerR_eq_layerK (hx : AllFin x) (hp : FinParams p) : layerR x p = layerK x p :=
  layerR_eq_layerK_of (allFin_hidden hx hp)

/-- The variance the second way is a non-negative real as well, so that 1e-5 added to it is positive. -/
theorem allFin_varK_of (hh : AllFin (hidden x p)) : AllFin (varK x p) := by
  rw [← varR_eq_varK hh]; exact allFin_varR_of hh

theorem varK_nonneg_of (hh : AllFin (hidden x p)) (j : S128.Idx) : 0 ≤ varK x p j := by
  rw [← varR_eq_varK hh]; exact varR_nonneg_of hh j

theorem varK_add_eps_pos_of (hh : AllFin (hidden x p)) (j : S128.Idx) : 0 < addf (varK x p) epsBN j := by
  rw [← varR_eq_varK hh]; exact varR_add_eps_pos_of hh j

theorem allFin_layerK (hx : AllFin x) (hp : FinParams p) : AllFin (layerK x p) := by
  rw [← layerR_eq_layerK hx hp]; exact allFin_layerR hx hp

end Ideal

end Cert.ReferenceIdeal.RefValue

end
-- ==== Proof.KiBnWhole.lean ====
import Idealize.ShloMosaic.Lib.ValueIdx

/-!
# Batch normalisation with a residual, over whole arrays

For a 50000 × 128 activation `h`, a 50000 × 128 residual input `x` and four 1 × 128 rows `mean`, `var`, `gamma`,
`beta`, the normalised layer output at row `r`, column `j` is

  `x r j + max (gamma j * (h r j − mean j) * rsqrt (var j + ε) + beta j) 0`

over the extended reals, with `ε` the single-precision constant nearest 1e-5. `bnWhole` is that array as one
function of the six arrays; `bnWhole_apply` reads it at an index given by its coordinates.
-/

noncomputable section

namespace Cert.KernelIdeal.Hand

open Idealize.ShloMosaic Idealize.ShloMosaic.ValueIdx

/-- The column of a 50000 × 128 index, as the index of the one row of a 1 × 128 array. -/
def rowOf (i : (⟨2, ![50000, 128]⟩ : Shape).Idx) : (⟨2, ![1, 128]⟩ : Shape).Idx :=
  ix2 (0 : Fin 1) (⟨(i 1).val, idx2_lt1 i⟩ : Fin 128)

/-- The normalised layer output as one array, from the activation `h`, the residual input `x` and the four rows. -/
def bnWhole (h x : (⟨2, ![50000, 128]⟩ : Shape).Idx → EReal) (mean var gamma beta : (⟨2, ![1, 128]⟩ : Shape).Idx → EReal) :
    (⟨2, ![50000, 128]⟩ : Shape).Idx → EReal :=
  fun i => x i + max (gamma (rowOf i) * (h i - mean (rowOf i))
    * Ideal.rsqrt (var (rowOf i) + Ideal.ofBits .f32 0x3727C5AC#32) + beta (rowOf i)) 0

/-- `bnWhole` at row `r`, column `j`. -/
theorem bnWhole_apply (h x : (⟨2, ![50000, 128]⟩ : Shape).Idx → EReal) (mean var gamma beta : (⟨2, ![1, 128]⟩ : Shape).Idx → EReal)
    (r : Fin 50000) (j : Fin 128) :
    bnWhole h x mean var gamma beta (ix2 r j)
      = x (ix2 r j) + max (gamma (ix2 (0 : Fin 1) j) * (h (ix2 r j) - mean (ix2 (0 : Fin 1) j))
          * Ideal.rsqrt (var (ix2 (0 : Fin 1) j) + Ideal.ofBits .f32 0x3727C5AC#32) + beta (ix2 (0 : Fin 1) j)) 0 := rfl

end Cert.KernelIdeal.Hand

end
-- ==== Proof.KiMlpWhole.lean ====
import Idealize.ShloMosaic.Lib.ValueIdx
import Mathlib.Algebra.BigOperators.Fin

/-!
# The two-layer perceptron and its column sums, over whole arrays

For two 50000 × 128 arrays `xe`, `agg` (their sum is the perceptron's input), two 128 × 128 weight matrices and two
1 × 128 bias rows, the perceptron's output at row `r`, column `j` is

  `∑ k, max (∑ k', (xe r k' + agg r k') · w1 k' k + b1 k) 0 · w2 k j + b2 j`

over the extended reals. `mlpH` is that array as one function of the six arrays; `rowSum a` is the 1 × 128 row of
the column sums of a 50000 × 128 array, each taken from zero.
-/

noncomputable section

namespace Cert.KernelIdeal.Hand

open Idealize.ShloMosaic Idealize.ShloMosaic.ValueIdx

/-- The perceptron's output as one array. -/
def mlpH (xe agg : (⟨2, ![50000, 128]⟩ : Shape).Idx → EReal) (w1 : (⟨2, ![128, 128]⟩ : Shape).Idx → EReal)
    (b1 : (⟨2, ![1, 128]⟩ : Shape).Idx → EReal) (w2 : (⟨2, ![128, 128]⟩ : Shape).Idx → EReal)
    (b2 : (⟨2, ![1, 128]⟩ : Shape).Idx → EReal) : (⟨2, ![50000, 128]⟩ : Shape).Idx → EReal :=
  fun i => (∑ k : Fin 128, max ((∑ k' : Fin 128, (xe (ix2 (⟨(i 0).val, idx2_lt0 i⟩ : Fin 50000) k') + agg (ix2 (⟨(i 0).val, idx2_lt0 i⟩ : Fin 50000) k')) * w1 (ix2 k' k))
      + b1 (ix2 (0 : Fin 1) k)) 0 * w2 (ix2 k (⟨(i 1).val, idx2_lt1 i⟩ : Fin 128))) + b2 (ix2 (0 : Fin 1) (⟨(i 1).val, idx2_lt1 i⟩ : Fin 128))

/-- `mlpH` at row `r`, column `j`. -/
theorem mlpH_apply (xe agg : (⟨2, ![50000, 128]⟩ : Shape).Idx → EReal) (w1 : (⟨2, ![128, 128]⟩ : Shape).Idx → EReal)
    (b1 : (⟨2, ![1, 128]⟩ : Shape).Idx → EReal) (w2 : (⟨2, ![128, 128]⟩ : Shape).Idx → EReal)
    (b2 : (⟨2, ![1, 128]⟩ : Shape).Idx → EReal) (r : Fin 50000) (j : Fin 128) :
    mlpH xe agg w1 b1 w2 b2 (ix2 r j)
      = (∑ k : Fin 128, max ((∑ k' : Fin 128, (xe (ix2 r k') + agg (ix2 r k')) * w1 (ix2 k' k)) + b1 (ix2 (0 : Fin 1) k)) 0 * w2 (ix2 k j))
        + b2 (ix2 (0 : Fin 1) j) := rfl

/-- The row of column sums of a 50000 × 128 array, each from zero. -/
def rowSum (a : (⟨2, ![50000, 128]⟩ : Shape).Idx → EReal) : (⟨2, ![1, 128]⟩ : Shape).Idx → EReal :=
  fun i => 0 + ∑ r : Fin 50000, a (ix2 r (⟨(i 1).val, idx2_lt1 i⟩ : Fin 128))

theorem rowSum_apply (a : (⟨2, ![50000, 128]⟩ : Shape).Idx → EReal) (z : Fin 1) (j : Fin 128) :
    rowSum a (ix2 z j) = 0 + ∑ r : Fin 50000, a (ix2 r j) := rfl

end Cert.KernelIdeal.Hand

end
-- ==== Proof.LibMatIdx.lean ====
/-
  A host product of two matrices at exact arithmetic, read at an entry: the sum over the contracted axis of the
  products of the left factor's row entries with the right factor's column entries. Stated for any contraction
  record between two-axis shapes whose operand indices are "row of the result, contracted position" and "contracted
  position, column of the result" — facts that hold by computation for the records a product of two matrices prints.
-/
import Idealize.ShloMosaic.Lib.ValueIdx
import Idealize.ShloMosaic.PureOps.Ideal.Laws

noncomputable section

namespace LibMatIdx

open Idealize.ShloMosaic Idealize.ShloMosaic.ValueIdx

theorem dot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j = ∑ k : Fin K, l (ix2 (n0 := M) (n1 := K) (j 0) k) * r (ix2 (n0 := K) (n1 := N) k (j 1)) := by
  show FloatOps.dotGeneral (F := Ideal) D prec .single l r j = _
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatIdx

end
-- ==== Proof.KernelLayer.lean ====
/-
  One layer as the kernel computes it is one layer as the reference computes it.

  The kernel splits a layer in two passes over the 50000 rows. The first computes the perceptron's output
  H = relu((xe + agg) · W1 + b1) · W2 + b2 from xe = (1 + eps) · x and the aggregated neighbours agg, and with it
  the column sums ∑ H and ∑ H². Between the passes: mean = (∑ H) / 50000, var = (∑ H²) / 50000 - mean · mean. The
  second pass computes x + relu(gamma · (H - mean) · rsqrt(var + 1e-5) + beta).

  Index by index this is the layer written with the one-pass variance (layerK): a matrix product read at an entry
  is a sum over the contracted axis, a vector repeated on every row read at an entry is the vector at the entry's
  column, and a column sum is the sum over the rows. With real entries everywhere the one-pass variance is the
  reference's, so the kernel's layer is the reference's; three of them make the whole network.
-/
import proofs.«124822_j54752243090034_1_alg».proof.Proof.RefLayerMoments
import proofs.«124822_j54752243090034_1_alg».proof.Proof.KiBnWhole
import proofs.«124822_j54752243090034_1_alg».proof.Proof.KiMlpWhole
import proofs.«124822_j54752243090034_1_alg».proof.Proof.LibMatIdx
import Idealize.ShloMosaic.Lib.ValueLayout

noncomputable section

namespace Cert.KernelLayer

open Cert.ReferenceIdeal Cert.ReferenceIdeal.Gen Cert.ReferenceIdeal.Value Cert.ReferenceIdeal.RefValue Cert.KernelIdeal.Hand
  Idealize.ShloMosaic Idealize.ShloMosaic.TcCoe Idealize.SL.Sem Idealize.ShloMosaic.StableHlo
open LibERealMatrix LibIdealFinite LibBatchMoments
open Idealize.ShloMosaic.ValueIdx (ix1 ix2 eq_ix1 eq_ix2 shapeCast_a_1a_apply shapeCast_1a_a_apply)

/-! ### Reading the layer's arrays at an entry (row r, column j) -/

/-- A vector repeated on every row, at (r, j): the vector at j. -/
theorem rowB_ix2 (v : FVec Ideal S128 .f32) (r : Fin 50000) (j : Fin 128) : rowB v (ix2 r j) = v (ix1 j) := by
  unfold rowB broadcastInDim
  refine congrArg v (funext fun b => Fin.ext ?_)
  match b with
  | ⟨0, _⟩ => rfl

theorem zeros_apply (i : S50000x128.Idx) : zeros (F := Ideal) i = 0 := ofBits_zero

theorem epsBN_apply (j : S128.Idx) : epsBN (F := Ideal) j = Ideal.ofBits .f32 0x3727C5AC#32 := rfl

/-- A product of a 50000 × 128 array with a 128 × 128 matrix, at (r, j): the sum over k of l (r, k) · w (k, j). -/
theorem dot_apply (l : FVec Ideal S50000x128 .f32) (w : FVec Ideal S128x128 .f32) (r : Fin 50000) (j : Fin 128) :
    Host.dotGeneral (F := Ideal) dot_S50000x128_S128x128_S50000x128_1_0_0_1_n_n none l w (ix2 r j)
      = ∑ k : Fin 128, l (ix2 r k) * w (ix2 k j) :=
  LibMatIdx.dot2_apply (M := 50000) (K := 128) (N := 128) dot_S50000x128_S128x128_S50000x128_1_0_0_1_n_n rfl rfl
    (fun _ _ => rfl) (fun jj kk => DotDims.lhsIdx_val_of_single _ rfl jj kk)
    (fun jj kk => DotDims.rhsIdx_val_of_single _ rfl jj kk) (fun _ _ => rfl) none l w (ix2 r j)

/-- The perceptron's input at an entry. -/
theorem pre_apply (x : FVec Ideal S50000x128 .f32) (p : LayerParams Ideal) (i : S50000x128.Idx) :
    pre x p i
      = mulf (F := Ideal) (broadcastInDim S50000x128 ![] bcast_S_S50000x128 (addf (constant S_ .f32 0x3F800000#32) p.eps)) x i
        + agg x p i := rfl

/-- The perceptron's output at (r, j). -/
theorem hidden_apply (x : FVec Ideal S50000x128 .f32) (p : LayerParams Ideal) (r : Fin 50000) (j : Fin 128) :
    hidden x p (ix2 r j)
      = (∑ k : Fin 128, max ((∑ k' : Fin 128, pre x p (ix2 r k') * p.W1 (ix2 k' k)) + p.b1 (ix1 k)) 0 * p.W2 (ix2 k j))
        + p.b2 (ix1 j) := by
  unfold Cert.ReferenceIdeal.RefValue.hidden
  rw [addf_apply, dot_apply, rowB_ix2]
  refine congrArg (· + p.b2 (ix1 j)) (Finset.sum_congr rfl fun k _ => ?_)
  rw [maximumf_apply, addf_apply, dot_apply, rowB_ix2, zeros_apply]

/-! ### The first pass: the perceptron's output and its column sums -/

/-- The first pass's array is the perceptron's output. xe, ag and the two bias rows are what the kernel is handed:
    (1 + eps) · x, the aggregated neighbours, and the biases as single rows. -/
theorem mlpH_eq_hidden (x : FVec Ideal S50000x128 .f32) (p : LayerParams Ideal) {xe ag : S50000x128.Idx → EReal}
    {b1row b2row : S1x128.Idx → EReal} (hc1 hc2 : S128.ShapeCasts S1x128)
    (hxe : xe = mulf (F := Ideal) (broadcastInDim S50000x128 ![] bcast_S_S50000x128 (addf (constant S_ .f32 0x3F800000#32) p.eps)) x)
    (hag : ag = agg x p) (hb1 : b1row = shapeCast S1x128 p.b1 hc1) (hb2 : b2row = shapeCast S1x128 p.b2 hc2) :
    mlpH xe ag p.W1 b1row p.W2 b2row = hidden x p := by
  subst hxe hag hb1 hb2
  funext i
  obtain ⟨r, j, rfl⟩ : ∃ r j, i = ix2 r j := ⟨_, _, eq_ix2 i⟩
  rw [mlpH_apply, hidden_apply]
  simp only [shapeCast_a_1a_apply, pre_apply]

/-- Row k of column c, as the index above result index c with k put on the dropped axis. -/
theorem lift_ix1 (c : Fin 128) (k : Fin 50000) : reduces_d0.lift (ix1 c) k = ix2 k c := by
  funext d
  apply Fin.ext
  match d with
  | ⟨0, _⟩ => rfl
  | ⟨1, _⟩ => rfl

/-- A column sum at column c: the sum over the 50000 rows. -/
theorem colSum_ix1 (a : FVec Ideal S50000x128 .f32) (c : Fin 128) : colSum a (ix1 c) = ∑ r : Fin 50000, a (ix2 r c) := by
  rw [colSum_apply]
  exact Finset.sum_congr rfl fun k _ => congrArg a (lift_ix1 c k)

/-- The first pass's row of column sums, read as a vector, is the column sum. -/
theorem shapeCast_rowSum (a : S50000x128.Idx → EReal) (hc : S1x128.ShapeCasts S128) :
    shapeCast S128 (rowSum a) hc = colSum (F := Ideal) a := by
  funext j
  obtain ⟨c, rfl⟩ : ∃ c, j = ix1 c := ⟨_, eq_ix1 j⟩
  rw [shapeCast_1a_a_apply, rowSum_apply, zero_add, colSum_ix1]

/-! ### The second pass, and the layer -/

/-- The second pass's array, given the perceptron's output and the statistics formed from its column sums, is the
    layer with the one-pass variance. -/
theorem bnWhole_eq_layerK (x : FVec Ideal S50000x128 .f32) (p : LayerParams Ideal) {H : S50000x128.Idx → EReal}
    {meanV varV : S128.Idx → EReal} {meanrow varrow gammarow betarow : S1x128.Idx → EReal}
    (hc hc' : S1x128.ShapeCasts S128) (hm hv hg hb : S128.ShapeCasts S1x128)
    (hH : H = hidden x p)
    (hmean : meanV = Host.divf (F := Ideal) (φ := .f32) (shapeCast S128 (rowSum H) hc) count)
    (hvar : varV = subf (F := Ideal) (φ := .f32)
      (Host.divf (F := Ideal) (φ := .f32) (shapeCast S128 (rowSum fun i => H i * H i) hc') count) (mulf (F := Ideal) (φ := .f32) meanV meanV))
    (hmr : meanrow = shapeCast S1x128 meanV hm) (hvr : varrow = shapeCast S1x128 varV hv)
    (hgr : gammarow = shapeCast S1x128 p.gamma hg) (hbr : betarow = shapeCast S1x128 p.beta hb) :
    bnWhole H x meanrow varrow gammarow betarow = layerK x p := by
  have e1 : meanV = mean x p := by rw [hmean, hH, shapeCast_rowSum]; rfl
  have e2 : varV = varK x p := by rw [hvar, e1, hH, shapeCast_rowSum]; rfl
  subst hmr hvr hgr hbr
  rw [e1, e2, hH]
  funext i
  obtain ⟨r, j, rfl⟩ : ∃ r j, i = ix2 r j := ⟨_, _, eq_ix2 i⟩
  rw [bnWhole_apply]
  unfold layerK
  rw [addf_apply, maximumf_apply, addf_apply, mulf_apply, mulf_apply, subf_apply, rowB_ix2, rowB_ix2, rowB_ix2, rowB_ix2,
    zeros_apply, hostRsqrt_apply, addf_apply, epsBN_apply]
  simp only [shapeCast_a_1a_apply]

/-- THE KERNEL'S LAYER IS THE LAYER WITH THE ONE-PASS VARIANCE: from what the two passes leave and what is formed in
    between, each glue array given by an equation. -/
theorem kernelLayer_eq_layerK (x : FVec Ideal S50000x128 .f32) (p : LayerParams Ideal) {xe ag H : S50000x128.Idx → EReal}
    {b1row b2row meanrow varrow gammarow betarow : S1x128.Idx → EReal} {meanV varV : S128.Idx → EReal}
    (hc1 hc2 : S128.ShapeCasts S1x128) (hc hc' : S1x128.ShapeCasts S128) (hm hv hg hb : S128.ShapeCasts S1x128)
    (hxe : xe = mulf (F := Ideal) (broadcastInDim S50000x128 ![] bcast_S_S50000x128 (addf (constant S_ .f32 0x3F800000#32) p.eps)) x)
    (hag : ag = agg x p) (hb1 : b1row = shapeCast S1x128 p.b1 hc1) (hb2 : b2row = shapeCast S1x128 p.b2 hc2)
    (hH : H = mlpH xe ag p.W1 b1row p.W2 b2row)
    (hmean : meanV = Host.divf (F := Ideal) (φ := .f32) (shapeCast S128 (rowSum H) hc) count)
    (hvar : varV = subf (F := Ideal) (φ := .f32)
      (Host.divf (F := Ideal) (φ := .f32) (shapeCast S128 (rowSum fun i => H i * H i) hc') count) (mulf (F := Ideal) (φ := .f32) meanV meanV))
    (hmr : meanrow = shapeCast S1x128 meanV hm) (hvr : varrow = shapeCast S1x128 varV hv)
    (hgr : gammarow = shapeCast S1x128 p.gamma hg) (hbr : betarow = shapeCast S1x128 p.beta hb) :
    bnWhole H x meanrow varrow gammarow betarow = layerK x p :=
  bnWhole_eq_layerK x p hc hc' hm hv hg hb (hH.trans (mlpH_eq_hidden x p hc1 hc2 hxe hag hb1 hb2)) hmean hvar hmr hvr hgr hbr

/-- ... and, with real entries, the reference's layer. -/
theorem kernelLayer_eq_layerR {x : FVec Ideal S50000x128 .f32} {p : LayerParams Ideal} (hx : AllFin x) (hp : FinParams p)
    {xe ag H : S50000x128.Idx → EReal} {b1row b2row meanrow varrow gammarow betarow : S1x128.Idx → EReal}
    {meanV varV : S128.Idx → EReal}
    (hc1 hc2 : S128.ShapeCasts S1x128) (hc hc' : S1x128.ShapeCasts S128) (hm hv hg hb : S128.ShapeCasts S1x128)
    (hxe : xe = mulf (F := Ideal) (broadcastInDim S50000x128 ![] bcast_S_S50000x128 (addf (constant S_ .f32 0x3F800000#32) p.eps)) x)
    (hag : ag = agg x p) (hb1 : b1row = shapeCast S1x128 p.b1 hc1) (hb2 : b2row = shapeCast S1x128 p.b2 hc2)
    (hH : H = mlpH xe ag p.W1 b1row p.W2 b2row)
    (hmean : meanV = Host.divf (F := Ideal) (φ := .f32) (shapeCast S128 (rowSum H) hc) count)
    (hvar : varV = subf (F := Ideal) (φ := .f32)
      (Host.divf (F := Ideal) (φ := .f32) (shapeCast S128 (rowSum fun i => H i * H i) hc') count) (mulf (F := Ideal) (φ := .f32) meanV meanV))
    (hmr : meanrow = shapeCast S1x128 meanV hm) (hvr : varrow = shapeCast S1x128 varV hv)
    (hgr : gammarow = shapeCast S1x128 p.gamma hg) (hbr : betarow = shapeCast S1x128 p.beta hb) :
    bnWhole H x meanrow varrow gammarow betarow = layerR x p :=
  (kernelLayer_eq_layerK x p hc1 hc2 hc hc' hm hv hg hb hxe hag hb1 hb2 hH hmean hvar hmr hvr hgr hbr).trans
    (layerR_eq_layerK hx hp).symm

/-! ### Three layers -/

/-- Three layers with the one-pass variance are the reference's three layers, when the features and all float
    parameters have real entries: each layer keeps the entries real, so the next one's variances agree too. -/
theorem three_layers {x0 x1 x2 x3 : FVec Ideal S50000x128 .f32} {p0 p1 p2 : LayerParams Ideal} (hx : AllFin x0)
    (h0 : FinParams p0) (h1 : FinParams p1) (h2 : FinParams p2) (e1 : x1 = layerK x0 p0) (e2 : x2 = layerK x1 p1)
    (e3 : x3 = layerK x2 p2) : x3 = layerR (layerR (layerR x0 p0) p1) p2 := by
  have d1 : x1 = layerR x0 p0 := e1.trans (layerR_eq_layerK hx h0).symm
  have f1 : AllFin x1 := by rw [d1]; exact allFin_layerR hx h0
  have d2 : x2 = layerR x1 p1 := e2.trans (layerR_eq_layerK f1 h1).symm
  have f2 : AllFin x2 := by rw [d2]; exact allFin_layerR f1 h1
  have d3 : x3 = layerR x2 p2 := e3.trans (layerR_eq_layerK f2 h2).symm
  rw [d3, d2, d1]

/-- The same against the reference program's result: three one-pass layers on the reference's first argument, with
    the parameters the reference slices out of its other arguments, give the reference's result. -/
theorem three_layers_ref {V0 : Valuation τ sig (Elt Ideal)} (hx : AllFin (s := S50000x128) (V0 (Proc.devRef .tc main_arg0)))
    (hA : FinArgs V0) {x1 x2 x3 : FVec Ideal S50000x128 .f32}
    (e1 : x1 = layerK (V0 (Proc.devRef .tc main_arg0)) (params0 V0)) (e2 : x2 = layerK x1 (params1 V0))
    (e3 : x3 = layerK x2 (params2 V0)) : x3 = val5 V0 (no_index (Proc.devRef .tc main_v208)) := by
  rw [val5_main_v208_eq_three]
  exact three_layers hx (finParams0 hA) (finParams1 hA) (finParams2 hA) e1 e2 e3

end Cert.KernelLayer

end
-- ==== Proof.KiBnVal1.lean ====
import proofs.«124822_j54752243090034_1_alg».proof.Proof.KiBn1
import proofs.«124822_j54752243090034_1_alg».proof.Proof.KiBnWhole
import Idealize.ShloMosaic.Lib.Pipeline.Value
import Idealize.ShloMosaic.Lib.ValueLayout

/-!
# What the normalisation region of pallas call 1 writes back, as one array

Over the extended reals and for any contents `V` of the core's buffers at region entry: grid point `t` of the region
writes rows `2000 t … 2000 t + 1999` of the output array, and what it writes there is `bnWhole` of the six input
arrays restricted to those rows — the blocks of `h` and `x` at point `t` are the same rows of their arrays, and the
four one-row windows are their whole arrays at every point. The 25 points' row ranges fill the 50000 rows, so after
the region the output array IS `bnWhole` of the six input arrays (`region1_writes`).
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section BnVal1
-- what each core holds in each of its unscoped buffers at the moment the region starts, over the extended reals
variable (V : (c : Dev nD) → (b : Ref sig .tc) → Buf (Elt Ideal) ((c : Thread nD τ).loc b))

/-! ## Which rows a grid point touches -/

/-- The block index of every window at every grid point, decided over the 25 points: the three 2000 × 128 windows sit
    at block row `t`, the four one-row windows at block `(0, 0)`. -/
theorem rows_of_point1 : ∀ t : Fin cfg1.N, win1_0.index t (0 : Fin 2) = t.val ∧ win1_0.index t (1 : Fin 2) = 0
    ∧ win1_1.index t (0 : Fin 2) = t.val ∧ win1_1.index t (1 : Fin 2) = 0
    ∧ win1_6.index t (0 : Fin 2) = t.val ∧ win1_6.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-! ## The input blocks as parts of their arrays -/

/-- Window 0's block at point `t` is rows `2000 t … 2000 t + 1999` of its array: element `(p, q)` of the block is
    element `(2000 t + p, q)` of the array. -/
theorem iblk1_0_apply (c : Dev nD) (t : Fin cfg1.N) (p : Fin 2000) (q : Fin 128) (r : Fin 50000)
    (hr : r.val = 2000 * t.val + p.val) :
    (iblk1 V c 0 t : S2000x128.Idx → EReal) (ix2 p q) = (V c main_v32_0 : S50000x128.Idx → EReal) (ix2 r q) := by
  obtain ⟨e00, e01, e10, e11, e60, e61, -⟩ := rows_of_point1 t
  unfold iblk1
  rw [View.read_apply]
  show (V c main_v32_0 : S50000x128.Idx → EReal) _ = (V c main_v32_0 : S50000x128.Idx → EReal) _
  refine congrArg (V c main_v32_0 : S50000x128.Idx → EReal) ?_
  funext a
  apply Fin.ext
  match a with
  | ⟨0, _⟩ => show win1_0.index t (0 : Fin 2) * 2000 + 1 * p.val = r.val; rw [e00, hr]; omega
  | ⟨1, _⟩ => show win1_0.index t (1 : Fin 2) * 128 + 1 * q.val = q.val; rw [e01]; omega

/-- Window 1's block at point `t` is rows `2000 t … 2000 t + 1999` of its array: element `(p, q)` of the block is
    element `(2000 t + p, q)` of the array. -/
theorem iblk1_1_apply (c : Dev nD) (t : Fin cfg1.N) (p : Fin 2000) (q : Fin 128) (r : Fin 50000)
    (hr : r.val = 2000 * t.val + p.val) :
    (iblk1 V c 1 t : S2000x128.Idx → EReal) (ix2 p q) = (V c main_arg0 : S50000x128.Idx → EReal) (ix2 r q) := by
  obtain ⟨e00, e01, e10, e11, e60, e61, -⟩ := rows_of_point1 t
  unfold iblk1
  rw [View.read_apply]
  show (V c main_arg0 : S50000x128.Idx → EReal) _ = (V c main_arg0 : S50000x128.Idx → EReal) _
  refine congrArg (V c main_arg0 : S50000x128.Idx → EReal) ?_
  funext a
  apply Fin.ext
  match a with
  | ⟨0, _⟩ => show win1_1.index t (0 : Fin 2) * 2000 + 1 * p.val = r.val; rw [e10, hr]; omega
  | ⟨1, _⟩ => show win1_1.index t (1 : Fin 2) * 128 + 1 * q.val = q.val; rw [e11]; omega

/-- Window 2's block is its whole one-row array, at every point. -/
theorem iblk1_2_eq (c : Dev nD) (t : Fin cfg1.N) :
    (iblk1 V c 2 t : S1x128.Idx → EReal) = (V c main_v45 : S1x128.Idx → EReal) := by
  obtain ⟨-, -, -, -, -, -, e20, e21, e30, e31, e40, e41, e50, e51⟩ := rows_of_point1 t
  funext k
  unfold iblk1
  rw [View.read_apply]
  show (V c main_v45 : S1x128.Idx → EReal) _ = (V c main_v45 : S1x128.Idx → EReal) k
  refine congrArg (V c main_v45 : S1x128.Idx → EReal) ?_
  funext a
  apply Fin.ext
  match a with
  | ⟨0, _⟩ => show win1_2.index t (0 : Fin 2) * 1 + 1 * (k 0).val = (k 0).val; rw [e20]; omega
  | ⟨1, _⟩ => show win1_2.index t (1 : Fin 2) * 128 + 1 * (k 1).val = (k 1).val; rw [e21]; omega

/-- Window 3's block is its whole one-row array, at every point. -/
theorem iblk1_3_eq (c : Dev nD) (t : Fin cfg1.N) :
    (iblk1 V c 3 t : S1x128.Idx → EReal) = (V c main_v46 : S1x128.Idx → EReal) := by
  obtain ⟨-, -, -, -, -, -, e20, e21, e30, e31, e40, e41, e50, e51⟩ := rows_of_point1 t
  funext k
  unfold iblk1
  rw [View.read_apply]
  show (V c main_v46 : S1x128.Idx → EReal) _ = (V c main_v46 : S1x128.Idx → EReal) k
  refine congrArg (V c main_v46 : S1x128.Idx → EReal) ?_
  funext a
  apply Fin.ext
  match a with
  | ⟨0, _⟩ => show win1_3.index t (0 : Fin 2) * 1 + 1 * (k 0).val = (k 0).val; rw [e30]; omega
  | ⟨1, _⟩ => show win1_3.index t (1 : Fin 2) * 128 + 1 * (k 1).val = (k 1).val; rw [e31]; omega

/-- Window 4's block is its whole one-row array, at every point. -/
theorem iblk1_4_eq (c : Dev nD) (t : Fin cfg1.N) :
    (iblk1 V c 4 t : S1x128.Idx → EReal) = (V c main_v47 : S1x128.Idx → EReal) := by
  obtain ⟨-, -, -, -, -, -, e20, e21, e30, e31, e40, e41, e50, e51⟩ := rows_of_point1 t
  funext k
  unfold iblk1
  rw [View.read_apply]
  show (V c main_v47 : S1x128.Idx → EReal) _ = (V c main_v47 : S1x128.Idx → EReal) k
  refine congrArg (V c main_v47 : S1x128.Idx → EReal) ?_
  funext a
  apply Fin.ext
  match a with
  | ⟨0, _⟩ => show win1_4.index t (0 : Fin 2) * 1 + 1 * (k 0).val = (k 0).val; rw [e40]; omega
  | ⟨1, _⟩ => show win1_4.index t (1 : Fin 2) * 128 + 1 * (k 1).val = (k 1).val; rw [e41]; omega

/-- Window 5's block is its whole one-row array, at every point. -/
theorem iblk1_5_eq (c : Dev nD) (t : Fin cfg1.N) :
    (iblk1 V c 5 t : S1x128.Idx → EReal) = (V c main_v48 : S1x128.Idx → EReal) := by
  obtain ⟨-, -, -, -, -, -, e20, e21, e30, e31, e40, e41, e50, e51⟩ := rows_of_point1 t
  funext k
  unfold iblk1
  rw [View.read_apply]
  show (V c main_v48 : S1x128.Idx → EReal) _ = (V c main_v48 : S1x128.Idx → EReal) k
  refine congrArg (V c main_v48 : S1x128.Idx → EReal) ?_
  funext a
  apply Fin.ext
  match a with
  | ⟨0, _⟩ => show win1_5.index t (0 : Fin 2) * 1 + 1 * (k 0).val = (k 0).val; rw [e50]; omega
  | ⟨1, _⟩ => show win1_5.index t (1 : Fin 2) * 128 + 1 * (k 1).val = (k 1).val; rw [e51]; omega

/-! ## One grid point's write-back -/

/-- The body's output at `(p, q)` is `bnWhole` at `(r, q)` as soon as the two big blocks at `(p, q)` are the arrays at
    `(r, q)` and the four rows are the arrays' rows. -/
theorem out1_6_eq_bnWhole (x0 x1 : Vec Ideal S2000x128 .f32) (x2 x3 x4 x5 : Vec Ideal S1x128 .f32)
    (h x : S50000x128.Idx → EReal) (mean var gamma beta : S1x128.Idx → EReal)
    (p : Fin 2000) (q : Fin 128) (r : Fin 50000)
    (e0 : x0 (ix2 p q) = h (ix2 r q)) (e1 : x1 (ix2 p q) = x (ix2 r q))
    (e2 : x2 = mean) (e3 : x3 = var) (e4 : x4 = gamma) (e5 : x5 = beta) :
    out1_6 x0 x1 x2 x3 x4 x5 (ix2 p q) = bnWhole h x mean var gamma beta (ix2 r q) := by
  subst e2 e3 e4 e5
  rw [out1_6_apply, bnWhole_apply, e0, e1]

/-- What point `t` writes back to the output array is block `t` of `bnWhole` of the six input arrays. -/
theorem flushed1_eq (c : Dev nD) (t : Fin cfg1.N) :
    (dat1 V c).flushed 6 t
      = ((cfg1.win 6).blk t).view.read (Elt Ideal) (bnWhole (V c main_v32_0) (V c main_arg0) (V c main_v45) (V c main_v46) (V c main_v47) (V c main_v48)) := by
  show (cfg1.win 6).cut (grid1.coords t) ((dat1 V c).after 6 t) = _
  rw [after1_6]
  obtain ⟨-, -, -, -, e60, e61, -⟩ := rows_of_point1 t
  have hN : grid1.N = 25 := N_1
  have ht : t.val < 25 := hN ▸ t.isLt
  show (out1_6 (iblk1 V c 0 t) (iblk1 V c 1 t) (iblk1 V c 2 t) (iblk1 V c 3 t) (iblk1 V c 4 t) (iblk1 V c 5 t) : S2000x128.Idx → EReal)
    = fun j : S2000x128.Idx => bnWhole (V c main_v32_0) (V c main_arg0) (V c main_v45) (V c main_v46) (V c main_v47) (V c main_v48) (((cfg1.win 6).blk t).view.emb j)
  funext j
  obtain ⟨p, q, rfl⟩ : ∃ (p : Fin 2000) (q : Fin 128), j = ix2 p q := ⟨j 0, j 1, eq_ix2 j⟩
  have hp : p.val < 2000 := p.isLt
  refine (out1_6_eq_bnWhole _ _ _ _ _ _ (V c main_v32_0) (V c main_arg0) (V c main_v45) (V c main_v46) (V c main_v47) (V c main_v48) p q ⟨2000 * t.val + p.val, by omega⟩
    (iblk1_0_apply V c t p q _ rfl) (iblk1_1_apply V c t p q _ rfl)
    (iblk1_2_eq V c t) (iblk1_3_eq V c t) (iblk1_4_eq V c t) (iblk1_5_eq V c t)).trans ?_
  refine congrArg (bnWhole (V c main_v32_0) (V c main_arg0) (V c main_v45) (V c main_v46) (V c main_v47) (V c main_v48)) ?_
  funext a
  apply Fin.ext
  match a with
  | ⟨0, _⟩ => show 2000 * t.val + p.val = win1_6.index t (0 : Fin 2) * 2000 + 1 * p.val; rw [e60]; omega
  | ⟨1, _⟩ => show q.val = win1_6.index t (1 : Fin 2) * 128 + 1 * q.val; rw [e61]; omega

/-! ## The 25 write-backs fill the array -/

/-- An index of the output array is in point `t`'s block iff each coordinate is in the block's range on its axis. -/
theorem mem_blk1 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v49).slice (win1_6.rect t)).set ↔ _
  rw [View.set_slice_whole, Rect.mem_set_unit]
  exact Iff.rfl

/-- Row `r` of the output array is written by point `r / 2000`. -/
theorem cover1_rows (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : grid1.N = 25 := N_1
  have hlt : (i 0).val / 2000 < grid1.N := by rw [hN]; omega
  obtain ⟨-, -, -, -, e60, e61, -⟩ := rows_of_point1 ⟨(i 0).val / 2000, hlt⟩
  refine ⟨⟨(i 0).val / 2000, hlt⟩, flush1_6 _, ?_⟩
  rw [mem_blk1]
  intro a
  match a with
  | ⟨0, _⟩ =>
    show win1_6.index ⟨(i 0).val / 2000, hlt⟩ (0 : Fin 2) * 2000 ≤ (i 0).val ∧ (i 0).val < win1_6.index ⟨(i 0).val / 2000, hlt⟩ (0 : Fin 2) * 2000 + 2000
    rw [e60]
    show (i 0).val / 2000 * 2000 ≤ (i 0).val ∧ (i 0).val < (i 0).val / 2000 * 2000 + 2000
    omega
  | ⟨1, _⟩ =>
    show win1_6.index ⟨(i 0).val / 2000, hlt⟩ (1 : Fin 2) * 128 ≤ (i 1).val ∧ (i 1).val < win1_6.index ⟨(i 0).val / 2000, hlt⟩ (1 : Fin 2) * 128 + 128
    rw [e61]
    omega

/-! ## The output array after the region -/

/-- After the region's 25 points the output array is `bnWhole` of the six input arrays as the region found them. -/
theorem region1_writes (c : Dev nD) :
    (dat1 V c).arrAt 6 cfg1.N = bnWhole (V c main_v32_0) (V c main_arg0) (V c main_v45) (V c main_v46) (V c main_v47) (V c main_v48) :=
  (dat1 V c).arrAt_eq_of_cover 6 (bnWhole (V c main_v32_0) (V c main_arg0) (V c main_v45) (V c main_v46) (V c main_v47) (V c main_v48)) (fun t _ => flushed1_eq V c t) (cover1_rows)

end BnVal1

end Cert.KernelIdeal.Hand

end
-- ==== Proof.KiBnVal3.lean ====
import proofs.«124822_j54752243090034_1_alg».proof.Proof.KiBn3
import proofs.«124822_j54752243090034_1_alg».proof.Proof.KiBnWhole
import Idealize.ShloMosaic.Lib.Pipeline.Value
import Idealize.ShloMosaic.Lib.ValueLayout

/-!
# What the normalisation region of pallas call 3 writes back, as one array

Over the extended reals and for any contents `V` of the core's buffers at region entry: grid point `t` of the region
writes rows `2000 t … 2000 t + 1999` of the output array, and what it writes there is `bnWhole` of the six input
arrays restricted to those rows — the blocks of `h` and `x` at point `t` are the same rows of their arrays, and the
four one-row windows are their whole arrays at every point. The 25 points' row ranges fill the 50000 rows, so after
the region the output array IS `bnWhole` of the six input arrays (`region3_writes`).
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section BnVal3
-- what each core holds in each of its unscoped buffers at the moment the region starts, over the extended reals
variable (V : (c : Dev nD) → (b : Ref sig .tc) → Buf (Elt Ideal) ((c : Thread nD τ).loc b))

/-! ## Which rows a grid point touches -/

/-- The block index of every window at every grid point, decided over the 25 points: the three 2000 × 128 windows sit
    at block row `t`, the four one-row windows at block `(0, 0)`. -/
theorem rows_of_point3 : ∀ t : Fin cfg3.N, win3_0.index t (0 : Fin 2) = t.val ∧ win3_0.index t (1 : Fin 2) = 0
    ∧ win3_1.index t (0 : Fin 2) = t.val ∧ win3_1.index t (1 : Fin 2) = 0
    ∧ win3_6.index t (0 : Fin 2) = t.val ∧ win3_6.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-! ## The input blocks as parts of their arrays -/

/-- Window 0's block at point `t` is rows `2000 t … 2000 t + 1999` of its array: element `(p, q)` of the block is
    element `(2000 t + p, q)` of the array. -/
theorem iblk3_0_apply (c : Dev nD) (t : Fin cfg3.N) (p : Fin 2000) (q : Fin 128) (r : Fin 50000)
    (hr : r.val = 2000 * t.val + p.val) :
    (iblk3 V c 0 t : S2000x128.Idx → EReal) (ix2 p q) = (V c main_v77_0 : S50000x128.Idx → EReal) (ix2 r q) := by
  obtain ⟨e00, e01, e10, e11, e60, e61, -⟩ := rows_of_point3 t
  unfold iblk3
  rw [View.read_apply]
  show (V c main_v77_0 : S50000x128.Idx → EReal) _ = (V c main_v77_0 : S50000x128.Idx → EReal) _
  refine congrArg (V c main_v77_0 : S50000x128.Idx → EReal) ?_
  funext a
  apply Fin.ext
  match a with
  | ⟨0, _⟩ => show win3_0.index t (0 : Fin 2) * 2000 + 1 * p.val = r.val; rw [e00, hr]; omega
  | ⟨1, _⟩ => show win3_0.index t (1 : Fin 2) * 128 + 1 * q.val = q.val; rw [e01]; omega

/-- Window 1's block at point `t` is rows `2000 t … 2000 t + 1999` of its array: element `(p, q)` of the block is
    element `(2000 t + p, q)` of the array. -/
theorem iblk3_1_apply (c : Dev nD) (t : Fin cfg3.N) (p : Fin 2000) (q : Fin 128) (r : Fin 50000)
    (hr : r.val = 2000 * t.val + p.val) :
    (iblk3 V c 1 t : S2000x128.Idx → EReal) (ix2 p q) = (V c main_v49 : S50000x128.Idx → EReal) (ix2 r q) := by
  obtain ⟨e00, e01, e10, e11, e60, e61, -⟩ := rows_of_point3 t
  unfold iblk3
  rw [View.read_apply]
  show (V c main_v49 : S50000x128.Idx → EReal) _ = (V c main_v49 : S50000x128.Idx → EReal) _
  refine congrArg (V c main_v49 : S50000x128.Idx → EReal) ?_
  funext a
  apply Fin.ext
  match a with
  | ⟨0, _⟩ => show win3_1.index t (0 : Fin 2) * 2000 + 1 * p.val = r.val; rw [e10, hr]; omega
  | ⟨1, _⟩ => show win3_1.index t (1 : Fin 2) * 128 + 1 * q.val = q.val; rw [e11]; omega

/-- Window 2's block is its whole one-row array, at every point. -/
theorem iblk3_2_eq (c : Dev nD) (t : Fin cfg3.N) :
    (iblk3 V c 2 t : S1x128.Idx → EReal) = (V c main_v90 : S1x128.Idx → EReal) := by
  obtain ⟨-, -, -, -, -, -, e20, e21, e30, e31, e40, e41, e50, e51⟩ := rows_of_point3 t
  funext k
  unfold iblk3
  rw [View.read_apply]
  show (V c main_v90 : S1x128.Idx → EReal) _ = (V c main_v90 : S1x128.Idx → EReal) k
  refine congrArg (V c main_v90 : S1x128.Idx → EReal) ?_
  funext a
  apply Fin.ext
  match a with
  | ⟨0, _⟩ => show win3_2.index t (0 : Fin 2) * 1 + 1 * (k 0).val = (k 0).val; rw [e20]; omega
  | ⟨1, _⟩ => show win3_2.index t (1 : Fin 2) * 128 + 1 * (k 1).val = (k 1).val; rw [e21]; omega

/-- Window 3's block is its whole one-row array, at every point. -/
theorem iblk3_3_eq (c : Dev nD) (t : Fin cfg3.N) :
    (iblk3 V c 3 t : S1x128.Idx → EReal) = (V c main_v91 : S1x128.Idx → EReal) := by
  obtain ⟨-, -, -, -, -, -, e20, e21, e30, e31, e40, e41, e50, e51⟩ := rows_of_point3 t
  funext k
  unfold iblk3
  rw [View.read_apply]
  show (V c main_v91 : S1x128.Idx → EReal) _ = (V c main_v91 : S1x128.Idx → EReal) k
  refine congrArg (V c main_v91 : S1x128.Idx → EReal) ?_
  funext a
  apply Fin.ext
  match a with
  | ⟨0, _⟩ => show win3_3.index t (0 : Fin 2) * 1 + 1 * (k 0).val = (k 0).val; rw [e30]; omega
  | ⟨1, _⟩ => show win3_3.index t (1 : Fin 2) * 128 + 1 * (k 1).val = (k 1).val; rw [e31]; omega

/-- Window 4's block is its whole one-row array, at every point. -/
theorem iblk3_4_eq (c : Dev nD) (t : Fin cfg3.N) :
    (iblk3 V c 4 t : S1x128.Idx → EReal) = (V c main_v92 : S1x128.Idx → EReal) := by
  obtain ⟨-, -, -, -, -, -, e20, e21, e30, e31, e40, e41, e50, e51⟩ := rows_of_point3 t
  funext k
  unfold iblk3
  rw [View.read_apply]
  show (V c main_v92 : S1x128.Idx → EReal) _ = (V c main_v92 : S1x128.Idx → EReal) k
  refine congrArg (V c main_v92 : S1x128.Idx → EReal) ?_
  funext a
  apply Fin.ext
  match a with
  | ⟨0, _⟩ => show win3_4.index t (0 : Fin 2) * 1 + 1 * (k 0).val = (k 0).val; rw [e40]; omega
  | ⟨1, _⟩ => show win3_4.index t (1 : Fin 2) * 128 + 1 * (k 1).val = (k 1).val; rw [e41]; omega

/-- Window 5's block is its whole one-row array, at every point. -/
theorem iblk3_5_eq (c : Dev nD) (t : Fin cfg3.N) :
    (iblk3 V c 5 t : S1x128.Idx → EReal) = (V c main_v93 : S1x128.Idx → EReal) := by
  obtain ⟨-, -, -, -, -, -, e20, e21, e30, e31, e40, e41, e50, e51⟩ := rows_of_point3 t
  funext k
  unfold iblk3
  rw [View.read_apply]
  show (V c main_v93 : S1x128.Idx → EReal) _ = (V c main_v93 : S1x128.Idx → EReal) k
  refine congrArg (V c main_v93 : S1x128.Idx → EReal) ?_
  funext a
  apply Fin.ext
  match a with
  | ⟨0, _⟩ => show win3_5.index t (0 : Fin 2) * 1 + 1 * (k 0).val = (k 0).val; rw [e50]; omega
  | ⟨1, _⟩ => show win3_5.index t (1 : Fin 2) * 128 + 1 * (k 1).val = (k 1).val; rw [e51]; omega

/-! ## One grid point's write-back -/

/-- The body's output at `(p, q)` is `bnWhole` at `(r, q)` as soon as the two big blocks at `(p, q)` are the arrays at
    `(r, q)` and the four rows are the arrays' rows. -/
theorem out3_6_eq_bnWhole (x0 x1 : Vec Ideal S2000x128 .f32) (x2 x3 x4 x5 : Vec Ideal S1x128 .f32)
    (h x : S50000x128.Idx → EReal) (mean var gamma beta : S1x128.Idx → EReal)
    (p : Fin 2000) (q : Fin 128) (r : Fin 50000)
    (e0 : x0 (ix2 p q) = h (ix2 r q)) (e1 : x1 (ix2 p q) = x (ix2 r q))
    (e2 : x2 = mean) (e3 : x3 = var) (e4 : x4 = gamma) (e5 : x5 = beta) :
    out3_6 x0 x1 x2 x3 x4 x5 (ix2 p q) = bnWhole h x mean var gamma beta (ix2 r q) := by
  subst e2 e3 e4 e5
  rw [out3_6_apply, bnWhole_apply, e0, e1]

/-- What point `t` writes back to the output array is block `t` of `bnWhole` of the six input arrays. -/
theorem flushed3_eq (c : Dev nD) (t : Fin cfg3.N) :
    (dat3 V c).flushed 6 t
      = ((cfg3.win 6).blk t).view.read (Elt Ideal) (bnWhole (V c main_v77_0) (V c main_v49) (V c main_v90) (V c main_v91) (V c main_v92) (V c main_v93)) := by
  show (cfg3.win 6).cut (grid3.coords t) ((dat3 V c).after 6 t) = _
  rw [after3_6]
  obtain ⟨-, -, -, -, e60, e61, -⟩ := rows_of_point3 t
  have hN : grid3.N = 25 := N_3
  have ht : t.val < 25 := hN ▸ t.isLt
  show (out3_6 (iblk3 V c 0 t) (iblk3 V c 1 t) (iblk3 V c 2 t) (iblk3 V c 3 t) (iblk3 V c 4 t) (iblk3 V c 5 t) : S2000x128.Idx → EReal)
    = fun j : S2000x128.Idx => bnWhole (V c main_v77_0) (V c main_v49) (V c main_v90) (V c main_v91) (V c main_v92) (V c main_v93) (((cfg3.win 6).blk t).view.emb j)
  funext j
  obtain ⟨p, q, rfl⟩ : ∃ (p : Fin 2000) (q : Fin 128), j = ix2 p q := ⟨j 0, j 1, eq_ix2 j⟩
  have hp : p.val < 2000 := p.isLt
  refine (out3_6_eq_bnWhole _ _ _ _ _ _ (V c main_v77_0) (V c main_v49) (V c main_v90) (V c main_v91) (V c main_v92) (V c main_v93) p q ⟨2000 * t.val + p.val, by omega⟩
    (iblk3_0_apply V c t p q _ rfl) (iblk3_1_apply V c t p q _ rfl)
    (iblk3_2_eq V c t) (iblk3_3_eq V c t) (iblk3_4_eq V c t) (iblk3_5_eq V c t)).trans ?_
  refine congrArg (bnWhole (V c main_v77_0) (V c main_v49) (V c main_v90) (V c main_v91) (V c main_v92) (V c main_v93)) ?_
  funext a
  apply Fin.ext
  match a with
  | ⟨0, _⟩ => show 2000 * t.val + p.val = win3_6.index t (0 : Fin 2) * 2000 + 1 * p.val; rw [e60]; omega
  | ⟨1, _⟩ => show q.val = win3_6.index t (1 : Fin 2) * 128 + 1 * q.val; rw [e61]; omega

/-! ## The 25 write-backs fill the array -/

/-- An index of the output array is in point `t`'s block iff each coordinate is in the block's range on its axis. -/
theorem mem_blk3 (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v94).slice (win3_6.rect t)).set ↔ _
  rw [View.set_slice_whole, Rect.mem_set_unit]
  exact Iff.rfl

/-- Row `r` of the output array is written by point `r / 2000`. -/
theorem cover3_rows (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : grid3.N = 25 := N_3
  have hlt : (i 0).val / 2000 < grid3.N := by rw [hN]; omega
  obtain ⟨-, -, -, -, e60, e61, -⟩ := rows_of_point3 ⟨(i 0).val / 2000, hlt⟩
  refine ⟨⟨(i 0).val / 2000, hlt⟩, flush3_6 _, ?_⟩
  rw [mem_blk3]
  intro a
  match a with
  | ⟨0, _⟩ =>
    show win3_6.index ⟨(i 0).val / 2000, hlt⟩ (0 : Fin 2) * 2000 ≤ (i 0).val ∧ (i 0).val < win3_6.index ⟨(i 0).val / 2000, hlt⟩ (0 : Fin 2) * 2000 + 2000
    rw [e60]
    show (i 0).val / 2000 * 2000 ≤ (i 0).val ∧ (i 0).val < (i 0).val / 2000 * 2000 + 2000
    omega
  | ⟨1, _⟩ =>
    show win3_6.index ⟨(i 0).val / 2000, hlt⟩ (1 : Fin 2) * 128 ≤ (i 1).val ∧ (i 1).val < win3_6.index ⟨(i 0).val / 2000, hlt⟩ (1 : Fin 2) * 128 + 128
    rw [e61]
    omega

/-! ## The output array after the region -/

/-- After the region's 25 points the output array is `bnWhole` of the six input arrays as the region found them. -/
theorem region3_writes (c : Dev nD) :
    (dat3 V c).arrAt 6 cfg3.N = bnWhole (V c main_v77_0) (V c main_v49) (V c main_v90) (V c main_v91) (V c main_v92) (V c main_v93) :=
  (dat3 V c).arrAt_eq_of_cover 6 (bnWhole (V c main_v77_0) (V c main_v49) (V c main_v90) (V c main_v91) (V c main_v92) (V c main_v93)) (fun t _ => flushed3_eq V c t) (cover3_rows)

end BnVal3

end Cert.KernelIdeal.Hand

end
-- ==== Proof.KiBnVal5.lean ====
import proofs.«124822_j54752243090034_1_alg».proof.Proof.KiBn5
import proofs.«124822_j54752243090034_1_alg».proof.Proof.KiBnWhole
import Idealize.ShloMosaic.Lib.Pipeline.Value
import Idealize.ShloMosaic.Lib.ValueLayout

/-!
# What the normalisation region of pallas call 5 writes back, as one array

Over the extended reals and for any contents `V` of the core's buffers at region entry: grid point `t` of the region
writes rows `2000 t … 2000 t + 1999` of the output array, and what it writes there is `bnWhole` of the six input
arrays restricted to those rows — the blocks of `h` and `x` at point `t` are the same rows of their arrays, and the
four one-row windows are their whole arrays at every point. The 25 points' row ranges fill the 50000 rows, so after
the region the output array IS `bnWhole` of the six input arrays (`region5_writes`).
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section BnVal5
-- what each core holds in each of its unscoped buffers at the moment the region starts, over the extended reals
variable (V : (c : Dev nD) → (b : Ref sig .tc) → Buf (Elt Ideal) ((c : Thread nD τ).loc b))

/-! ## Which rows a grid point touches -/

/-- The block index of every window at every grid point, decided over the 25 points: the three 2000 × 128 windows sit
    at block row `t`, the four one-row windows at block `(0, 0)`. -/
theorem rows_of_point5 : ∀ t : Fin cfg5.N, win5_0.index t (0 : Fin 2) = t.val ∧ win5_0.index t (1 : Fin 2) = 0
    ∧ win5_1.index t (0 : Fin 2) = t.val ∧ win5_1.index t (1 : Fin 2) = 0
    ∧ win5_6.index t (0 : Fin 2) = t.val ∧ win5_6.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-! ## The input blocks as parts of their arrays -/

/-- Window 0's block at point `t` is rows `2000 t … 2000 t + 1999` of its array: element `(p, q)` of the block is
    element `(2000 t + p, q)` of the array. -/
theorem iblk5_0_apply (c : Dev nD) (t : Fin cfg5.N) (p : Fin 2000) (q : Fin 128) (r : Fin 50000)
    (hr : r.val = 2000 * t.val + p.val) :
    (iblk5 V c 0 t : S2000x128.Idx → EReal) (ix2 p q) = (V c main_v122_0 : S50000x128.Idx → EReal) (ix2 r q) := by
  obtain ⟨e00, e01, e10, e11, e60, e61, -⟩ := rows_of_point5 t
  unfold iblk5
  rw [View.read_apply]
  show (V c main_v122_0 : S50000x128.Idx → EReal) _ = (V c main_v122_0 : S50000x128.Idx → EReal) _
  refine congrArg (V c main_v122_0 : S50000x128.Idx → EReal) ?_
  funext a
  apply Fin.ext
  match a with
  | ⟨0, _⟩ => show win5_0.index t (0 : Fin 2) * 2000 + 1 * p.val = r.val; rw [e00, hr]; omega
  | ⟨1, _⟩ => show win5_0.index t (1 : Fin 2) * 128 + 1 * q.val = q.val; rw [e01]; omega

/-- Window 1's block at point `t` is rows `2000 t … 2000 t + 1999` of its array: element `(p, q)` of the block is
    element `(2000 t + p, q)` of the array. -/
theorem iblk5_1_apply (c : Dev nD) (t : Fin cfg5.N) (p : Fin 2000) (q : Fin 128) (r : Fin 50000)
    (hr : r.val = 2000 * t.val + p.val) :
    (iblk5 V c 1 t : S2000x128.Idx → EReal) (ix2 p q) = (V c main_v94 : S50000x128.Idx → EReal) (ix2 r q) := by
  obtain ⟨e00, e01, e10, e11, e60, e61, -⟩ := rows_of_point5 t
  unfold iblk5
  rw [View.read_apply]
  show (V c main_v94 : S50000x128.Idx → EReal) _ = (V c main_v94 : S50000x128.Idx → EReal) _
  refine congrArg (V c main_v94 : S50000x128.Idx → EReal) ?_
  funext a
  apply Fin.ext
  match a with
  | ⟨0, _⟩ => show win5_1.index t (0 : Fin 2) * 2000 + 1 * p.val = r.val; rw [e10, hr]; omega
  | ⟨1, _⟩ => show win5_1.index t (1 : Fin 2) * 128 + 1 * q.val = q.val; rw [e11]; omega

/-- Window 2's block is its whole one-row array, at every point. -/
theorem iblk5_2_eq (c : Dev nD) (t : Fin cfg5.N) :
    (iblk5 V c 2 t : S1x128.Idx → EReal) = (V c main_v135 : S1x128.Idx → EReal) := by
  obtain ⟨-, -, -, -, -, -, e20, e21, e30, e31, e40, e41, e50, e51⟩ := rows_of_point5 t
  funext k
  unfold iblk5
  rw [View.read_apply]
  show (V c main_v135 : S1x128.Idx → EReal) _ = (V c main_v135 : S1x128.Idx → EReal) k
  refine congrArg (V c main_v135 : S1x128.Idx → EReal) ?_
  funext a
  apply Fin.ext
  match a with
  | ⟨0, _⟩ => show win5_2.index t (0 : Fin 2) * 1 + 1 * (k 0).val = (k 0).val; rw [e20]; omega
  | ⟨1, _⟩ => show win5_2.index t (1 : Fin 2) * 128 + 1 * (k 1).val = (k 1).val; rw [e21]; omega

/-- Window 3's block is its whole one-row array, at every point. -/
theorem iblk5_3_eq (c : Dev nD) (t : Fin cfg5.N) :
    (iblk5 V c 3 t : S1x128.Idx → EReal) = (V c main_v136 : S1x128.Idx → EReal) := by
  obtain ⟨-, -, -, -, -, -, e20, e21, e30, e31, e40, e41, e50, e51⟩ := rows_of_point5 t
  funext k
  unfold iblk5
  rw [View.read_apply]
  show (V c main_v136 : S1x128.Idx → EReal) _ = (V c main_v136 : S1x128.Idx → EReal) k
  refine congrArg (V c main_v136 : S1x128.Idx → EReal) ?_
  funext a
  apply Fin.ext
  match a with
  | ⟨0, _⟩ => show win5_3.index t (0 : Fin 2) * 1 + 1 * (k 0).val = (k 0).val; rw [e30]; omega
  | ⟨1, _⟩ => show win5_3.index t (1 : Fin 2) * 128 + 1 * (k 1).val = (k 1).val; rw [e31]; omega

/-- Window 4's block is its whole one-row array, at every point. -/
theorem iblk5_4_eq (c : Dev nD) (t : Fin cfg5.N) :
    (iblk5 V c 4 t : S1x128.Idx → EReal) = (V c main_v137 : S1x128.Idx → EReal) := by
  obtain ⟨-, -, -, -, -, -, e20, e21, e30, e31, e40, e41, e50, e51⟩ := rows_of_point5 t
  funext k
  unfold iblk5
  rw [View.read_apply]
  show (V c main_v137 : S1x128.Idx → EReal) _ = (V c main_v137 : S1x128.Idx → EReal) k
  refine congrArg (V c main_v137 : S1x128.Idx → EReal) ?_
  funext a
  apply Fin.ext
  match a with
  | ⟨0, _⟩ => show win5_4.index t (0 : Fin 2) * 1 + 1 * (k 0).val = (k 0).val; rw [e40]; omega
  | ⟨1, _⟩ => show win5_4.index t (1 : Fin 2) * 128 + 1 * (k 1).val = (k 1).val; rw [e41]; omega

/-- Window 5's block is its whole one-row array, at every point. -/
theorem iblk5_5_eq (c : Dev nD) (t : Fin cfg5.N) :
    (iblk5 V c 5 t : S1x128.Idx → EReal) = (V c main_v138 : S1x128.Idx → EReal) := by
  obtain ⟨-, -, -, -, -, -, e20, e21, e30, e31, e40, e41, e50, e51⟩ := rows_of_point5 t
  funext k
  unfold iblk5
  rw [View.read_apply]
  show (V c main_v138 : S1x128.Idx → EReal) _ = (V c main_v138 : S1x128.Idx → EReal) k
  refine congrArg (V c main_v138 : S1x128.Idx → EReal) ?_
  funext a
  apply Fin.ext
  match a with
  | ⟨0, _⟩ => show win5_5.index t (0 : Fin 2) * 1 + 1 * (k 0).val = (k 0).val; rw [e50]; omega
  | ⟨1, _⟩ => show win5_5.index t (1 : Fin 2) * 128 + 1 * (k 1).val = (k 1).val; rw [e51]; omega

/-! ## One grid point's write-back -/

/-- The body's output at `(p, q)` is `bnWhole` at `(r, q)` as soon as the two big blocks at `(p, q)` are the arrays at
    `(r, q)` and the four rows are the arrays' rows. -/
theorem out5_6_eq_bnWhole (x0 x1 : Vec Ideal S2000x128 .f32) (x2 x3 x4 x5 : Vec Ideal S1x128 .f32)
    (h x : S50000x128.Idx → EReal) (mean var gamma beta : S1x128.Idx → EReal)
    (p : Fin 2000) (q : Fin 128) (r : Fin 50000)
    (e0 : x0 (ix2 p q) = h (ix2 r q)) (e1 : x1 (ix2 p q) = x (ix2 r q))
    (e2 : x2 = mean) (e3 : x3 = var) (e4 : x4 = gamma) (e5 : x5 = beta) :
    out5_6 x0 x1 x2 x3 x4 x5 (ix2 p q) = bnWhole h x mean var gamma beta (ix2 r q) := by
  subst e2 e3 e4 e5
  rw [out5_6_apply, bnWhole_apply, e0, e1]

/-- What point `t` writes back to the output array is block `t` of `bnWhole` of the six input arrays. -/
theorem flushed5_eq (c : Dev nD) (t : Fin cfg5.N) :
    (dat5 V c).flushed 6 t
      = ((cfg5.win 6).blk t).view.read (Elt Ideal) (bnWhole (V c main_v122_0) (V c main_v94) (V c main_v135) (V c main_v136) (V c main_v137) (V c main_v138)) := by
  show (cfg5.win 6).cut (grid5.coords t) ((dat5 V c).after 6 t) = _
  rw [after5_6]
  obtain ⟨-, -, -, -, e60, e61, -⟩ := rows_of_point5 t
  have hN : grid5.N = 25 := N_5
  have ht : t.val < 25 := hN ▸ t.isLt
  show (out5_6 (iblk5 V c 0 t) (iblk5 V c 1 t) (iblk5 V c 2 t) (iblk5 V c 3 t) (iblk5 V c 4 t) (iblk5 V c 5 t) : S2000x128.Idx → EReal)
    = fun j : S2000x128.Idx => bnWhole (V c main_v122_0) (V c main_v94) (V c main_v135) (V c main_v136) (V c main_v137) (V c main_v138) (((cfg5.win 6).blk t).view.emb j)
  funext j
  obtain ⟨p, q, rfl⟩ : ∃ (p : Fin 2000) (q : Fin 128), j = ix2 p q := ⟨j 0, j 1, eq_ix2 j⟩
  have hp : p.val < 2000 := p.isLt
  refine (out5_6_eq_bnWhole _ _ _ _ _ _ (V c main_v122_0) (V c main_v94) (V c main_v135) (V c main_v136) (V c main_v137) (V c main_v138) p q ⟨2000 * t.val + p.val, by omega⟩
    (iblk5_0_apply V c t p q _ rfl) (iblk5_1_apply V c t p q _ rfl)
    (iblk5_2_eq V c t) (iblk5_3_eq V c t) (iblk5_4_eq V c t) (iblk5_5_eq V c t)).trans ?_
  refine congrArg (bnWhole (V c main_v122_0) (V c main_v94) (V c main_v135) (V c main_v136) (V c main_v137) (V c main_v138)) ?_
  funext a
  apply Fin.ext
  match a with
  | ⟨0, _⟩ => show 2000 * t.val + p.val = win5_6.index t (0 : Fin 2) * 2000 + 1 * p.val; rw [e60]; omega
  | ⟨1, _⟩ => show q.val = win5_6.index t (1 : Fin 2) * 128 + 1 * q.val; rw [e61]; omega

/-! ## The 25 write-backs fill the array -/

/-- An index of the output array is in point `t`'s block iff each coordinate is in the block's range on its axis. -/
theorem mem_blk5 (t : Fin cfg5.N) (i : S50000x128.Idx) :
    i ∈ ((cfg5.win 6).blk t).view.set ↔ ∀ a : Fin 2, win5_6.index t a * S2000x128.size a ≤ (i a).val ∧ (i a).val < win5_6.index t a * S2000x128.size a + S2000x128.size a := by
  show i ∈ ((View.whole main_v139).slice (win5_6.rect t)).set ↔ _
  rw [View.set_slice_whole, Rect.mem_set_unit]
  exact Iff.rfl

/-- Row `r` of the output array is written by point `r / 2000`. -/
theorem cover5_rows (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have hN : grid5.N = 25 := N_5
  have hlt : (i 0).val / 2000 < grid5.N := by rw [hN]; omega
  obtain ⟨-, -, -, -, e60, e61, -⟩ := rows_of_point5 ⟨(i 0).val / 2000, hlt⟩
  refine ⟨⟨(i 0).val / 2000, hlt⟩, flush5_6 _, ?_⟩
  rw [mem_blk5]
  intro a
  match a with
  | ⟨0, _⟩ =>
    show win5_6.index ⟨(i 0).val / 2000, hlt⟩ (0 : Fin 2) * 2000 ≤ (i 0).val ∧ (i 0).val < win5_6.index ⟨(i 0).val / 2000, hlt⟩ (0 : Fin 2) * 2000 + 2000
    rw [e60]
    show (i 0).val / 2000 * 2000 ≤ (i 0).val ∧ (i 0).val < (i 0).val / 2000 * 2000 + 2000
    omega
  | ⟨1, _⟩ =>
    show win5_6.index ⟨(i 0).val / 2000, hlt⟩ (1 : Fin 2) * 128 ≤ (i 1).val ∧ (i 1).val < win5_6.index ⟨(i 0).val / 2000, hlt⟩ (1 : Fin 2) * 128 + 128
    rw [e61]
    omega

/-! ## The output array after the region -/

/-- After the region's 25 points the output array is `bnWhole` of the six input arrays as the region found them. -/
theorem region5_writes (c : Dev nD) :
    (dat5 V c).arrAt 6 cfg5.N = bnWhole (V c main_v122_0) (V c main_v94) (V c main_v135) (V c main_v136) (V c main_v137) (V c main_v138) :=
  (dat5 V c).arrAt_eq_of_cover 6 (bnWhole (V c main_v122_0) (V c main_v94) (V c main_v135) (V c main_v136) (V c main_v137) (V c main_v138)) (fun t _ => flushed5_eq V c t) (cover5_rows)

end BnVal5

end Cert.KernelIdeal.Hand

end
-- ==== Proof.KiMlpVal0.lean ====
/-
  Region 0: what each case's stores leave, as values — the block output holds the perceptron's result of the six input
  blocks; each accumulator row holds what it held (zero at the first point) plus the block's column sums (of the result,
  of its squares); at the last point the two row outputs hold the accumulators.
-/
import proofs.«124822_j54752243090034_1_alg».proof.Proof.KiMlp0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem valA6_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) :
    out0_A_6 c i arg1 harg1 arg2 harg2 arg3 harg3 arg4 harg4 arg5 harg5 arg6 harg6 arg7 harg7 arg8 harg8 arg9 harg9 arg10 harg10 arg11 harg11 hc0 hc1 x0 x1 x2 x3 x4 x5 = k0_pay5 x0 x1 x2 x4 x3 x5 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valB6_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    out0_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x0 x1 x2 x4 x3 x5 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valC6_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    out0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x0 x1 x2 x4 x3 x5 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valAS0_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 = k0_pay1 (k0_pay6 x0 x1 x2 x4 x3 x5 (k0_pay3 (F := F))) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  (try sl_unfold_words)
  rw [View.canon_cons_unit_zero (S := S1x128) hz2]
  (try rw [View.readCov_unit_zero (S := S1x128) _ hz2])
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valAS1_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) :
    sout0_A_1 c i arg1 harg1 arg2 harg2 arg3 harg3 arg4 harg4 arg5 harg5 arg6 harg6 arg7 harg7 arg8 harg8 arg9 harg9 arg10 harg10 arg11 harg11 hc0 hc1 x0 x1 x2 x3 x4 x5 = k0_pay2 (k0_pay5 x0 x1 x2 x4 x3 x5) (k0_pay4 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  (try sl_unfold_words)
  rw [View.canon_cons_unit_zero (S := S1x128) hz2]
  (try rw [View.readCov_unit_zero (S := S1x128) _ hz2])
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valBS0_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay6 x0 x1 x2 x4 x3 x5 xs0) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valBS1_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    sout0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay5 x0 x1 x2 x4 x3 x5) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valCS0_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay6 x0 x1 x2 x4 x3 x5 xs0) := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valCS1_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    sout0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay5 x0 x1 x2 x4 x3 x5) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valC7_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    out0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay6 x0 x1 x2 x4 x3 x5 xs0) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]
  rw [View.readCov_unit_zero (S := S1x128) _ hz2]

theorem valC8_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    out0_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay5 x0 x1 x2 x4 x3 x5) xs1 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]
  rw [View.readCov_unit_zero (S := S1x128) _ hz2]

end Cert.KernelIdeal.Hand

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.KiMlpPay0.lean ====
/-
  Region 0's arithmetic at exact arithmetic, read at an entry: the perceptron's result of a block of 2000 rows at row p,
  column q is ∑ₖ max (∑ₖ' (x0 p k' + x1 p k') · w1 k' k + b1 k) 0 · w2 k q + b2 q (a change of float format is the
  identity, a matrix unit product into zeros is the sum over the contracted axis); an accumulator row after the body is
  what it held plus the block's column sums.
-/
import proofs.«124822_j54752243090034_1_alg».proof.Proof.Gen.KernelIdeal.Skeleton
import proofs.«124822_j54752243090034_1_alg».proof.Proof.LibMatmulIdx
import proofs.«124822_j54752243090034_1_alg».proof.Proof.LibIdealFinite
import proofs.«124822_j54752243090034_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx

abbrev Dmm0 := dot_S2000x128_S128x128_S2000x128_1_0_0_1_n_n

theorem Dmm0_rank : Dmm0.contr.rank = 1 := rfl
theorem Dmm0_size : Dmm0.contr.size ⟨0, by rw [Dmm0_rank]; omega⟩ = 128 := rfl
theorem Dmm0_l0 (j k) : (Dmm0.lhsIdx j k 0).val = (j 0).val := rfl
theorem Dmm0_l1 (j k) : (Dmm0.lhsIdx j k 1).val = (k ⟨0, by rw [Dmm0_rank]; omega⟩).val := Dmm0.lhsIdx_val_of_single rfl j k
theorem Dmm0_r0 (j k) : (Dmm0.rhsIdx j k 0).val = (k ⟨0, by rw [Dmm0_rank]; omega⟩).val := Dmm0.rhsIdx_val_of_single rfl j k
theorem Dmm0_r1 (j k) : (Dmm0.rhsIdx j k 1).val = (j 1).val := rfl

/-- The matrix unit's product of a 2000 × 128 block with a 128 × 128 matrix into zeros, at an entry. -/
theorem mm0_apply {φ₁ φ₂ : FTy} (l : FVec Ideal S2000x128 φ₁) (r : FVec Ideal S128x128 φ₂) (j : S2000x128.Idx) :
    matmul Dmm0 none l r (constant S2000x128 .f32 0x00000000#32) j = ∑ k : Fin 128, l (ix2 (j 0) k) * r (ix2 k (j 1)) :=
  LibMatmulIdx.matmul2_apply Dmm0 Dmm0_rank Dmm0_size Dmm0_l0 Dmm0_l1 Dmm0_r0 Dmm0_r1 none l r j

/-- The perceptron's result of a block at row p, column q. -/
theorem pay5_0_apply (x0 x1 : Vec Ideal S2000x128 .f32) (x2 : Vec Ideal S128x128 .f32) (x3 : Vec Ideal S1x128 .f32) (x4 : Vec Ideal S128x128 .f32) (x5 : Vec Ideal S1x128 .f32) (p : Fin 2000) (q : Fin 128) :
    k0_pay5 (F := Ideal) x0 x1 x2 x4 x3 x5 (ix2 p q)
      = (∑ k : Fin 128, max ((∑ k' : Fin 128, (x0 (ix2 p k') + x1 (ix2 p k')) * x2 (ix2 k' k)) + x3 (ix2 (0 : Fin 1) k)) 0 * x4 (ix2 k q)) + x5 (ix2 (0 : Fin 1) q) := by
  unfold k0_pay5
  simp only [shapeCast_self]
  rw [LibIdealFinite.addf_apply, mm0_apply, broadcastTo_1b_ab_apply]
  congr 1
  refine Finset.sum_congr rfl fun k _ => ?_
  congr 1
  show max (matmul (F := Ideal) Dmm0 none (truncf (F := Ideal) .bf16 (addf (F := Ideal) x0 x1) bitsLt_bf16_f32) (truncf (F := Ideal) .bf16 x2 bitsLt_bf16_f32) (constant S2000x128 .f32 0x00000000#32) (ix2 p k) + broadcastTo S2000x128 x3 broadcasts_S1x128_S2000x128 (ix2 p k)) (Ideal.ofBits .f32 0x00000000#32) = _
  rw [mm0_apply, broadcastTo_1b_ab_apply, Ideal.ofBits_zero_f32]
  rfl

theorem lift_row0 (j : S128.Idx) (k : Fin (S2000x128.size 0)) :
    reduces_S2000x128_S128.lift j k = ix2 (⟨k.val, k.isLt⟩ : Fin 2000) (⟨(j 0).val, (j 0).isLt⟩ : Fin 128) :=
  funext fun a => Fin.ext (by match a with | ⟨0, _⟩ => rfl | ⟨1, _⟩ => rfl)

/-- The column sums of a block, kept as a 1 × 128 row, at (z, q). -/
theorem colsum0_apply (v : FVec Ideal S2000x128 .f32) (z : Fin 1) (q : Fin 128) :
    shapeCast S1x128 (multiReduction (F := Ideal) .add [0] S128 v 0x00000000#32 reduces_S2000x128_S128 (.inl rfl) rfl) shapeCasts_S128_S1x128 (ix2 z q)
      = ∑ p : Fin 2000, v (ix2 p q) := by
  rw [LibRowOps.shapeCast_row_apply]
  refine (Ideal.multiReduction_add_single v 0x00000000#32 reduces_S2000x128_S128 (.inl rfl) rfl (ix1 q)).trans ?_
  refine Finset.sum_congr rfl fun k _ => ?_
  rw [lift_row0]
  rfl

/-- The first accumulator after the body: what it held plus the block's column sums of the perceptron's result. -/
theorem pay6_0_apply (x0 x1 : Vec Ideal S2000x128 .f32) (x2 : Vec Ideal S128x128 .f32) (x3 : Vec Ideal S1x128 .f32) (x4 : Vec Ideal S128x128 .f32) (x5 : Vec Ideal S1x128 .f32)
    (xs : Vec Ideal S1x128 .f32) (z : Fin 1) (q : Fin 128) :
    k0_pay1 (F := Ideal) (k0_pay6 (F := Ideal) x0 x1 x2 x4 x3 x5 xs) (ix2 z q) = xs (ix2 z q) + ∑ p : Fin 2000, k0_pay5 (F := Ideal) x0 x1 x2 x4 x3 x5 (ix2 p q) := by
  unfold k0_pay1 k0_pay6
  simp only [shapeCast_self]
  rw [LibIdealFinite.addf_apply, colsum0_apply]

/-- The second accumulator after the body: what it held plus the block's column sums of the squares. -/
theorem pay2_0_apply (v : FVec Ideal S2000x128 .f32) (xs : Vec Ideal S1x128 .f32) (z : Fin 1) (q : Fin 128) :
    k0_pay2 (F := Ideal) v xs (ix2 z q) = xs (ix2 z q) + ∑ p : Fin 2000, v (ix2 p q) * v (ix2 p q) := by
  unfold k0_pay2
  simp only [shapeCast_self]
  rw [LibIdealFinite.addf_apply, colsum0_apply]
  rfl

/-- The reset stores zeros. -/
theorem pay3_0_apply (i : S1x128.Idx) : k0_pay3 (F := Ideal) i = 0 := by
  unfold k0_pay3
  simp only [shapeCast_self]
  exact Ideal.ofBits_zero_f32
theorem pay4_0_apply (i : S1x128.Idx) : k0_pay4 (F := Ideal) i = 0 := by
  unfold k0_pay4
  simp only [shapeCast_self]
  exact Ideal.ofBits_zero_f32

end Cert.KernelIdeal.Hand

end
-- ==== Proof.KiMlpArr0.lean ====
import proofs.«124822_j54752243090034_1_alg».proof.Proof.KiMlpVal0
import proofs.«124822_j54752243090034_1_alg».proof.Proof.KiMlpPay0
import proofs.«124822_j54752243090034_1_alg».proof.Proof.KiMlpWhole
import proofs.«124822_j54752243090034_1_alg».proof.Proof.LibBatchMoments
import Idealize.ShloMosaic.Lib.Pipeline.Value
import Idealize.ShloMosaic.Lib.ValueLayout

/-!
# What the perceptron region of pallas call 0 writes back, as arrays

Over the extended reals and for any contents `V` of the core's buffers at region entry. Grid point `t` of the region
reads rows `2000 t … 2000 t + 1999` of the two 50000 × 128 inputs and the whole of the two weight matrices and the two
bias rows; it writes the perceptron's result for those rows into the same rows of the block output, and adds the
column sums of that result, and of its squares, onto two accumulator rows that start from zero at the first point.
The last point copies the two accumulator rows into the two row outputs. Hence, after the region,

* the block output is `mlpH` of the six input arrays (`region0_h`),
* the first row output is the row of column sums of that array (`region0_s`),
* the second row output is the row of column sums of its entrywise square (`region0_q`).
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- A row accumulated over 25 blocks of 2000 rows: if it starts at zero and step `k` adds the sum of column `q` of
    `g` over rows `2000 k … 2000 k + 1999`, it ends at the sum of column `q` over all 50000 rows. -/
theorem acc_cols0 (g : S50000x128.Idx → EReal) (q : Fin 128) (acc : ℕ → EReal) (h0 : acc 0 = 0)
    (hstep : ∀ k (hk : k < 25), acc (k + 1)
      = acc k + ∑ p : Fin 2000, g (ix2 (⟨2000 * k + p.val, by have := p.isLt; omega⟩ : Fin 50000) q)) :
    acc 25 = 0 + ∑ r : Fin 50000, g (ix2 r q) := by
  have key := LibBatchMoments.acc_blocks 25 2000 (fun i => if h : i < 50000 then g (ix2 (⟨i, h⟩ : Fin 50000) q) else 0) acc h0
    (fun k hk => by
      rw [hstep k hk]
      refine congrArg (acc k + ·) (Finset.sum_congr rfl fun p _ => ?_)
      have hp := p.isLt
      rw [dif_pos (by omega : 2000 * k + p.val < 50000)])
  rw [key, zero_add]
  show ∑ i : Fin 50000, (if h : i.val < 50000 then g (ix2 (⟨i.val, h⟩ : Fin 50000) q) else 0) = _
  exact Finset.sum_congr rfl fun i _ => dif_pos i.isLt

section MlpArr0
-- what each core holds in each of its unscoped buffers at the moment the region starts, over the extended reals
variable (V : (c : Dev nD) → (b : Ref sig .tc) → Buf (Elt Ideal) ((c : Thread nD τ).loc b))

/-- The perceptron's output for the six input arrays as the region finds them. -/
abbrev mlpArr0 (c : Dev nD) : S50000x128.Idx → EReal := mlpH (V c main_v21) (V c main_v16) (V c main_v23) (V c main_v30) (V c main_v27) (V c main_v31)

/-! ## Which part of its array a window shows at a grid point -/

/-- The block index of every window at every grid point, decided over the 25 points: the three 2000 × 128 windows sit
    at block row `t`, every other window at block `(0, 0)`. -/
theorem blocks_of_point0 : ∀ t : Fin cfg0.N, win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Window 0's block at point `t` is rows `2000 t … 2000 t + 1999` of its array. -/
theorem iblk0_0_apply (c : Dev nD) (t : Fin cfg0.N) (p : Fin 2000) (q : Fin 128) (r : Fin 50000)
    (hr : r.val = 2000 * t.val + p.val) :
    (iblk0 V c 0 t : S2000x128.Idx → EReal) (ix2 p q) = (V c main_v21 : S50000x128.Idx → EReal) (ix2 r q) := by
  obtain ⟨e0, e1, -⟩ := blocks_of_point0 t
  unfold iblk0
  rw [View.read_apply]
  show (V c main_v21 : S50000x128.Idx → EReal) _ = (V c main_v21 : S50000x128.Idx → EReal) _
  refine congrArg (V c main_v21 : S50000x128.Idx → EReal) ?_
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * q.val = q.val; rw [e1]; omega

/-- Window 1's block at point `t` is rows `2000 t … 2000 t + 1999` of its array. -/
theorem iblk0_1_apply (c : Dev nD) (t : Fin cfg0.N) (p : Fin 2000) (q : Fin 128) (r : Fin 50000)
    (hr : r.val = 2000 * t.val + p.val) :
    (iblk0 V c 1 t : S2000x128.Idx → EReal) (ix2 p q) = (V c main_v16 : S50000x128.Idx → EReal) (ix2 r q) := by
  obtain ⟨-, -, e0, e1, -⟩ := blocks_of_point0 t
  unfold iblk0
  rw [View.read_apply]
  show (V c main_v16 : S50000x128.Idx → EReal) _ = (V c main_v16 : S50000x128.Idx → EReal) _
  refine congrArg (V c main_v16 : S50000x128.Idx → EReal) ?_
  funext a
  apply Fin.ext
  match a with
  | ⟨0, _⟩ => show win0_1.index t (0 : Fin 2) * 2000 + 1 * p.val = r.val; rw [e0, hr]; omega
  | ⟨1, _⟩ => show win0_1.index t (1 : Fin 2) * 128 + 1 * q.val = q.val; rw [e1]; omega

/-- Window 2's block is its whole array, at every point. -/
theorem iblk0_2_eq (c : Dev nD) (t : Fin cfg0.N) :
    (iblk0 V c 2 t : S128x128.Idx → EReal) = (V c main_v23 : S128x128.Idx → EReal) := by
  obtain ⟨-, -, -, -, -, -, e0, e1, -⟩ := blocks_of_point0 t
  funext k
  unfold iblk0
  rw [View.read_apply]
  show (V c main_v23 : S128x128.Idx → EReal) _ = (V c main_v23 : S128x128.Idx → EReal) k
  refine congrArg (V c main_v23 : S128x128.Idx → EReal) ?_
  funext a
  apply Fin.ext
  match a with
  | ⟨0, _⟩ => show win0_2.index t (0 : Fin 2) * 128 + 1 * (k 0).val = (k 0).val; rw [e0]; omega
  | ⟨1, _⟩ => show win0_2.index t (1 : Fin 2) * 128 + 1 * (k 1).val = (k 1).val; rw [e1]; omega

/-- Window 3's block is its whole array, at every point. -/
theorem iblk0_3_eq (c : Dev nD) (t : Fin cfg0.N) :
    (iblk0 V c 3 t : S1x128.Idx → EReal) = (V c main_v30 : S1x128.Idx → EReal) := by
  obtain ⟨-, -, -, -, -, -, -, -, e0, e1, -⟩ := blocks_of_point0 t
  funext k
  unfold iblk0
  rw [View.read_apply]
  show (V c main_v30 : S1x128.Idx → EReal) _ = (V c main_v30 : S1x128.Idx → EReal) k
  refine congrArg (V c main_v30 : S1x128.Idx → EReal) ?_
  funext a
  apply Fin.ext
  match a with
  | ⟨0, _⟩ => show win0_3.index t (0 : Fin 2) * 1 + 1 * (k 0).val = (k 0).val; rw [e0]; omega
  | ⟨1, _⟩ => show win0_3.index t (1 : Fin 2) * 128 + 1 * (k 1).val = (k 1).val; rw [e1]; omega

/-- Window 4's block is its whole array, at every point. -/
theorem iblk0_4_eq (c : Dev nD) (t : Fin cfg0.N) :
    (iblk0 V c 4 t : S128x128.Idx → EReal) = (V c main_v27 : S128x128.Idx → EReal) := by
  obtain ⟨-, -, -, -, -, -, -, -, -, -, e0, e1, -⟩ := blocks_of_point0 t
  funext k
  unfold iblk0
  rw [View.read_apply]
  show (V c main_v27 : S128x128.Idx → EReal) _ = (V c main_v27 : S128x128.Idx → EReal) k
  refine congrArg (V c main_v27 : S128x128.Idx → EReal) ?_
  funext a
  apply Fin.ext
  match a with
  | ⟨0, _⟩ => show win0_4.index t (0 : Fin 2) * 128 + 1 * (k 0).val = (k 0).val; rw [e0]; omega
  | ⟨1, _⟩ => show win0_4.index t (1 : Fin 2) * 128 + 1 * (k 1).val = (k 1).val; rw [e1]; omega

/-- Window 5's block is its whole array, at every point. -/
theorem iblk0_5_eq (c : Dev nD) (t : Fin cfg0.N) :
    (iblk0 V c 5 t : S1x128.Idx → EReal) = (V c main_v31 : S1x128.Idx → EReal) := by
  obtain ⟨-, -, -, -, -, -, -, -, -, -, -, -, e0, e1, -⟩ := blocks_of_point0 t
  funext k
  unfold iblk0
  rw [View.read_apply]
  show (V c main_v31 : S1x128.Idx → EReal) _ = (V c main_v31 : S1x128.Idx → EReal) k
  refine congrArg (V c main_v31 : S1x128.Idx → EReal) ?_
  funext a
  apply Fin.ext
  match a with
  | ⟨0, _⟩ => show win0_5.index t (0 : Fin 2) * 1 + 1 * (k 0).val = (k 0).val; rw [e0]; omega
  | ⟨1, _⟩ => show win0_5.index t (1 : Fin 2) * 128 + 1 * (k 1).val = (k 1).val; rw [e1]; omega

/-! ## The six input blocks at a point, and the perceptron's result of them -/

abbrev blk0_0 (c : Dev nD) (t : Fin cfg0.N) : Vec Ideal S2000x128 .f32 := iblk0 V c 0 t
abbrev blk0_1 (c : Dev nD) (t : Fin cfg0.N) : Vec Ideal S2000x128 .f32 := iblk0 V c 1 t
abbrev blk0_2 (c : Dev nD) (t : Fin cfg0.N) : Vec Ideal S128x128 .f32 := iblk0 V c 2 t
abbrev blk0_3 (c : Dev nD) (t : Fin cfg0.N) : Vec Ideal S1x128 .f32 := iblk0 V c 3 t
abbrev blk0_4 (c : Dev nD) (t : Fin cfg0.N) : Vec Ideal S128x128 .f32 := iblk0 V c 4 t
abbrev blk0_5 (c : Dev nD) (t : Fin cfg0.N) : Vec Ideal S1x128 .f32 := iblk0 V c 5 t

/-- The perceptron's result of six blocks is `mlpH` of six arrays at the matching row, as soon as the two big
    blocks' row `p` is the arrays' row `r` and the four small blocks are their arrays. -/
theorem pay5_0_eq_mlpH (x0 x1 : Vec Ideal S2000x128 .f32) (x2 : Vec Ideal S128x128 .f32) (x3 : Vec Ideal S1x128 .f32)
    (x4 : Vec Ideal S128x128 .f32) (x5 : Vec Ideal S1x128 .f32)
    (xe agg : S50000x128.Idx → EReal) (w1 : S128x128.Idx → EReal) (b1 : S1x128.Idx → EReal) (w2 : S128x128.Idx → EReal) (b2 : S1x128.Idx → EReal)
    (p : Fin 2000) (q : Fin 128) (r : Fin 50000)
    (e0 : ∀ k' : Fin 128, x0 (ix2 p k') = xe (ix2 r k')) (e1 : ∀ k' : Fin 128, x1 (ix2 p k') = agg (ix2 r k'))
    (e2 : x2 = w1) (e3 : x3 = b1) (e4 : x4 = w2) (e5 : x5 = b2) :
    k0_pay5 (F := Ideal) x0 x1 x2 x4 x3 x5 (ix2 p q) = mlpH xe agg w1 b1 w2 b2 (ix2 r q) := by
  subst e2 e3 e4 e5
  rw [pay5_0_apply, mlpH_apply]
  simp only [e0, e1]

/-- The perceptron's result of the blocks at point `t`, at `(p, q)`, is `mlpH` of the arrays at `(2000 t + p, q)`. -/
theorem blk0_pay5_apply (c : Dev nD) (t : Fin cfg0.N) (p : Fin 2000) (q : Fin 128) (r : Fin 50000)
    (hr : r.val = 2000 * t.val + p.val) :
    k0_pay5 (F := Ideal) (blk0_0 V c t) (blk0_1 V c t) (blk0_2 V c t) (blk0_4 V c t) (blk0_3 V c t) (blk0_5 V c t) (ix2 p q) = mlpArr0 V c (ix2 r q) :=
  pay5_0_eq_mlpH (blk0_0 V c t) (blk0_1 V c t) (blk0_2 V c t) (blk0_3 V c t) (blk0_4 V c t) (blk0_5 V c t)
    (V c main_v21) (V c main_v16) (V c main_v23) (V c main_v30) (V c main_v27) (V c main_v31) p q r
    (fun k' => iblk0_0_apply V c t p k' r hr) (fun k' => iblk0_1_apply V c t p k' r hr)
    (iblk0_2_eq V c t) (iblk0_3_eq V c t) (iblk0_4_eq V c t) (iblk0_5_eq V c t)

/-! ## The five buffers after a point, as values -/

/-- The block output after point `t` is the perceptron's result of the point's blocks. -/
theorem outs0_block (c : Dev nD) (t : Fin cfg0.N) :
    (outsAt0 V c t.val t.isLt).1 = k0_pay5 (F := Ideal) (blk0_0 V c t) (blk0_1 V c t) (blk0_2 V c t) (blk0_4 V c t) (blk0_3 V c t) (blk0_5 V c t) := by
  by_cases h0 : t.val = 0
  · rw [outsAt0_A V c t h0]; dsimp only; exact valA6_0 ..
  · by_cases h1 : t.val = 24
    · rw [outsAt0_C V c t h0 h1]; dsimp only; exact valC6_0 ..
    · rw [outsAt0_B V c t h0 h1]; dsimp only; exact valB6_0 ..

/-- The first accumulator after the first point: the point's column sums onto the reset row. -/
theorem acc0_0_zero (c : Dev nD) (hn : 0 < cfg0.N) :
    (outsAt0 V c 0 hn).2.2.2.1 = k0_pay1 (F := Ideal) (k0_pay6 (F := Ideal) (blk0_0 V c ⟨0, hn⟩) (blk0_1 V c ⟨0, hn⟩) (blk0_2 V c ⟨0, hn⟩) (blk0_4 V c ⟨0, hn⟩) (blk0_3 V c ⟨0, hn⟩) (blk0_5 V c ⟨0, hn⟩) (k0_pay3 (F := Ideal))) := by
  have h : outsAt0 V c 0 hn = _ := outsAt0_A V c ⟨0, hn⟩ rfl
  rw [h]; dsimp only; exact valAS0_0 ..

/-- The first accumulator after a later point: the point's column sums onto what the point before left. -/
theorem acc0_0_succ (c : Dev nD) (n : ℕ) (hn : n + 1 < cfg0.N) :
    (outsAt0 V c (n + 1) hn).2.2.2.1
      = k0_pay1 (F := Ideal) (k0_pay6 (F := Ideal) (blk0_0 V c ⟨n + 1, hn⟩) (blk0_1 V c ⟨n + 1, hn⟩) (blk0_2 V c ⟨n + 1, hn⟩) (blk0_4 V c ⟨n + 1, hn⟩) (blk0_3 V c ⟨n + 1, hn⟩) (blk0_5 V c ⟨n + 1, hn⟩) (outsAt0 V c n (Nat.lt_of_succ_lt hn)).2.2.2.1) := by
  by_cases h1 : n + 1 = 24
  · have h : outsAt0 V c (n + 1) hn = _ := outsAt0_C V c ⟨n + 1, hn⟩ (Nat.succ_ne_zero n) h1
    rw [h]; dsimp only; exact valCS0_0 ..
  · have h : outsAt0 V c (n + 1) hn = _ := outsAt0_B V c ⟨n + 1, hn⟩ (Nat.succ_ne_zero n) h1
    rw [h]; dsimp only; exact valBS0_0 ..

/-- The second accumulator after the first point. -/
theorem acc0_1_zero (c : Dev nD) (hn : 0 < cfg0.N) :
    (outsAt0 V c 0 hn).2.2.2.2 = k0_pay2 (F := Ideal) (k0_pay5 (F := Ideal) (blk0_0 V c ⟨0, hn⟩) (blk0_1 V c ⟨0, hn⟩) (blk0_2 V c ⟨0, hn⟩) (blk0_4 V c ⟨0, hn⟩) (blk0_3 V c ⟨0, hn⟩) (blk0_5 V c ⟨0, hn⟩)) (k0_pay4 (F := Ideal)) := by
  have h : outsAt0 V c 0 hn = _ := outsAt0_A V c ⟨0, hn⟩ rfl
  rw [h]; dsimp only; exact valAS1_0 ..

/-- The second accumulator after a later point. -/
theorem acc0_1_succ (c : Dev nD) (n : ℕ) (hn : n + 1 < cfg0.N) :
    (outsAt0 V c (n + 1) hn).2.2.2.2
      = k0_pay2 (F := Ideal) (k0_pay5 (F := Ideal) (blk0_0 V c ⟨n + 1, hn⟩) (blk0_1 V c ⟨n + 1, hn⟩) (blk0_2 V c ⟨n + 1, hn⟩) (blk0_4 V c ⟨n + 1, hn⟩) (blk0_3 V c ⟨n + 1, hn⟩) (blk0_5 V c ⟨n + 1, hn⟩)) (outsAt0 V c n (Nat.lt_of_succ_lt hn)).2.2.2.2 := by
  by_cases h1 : n + 1 = 24
  · have h : outsAt0 V c (n + 1) hn = _ := outsAt0_C V c ⟨n + 1, hn⟩ (Nat.succ_ne_zero n) h1
    rw [h]; dsimp only; exact valCS1_0 ..
  · have h : outsAt0 V c (n + 1) hn = _ := outsAt0_B V c ⟨n + 1, hn⟩ (Nat.succ_ne_zero n) h1
    rw [h]; dsimp only; exact valBS1_0 ..

/-! ## The accumulators after the last point -/

/-- Entry `(z, q)` of the first accumulator after `k` points (zero before the first). -/
def accRow0_0 (c : Dev nD) (z : Fin 1) (q : Fin 128) : ℕ → EReal
  | 0 => 0
  | k + 1 => if h : k < cfg0.N then (outsAt0 V c k h).2.2.2.1 (ix2 z q) else 0

/-- Entry `(z, q)` of the second accumulator after `k` points (zero before the first). -/
def accRow0_1 (c : Dev nD) (z : Fin 1) (q : Fin 128) : ℕ → EReal
  | 0 => 0
  | k + 1 => if h : k < cfg0.N then (outsAt0 V c k h).2.2.2.2 (ix2 z q) else 0

theorem accRow0_0_succ (c : Dev nD) (z : Fin 1) (q : Fin 128) (k : ℕ) (hk : k < cfg0.N) :
    accRow0_0 V c z q (k + 1) = (outsAt0 V c k hk).2.2.2.1 (ix2 z q) := by
  show (if h : k < cfg0.N then (outsAt0 V c k h).2.2.2.1 (ix2 z q) else 0) = _
  rw [dif_pos hk]

theorem accRow0_1_succ (c : Dev nD) (z : Fin 1) (q : Fin 128) (k : ℕ) (hk : k < cfg0.N) :
    accRow0_1 V c z q (k + 1) = (outsAt0 V c k hk).2.2.2.2 (ix2 z q) := by
  show (if h : k < cfg0.N then (outsAt0 V c k h).2.2.2.2 (ix2 z q) else 0) = _
  rw [dif_pos hk]

/-- After the last point the first accumulator holds the column sums of `mlpH` of the arrays. -/
theorem acc0_0_last (c : Dev nD) (z : Fin 1) (q : Fin 128) (hn : 24 < cfg0.N) :
    (outsAt0 V c 24 hn).2.2.2.1 (ix2 z q) = 0 + ∑ r : Fin 50000, mlpArr0 V c (ix2 r q) := by
  have hN : cfg0.N = 25 := N_0
  refine (accRow0_0_succ V c z q 24 hn).symm.trans ?_
  refine acc_cols0 (mlpArr0 V c) q (accRow0_0 V c z q) rfl fun k hk => ?_
  have hkN : k < cfg0.N := by rw [hN]; exact hk
  refine (accRow0_0_succ V c z q k hkN).trans ?_
  cases k with
  | zero =>
    rw [acc0_0_zero V c hkN, pay6_0_apply, pay3_0_apply]
    refine congrArg ((0 : EReal) + ·) (Finset.sum_congr rfl fun p _ => ?_)
    exact blk0_pay5_apply V c ⟨0, hkN⟩ p q ⟨2000 * 0 + p.val, by have := p.isLt; omega⟩ rfl
  | succ m =>
    rw [acc0_0_succ V c m hkN, pay6_0_apply]
    have hm : m < cfg0.N := Nat.lt_of_succ_lt hkN
    refine congrArg₂ (· + ·) (accRow0_0_succ V c z q m hm).symm (Finset.sum_congr rfl fun p _ => ?_)
    exact blk0_pay5_apply V c ⟨m + 1, hkN⟩ p q ⟨2000 * (m + 1) + p.val, by have := p.isLt; omega⟩ rfl

/-- After the last point the second accumulator holds the column sums of the squares. -/
theorem acc0_1_last (c : Dev nD) (z : Fin 1) (q : Fin 128) (hn : 24 < cfg0.N) :
    (outsAt0 V c 24 hn).2.2.2.2 (ix2 z q) = 0 + ∑ r : Fin 50000, mlpArr0 V c (ix2 r q) * mlpArr0 V c (ix2 r q) := by
  have hN : cfg0.N = 25 := N_0
  refine (accRow0_1_succ V c z q 24 hn).symm.trans ?_
  refine acc_cols0 (fun i => mlpArr0 V c i * mlpArr0 V c i) q (accRow0_1 V c z q) rfl fun k hk => ?_
  have hkN : k < cfg0.N := by rw [hN]; exact hk
  refine (accRow0_1_succ V c z q k hkN).trans ?_
  cases k with
  | zero =>
    rw [acc0_1_zero V c hkN, pay2_0_apply, pay4_0_apply]
    refine congrArg ((0 : EReal) + ·) (Finset.sum_congr rfl fun p _ => ?_)
    rw [blk0_pay5_apply V c ⟨0, hkN⟩ p q ⟨2000 * 0 + p.val, by have := p.isLt; omega⟩ rfl]
  | succ m =>
    rw [acc0_1_succ V c m hkN, pay2_0_apply]
    have hm : m < cfg0.N := Nat.lt_of_succ_lt hkN
    refine congrArg₂ (· + ·) (accRow0_1_succ V c z q m hm).symm (Finset.sum_congr rfl fun p _ => ?_)
    rw [blk0_pay5_apply V c ⟨m + 1, hkN⟩ p q ⟨2000 * (m + 1) + p.val, by have := p.isLt; omega⟩ rfl]

/-! ## The block output -/

/-- What point `t` writes back to the block output's array is block `t` of `mlpH` of the six input arrays. -/
theorem flushed0_6_eq (c : Dev nD) (t : Fin cfg0.N) :
    (dat0 V c).flushed 6 t = ((cfg0.win 6).blk t).view.read (Elt Ideal) (mlpArr0 V c) := by
  show (cfg0.win 6).cut (grid0.coords t) ((dat0 V c).after 6 t) = _
  rw [after0_6, outs0_block]
  obtain ⟨-, -, -, -, e0, e1, -⟩ := blocks_of_point0 t
  have hN : grid0.N = 25 := N_0
  have ht : t.val < 25 := hN ▸ t.isLt
  show (k0_pay5 (F := Ideal) (blk0_0 V c t) (blk0_1 V c t) (blk0_2 V c t) (blk0_4 V c t) (blk0_3 V c t) (blk0_5 V c t) : S2000x128.Idx → EReal)
    = fun j : S2000x128.Idx => mlpArr0 V c (((cfg0.win 6).blk t).view.emb j)
  funext j
  obtain ⟨p, q, rfl⟩ : ∃ (p : Fin 2000) (q : Fin 128), j = ix2 p q := ⟨j 0, j 1, eq_ix2 j⟩
  have hp : p.val < 2000 := p.isLt
  refine (blk0_pay5_apply V c t p q ⟨2000 * t.val + p.val, by omega⟩ rfl).trans ?_
  refine congrArg (mlpArr0 V c) ?_
  funext a
  apply Fin.ext
  match a with
  | ⟨0, _⟩ => show 2000 * t.val + p.val = win0_6.index t (0 : Fin 2) * 2000 + 1 * p.val; rw [e0]; omega
  | ⟨1, _⟩ => show q.val = win0_6.index t (1 : Fin 2) * 128 + 1 * q.val; rw [e1]; omega

/-- Row `r` of the block output's array is written by point `r / 2000`. -/
theorem cover0_6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : grid0.N = 25 := N_0
  have hlt : (i 0).val / 2000 < grid0.N := by rw [hN]; omega
  obtain ⟨-, -, -, -, e0, e1, -⟩ := blocks_of_point0 ⟨(i 0).val / 2000, hlt⟩
  refine ⟨⟨(i 0).val / 2000, hlt⟩, flush0_6 _, ?_⟩
  show i ∈ ((View.whole main_v32_0).slice (win0_6.rect ⟨(i 0).val / 2000, hlt⟩)).set
  rw [View.set_slice_whole, Rect.mem_set_unit]
  intro a
  match a with
  | ⟨0, _⟩ =>
    show win0_6.index ⟨(i 0).val / 2000, hlt⟩ (0 : Fin 2) * 2000 ≤ (i 0).val ∧ (i 0).val < win0_6.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win0_6.index ⟨(i 0).val / 2000, hlt⟩ (1 : Fin 2) * 128 ≤ (i 1).val ∧ (i 1).val < win0_6.index ⟨(i 0).val / 2000, hlt⟩ (1 : Fin 2) * 128 + 128
    rw [e1]; omega

/-! ## The two row outputs -/

/-- At the last point row output 7 is a copy of the first accumulator. -/
theorem row0_7_last (c : Dev nD) (hn : 24 < cfg0.N) :
    (outsAt0 V c 24 hn).2.1 = (outsAt0 V c 24 hn).2.2.2.1 := by
  have h : outsAt0 V c 24 hn = _ := outsAt0_C V c ⟨24, hn⟩ (show ¬ (24 : ℕ) = 0 by decide) rfl
  rw [h]; dsimp only
  rw [valC7_0, valCS0_0]

/-- Row output 7 after the last point, at an entry: the column sum from zero. -/
theorem row0_7_at (c : Dev nD) (t : Fin cfg0.N) (h24 : t.val = 24) (z : Fin 1) (q : Fin 128) :
    (outsAt0 V c t.val t.isLt).2.1 (ix2 z q) = rowSum (mlpArr0 V c) (ix2 z q) := by
  obtain ⟨n, hn⟩ := t
  obtain rfl : n = 24 := h24
  rw [row0_7_last V c hn]
  exact (acc0_0_last V c z q hn).trans (rowSum_apply (mlpArr0 V c) z q).symm

/-- The one write-back of row output 7, at the last point, writes the column sums. -/
theorem flushed0_7_eq (c : Dev nD) (t : Fin cfg0.N) (hf : (cfg0.win 7).flush t = true) :
    (dat0 V c).flushed 7 t = ((cfg0.win 7).blk t).view.read (Elt Ideal) (rowSum (mlpArr0 V c)) := by
  have hN : grid0.N = 25 := N_0
  have ht : t.val < 25 := hN ▸ t.isLt
  have h24 : t.val = 24 := by have h := (flush0_7 t).mp hf; omega
  obtain ⟨-, -, -, -, -, -, -, -, -, -, -, -, -, -, e0, e1, -⟩ := blocks_of_point0 t
  show (cfg0.win 7).cut (grid0.coords t) ((dat0 V c).after 7 t) = _
  rw [after0_7]
  show ((outsAt0 V c t.val t.isLt).2.1 : S1x128.Idx → EReal)
    = fun j : S1x128.Idx => rowSum (mlpArr0 V c) (((cfg0.win 7).blk t).view.emb j)
  funext j
  obtain ⟨z, q, rfl⟩ : ∃ (z : Fin 1) (q : Fin 128), j = ix2 z q := ⟨j 0, j 1, eq_ix2 j⟩
  refine (row0_7_at V c t h24 z q).trans (congrArg (rowSum (mlpArr0 V c)) ?_)
  funext a
  apply Fin.ext
  match a with
  | ⟨0, _⟩ => show z.val = win0_7.index t (0 : Fin 2) * 1 + 1 * z.val; rw [e0]; omega
  | ⟨1, _⟩ => show q.val = win0_7.index t (1 : Fin 2) * 128 + 1 * q.val; rw [e1]; omega

/-- Every index of row output 7's array is in the last point's block. -/
theorem cover0_7 (i : S1x128.Idx) :
    ∃ t : Fin cfg0.N, (cfg0.win 7).flush t = true ∧ i ∈ ((cfg0.win 7).blk t).view.set := by
  have hi0 : (i 0).val < 1 := (i 0).isLt
  have hi1 : (i 1).val < 128 := (i 1).isLt
  have hN : grid0.N = 25 := N_0
  have hlt : 24 < grid0.N := by rw [hN]; omega
  obtain ⟨-, -, -, -, -, -, -, -, -, -, -, -, -, -, e0, e1, -⟩ := blocks_of_point0 ⟨24, hlt⟩
  refine ⟨⟨24, hlt⟩, (flush0_7 _).mpr rfl, ?_⟩
  show i ∈ ((View.whole main_v32_1).slice (win0_7.rect ⟨24, hlt⟩)).set
  rw [View.set_slice_whole, Rect.mem_set_unit]
  intro a
  match a with
  | ⟨0, _⟩ =>
    show win0_7.index ⟨24, hlt⟩ (0 : Fin 2) * 1 ≤ (i 0).val ∧ (i 0).val < win0_7.index ⟨24, hlt⟩ (0 : Fin 2) * 1 + 1
    rw [e0]; omega
  | ⟨1, _⟩ =>
    show win0_7.index ⟨24, hlt⟩ (1 : Fin 2) * 128 ≤ (i 1).val ∧ (i 1).val < win0_7.index ⟨24, hlt⟩ (1 : Fin 2) * 128 + 128
    rw [e1]; omega

/-- At the last point row output 8 is a copy of the second accumulator. -/
theorem row0_8_last (c : Dev nD) (hn : 24 < cfg0.N) :
    (outsAt0 V c 24 hn).2.2.1 = (outsAt0 V c 24 hn).2.2.2.2 := by
  have h : outsAt0 V c 24 hn = _ := outsAt0_C V c ⟨24, hn⟩ (show ¬ (24 : ℕ) = 0 by decide) rfl
  rw [h]; dsimp only
  rw [valC8_0, valCS1_0]

/-- Row output 8 after the last point, at an entry: the column sum from zero. -/
theorem row0_8_at (c : Dev nD) (t : Fin cfg0.N) (h24 : t.val = 24) (z : Fin 1) (q : Fin 128) :
    (outsAt0 V c t.val t.isLt).2.2.1 (ix2 z q) = rowSum (fun i => mlpArr0 V c i * mlpArr0 V c i) (ix2 z q) := by
  obtain ⟨n, hn⟩ := t
  obtain rfl : n = 24 := h24
  rw [row0_8_last V c hn]
  exact (acc0_1_last V c z q hn).trans (rowSum_apply (fun i => mlpArr0 V c i * mlpArr0 V c i) z q).symm

/-- The one write-back of row output 8, at the last point, writes the column sums. -/
theorem flushed0_8_eq (c : Dev nD) (t : Fin cfg0.N) (hf : (cfg0.win 8).flush t = true) :
    (dat0 V c).flushed 8 t = ((cfg0.win 8).blk t).view.read (Elt Ideal) (rowSum (fun i => mlpArr0 V c i * mlpArr0 V c i)) := by
  have hN : grid0.N = 25 := N_0
  have ht : t.val < 25 := hN ▸ t.isLt
  have h24 : t.val = 24 := by have h := (flush0_8 t).mp hf; omega
  obtain ⟨-, -, -, -, -, -, -, -, -, -, -, -, -, -, -, -, e0, e1⟩ := blocks_of_point0 t
  show (cfg0.win 8).cut (grid0.coords t) ((dat0 V c).after 8 t) = _
  rw [after0_8]
  show ((outsAt0 V c t.val t.isLt).2.2.1 : S1x128.Idx → EReal)
    = fun j : S1x128.Idx => rowSum (fun i => mlpArr0 V c i * mlpArr0 V c i) (((cfg0.win 8).blk t).view.emb j)
  funext j
  obtain ⟨z, q, rfl⟩ : ∃ (z : Fin 1) (q : Fin 128), j = ix2 z q := ⟨j 0, j 1, eq_ix2 j⟩
  refine (row0_8_at V c t h24 z q).trans (congrArg (rowSum (fun i => mlpArr0 V c i * mlpArr0 V c i)) ?_)
  funext a
  apply Fin.ext
  match a with
  | ⟨0, _⟩ => show z.val = win0_8.index t (0 : Fin 2) * 1 + 1 * z.val; rw [e0]; omega
  | ⟨1, _⟩ => show q.val = win0_8.index t (1 : Fin 2) * 128 + 1 * q.val; rw [e1]; omega

/-- Every index of row output 8's array is in the last point's block. -/
theorem cover0_8 (i : S1x128.Idx) :
    ∃ t : Fin cfg0.N, (cfg0.win 8).flush t = true ∧ i ∈ ((cfg0.win 8).blk t).view.set := by
  have hi0 : (i 0).val < 1 := (i 0).isLt
  have hi1 : (i 1).val < 128 := (i 1).isLt
  have hN : grid0.N = 25 := N_0
  have hlt : 24 < grid0.N := by rw [hN]; omega
  obtain ⟨-, -, -, -, -, -, -, -, -, -, -, -, -, -, -, -, e0, e1⟩ := blocks_of_point0 ⟨24, hlt⟩
  refine ⟨⟨24, hlt⟩, (flush0_8 _).mpr rfl, ?_⟩
  show i ∈ ((View.whole main_v32_2).slice (win0_8.rect ⟨24, hlt⟩)).set
  rw [View.set_slice_whole, Rect.mem_set_unit]
  intro a
  match a with
  | ⟨0, _⟩ =>
    show win0_8.index ⟨24, hlt⟩ (0 : Fin 2) * 1 ≤ (i 0).val ∧ (i 0).val < win0_8.index ⟨24, hlt⟩ (0 : Fin 2) * 1 + 1
    rw [e0]; omega
  | ⟨1, _⟩ =>
    show win0_8.index ⟨24, hlt⟩ (1 : Fin 2) * 128 ≤ (i 1).val ∧ (i 1).val < win0_8.index ⟨24, hlt⟩ (1 : Fin 2) * 128 + 128
    rw [e1]; omega

/-! ## The three arrays after the region -/

/-- After the region the block output's array is `mlpH` of the six input arrays as the region found them. -/
theorem region0_h (c : Dev nD) :
    (dat0 V c).arrAt 6 cfg0.N = mlpH (V c main_v21) (V c main_v16) (V c main_v23) (V c main_v30) (V c main_v27) (V c main_v31) :=
  (dat0 V c).arrAt_eq_of_cover 6 (mlpArr0 V c) (fun t _ => flushed0_6_eq V c t) cover0_6

/-- After the region the first row output's array is the row of column sums of that array. -/
theorem region0_s (c : Dev nD) :
    (dat0 V c).arrAt 7 cfg0.N = rowSum (mlpH (V c main_v21) (V c main_v16) (V c main_v23) (V c main_v30) (V c main_v27) (V c main_v31)) :=
  (dat0 V c).arrAt_eq_of_cover 7 (rowSum (mlpArr0 V c)) (fun t hf => flushed0_7_eq V c t hf) cover0_7

/-- After the region the second row output's array is the row of column sums of that array's entrywise square. -/
theorem region0_q (c : Dev nD) :
    (dat0 V c).arrAt 8 cfg0.N = rowSum (fun i => mlpH (V c main_v21) (V c main_v16) (V c main_v23) (V c main_v30) (V c main_v27) (V c main_v31) i * mlpH (V c main_v21) (V c main_v16) (V c main_v23) (V c main_v30) (V c main_v27) (V c main_v31) i) :=
  (dat0 V c).arrAt_eq_of_cover 8 (rowSum (fun i => mlpArr0 V c i * mlpArr0 V c i)) (fun t hf => flushed0_8_eq V c t hf) cover0_8

end MlpArr0

end Cert.KernelIdeal.Hand

end
-- ==== Proof.KiMlpVal2.lean ====
/-
  Region 2: what each case's stores leave, as values — the block output holds the perceptron's result of the six input
  blocks; each accumulator row holds what it held (zero at the first point) plus the block's column sums (of the result,
  of its squares); at the last point the two row outputs hold the accumulators.
-/
import proofs.«124822_j54752243090034_1_alg».proof.Proof.KiMlp2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem valA6_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) :
    out2_A_6 c i arg1 harg1 arg2 harg2 arg3 harg3 arg4 harg4 arg5 harg5 arg6 harg6 arg7 harg7 arg8 harg8 arg9 harg9 arg10 harg10 arg11 harg11 hc0 hc1 x0 x1 x2 x3 x4 x5 = k2_pay5 x0 x1 x2 x4 x3 x5 := by
  unfold out2_A_6
  rw [View.read_writes_eq_canon _ _ _ (cover2_A_6 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun2_A
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valB6_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    out2_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay5 x0 x1 x2 x4 x3 x5 := by
  unfold out2_B_6
  rw [View.read_writes_eq_canon _ _ _ (cover2_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_B
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valC6_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    out2_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay5 x0 x1 x2 x4 x3 x5 := by
  unfold out2_C_6
  rw [View.read_writes_eq_canon _ _ _ (cover2_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valAS0_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) :
    sout2_A_0 c i arg1 harg1 arg2 harg2 arg3 harg3 arg4 harg4 arg5 harg5 arg6 harg6 arg7 harg7 arg8 harg8 arg9 harg9 arg10 harg10 arg11 harg11 hc0 hc1 x0 x1 x2 x3 x4 x5 = k2_pay1 (k2_pay6 x0 x1 x2 x4 x3 x5 (k2_pay3 (F := F))) := by
  unfold sout2_A_0
  rw [View.read_writes_eq_canon _ _ _ (scover2_A_0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun2_A
  dsimp only
  (try sl_unfold_words)
  rw [View.canon_cons_unit_zero (S := S1x128) hz2]
  (try rw [View.readCov_unit_zero (S := S1x128) _ hz2])
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valAS1_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) :
    sout2_A_1 c i arg1 harg1 arg2 harg2 arg3 harg3 arg4 harg4 arg5 harg5 arg6 harg6 arg7 harg7 arg8 harg8 arg9 harg9 arg10 harg10 arg11 harg11 hc0 hc1 x0 x1 x2 x3 x4 x5 = k2_pay2 (k2_pay5 x0 x1 x2 x4 x3 x5) (k2_pay4 (F := F)) := by
  unfold sout2_A_1
  rw [View.read_writes_eq_canon _ _ _ (scover2_A_1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun2_A
  dsimp only
  (try sl_unfold_words)
  rw [View.canon_cons_unit_zero (S := S1x128) hz2]
  (try rw [View.readCov_unit_zero (S := S1x128) _ hz2])
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valBS0_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    sout2_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay1 (k2_pay6 x0 x1 x2 x4 x3 x5 xs0) := by
  unfold sout2_B_0
  rw [View.read_writes_eq_canon _ _ _ (scover2_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_B
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valBS1_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    sout2_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay2 (k2_pay5 x0 x1 x2 x4 x3 x5) xs1 := by
  unfold sout2_B_1
  rw [View.read_writes_eq_canon _ _ _ (scover2_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_B
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valCS0_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    sout2_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay1 (k2_pay6 x0 x1 x2 x4 x3 x5 xs0) := by
  unfold sout2_C_0
  rw [View.read_writes_eq_canon _ _ _ (scover2_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valCS1_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    sout2_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay2 (k2_pay5 x0 x1 x2 x4 x3 x5) xs1 := by
  unfold sout2_C_1
  rw [View.read_writes_eq_canon _ _ _ (scover2_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valC7_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    out2_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay1 (k2_pay6 x0 x1 x2 x4 x3 x5 xs0) := by
  unfold out2_C_7
  rw [View.read_writes_eq_canon _ _ _ (cover2_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]
  rw [View.readCov_unit_zero (S := S1x128) _ hz2]

theorem valC8_2 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    out2_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay2 (k2_pay5 x0 x1 x2 x4 x3 x5) xs1 := by
  unfold out2_C_8
  rw [View.read_writes_eq_canon _ _ _ (cover2_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]
  rw [View.readCov_unit_zero (S := S1x128) _ hz2]

end Cert.KernelIdeal.Hand

end
-- ==== Proof.KiMlpPay2.lean ====
/-
  Region 2's arithmetic at exact arithmetic, read at an entry: the perceptron's result of a block of 2000 rows at row p,
  column q is ∑ₖ max (∑ₖ' (x0 p k' + x1 p k') · w1 k' k + b1 k) 0 · w2 k q + b2 q (a change of float format is the
  identity, a matrix unit product into zeros is the sum over the contracted axis); an accumulator row after the body is
  what it held plus the block's column sums.
-/
import proofs.«124822_j54752243090034_1_alg».proof.Proof.Gen.KernelIdeal.Skeleton
import proofs.«124822_j54752243090034_1_alg».proof.Proof.LibMatmulIdx
import proofs.«124822_j54752243090034_1_alg».proof.Proof.LibIdealFinite
import proofs.«124822_j54752243090034_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx

abbrev Dmm2 := dot_S2000x128_S128x128_S2000x128_1_0_0_1_n_n

theorem Dmm2_rank : Dmm2.contr.rank = 1 := rfl
theorem Dmm2_size : Dmm2.contr.size ⟨0, by rw [Dmm2_rank]; omega⟩ = 128 := rfl
theorem Dmm2_l0 (j k) : (Dmm2.lhsIdx j k 0).val = (j 0).val := rfl
theorem Dmm2_l1 (j k) : (Dmm2.lhsIdx j k 1).val = (k ⟨0, by rw [Dmm2_rank]; omega⟩).val := Dmm2.lhsIdx_val_of_single rfl j k
theorem Dmm2_r0 (j k) : (Dmm2.rhsIdx j k 0).val = (k ⟨0, by rw [Dmm2_rank]; omega⟩).val := Dmm2.rhsIdx_val_of_single rfl j k
theorem Dmm2_r1 (j k) : (Dmm2.rhsIdx j k 1).val = (j 1).val := rfl

/-- The matrix unit's product of a 2000 × 128 block with a 128 × 128 matrix into zeros, at an entry. -/
theorem mm2_apply {φ₁ φ₂ : FTy} (l : FVec Ideal S2000x128 φ₁) (r : FVec Ideal S128x128 φ₂) (j : S2000x128.Idx) :
    matmul Dmm2 none l r (constant S2000x128 .f32 0x00000000#32) j = ∑ k : Fin 128, l (ix2 (j 0) k) * r (ix2 k (j 1)) :=
  LibMatmulIdx.matmul2_apply Dmm2 Dmm2_rank Dmm2_size Dmm2_l0 Dmm2_l1 Dmm2_r0 Dmm2_r1 none l r j

/-- The perceptron's result of a block at row p, column q. -/
theorem pay5_2_apply (x0 x1 : Vec Ideal S2000x128 .f32) (x2 : Vec Ideal S128x128 .f32) (x3 : Vec Ideal S1x128 .f32) (x4 : Vec Ideal S128x128 .f32) (x5 : Vec Ideal S1x128 .f32) (p : Fin 2000) (q : Fin 128) :
    k2_pay5 (F := Ideal) x0 x1 x2 x4 x3 x5 (ix2 p q)
      = (∑ k : Fin 128, max ((∑ k' : Fin 128, (x0 (ix2 p k') + x1 (ix2 p k')) * x2 (ix2 k' k)) + x3 (ix2 (0 : Fin 1) k)) 0 * x4 (ix2 k q)) + x5 (ix2 (0 : Fin 1) q) := by
  unfold k2_pay5
  simp only [shapeCast_self]
  rw [LibIdealFinite.addf_apply, mm2_apply, broadcastTo_1b_ab_apply]
  congr 1
  refine Finset.sum_congr rfl fun k _ => ?_
  congr 1
  show max (matmul (F := Ideal) Dmm2 none (truncf (F := Ideal) .bf16 (addf (F := Ideal) x0 x1) bitsLt_bf16_f32) (truncf (F := Ideal) .bf16 x2 bitsLt_bf16_f32) (constant S2000x128 .f32 0x00000000#32) (ix2 p k) + broadcastTo S2000x128 x3 broadcasts_S1x128_S2000x128 (ix2 p k)) (Ideal.ofBits .f32 0x00000000#32) = _
  rw [mm2_apply, broadcastTo_1b_ab_apply, Ideal.ofBits_zero_f32]
  rfl

theorem lift_row2 (j : S128.Idx) (k : Fin (S2000x128.size 0)) :
    reduces_S2000x128_S128.lift j k = ix2 (⟨k.val, k.isLt⟩ : Fin 2000) (⟨(j 0).val, (j 0).isLt⟩ : Fin 128) :=
  funext fun a => Fin.ext (by match a with | ⟨0, _⟩ => rfl | ⟨1, _⟩ => rfl)

/-- The column sums of a block, kept as a 1 × 128 row, at (z, q). -/
theorem colsum2_apply (v : FVec Ideal S2000x128 .f32) (z : Fin 1) (q : Fin 128) :
    shapeCast S1x128 (multiReduction (F := Ideal) .add [0] S128 v 0x00000000#32 reduces_S2000x128_S128 (.inl rfl) rfl) shapeCasts_S128_S1x128 (ix2 z q)
      = ∑ p : Fin 2000, v (ix2 p q) := by
  rw [LibRowOps.shapeCast_row_apply]
  refine (Ideal.multiReduction_add_single v 0x00000000#32 reduces_S2000x128_S128 (.inl rfl) rfl (ix1 q)).trans ?_
  refine Finset.sum_congr rfl fun k _ => ?_
  rw [lift_row2]
  rfl

/-- The first accumulator after the body: what it held plus the block's column sums of the perceptron's result. -/
theorem pay6_2_apply (x0 x1 : Vec Ideal S2000x128 .f32) (x2 : Vec Ideal S128x128 .f32) (x3 : Vec Ideal S1x128 .f32) (x4 : Vec Ideal S128x128 .f32) (x5 : Vec Ideal S1x128 .f32)
    (xs : Vec Ideal S1x128 .f32) (z : Fin 1) (q : Fin 128) :
    k2_pay1 (F := Ideal) (k2_pay6 (F := Ideal) x0 x1 x2 x4 x3 x5 xs) (ix2 z q) = xs (ix2 z q) + ∑ p : Fin 2000, k2_pay5 (F := Ideal) x0 x1 x2 x4 x3 x5 (ix2 p q) := by
  unfold k2_pay1 k2_pay6
  simp only [shapeCast_self]
  rw [LibIdealFinite.addf_apply, colsum2_apply]

/-- The second accumulator after the body: what it held plus the block's column sums of the squares. -/
theorem pay2_2_apply (v : FVec Ideal S2000x128 .f32) (xs : Vec Ideal S1x128 .f32) (z : Fin 1) (q : Fin 128) :
    k2_pay2 (F := Ideal) v xs (ix2 z q) = xs (ix2 z q) + ∑ p : Fin 2000, v (ix2 p q) * v (ix2 p q) := by
  unfold k2_pay2
  simp only [shapeCast_self]
  rw [LibIdealFinite.addf_apply, colsum2_apply]
  rfl

/-- The reset stores zeros. -/
theorem pay3_2_apply (i : S1x128.Idx) : k2_pay3 (F := Ideal) i = 0 := by
  unfold k2_pay3
  simp only [shapeCast_self]
  exact Ideal.ofBits_zero_f32
theorem pay4_2_apply (i : S1x128.Idx) : k2_pay4 (F := Ideal) i = 0 := by
  unfold k2_pay4
  simp only [shapeCast_self]
  exact Ideal.ofBits_zero_f32

end Cert.KernelIdeal.Hand

end
-- ==== Proof.KiMlpArr2.lean ====
import proofs.«124822_j54752243090034_1_alg».proof.Proof.KiMlpVal2
import proofs.«124822_j54752243090034_1_alg».proof.Proof.KiMlpPay2
import proofs.«124822_j54752243090034_1_alg».proof.Proof.KiMlpWhole
import proofs.«124822_j54752243090034_1_alg».proof.Proof.LibBatchMoments
import Idealize.ShloMosaic.Lib.Pipeline.Value
import Idealize.ShloMosaic.Lib.ValueLayout

/-!
# What the perceptron region of pallas call 2 writes back, as arrays

Over the extended reals and for any contents `V` of the core's buffers at region entry. Grid point `t` of the region
reads rows `2000 t … 2000 t + 1999` of the two 50000 × 128 inputs and the whole of the two weight matrices and the two
bias rows; it writes the perceptron's result for those rows into the same rows of the block output, and adds the
column sums of that result, and of its squares, onto two accumulator rows that start from zero at the first point.
The last point copies the two accumulator rows into the two row outputs. Hence, after the region,

* the block output is `mlpH` of the six input arrays (`region2_h`),
* the first row output is the row of column sums of that array (`region2_s`),
* the second row output is the row of column sums of its entrywise square (`region2_q`).
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- A row accumulated over 25 blocks of 2000 rows: if it starts at zero and step `k` adds the sum of column `q` of
    `g` over rows `2000 k … 2000 k + 1999`, it ends at the sum of column `q` over all 50000 rows. -/
theorem acc_cols2 (g : S50000x128.Idx → EReal) (q : Fin 128) (acc : ℕ → EReal) (h0 : acc 0 = 0)
    (hstep : ∀ k (hk : k < 25), acc (k + 1)
      = acc k + ∑ p : Fin 2000, g (ix2 (⟨2000 * k + p.val, by have := p.isLt; omega⟩ : Fin 50000) q)) :
    acc 25 = 0 + ∑ r : Fin 50000, g (ix2 r q) := by
  have key := LibBatchMoments.acc_blocks 25 2000 (fun i => if h : i < 50000 then g (ix2 (⟨i, h⟩ : Fin 50000) q) else 0) acc h0
    (fun k hk => by
      rw [hstep k hk]
      refine congrArg (acc k + ·) (Finset.sum_congr rfl fun p _ => ?_)
      have hp := p.isLt
      rw [dif_pos (by omega : 2000 * k + p.val < 50000)])
  rw [key, zero_add]
  show ∑ i : Fin 50000, (if h : i.val < 50000 then g (ix2 (⟨i.val, h⟩ : Fin 50000) q) else 0) = _
  exact Finset.sum_congr rfl fun i _ => dif_pos i.isLt

section MlpArr2
-- what each core holds in each of its unscoped buffers at the moment the region starts, over the extended reals
variable (V : (c : Dev nD) → (b : Ref sig .tc) → Buf (Elt Ideal) ((c : Thread nD τ).loc b))

/-- The perceptron's output for the six input arrays as the region finds them. -/
abbrev mlpArr2 (c : Dev nD) : S50000x128.Idx → EReal := mlpH (V c main_v66) (V c main_v61) (V c main_v68) (V c main_v75) (V c main_v72) (V c main_v76)

/-! ## Which part of its array a window shows at a grid point -/

/-- The block index of every window at every grid point, decided over the 25 points: the three 2000 × 128 windows sit
    at block row `t`, every other window at block `(0, 0)`. -/
theorem blocks_of_point2 : ∀ t : Fin cfg2.N, win2_0.index t (0 : Fin 2) = t.val ∧ win2_0.index t (1 : Fin 2) = 0
    ∧ win2_1.index t (0 : Fin 2) = t.val ∧ win2_1.index t (1 : Fin 2) = 0
    ∧ win2_6.index t (0 : Fin 2) = t.val ∧ win2_6.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- Window 0's block at point `t` is rows `2000 t … 2000 t + 1999` of its array. -/
theorem iblk2_0_apply (c : Dev nD) (t : Fin cfg2.N) (p : Fin 2000) (q : Fin 128) (r : Fin 50000)
    (hr : r.val = 2000 * t.val + p.val) :
    (iblk2 V c 0 t : S2000x128.Idx → EReal) (ix2 p q) = (V c main_v66 : S50000x128.Idx → EReal) (ix2 r q) := by
  obtain ⟨e0, e1, -⟩ := blocks_of_point2 t
  unfold iblk2
  rw [View.read_apply]
  show (V c main_v66 : S50000x128.Idx → EReal) _ = (V c main_v66 : S50000x128.Idx → EReal) _
  refine congrArg (V c main_v66 : S50000x128.Idx → EReal) ?_
  funext a
  apply Fin.ext
  match a with
  | ⟨0, _⟩ => show win2_0.index t (0 : Fin 2) * 2000 + 1 * p.val = r.val; rw [e0, hr]; omega
  | ⟨1, _⟩ => show win2_0.index t (1 : Fin 2) * 128 + 1 * q.val = q.val; rw [e1]; omega

/-- Window 1's block at point `t` is rows `2000 t … 2000 t + 1999` of its array. -/
theorem iblk2_1_apply (c : Dev nD) (t : Fin cfg2.N) (p : Fin 2000) (q : Fin 128) (r : Fin 50000)
    (hr : r.val = 2000 * t.val + p.val) :
    (iblk2 V c 1 t : S2000x128.Idx → EReal) (ix2 p q) = (V c main_v61 : S50000x128.Idx → EReal) (ix2 r q) := by
  obtain ⟨-, -, e0, e1, -⟩ := blocks_of_point2 t
  unfold iblk2
  rw [View.read_apply]
  show (V c main_v61 : S50000x128.Idx → EReal) _ = (V c main_v61 : S50000x128.Idx → EReal) _
  refine congrArg (V c main_v61 : S50000x128.Idx → EReal) ?_
  funext a
  apply Fin.ext
  match a with
  | ⟨0, _⟩ => show win2_1.index t (0 : Fin 2) * 2000 + 1 * p.val = r.val; rw [e0, hr]; omega
  | ⟨1, _⟩ => show win2_1.index t (1 : Fin 2) * 128 + 1 * q.val = q.val; rw [e1]; omega

/-- Window 2's block is its whole array, at every point. -/
theorem iblk2_2_eq (c : Dev nD) (t : Fin cfg2.N) :
    (iblk2 V c 2 t : S128x128.Idx → EReal) = (V c main_v68 : S128x128.Idx → EReal) := by
  obtain ⟨-, -, -, -, -, -, e0, e1, -⟩ := blocks_of_point2 t
  funext k
  unfold iblk2
  rw [View.read_apply]
  show (V c main_v68 : S128x128.Idx → EReal) _ = (V c main_v68 : S128x128.Idx → EReal) k
  refine congrArg (V c main_v68 : S128x128.Idx → EReal) ?_
  funext a
  apply Fin.ext
  match a with
  | ⟨0, _⟩ => show win2_2.index t (0 : Fin 2) * 128 + 1 * (k 0).val = (k 0).val; rw [e0]; omega
  | ⟨1, _⟩ => show win2_2.index t (1 : Fin 2) * 128 + 1 * (k 1).val = (k 1).val; rw [e1]; omega

/-- Window 3's block is its whole array, at every point. -/
theorem iblk2_3_eq (c : Dev nD) (t : Fin cfg2.N) :
    (iblk2 V c 3 t : S1x128.Idx → EReal) = (V c main_v75 : S1x128.Idx → EReal) := by
  obtain ⟨-, -, -, -, -, -, -, -, e0, e1, -⟩ := blocks_of_point2 t
  funext k
  unfold iblk2
  rw [View.read_apply]
  show (V c main_v75 : S1x128.Idx → EReal) _ = (V c main_v75 : S1x128.Idx → EReal) k
  refine congrArg (V c main_v75 : S1x128.Idx → EReal) ?_
  funext a
  apply Fin.ext
  match a with
  | ⟨0, _⟩ => show win2_3.index t (0 : Fin 2) * 1 + 1 * (k 0).val = (k 0).val; rw [e0]; omega
  | ⟨1, _⟩ => show win2_3.index t (1 : Fin 2) * 128 + 1 * (k 1).val = (k 1).val; rw [e1]; omega

/-- Window 4's block is its whole array, at every point. -/
theorem iblk2_4_eq (c : Dev nD) (t : Fin cfg2.N) :
    (iblk2 V c 4 t : S128x128.Idx → EReal) = (V c main_v72 : S128x128.Idx → EReal) := by
  obtain ⟨-, -, -, -, -, -, -, -, -, -, e0, e1, -⟩ := blocks_of_point2 t
  funext k
  unfold iblk2
  rw [View.read_apply]
  show (V c main_v72 : S128x128.Idx → EReal) _ = (V c main_v72 : S128x128.Idx → EReal) k
  refine congrArg (V c main_v72 : S128x128.Idx → EReal) ?_
  funext a
  apply Fin.ext
  match a with
  | ⟨0, _⟩ => show win2_4.index t (0 : Fin 2) * 128 + 1 * (k 0).val = (k 0).val; rw [e0]; omega
  | ⟨1, _⟩ => show win2_4.index t (1 : Fin 2) * 128 + 1 * (k 1).val = (k 1).val; rw [e1]; omega

/-- Window 5's block is its whole array, at every point. -/
theorem iblk2_5_eq (c : Dev nD) (t : Fin cfg2.N) :
    (iblk2 V c 5 t : S1x128.Idx → EReal) = (V c main_v76 : S1x128.Idx → EReal) := by
  obtain ⟨-, -, -, -, -, -, -, -, -, -, -, -, e0, e1, -⟩ := blocks_of_point2 t
  funext k
  unfold iblk2
  rw [View.read_apply]
  show (V c main_v76 : S1x128.Idx → EReal) _ = (V c main_v76 : S1x128.Idx → EReal) k
  refine congrArg (V c main_v76 : S1x128.Idx → EReal) ?_
  funext a
  apply Fin.ext
  match a with
  | ⟨0, _⟩ => show win2_5.index t (0 : Fin 2) * 1 + 1 * (k 0).val = (k 0).val; rw [e0]; omega
  | ⟨1, _⟩ => show win2_5.index t (1 : Fin 2) * 128 + 1 * (k 1).val = (k 1).val; rw [e1]; omega

/-! ## The six input blocks at a point, and the perceptron's result of them -/

abbrev blk2_0 (c : Dev nD) (t : Fin cfg2.N) : Vec Ideal S2000x128 .f32 := iblk2 V c 0 t
abbrev blk2_1 (c : Dev nD) (t : Fin cfg2.N) : Vec Ideal S2000x128 .f32 := iblk2 V c 1 t
abbrev blk2_2 (c : Dev nD) (t : Fin cfg2.N) : Vec Ideal S128x128 .f32 := iblk2 V c 2 t
abbrev blk2_3 (c : Dev nD) (t : Fin cfg2.N) : Vec Ideal S1x128 .f32 := iblk2 V c 3 t
abbrev blk2_4 (c : Dev nD) (t : Fin cfg2.N) : Vec Ideal S128x128 .f32 := iblk2 V c 4 t
abbrev blk2_5 (c : Dev nD) (t : Fin cfg2.N) : Vec Ideal S1x128 .f32 := iblk2 V c 5 t

/-- The perceptron's result of six blocks is `mlpH` of six arrays at the matching row, as soon as the two big
    blocks' row `p` is the arrays' row `r` and the four small blocks are their arrays. -/
theorem pay5_2_eq_mlpH (x0 x1 : Vec Ideal S2000x128 .f32) (x2 : Vec Ideal S128x128 .f32) (x3 : Vec Ideal S1x128 .f32)
    (x4 : Vec Ideal S128x128 .f32) (x5 : Vec Ideal S1x128 .f32)
    (xe agg : S50000x128.Idx → EReal) (w1 : S128x128.Idx → EReal) (b1 : S1x128.Idx → EReal) (w2 : S128x128.Idx → EReal) (b2 : S1x128.Idx → EReal)
    (p : Fin 2000) (q : Fin 128) (r : Fin 50000)
    (e0 : ∀ k' : Fin 128, x0 (ix2 p k') = xe (ix2 r k')) (e1 : ∀ k' : Fin 128, x1 (ix2 p k') = agg (ix2 r k'))
    (e2 : x2 = w1) (e3 : x3 = b1) (e4 : x4 = w2) (e5 : x5 = b2) :
    k2_pay5 (F := Ideal) x0 x1 x2 x4 x3 x5 (ix2 p q) = mlpH xe agg w1 b1 w2 b2 (ix2 r q) := by
  subst e2 e3 e4 e5
  rw [pay5_2_apply, mlpH_apply]
  simp only [e0, e1]

/-- The perceptron's result of the blocks at point `t`, at `(p, q)`, is `mlpH` of the arrays at `(2000 t + p, q)`. -/
theorem blk2_pay5_apply (c : Dev nD) (t : Fin cfg2.N) (p : Fin 2000) (q : Fin 128) (r : Fin 50000)
    (hr : r.val = 2000 * t.val + p.val) :
    k2_pay5 (F := Ideal) (blk2_0 V c t) (blk2_1 V c t) (blk2_2 V c t) (blk2_4 V c t) (blk2_3 V c t) (blk2_5 V c t) (ix2 p q) = mlpArr2 V c (ix2 r q) :=
  pay5_2_eq_mlpH (blk2_0 V c t) (blk2_1 V c t) (blk2_2 V c t) (blk2_3 V c t) (blk2_4 V c t) (blk2_5 V c t)
    (V c main_v66) (V c main_v61) (V c main_v68) (V c main_v75) (V c main_v72) (V c main_v76) p q r
    (fun k' => iblk2_0_apply V c t p k' r hr) (fun k' => iblk2_1_apply V c t p k' r hr)
    (iblk2_2_eq V c t) (iblk2_3_eq V c t) (iblk2_4_eq V c t) (iblk2_5_eq V c t)

/-! ## The five buffers after a point, as values -/

/-- The block output after point `t` is the perceptron's result of the point's blocks. -/
theorem outs2_block (c : Dev nD) (t : Fin cfg2.N) :
    (outsAt2 V c t.val t.isLt).1 = k2_pay5 (F := Ideal) (blk2_0 V c t) (blk2_1 V c t) (blk2_2 V c t) (blk2_4 V c t) (blk2_3 V c t) (blk2_5 V c t) := by
  by_cases h0 : t.val = 0
  · rw [outsAt2_A V c t h0]; dsimp only; exact valA6_2 ..
  · by_cases h1 : t.val = 24
    · rw [outsAt2_C V c t h0 h1]; dsimp only; exact valC6_2 ..
    · rw [outsAt2_B V c t h0 h1]; dsimp only; exact valB6_2 ..

/-- The first accumulator after the first point: the point's column sums onto the reset row. -/
theorem acc2_0_zero (c : Dev nD) (hn : 0 < cfg2.N) :
    (outsAt2 V c 0 hn).2.2.2.1 = k2_pay1 (F := Ideal) (k2_pay6 (F := Ideal) (blk2_0 V c ⟨0, hn⟩) (blk2_1 V c ⟨0, hn⟩) (blk2_2 V c ⟨0, hn⟩) (blk2_4 V c ⟨0, hn⟩) (blk2_3 V c ⟨0, hn⟩) (blk2_5 V c ⟨0, hn⟩) (k2_pay3 (F := Ideal))) := by
  have h : outsAt2 V c 0 hn = _ := outsAt2_A V c ⟨0, hn⟩ rfl
  rw [h]; dsimp only; exact valAS0_2 ..

/-- The first accumulator after a later point: the point's column sums onto what the point before left. -/
theorem acc2_0_succ (c : Dev nD) (n : ℕ) (hn : n + 1 < cfg2.N) :
    (outsAt2 V c (n + 1) hn).2.2.2.1
      = k2_pay1 (F := Ideal) (k2_pay6 (F := Ideal) (blk2_0 V c ⟨n + 1, hn⟩) (blk2_1 V c ⟨n + 1, hn⟩) (blk2_2 V c ⟨n + 1, hn⟩) (blk2_4 V c ⟨n + 1, hn⟩) (blk2_3 V c ⟨n + 1, hn⟩) (blk2_5 V c ⟨n + 1, hn⟩) (outsAt2 V c n (Nat.lt_of_succ_lt hn)).2.2.2.1) := by
  by_cases h1 : n + 1 = 24
  · have h : outsAt2 V c (n + 1) hn = _ := outsAt2_C V c ⟨n + 1, hn⟩ (Nat.succ_ne_zero n) h1
    rw [h]; dsimp only; exact valCS0_2 ..
  · have h : outsAt2 V c (n + 1) hn = _ := outsAt2_B V c ⟨n + 1, hn⟩ (Nat.succ_ne_zero n) h1
    rw [h]; dsimp only; exact valBS0_2 ..

/-- The second accumulator after the first point. -/
theorem acc2_1_zero (c : Dev nD) (hn : 0 < cfg2.N) :
    (outsAt2 V c 0 hn).2.2.2.2 = k2_pay2 (F := Ideal) (k2_pay5 (F := Ideal) (blk2_0 V c ⟨0, hn⟩) (blk2_1 V c ⟨0, hn⟩) (blk2_2 V c ⟨0, hn⟩) (blk2_4 V c ⟨0, hn⟩) (blk2_3 V c ⟨0, hn⟩) (blk2_5 V c ⟨0, hn⟩)) (k2_pay4 (F := Ideal)) := by
  have h : outsAt2 V c 0 hn = _ := outsAt2_A V c ⟨0, hn⟩ rfl
  rw [h]; dsimp only; exact valAS1_2 ..

/-- The second accumulator after a later point. -/
theorem acc2_1_succ (c : Dev nD) (n : ℕ) (hn : n + 1 < cfg2.N) :
    (outsAt2 V c (n + 1) hn).2.2.2.2
      = k2_pay2 (F := Ideal) (k2_pay5 (F := Ideal) (blk2_0 V c ⟨n + 1, hn⟩) (blk2_1 V c ⟨n + 1, hn⟩) (blk2_2 V c ⟨n + 1, hn⟩) (blk2_4 V c ⟨n + 1, hn⟩) (blk2_3 V c ⟨n + 1, hn⟩) (blk2_5 V c ⟨n + 1, hn⟩)) (outsAt2 V c n (Nat.lt_of_succ_lt hn)).2.2.2.2 := by
  by_cases h1 : n + 1 = 24
  · have h : outsAt2 V c (n + 1) hn = _ := outsAt2_C V c ⟨n + 1, hn⟩ (Nat.succ_ne_zero n) h1
    rw [h]; dsimp only; exact valCS1_2 ..
  · have h : outsAt2 V c (n + 1) hn = _ := outsAt2_B V c ⟨n + 1, hn⟩ (Nat.succ_ne_zero n) h1
    rw [h]; dsimp only; exact valBS1_2 ..

/-! ## The accumulators after the last point -/

/-- Entry `(z, q)` of the first accumulator after `k` points (zero before the first). -/
def accRow2_0 (c : Dev nD) (z : Fin 1) (q : Fin 128) : ℕ → EReal
  | 0 => 0
  | k + 1 => if h : k < cfg2.N then (outsAt2 V c k h).2.2.2.1 (ix2 z q) else 0

/-- Entry `(z, q)` of the second accumulator after `k` points (zero before the first). -/
def accRow2_1 (c : Dev nD) (z : Fin 1) (q : Fin 128) : ℕ → EReal
  | 0 => 0
  | k + 1 => if h : k < cfg2.N then (outsAt2 V c k h).2.2.2.2 (ix2 z q) else 0

theorem accRow2_0_succ (c : Dev nD) (z : Fin 1) (q : Fin 128) (k : ℕ) (hk : k < cfg2.N) :
    accRow2_0 V c z q (k + 1) = (outsAt2 V c k hk).2.2.2.1 (ix2 z q) := by
  show (if h : k < cfg2.N then (outsAt2 V c k h).2.2.2.1 (ix2 z q) else 0) = _
  rw [dif_pos hk]

theorem accRow2_1_succ (c : Dev nD) (z : Fin 1) (q : Fin 128) (k : ℕ) (hk : k < cfg2.N) :
    accRow2_1 V c z q (k + 1) = (outsAt2 V c k hk).2.2.2.2 (ix2 z q) := by
  show (if h : k < cfg2.N then (outsAt2 V c k h).2.2.2.2 (ix2 z q) else 0) = _
  rw [dif_pos hk]

/-- After the last point the first accumulator holds the column sums of `mlpH` of the arrays. -/
theorem acc2_0_last (c : Dev nD) (z : Fin 1) (q : Fin 128) (hn : 24 < cfg2.N) :
    (outsAt2 V c 24 hn).2.2.2.1 (ix2 z q) = 0 + ∑ r : Fin 50000, mlpArr2 V c (ix2 r q) := by
  have hN : cfg2.N = 25 := N_2
  refine (accRow2_0_succ V c z q 24 hn).symm.trans ?_
  refine acc_cols2 (mlpArr2 V c) q (accRow2_0 V c z q) rfl fun k hk => ?_
  have hkN : k < cfg2.N := by rw [hN]; exact hk
  refine (accRow2_0_succ V c z q k hkN).trans ?_
  cases k with
  | zero =>
    rw [acc2_0_zero V c hkN, pay6_2_apply, pay3_2_apply]
    refine congrArg ((0 : EReal) + ·) (Finset.sum_congr rfl fun p _ => ?_)
    exact blk2_pay5_apply V c ⟨0, hkN⟩ p q ⟨2000 * 0 + p.val, by have := p.isLt; omega⟩ rfl
  | succ m =>
    rw [acc2_0_succ V c m hkN, pay6_2_apply]
    have hm : m < cfg2.N := Nat.lt_of_succ_lt hkN
    refine congrArg₂ (· + ·) (accRow2_0_succ V c z q m hm).symm (Finset.sum_congr rfl fun p _ => ?_)
    exact blk2_pay5_apply V c ⟨m + 1, hkN⟩ p q ⟨2000 * (m + 1) + p.val, by have := p.isLt; omega⟩ rfl

/-- After the last point the second accumulator holds the column sums of the squares. -/
theorem acc2_1_last (c : Dev nD) (z : Fin 1) (q : Fin 128) (hn : 24 < cfg2.N) :
    (outsAt2 V c 24 hn).2.2.2.2 (ix2 z q) = 0 + ∑ r : Fin 50000, mlpArr2 V c (ix2 r q) * mlpArr2 V c (ix2 r q) := by
  have hN : cfg2.N = 25 := N_2
  refine (accRow2_1_succ V c z q 24 hn).symm.trans ?_
  refine acc_cols2 (fun i => mlpArr2 V c i * mlpArr2 V c i) q (accRow2_1 V c z q) rfl fun k hk => ?_
  have hkN : k < cfg2.N := by rw [hN]; exact hk
  refine (accRow2_1_succ V c z q k hkN).trans ?_
  cases k with
  | zero =>
    rw [acc2_1_zero V c hkN, pay2_2_apply, pay4_2_apply]
    refine congrArg ((0 : EReal) + ·) (Finset.sum_congr rfl fun p _ => ?_)
    rw [blk2_pay5_apply V c ⟨0, hkN⟩ p q ⟨2000 * 0 + p.val, by have := p.isLt; omega⟩ rfl]
  | succ m =>
    rw [acc2_1_succ V c m hkN, pay2_2_apply]
    have hm : m < cfg2.N := Nat.lt_of_succ_lt hkN
    refine congrArg₂ (· + ·) (accRow2_1_succ V c z q m hm).symm (Finset.sum_congr rfl fun p _ => ?_)
    rw [blk2_pay5_apply V c ⟨m + 1, hkN⟩ p q ⟨2000 * (m + 1) + p.val, by have := p.isLt; omega⟩ rfl]

/-! ## The block output -/

/-- What point `t` writes back to the block output's array is block `t` of `mlpH` of the six input arrays. -/
theorem flushed2_6_eq (c : Dev nD) (t : Fin cfg2.N) :
    (dat2 V c).flushed 6 t = ((cfg2.win 6).blk t).view.read (Elt Ideal) (mlpArr2 V c) := by
  show (cfg2.win 6).cut (grid2.coords t) ((dat2 V c).after 6 t) = _
  rw [after2_6, outs2_block]
  obtain ⟨-, -, -, -, e0, e1, -⟩ := blocks_of_point2 t
  have hN : grid2.N = 25 := N_2
  have ht : t.val < 25 := hN ▸ t.isLt
  show (k2_pay5 (F := Ideal) (blk2_0 V c t) (blk2_1 V c t) (blk2_2 V c t) (blk2_4 V c t) (blk2_3 V c t) (blk2_5 V c t) : S2000x128.Idx → EReal)
    = fun j : S2000x128.Idx => mlpArr2 V c (((cfg2.win 6).blk t).view.emb j)
  funext j
  obtain ⟨p, q, rfl⟩ : ∃ (p : Fin 2000) (q : Fin 128), j = ix2 p q := ⟨j 0, j 1, eq_ix2 j⟩
  have hp : p.val < 2000 := p.isLt
  refine (blk2_pay5_apply V c t p q ⟨2000 * t.val + p.val, by omega⟩ rfl).trans ?_
  refine congrArg (mlpArr2 V c) ?_
  funext a
  apply Fin.ext
  match a with
  | ⟨0, _⟩ => show 2000 * t.val + p.val = win2_6.index t (0 : Fin 2) * 2000 + 1 * p.val; rw [e0]; omega
  | ⟨1, _⟩ => show q.val = win2_6.index t (1 : Fin 2) * 128 + 1 * q.val; rw [e1]; omega

/-- Row `r` of the block output's array is written by point `r / 2000`. -/
theorem cover2_6 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : grid2.N = 25 := N_2
  have hlt : (i 0).val / 2000 < grid2.N := by rw [hN]; omega
  obtain ⟨-, -, -, -, e0, e1, -⟩ := blocks_of_point2 ⟨(i 0).val / 2000, hlt⟩
  refine ⟨⟨(i 0).val / 2000, hlt⟩, flush2_6 _, ?_⟩
  show i ∈ ((View.whole main_v77_0).slice (win2_6.rect ⟨(i 0).val / 2000, hlt⟩)).set
  rw [View.set_slice_whole, Rect.mem_set_unit]
  intro a
  match a with
  | ⟨0, _⟩ =>
    show win2_6.index ⟨(i 0).val / 2000, hlt⟩ (0 : Fin 2) * 2000 ≤ (i 0).val ∧ (i 0).val < win2_6.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win2_6.index ⟨(i 0).val / 2000, hlt⟩ (1 : Fin 2) * 128 ≤ (i 1).val ∧ (i 1).val < win2_6.index ⟨(i 0).val / 2000, hlt⟩ (1 : Fin 2) * 128 + 128
    rw [e1]; omega

/-! ## The two row outputs -/

/-- At the last point row output 7 is a copy of the first accumulator. -/
theorem row2_7_last (c : Dev nD) (hn : 24 < cfg2.N) :
    (outsAt2 V c 24 hn).2.1 = (outsAt2 V c 24 hn).2.2.2.1 := by
  have h : outsAt2 V c 24 hn = _ := outsAt2_C V c ⟨24, hn⟩ (show ¬ (24 : ℕ) = 0 by decide) rfl
  rw [h]; dsimp only
  rw [valC7_2, valCS0_2]

/-- Row output 7 after the last point, at an entry: the column sum from zero. -/
theorem row2_7_at (c : Dev nD) (t : Fin cfg2.N) (h24 : t.val = 24) (z : Fin 1) (q : Fin 128) :
    (outsAt2 V c t.val t.isLt).2.1 (ix2 z q) = rowSum (mlpArr2 V c) (ix2 z q) := by
  obtain ⟨n, hn⟩ := t
  obtain rfl : n = 24 := h24
  rw [row2_7_last V c hn]
  exact (acc2_0_last V c z q hn).trans (rowSum_apply (mlpArr2 V c) z q).symm

/-- The one write-back of row output 7, at the last point, writes the column sums. -/
theorem flushed2_7_eq (c : Dev nD) (t : Fin cfg2.N) (hf : (cfg2.win 7).flush t = true) :
    (dat2 V c).flushed 7 t = ((cfg2.win 7).blk t).view.read (Elt Ideal) (rowSum (mlpArr2 V c)) := by
  have hN : grid2.N = 25 := N_2
  have ht : t.val < 25 := hN ▸ t.isLt
  have h24 : t.val = 24 := by have h := (flush2_7 t).mp hf; omega
  obtain ⟨-, -, -, -, -, -, -, -, -, -, -, -, -, -, e0, e1, -⟩ := blocks_of_point2 t
  show (cfg2.win 7).cut (grid2.coords t) ((dat2 V c).after 7 t) = _
  rw [after2_7]
  show ((outsAt2 V c t.val t.isLt).2.1 : S1x128.Idx → EReal)
    = fun j : S1x128.Idx => rowSum (mlpArr2 V c) (((cfg2.win 7).blk t).view.emb j)
  funext j
  obtain ⟨z, q, rfl⟩ : ∃ (z : Fin 1) (q : Fin 128), j = ix2 z q := ⟨j 0, j 1, eq_ix2 j⟩
  refine (row2_7_at V c t h24 z q).trans (congrArg (rowSum (mlpArr2 V c)) ?_)
  funext a
  apply Fin.ext
  match a with
  | ⟨0, _⟩ => show z.val = win2_7.index t (0 : Fin 2) * 1 + 1 * z.val; rw [e0]; omega
  | ⟨1, _⟩ => show q.val = win2_7.index t (1 : Fin 2) * 128 + 1 * q.val; rw [e1]; omega

/-- Every index of row output 7's array is in the last point's block. -/
theorem cover2_7 (i : S1x128.Idx) :
    ∃ t : Fin cfg2.N, (cfg2.win 7).flush t = true ∧ i ∈ ((cfg2.win 7).blk t).view.set := by
  have hi0 : (i 0).val < 1 := (i 0).isLt
  have hi1 : (i 1).val < 128 := (i 1).isLt
  have hN : grid2.N = 25 := N_2
  have hlt : 24 < grid2.N := by rw [hN]; omega
  obtain ⟨-, -, -, -, -, -, -, -, -, -, -, -, -, -, e0, e1, -⟩ := blocks_of_point2 ⟨24, hlt⟩
  refine ⟨⟨24, hlt⟩, (flush2_7 _).mpr rfl, ?_⟩
  show i ∈ ((View.whole main_v77_1).slice (win2_7.rect ⟨24, hlt⟩)).set
  rw [View.set_slice_whole, Rect.mem_set_unit]
  intro a
  match a with
  | ⟨0, _⟩ =>
    show win2_7.index ⟨24, hlt⟩ (0 : Fin 2) * 1 ≤ (i 0).val ∧ (i 0).val < win2_7.index ⟨24, hlt⟩ (0 : Fin 2) * 1 + 1
    rw [e0]; omega
  | ⟨1, _⟩ =>
    show win2_7.index ⟨24, hlt⟩ (1 : Fin 2) * 128 ≤ (i 1).val ∧ (i 1).val < win2_7.index ⟨24, hlt⟩ (1 : Fin 2) * 128 + 128
    rw [e1]; omega

/-- At the last point row output 8 is a copy of the second accumulator. -/
theorem row2_8_last (c : Dev nD) (hn : 24 < cfg2.N) :
    (outsAt2 V c 24 hn).2.2.1 = (outsAt2 V c 24 hn).2.2.2.2 := by
  have h : outsAt2 V c 24 hn = _ := outsAt2_C V c ⟨24, hn⟩ (show ¬ (24 : ℕ) = 0 by decide) rfl
  rw [h]; dsimp only
  rw [valC8_2, valCS1_2]

/-- Row output 8 after the last point, at an entry: the column sum from zero. -/
theorem row2_8_at (c : Dev nD) (t : Fin cfg2.N) (h24 : t.val = 24) (z : Fin 1) (q : Fin 128) :
    (outsAt2 V c t.val t.isLt).2.2.1 (ix2 z q) = rowSum (fun i => mlpArr2 V c i * mlpArr2 V c i) (ix2 z q) := by
  obtain ⟨n, hn⟩ := t
  obtain rfl : n = 24 := h24
  rw [row2_8_last V c hn]
  exact (acc2_1_last V c z q hn).trans (rowSum_apply (fun i => mlpArr2 V c i * mlpArr2 V c i) z q).symm

/-- The one write-back of row output 8, at the last point, writes the column sums. -/
theorem flushed2_8_eq (c : Dev nD) (t : Fin cfg2.N) (hf : (cfg2.win 8).flush t = true) :
    (dat2 V c).flushed 8 t = ((cfg2.win 8).blk t).view.read (Elt Ideal) (rowSum (fun i => mlpArr2 V c i * mlpArr2 V c i)) := by
  have hN : grid2.N = 25 := N_2
  have ht : t.val < 25 := hN ▸ t.isLt
  have h24 : t.val = 24 := by have h := (flush2_8 t).mp hf; omega
  obtain ⟨-, -, -, -, -, -, -, -, -, -, -, -, -, -, -, -, e0, e1⟩ := blocks_of_point2 t
  show (cfg2.win 8).cut (grid2.coords t) ((dat2 V c).after 8 t) = _
  rw [after2_8]
  show ((outsAt2 V c t.val t.isLt).2.2.1 : S1x128.Idx → EReal)
    = fun j : S1x128.Idx => rowSum (fun i => mlpArr2 V c i * mlpArr2 V c i) (((cfg2.win 8).blk t).view.emb j)
  funext j
  obtain ⟨z, q, rfl⟩ : ∃ (z : Fin 1) (q : Fin 128), j = ix2 z q := ⟨j 0, j 1, eq_ix2 j⟩
  refine (row2_8_at V c t h24 z q).trans (congrArg (rowSum (fun i => mlpArr2 V c i * mlpArr2 V c i)) ?_)
  funext a
  apply Fin.ext
  match a with
  | ⟨0, _⟩ => show z.val = win2_8.index t (0 : Fin 2) * 1 + 1 * z.val; rw [e0]; omega
  | ⟨1, _⟩ => show q.val = win2_8.index t (1 : Fin 2) * 128 + 1 * q.val; rw [e1]; omega

/-- Every index of row output 8's array is in the last point's block. -/
theorem cover2_8 (i : S1x128.Idx) :
    ∃ t : Fin cfg2.N, (cfg2.win 8).flush t = true ∧ i ∈ ((cfg2.win 8).blk t).view.set := by
  have hi0 : (i 0).val < 1 := (i 0).isLt
  have hi1 : (i 1).val < 128 := (i 1).isLt
  have hN : grid2.N = 25 := N_2
  have hlt : 24 < grid2.N := by rw [hN]; omega
  obtain ⟨-, -, -, -, -, -, -, -, -, -, -, -, -, -, -, -, e0, e1⟩ := blocks_of_point2 ⟨24, hlt⟩
  refine ⟨⟨24, hlt⟩, (flush2_8 _).mpr rfl, ?_⟩
  show i ∈ ((View.whole main_v77_2).slice (win2_8.rect ⟨24, hlt⟩)).set
  rw [View.set_slice_whole, Rect.mem_set_unit]
  intro a
  match a with
  | ⟨0, _⟩ =>
    show win2_8.index ⟨24, hlt⟩ (0 : Fin 2) * 1 ≤ (i 0).val ∧ (i 0).val < win2_8.index ⟨24, hlt⟩ (0 : Fin 2) * 1 + 1
    rw [e0]; omega
  | ⟨1, _⟩ =>
    show win2_8.index ⟨24, hlt⟩ (1 : Fin 2) * 128 ≤ (i 1).val ∧ (i 1).val < win2_8.index ⟨24, hlt⟩ (1 : Fin 2) * 128 + 128
    rw [e1]; omega

/-! ## The three arrays after the region -/

/-- After the region the block output's array is `mlpH` of the six input arrays as the region found them. -/
theorem region2_h (c : Dev nD) :
    (dat2 V c).arrAt 6 cfg2.N = mlpH (V c main_v66) (V c main_v61) (V c main_v68) (V c main_v75) (V c main_v72) (V c main_v76) :=
  (dat2 V c).arrAt_eq_of_cover 6 (mlpArr2 V c) (fun t _ => flushed2_6_eq V c t) cover2_6

/-- After the region the first row output's array is the row of column sums of that array. -/
theorem region2_s (c : Dev nD) :
    (dat2 V c).arrAt 7 cfg2.N = rowSum (mlpH (V c main_v66) (V c main_v61) (V c main_v68) (V c main_v75) (V c main_v72) (V c main_v76)) :=
  (dat2 V c).arrAt_eq_of_cover 7 (rowSum (mlpArr2 V c)) (fun t hf => flushed2_7_eq V c t hf) cover2_7

/-- After the region the second row output's array is the row of column sums of that array's entrywise square. -/
theorem region2_q (c : Dev nD) :
    (dat2 V c).arrAt 8 cfg2.N = rowSum (fun i => mlpH (V c main_v66) (V c main_v61) (V c main_v68) (V c main_v75) (V c main_v72) (V c main_v76) i * mlpH (V c main_v66) (V c main_v61) (V c main_v68) (V c main_v75) (V c main_v72) (V c main_v76) i) :=
  (dat2 V c).arrAt_eq_of_cover 8 (rowSum (fun i => mlpArr2 V c i * mlpArr2 V c i)) (fun t hf => flushed2_8_eq V c t hf) cover2_8

end MlpArr2

end Cert.KernelIdeal.Hand

end
-- ==== Proof.KiMlpVal4.lean ====
/-
  Region 4: what each case's stores leave, as values — the block output holds the perceptron's result of the six input
  blocks; each accumulator row holds what it held (zero at the first point) plus the block's column sums (of the result,
  of its squares); at the last point the two row outputs hold the accumulators.
-/
import proofs.«124822_j54752243090034_1_alg».proof.Proof.KiMlp4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem valA6_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) :
    out4_A_6 c i arg1 harg1 arg2 harg2 arg3 harg3 arg4 harg4 arg5 harg5 arg6 harg6 arg7 harg7 arg8 harg8 arg9 harg9 arg10 harg10 arg11 harg11 hc0 hc1 x0 x1 x2 x3 x4 x5 = k4_pay5 x0 x1 x2 x4 x3 x5 := by
  unfold out4_A_6
  rw [View.read_writes_eq_canon _ _ _ (cover4_A_6 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun4_A
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valB6_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    out4_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay5 x0 x1 x2 x4 x3 x5 := by
  unfold out4_B_6
  rw [View.read_writes_eq_canon _ _ _ (cover4_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun4_B
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valC6_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    out4_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay5 x0 x1 x2 x4 x3 x5 := by
  unfold out4_C_6
  rw [View.read_writes_eq_canon _ _ _ (cover4_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun4_C
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valAS0_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) :
    sout4_A_0 c i arg1 harg1 arg2 harg2 arg3 harg3 arg4 harg4 arg5 harg5 arg6 harg6 arg7 harg7 arg8 harg8 arg9 harg9 arg10 harg10 arg11 harg11 hc0 hc1 x0 x1 x2 x3 x4 x5 = k4_pay1 (k4_pay6 x0 x1 x2 x4 x3 x5 (k4_pay3 (F := F))) := by
  unfold sout4_A_0
  rw [View.read_writes_eq_canon _ _ _ (scover4_A_0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun4_A
  dsimp only
  (try sl_unfold_words)
  rw [View.canon_cons_unit_zero (S := S1x128) hz2]
  (try rw [View.readCov_unit_zero (S := S1x128) _ hz2])
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valAS1_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) :
    sout4_A_1 c i arg1 harg1 arg2 harg2 arg3 harg3 arg4 harg4 arg5 harg5 arg6 harg6 arg7 harg7 arg8 harg8 arg9 harg9 arg10 harg10 arg11 harg11 hc0 hc1 x0 x1 x2 x3 x4 x5 = k4_pay2 (k4_pay5 x0 x1 x2 x4 x3 x5) (k4_pay4 (F := F)) := by
  unfold sout4_A_1
  rw [View.read_writes_eq_canon _ _ _ (scover4_A_1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun4_A
  dsimp only
  (try sl_unfold_words)
  rw [View.canon_cons_unit_zero (S := S1x128) hz2]
  (try rw [View.readCov_unit_zero (S := S1x128) _ hz2])
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valBS0_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    sout4_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay1 (k4_pay6 x0 x1 x2 x4 x3 x5 xs0) := by
  unfold sout4_B_0
  rw [View.read_writes_eq_canon _ _ _ (scover4_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun4_B
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valBS1_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    sout4_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay2 (k4_pay5 x0 x1 x2 x4 x3 x5) xs1 := by
  unfold sout4_B_1
  rw [View.read_writes_eq_canon _ _ _ (scover4_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun4_B
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valCS0_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    sout4_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay1 (k4_pay6 x0 x1 x2 x4 x3 x5 xs0) := by
  unfold sout4_C_0
  rw [View.read_writes_eq_canon _ _ _ (scover4_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun4_C
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valCS1_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    sout4_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay2 (k4_pay5 x0 x1 x2 x4 x3 x5) xs1 := by
  unfold sout4_C_1
  rw [View.read_writes_eq_canon _ _ _ (scover4_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun4_C
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]

theorem valC7_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    out4_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay1 (k4_pay6 x0 x1 x2 x4 x3 x5 xs0) := by
  unfold out4_C_7
  rw [View.read_writes_eq_canon _ _ _ (cover4_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun4_C
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]
  rw [View.readCov_unit_zero (S := S1x128) _ hz2]

theorem valC8_4 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    out4_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay2 (k4_pay5 x0 x1 x2 x4 x3 x5) xs1 := by
  unfold out4_C_8
  rw [View.read_writes_eq_canon _ _ _ (cover4_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun4_C
  dsimp only
  (try sl_unfold_words)
  rw [View.canon_unit_zero hz2]
  simp only [View.readAt_eq_ld, harg1.read_unread, harg2.read_unread, harg3.read_unread, harg4.read_unread, harg5.read_unread, harg6.read_unread, harg10.read_unread, harg11.read_unread,
    View.ld_unit_zero (S := S2000x128) hz2, View.ld_unit_zero (S := S128x128) hz2, View.ld_unit_zero (S := S1x128) hz2]
  rw [View.readCov_unit_zero (S := S1x128) _ hz2]

end Cert.KernelIdeal.Hand

end
-- ==== Proof.KiMlpPay4.lean ====
/-
  Region 4's arithmetic at exact arithmetic, read at an entry: the perceptron's result of a block of 2000 rows at row p,
  column q is ∑ₖ max (∑ₖ' (x0 p k' + x1 p k') · w1 k' k + b1 k) 0 · w2 k q + b2 q (a change of float format is the
  identity, a matrix unit product into zeros is the sum over the contracted axis); an accumulator row after the body is
  what it held plus the block's column sums.
-/
import proofs.«124822_j54752243090034_1_alg».proof.Proof.Gen.KernelIdeal.Skeleton
import proofs.«124822_j54752243090034_1_alg».proof.Proof.LibMatmulIdx
import proofs.«124822_j54752243090034_1_alg».proof.Proof.LibIdealFinite
import proofs.«124822_j54752243090034_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx

abbrev Dmm4 := dot_S2000x128_S128x128_S2000x128_1_0_0_1_n_n

theorem Dmm4_rank : Dmm4.contr.rank = 1 := rfl
theorem Dmm4_size : Dmm4.contr.size ⟨0, by rw [Dmm4_rank]; omega⟩ = 128 := rfl
theorem Dmm4_l0 (j k) : (Dmm4.lhsIdx j k 0).val = (j 0).val := rfl
theorem Dmm4_l1 (j k) : (Dmm4.lhsIdx j k 1).val = (k ⟨0, by rw [Dmm4_rank]; omega⟩).val := Dmm4.lhsIdx_val_of_single rfl j k
theorem Dmm4_r0 (j k) : (Dmm4.rhsIdx j k 0).val = (k ⟨0, by rw [Dmm4_rank]; omega⟩).val := Dmm4.rhsIdx_val_of_single rfl j k
theorem Dmm4_r1 (j k) : (Dmm4.rhsIdx j k 1).val = (j 1).val := rfl

/-- The matrix unit's product of a 2000 × 128 block with a 128 × 128 matrix into zeros, at an entry. -/
theorem mm4_apply {φ₁ φ₂ : FTy} (l : FVec Ideal S2000x128 φ₁) (r : FVec Ideal S128x128 φ₂) (j : S2000x128.Idx) :
    matmul Dmm4 none l r (constant S2000x128 .f32 0x00000000#32) j = ∑ k : Fin 128, l (ix2 (j 0) k) * r (ix2 k (j 1)) :=
  LibMatmulIdx.matmul2_apply Dmm4 Dmm4_rank Dmm4_size Dmm4_l0 Dmm4_l1 Dmm4_r0 Dmm4_r1 none l r j

/-- The perceptron's result of a block at row p, column q. -/
theorem pay5_4_apply (x0 x1 : Vec Ideal S2000x128 .f32) (x2 : Vec Ideal S128x128 .f32) (x3 : Vec Ideal S1x128 .f32) (x4 : Vec Ideal S128x128 .f32) (x5 : Vec Ideal S1x128 .f32) (p : Fin 2000) (q : Fin 128) :
    k4_pay5 (F := Ideal) x0 x1 x2 x4 x3 x5 (ix2 p q)
      = (∑ k : Fin 128, max ((∑ k' : Fin 128, (x0 (ix2 p k') + x1 (ix2 p k')) * x2 (ix2 k' k)) + x3 (ix2 (0 : Fin 1) k)) 0 * x4 (ix2 k q)) + x5 (ix2 (0 : Fin 1) q) := by
  unfold k4_pay5
  simp only [shapeCast_self]
  rw [LibIdealFinite.addf_apply, mm4_apply, broadcastTo_1b_ab_apply]
  congr 1
  refine Finset.sum_congr rfl fun k _ => ?_
  congr 1
  show max (matmul (F := Ideal) Dmm4 none (truncf (F := Ideal) .bf16 (addf (F := Ideal) x0 x1) bitsLt_bf16_f32) (truncf (F := Ideal) .bf16 x2 bitsLt_bf16_f32) (constant S2000x128 .f32 0x00000000#32) (ix2 p k) + broadcastTo S2000x128 x3 broadcasts_S1x128_S2000x128 (ix2 p k)) (Ideal.ofBits .f32 0x00000000#32) = _
  rw [mm4_apply, broadcastTo_1b_ab_apply, Ideal.ofBits_zero_f32]
  rfl

theorem lift_row4 (j : S128.Idx) (k : Fin (S2000x128.size 0)) :
    reduces_S2000x128_S128.lift j k = ix2 (⟨k.val, k.isLt⟩ : Fin 2000) (⟨(j 0).val, (j 0).isLt⟩ : Fin 128) :=
  funext fun a => Fin.ext (by match a with | ⟨0, _⟩ => rfl | ⟨1, _⟩ => rfl)

/-- The column sums of a block, kept as a 1 × 128 row, at (z, q). -/
theorem colsum4_apply (v : FVec Ideal S2000x128 .f32) (z : Fin 1) (q : Fin 128) :
    shapeCast S1x128 (multiReduction (F := Ideal) .add [0] S128 v 0x00000000#32 reduces_S2000x128_S128 (.inl rfl) rfl) shapeCasts_S128_S1x128 (ix2 z q)
      = ∑ p : Fin 2000, v (ix2 p q) := by
  rw [LibRowOps.shapeCast_row_apply]
  refine (Ideal.multiReduction_add_single v 0x00000000#32 reduces_S2000x128_S128 (.inl rfl) rfl (ix1 q)).trans ?_
  refine Finset.sum_congr rfl fun k _ => ?_
  rw [lift_row4]
  rfl

/-- The first accumulator after the body: what it held plus the block's column sums of the perceptron's result. -/
theorem pay6_4_apply (x0 x1 : Vec Ideal S2000x128 .f32) (x2 : Vec Ideal S128x128 .f32) (x3 : Vec Ideal S1x128 .f32) (x4 : Vec Ideal S128x128 .f32) (x5 : Vec Ideal S1x128 .f32)
    (xs : Vec Ideal S1x128 .f32) (z : Fin 1) (q : Fin 128) :
    k4_pay1 (F := Ideal) (k4_pay6 (F := Ideal) x0 x1 x2 x4 x3 x5 xs) (ix2 z q) = xs (ix2 z q) + ∑ p : Fin 2000, k4_pay5 (F := Ideal) x0 x1 x2 x4 x3 x5 (ix2 p q) := by
  unfold k4_pay1 k4_pay6
  simp only [shapeCast_self]
  rw [LibIdealFinite.addf_apply, colsum4_apply]

/-- The second accumulator after the body: what it held plus the block's column sums of the squares. -/
theorem pay2_4_apply (v : FVec Ideal S2000x128 .f32) (xs : Vec Ideal S1x128 .f32) (z : Fin 1) (q : Fin 128) :
    k4_pay2 (F := Ideal) v xs (ix2 z q) = xs (ix2 z q) + ∑ p : Fin 2000, v (ix2 p q) * v (ix2 p q) := by
  unfold k4_pay2
  simp only [shapeCast_self]
  rw [LibIdealFinite.addf_apply, colsum4_apply]
  rfl

/-- The reset stores zeros. -/
theorem pay3_4_apply (i : S1x128.Idx) : k4_pay3 (F := Ideal) i = 0 := by
  unfold k4_pay3
  simp only [shapeCast_self]
  exact Ideal.ofBits_zero_f32
theorem pay4_4_apply (i : S1x128.Idx) : k4_pay4 (F := Ideal) i = 0 := by
  unfold k4_pay4
  simp only [shapeCast_self]
  exact Ideal.ofBits_zero_f32

end Cert.KernelIdeal.Hand

end
-- ==== Proof.KiMlpArr4.lean ====
import proofs.«124822_j54752243090034_1_alg».proof.Proof.KiMlpVal4
import proofs.«124822_j54752243090034_1_alg».proof.Proof.KiMlpPay4
import proofs.«124822_j54752243090034_1_alg».proof.Proof.KiMlpWhole
import proofs.«124822_j54752243090034_1_alg».proof.Proof.LibBatchMoments
import Idealize.ShloMosaic.Lib.Pipeline.Value
import Idealize.ShloMosaic.Lib.ValueLayout

/-!
# What the perceptron region of pallas call 4 writes back, as arrays

Over the extended reals and for any contents `V` of the core's buffers at region entry. Grid point `t` of the region
reads rows `2000 t … 2000 t + 1999` of the two 50000 × 128 inputs and the whole of the two weight matrices and the two
bias rows; it writes the perceptron's result for those rows into the same rows of the block output, and adds the
column sums of that result, and of its squares, onto two accumulator rows that start from zero at the first point.
The last point copies the two accumulator rows into the two row outputs. Hence, after the region,

* the block output is `mlpH` of the six input arrays (`region4_h`),
* the first row output is the row of column sums of that array (`region4_s`),
* the second row output is the row of column sums of its entrywise square (`region4_q`).
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- A row accumulated over 25 blocks of 2000 rows: if it starts at zero and step `k` adds the sum of column `q` of
    `g` over rows `2000 k … 2000 k + 1999`, it ends at the sum of column `q` over all 50000 rows. -/
theorem acc_cols4 (g : S50000x128.Idx → EReal) (q : Fin 128) (acc : ℕ → EReal) (h0 : acc 0 = 0)
    (hstep : ∀ k (hk : k < 25), acc (k + 1)
      = acc k + ∑ p : Fin 2000, g (ix2 (⟨2000 * k + p.val, by have := p.isLt; omega⟩ : Fin 50000) q)) :
    acc 25 = 0 + ∑ r : Fin 50000, g (ix2 r q) := by
  have key := LibBatchMoments.acc_blocks 25 2000 (fun i => if h : i < 50000 then g (ix2 (⟨i, h⟩ : Fin 50000) q) else 0) acc h0
    (fun k hk => by
      rw [hstep k hk]
      refine congrArg (acc k + ·) (Finset.sum_congr rfl fun p _ => ?_)
      have hp := p.isLt
      rw [dif_pos (by omega : 2000 * k + p.val < 50000)])
  rw [key, zero_add]
  show ∑ i : Fin 50000, (if h : i.val < 50000 then g (ix2 (⟨i.val, h⟩ : Fin 50000) q) else 0) = _
  exact Finset.sum_congr rfl fun i _ => dif_pos i.isLt

section MlpArr4
-- what each core holds in each of its unscoped buffers at the moment the region starts, over the extended reals
variable (V : (c : Dev nD) → (b : Ref sig .tc) → Buf (Elt Ideal) ((c : Thread nD τ).loc b))

/-- The perceptron's output for the six input arrays as the region finds them. -/
abbrev mlpArr4 (c : Dev nD) : S50000x128.Idx → EReal := mlpH (V c main_v111) (V c main_v106) (V c main_v113) (V c main_v120) (V c main_v117) (V c main_v121)

/-! ## Which part of its array a window shows at a grid point -/

/-- The block index of every window at every grid point, decided over the 25 points: the three 2000 × 128 windows sit
    at block row `t`, every other window at block `(0, 0)`. -/
theorem blocks_of_point4 : ∀ t : Fin cfg4.N, win4_0.index t (0 : Fin 2) = t.val ∧ win4_0.index t (1 : Fin 2) = 0
    ∧ win4_1.index t (0 : Fin 2) = t.val ∧ win4_1.index t (1 : Fin 2) = 0
    ∧ win4_6.index t (0 : Fin 2) = t.val ∧ win4_6.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-- Window 0's block at point `t` is rows `2000 t … 2000 t + 1999` of its array. -/
theorem iblk4_0_apply (c : Dev nD) (t : Fin cfg4.N) (p : Fin 2000) (q : Fin 128) (r : Fin 50000)
    (hr : r.val = 2000 * t.val + p.val) :
    (iblk4 V c 0 t : S2000x128.Idx → EReal) (ix2 p q) = (V c main_v111 : S50000x128.Idx → EReal) (ix2 r q) := by
  obtain ⟨e0, e1, -⟩ := blocks_of_point4 t
  unfold iblk4
  rw [View.read_apply]
  show (V c main_v111 : S50000x128.Idx → EReal) _ = (V c main_v111 : S50000x128.Idx → EReal) _
  refine congrArg (V c main_v111 : S50000x128.Idx → EReal) ?_
  funext a
  apply Fin.ext
  match a with
  | ⟨0, _⟩ => show win4_0.index t (0 : Fin 2) * 2000 + 1 * p.val = r.val; rw [e0, hr]; omega
  | ⟨1, _⟩ => show win4_0.index t (1 : Fin 2) * 128 + 1 * q.val = q.val; rw [e1]; omega

/-- Window 1's block at point `t` is rows `2000 t … 2000 t + 1999` of its array. -/
theorem iblk4_1_apply (c : Dev nD) (t : Fin cfg4.N) (p : Fin 2000) (q : Fin 128) (r : Fin 50000)
    (hr : r.val = 2000 * t.val + p.val) :
    (iblk4 V c 1 t : S2000x128.Idx → EReal) (ix2 p q) = (V c main_v106 : S50000x128.Idx → EReal) (ix2 r q) := by
  obtain ⟨-, -, e0, e1, -⟩ := blocks_of_point4 t
  unfold iblk4
  rw [View.read_apply]
  show (V c main_v106 : S50000x128.Idx → EReal) _ = (V c main_v106 : S50000x128.Idx → EReal) _
  refine congrArg (V c main_v106 : S50000x128.Idx → EReal) ?_
  funext a
  apply Fin.ext
  match a with
  | ⟨0, _⟩ => show win4_1.index t (0 : Fin 2) * 2000 + 1 * p.val = r.val; rw [e0, hr]; omega
  | ⟨1, _⟩ => show win4_1.index t (1 : Fin 2) * 128 + 1 * q.val = q.val; rw [e1]; omega

/-- Window 2's block is its whole array, at every point. -/
theorem iblk4_2_eq (c : Dev nD) (t : Fin cfg4.N) :
    (iblk4 V c 2 t : S128x128.Idx → EReal) = (V c main_v113 : S128x128.Idx → EReal) := by
  obtain ⟨-, -, -, -, -, -, e0, e1, -⟩ := blocks_of_point4 t
  funext k
  unfold iblk4
  rw [View.read_apply]
  show (V c main_v113 : S128x128.Idx → EReal) _ = (V c main_v113 : S128x128.Idx → EReal) k
  refine congrArg (V c main_v113 : S128x128.Idx → EReal) ?_
  funext a
  apply Fin.ext
  match a with
  | ⟨0, _⟩ => show win4_2.index t (0 : Fin 2) * 128 + 1 * (k 0).val = (k 0).val; rw [e0]; omega
  | ⟨1, _⟩ => show win4_2.index t (1 : Fin 2) * 128 + 1 * (k 1).val = (k 1).val; rw [e1]; omega

/-- Window 3's block is its whole array, at every point. -/
theorem iblk4_3_eq (c : Dev nD) (t : Fin cfg4.N) :
    (iblk4 V c 3 t : S1x128.Idx → EReal) = (V c main_v120 : S1x128.Idx → EReal) := by
  obtain ⟨-, -, -, -, -, -, -, -, e0, e1, -⟩ := blocks_of_point4 t
  funext k
  unfold iblk4
  rw [View.read_apply]
  show (V c main_v120 : S1x128.Idx → EReal) _ = (V c main_v120 : S1x128.Idx → EReal) k
  refine congrArg (V c main_v120 : S1x128.Idx → EReal) ?_
  funext a
  apply Fin.ext
  match a with
  | ⟨0, _⟩ => show win4_3.index t (0 : Fin 2) * 1 + 1 * (k 0).val = (k 0).val; rw [e0]; omega
  | ⟨1, _⟩ => show win4_3.index t (1 : Fin 2) * 128 + 1 * (k 1).val = (k 1).val; rw [e1]; omega

/-- Window 4's block is its whole array, at every point. -/
theorem iblk4_4_eq (c : Dev nD) (t : Fin cfg4.N) :
    (iblk4 V c 4 t : S128x128.Idx → EReal) = (V c main_v117 : S128x128.Idx → EReal) := by
  obtain ⟨-, -, -, -, -, -, -, -, -, -, e0, e1, -⟩ := blocks_of_point4 t
  funext k
  unfold iblk4
  rw [View.read_apply]
  show (V c main_v117 : S128x128.Idx → EReal) _ = (V c main_v117 : S128x128.Idx → EReal) k
  refine congrArg (V c main_v117 : S128x128.Idx → EReal) ?_
  funext a
  apply Fin.ext
  match a with
  | ⟨0, _⟩ => show win4_4.index t (0 : Fin 2) * 128 + 1 * (k 0).val = (k 0).val; rw [e0]; omega
  | ⟨1, _⟩ => show win4_4.index t (1 : Fin 2) * 128 + 1 * (k 1).val = (k 1).val; rw [e1]; omega

/-- Window 5's block is its whole array, at every point. -/
theorem iblk4_5_eq (c : Dev nD) (t : Fin cfg4.N) :
    (iblk4 V c 5 t : S1x128.Idx → EReal) = (V c main_v121 : S1x128.Idx → EReal) := by
  obtain ⟨-, -, -, -, -, -, -, -, -, -, -, -, e0, e1, -⟩ := blocks_of_point4 t
  funext k
  unfold iblk4
  rw [View.read_apply]
  show (V c main_v121 : S1x128.Idx → EReal) _ = (V c main_v121 : S1x128.Idx → EReal) k
  refine congrArg (V c main_v121 : S1x128.Idx → EReal) ?_
  funext a
  apply Fin.ext
  match a with
  | ⟨0, _⟩ => show win4_5.index t (0 : Fin 2) * 1 + 1 * (k 0).val = (k 0).val; rw [e0]; omega
  | ⟨1, _⟩ => show win4_5.index t (1 : Fin 2) * 128 + 1 * (k 1).val = (k 1).val; rw [e1]; omega

/-! ## The six input blocks at a point, and the perceptron's result of them -/

abbrev blk4_0 (c : Dev nD) (t : Fin cfg4.N) : Vec Ideal S2000x128 .f32 := iblk4 V c 0 t
abbrev blk4_1 (c : Dev nD) (t : Fin cfg4.N) : Vec Ideal S2000x128 .f32 := iblk4 V c 1 t
abbrev blk4_2 (c : Dev nD) (t : Fin cfg4.N) : Vec Ideal S128x128 .f32 := iblk4 V c 2 t
abbrev blk4_3 (c : Dev nD) (t : Fin cfg4.N) : Vec Ideal S1x128 .f32 := iblk4 V c 3 t
abbrev blk4_4 (c : Dev nD) (t : Fin cfg4.N) : Vec Ideal S128x128 .f32 := iblk4 V c 4 t
abbrev blk4_5 (c : Dev nD) (t : Fin cfg4.N) : Vec Ideal S1x128 .f32 := iblk4 V c 5 t

/-- The perceptron's result of six blocks is `mlpH` of six arrays at the matching row, as soon as the two big
    blocks' row `p` is the arrays' row `r` and the four small blocks are their arrays. -/
theorem pay5_4_eq_mlpH (x0 x1 : Vec Ideal S2000x128 .f32) (x2 : Vec Ideal S128x128 .f32) (x3 : Vec Ideal S1x128 .f32)
    (x4 : Vec Ideal S128x128 .f32) (x5 : Vec Ideal S1x128 .f32)
    (xe agg : S50000x128.Idx → EReal) (w1 : S128x128.Idx → EReal) (b1 : S1x128.Idx → EReal) (w2 : S128x128.Idx → EReal) (b2 : S1x128.Idx → EReal)
    (p : Fin 2000) (q : Fin 128) (r : Fin 50000)
    (e0 : ∀ k' : Fin 128, x0 (ix2 p k') = xe (ix2 r k')) (e1 : ∀ k' : Fin 128, x1 (ix2 p k') = agg (ix2 r k'))
    (e2 : x2 = w1) (e3 : x3 = b1) (e4 : x4 = w2) (e5 : x5 = b2) :
    k4_pay5 (F := Ideal) x0 x1 x2 x4 x3 x5 (ix2 p q) = mlpH xe agg w1 b1 w2 b2 (ix2 r q) := by
  subst e2 e3 e4 e5
  rw [pay5_4_apply, mlpH_apply]
  simp only [e0, e1]

/-- The perceptron's result of the blocks at point `t`, at `(p, q)`, is `mlpH` of the arrays at `(2000 t + p, q)`. -/
theorem blk4_pay5_apply (c : Dev nD) (t : Fin cfg4.N) (p : Fin 2000) (q : Fin 128) (r : Fin 50000)
    (hr : r.val = 2000 * t.val + p.val) :
    k4_pay5 (F := Ideal) (blk4_0 V c t) (blk4_1 V c t) (blk4_2 V c t) (blk4_4 V c t) (blk4_3 V c t) (blk4_5 V c t) (ix2 p q) = mlpArr4 V c (ix2 r q) :=
  pay5_4_eq_mlpH (blk4_0 V c t) (blk4_1 V c t) (blk4_2 V c t) (blk4_3 V c t) (blk4_4 V c t) (blk4_5 V c t)
    (V c main_v111) (V c main_v106) (V c main_v113) (V c main_v120) (V c main_v117) (V c main_v121) p q r
    (fun k' => iblk4_0_apply V c t p k' r hr) (fun k' => iblk4_1_apply V c t p k' r hr)
    (iblk4_2_eq V c t) (iblk4_3_eq V c t) (iblk4_4_eq V c t) (iblk4_5_eq V c t)

/-! ## The five buffers after a point, as values -/

/-- The block output after point `t` is the perceptron's result of the point's blocks. -/
theorem outs4_block (c : Dev nD) (t : Fin cfg4.N) :
    (outsAt4 V c t.val t.isLt).1 = k4_pay5 (F := Ideal) (blk4_0 V c t) (blk4_1 V c t) (blk4_2 V c t) (blk4_4 V c t) (blk4_3 V c t) (blk4_5 V c t) := by
  by_cases h0 : t.val = 0
  · rw [outsAt4_A V c t h0]; dsimp only; exact valA6_4 ..
  · by_cases h1 : t.val = 24
    · rw [outsAt4_C V c t h0 h1]; dsimp only; exact valC6_4 ..
    · rw [outsAt4_B V c t h0 h1]; dsimp only; exact valB6_4 ..

/-- The first accumulator after the first point: the point's column sums onto the reset row. -/
theorem acc4_0_zero (c : Dev nD) (hn : 0 < cfg4.N) :
    (outsAt4 V c 0 hn).2.2.2.1 = k4_pay1 (F := Ideal) (k4_pay6 (F := Ideal) (blk4_0 V c ⟨0, hn⟩) (blk4_1 V c ⟨0, hn⟩) (blk4_2 V c ⟨0, hn⟩) (blk4_4 V c ⟨0, hn⟩) (blk4_3 V c ⟨0, hn⟩) (blk4_5 V c ⟨0, hn⟩) (k4_pay3 (F := Ideal))) := by
  have h : outsAt4 V c 0 hn = _ := outsAt4_A V c ⟨0, hn⟩ rfl
  rw [h]; dsimp only; exact valAS0_4 ..

/-- The first accumulator after a later point: the point's column sums onto what the point before left. -/
theorem acc4_0_succ (c : Dev nD) (n : ℕ) (hn : n + 1 < cfg4.N) :
    (outsAt4 V c (n + 1) hn).2.2.2.1
      = k4_pay1 (F := Ideal) (k4_pay6 (F := Ideal) (blk4_0 V c ⟨n + 1, hn⟩) (blk4_1 V c ⟨n + 1, hn⟩) (blk4_2 V c ⟨n + 1, hn⟩) (blk4_4 V c ⟨n + 1, hn⟩) (blk4_3 V c ⟨n + 1, hn⟩) (blk4_5 V c ⟨n + 1, hn⟩) (outsAt4 V c n (Nat.lt_of_succ_lt hn)).2.2.2.1) := by
  by_cases h1 : n + 1 = 24
  · have h : outsAt4 V c (n + 1) hn = _ := outsAt4_C V c ⟨n + 1, hn⟩ (Nat.succ_ne_zero n) h1
    rw [h]; dsimp only; exact valCS0_4 ..
  · have h : outsAt4 V c (n + 1) hn = _ := outsAt4_B V c ⟨n + 1, hn⟩ (Nat.succ_ne_zero n) h1
    rw [h]; dsimp only; exact valBS0_4 ..

/-- The second accumulator after the first point. -/
theorem acc4_1_zero (c : Dev nD) (hn : 0 < cfg4.N) :
    (outsAt4 V c 0 hn).2.2.2.2 = k4_pay2 (F := Ideal) (k4_pay5 (F := Ideal) (blk4_0 V c ⟨0, hn⟩) (blk4_1 V c ⟨0, hn⟩) (blk4_2 V c ⟨0, hn⟩) (blk4_4 V c ⟨0, hn⟩) (blk4_3 V c ⟨0, hn⟩) (blk4_5 V c ⟨0, hn⟩)) (k4_pay4 (F := Ideal)) := by
  have h : outsAt4 V c 0 hn = _ := outsAt4_A V c ⟨0, hn⟩ rfl
  rw [h]; dsimp only; exact valAS1_4 ..

/-- The second accumulator after a later point. -/
theorem acc4_1_succ (c : Dev nD) (n : ℕ) (hn : n + 1 < cfg4.N) :
    (outsAt4 V c (n + 1) hn).2.2.2.2
      = k4_pay2 (F := Ideal) (k4_pay5 (F := Ideal) (blk4_0 V c ⟨n + 1, hn⟩) (blk4_1 V c ⟨n + 1, hn⟩) (blk4_2 V c ⟨n + 1, hn⟩) (blk4_4 V c ⟨n + 1, hn⟩) (blk4_3 V c ⟨n + 1, hn⟩) (blk4_5 V c ⟨n + 1, hn⟩)) (outsAt4 V c n (Nat.lt_of_succ_lt hn)).2.2.2.2 := by
  by_cases h1 : n + 1 = 24
  · have h : outsAt4 V c (n + 1) hn = _ := outsAt4_C V c ⟨n + 1, hn⟩ (Nat.succ_ne_zero n) h1
    rw [h]; dsimp only; exact valCS1_4 ..
  · have h : outsAt4 V c (n + 1) hn = _ := outsAt4_B V c ⟨n + 1, hn⟩ (Nat.succ_ne_zero n) h1
    rw [h]; dsimp only; exact valBS1_4 ..

/-! ## The accumulators after the last point -/

/-- Entry `(z, q)` of the first accumulator after `k` points (zero before the first). -/
def accRow4_0 (c : Dev nD) (z : Fin 1) (q : Fin 128) : ℕ → EReal
  | 0 => 0
  | k + 1 => if h : k < cfg4.N then (outsAt4 V c k h).2.2.2.1 (ix2 z q) else 0

/-- Entry `(z, q)` of the second accumulator after `k` points (zero before the first). -/
def accRow4_1 (c : Dev nD) (z : Fin 1) (q : Fin 128) : ℕ → EReal
  | 0 => 0
  | k + 1 => if h : k < cfg4.N then (outsAt4 V c k h).2.2.2.2 (ix2 z q) else 0

theorem accRow4_0_succ (c : Dev nD) (z : Fin 1) (q : Fin 128) (k : ℕ) (hk : k < cfg4.N) :
    accRow4_0 V c z q (k + 1) = (outsAt4 V c k hk).2.2.2.1 (ix2 z q) := by
  show (if h : k < cfg4.N then (outsAt4 V c k h).2.2.2.1 (ix2 z q) else 0) = _
  rw [dif_pos hk]

theorem accRow4_1_succ (c : Dev nD) (z : Fin 1) (q : Fin 128) (k : ℕ) (hk : k < cfg4.N) :
    accRow4_1 V c z q (k + 1) = (outsAt4 V c k hk).2.2.2.2 (ix2 z q) := by
  show (if h : k < cfg4.N then (outsAt4 V c k h).2.2.2.2 (ix2 z q) else 0) = _
  rw [dif_pos hk]

/-- After the last point the first accumulator holds the column sums of `mlpH` of the arrays. -/
theorem acc4_0_last (c : Dev nD) (z : Fin 1) (q : Fin 128) (hn : 24 < cfg4.N) :
    (outsAt4 V c 24 hn).2.2.2.1 (ix2 z q) = 0 + ∑ r : Fin 50000, mlpArr4 V c (ix2 r q) := by
  have hN : cfg4.N = 25 := N_4
  refine (accRow4_0_succ V c z q 24 hn).symm.trans ?_
  refine acc_cols4 (mlpArr4 V c) q (accRow4_0 V c z q) rfl fun k hk => ?_
  have hkN : k < cfg4.N := by rw [hN]; exact hk
  refine (accRow4_0_succ V c z q k hkN).trans ?_
  cases k with
  | zero =>
    rw [acc4_0_zero V c hkN, pay6_4_apply, pay3_4_apply]
    refine congrArg ((0 : EReal) + ·) (Finset.sum_congr rfl fun p _ => ?_)
    exact blk4_pay5_apply V c ⟨0, hkN⟩ p q ⟨2000 * 0 + p.val, by have := p.isLt; omega⟩ rfl
  | succ m =>
    rw [acc4_0_succ V c m hkN, pay6_4_apply]
    have hm : m < cfg4.N := Nat.lt_of_succ_lt hkN
    refine congrArg₂ (· + ·) (accRow4_0_succ V c z q m hm).symm (Finset.sum_congr rfl fun p _ => ?_)
    exact blk4_pay5_apply V c ⟨m + 1, hkN⟩ p q ⟨2000 * (m + 1) + p.val, by have := p.isLt; omega⟩ rfl

/-- After the last point the second accumulator holds the column sums of the squares. -/
theorem acc4_1_last (c : Dev nD) (z : Fin 1) (q : Fin 128) (hn : 24 < cfg4.N) :
    (outsAt4 V c 24 hn).2.2.2.2 (ix2 z q) = 0 + ∑ r : Fin 50000, mlpArr4 V c (ix2 r q) * mlpArr4 V c (ix2 r q) := by
  have hN : cfg4.N = 25 := N_4
  refine (accRow4_1_succ V c z q 24 hn).symm.trans ?_
  refine acc_cols4 (fun i => mlpArr4 V c i * mlpArr4 V c i) q (accRow4_1 V c z q) rfl fun k hk => ?_
  have hkN : k < cfg4.N := by rw [hN]; exact hk
  refine (accRow4_1_succ V c z q k hkN).trans ?_
  cases k with
  | zero =>
    rw [acc4_1_zero V c hkN, pay2_4_apply, pay4_4_apply]
    refine congrArg ((0 : EReal) + ·) (Finset.sum_congr rfl fun p _ => ?_)
    rw [blk4_pay5_apply V c ⟨0, hkN⟩ p q ⟨2000 * 0 + p.val, by have := p.isLt; omega⟩ rfl]
  | succ m =>
    rw [acc4_1_succ V c m hkN, pay2_4_apply]
    have hm : m < cfg4.N := Nat.lt_of_succ_lt hkN
    refine congrArg₂ (· + ·) (accRow4_1_succ V c z q m hm).symm (Finset.sum_congr rfl fun p _ => ?_)
    rw [blk4_pay5_apply V c ⟨m + 1, hkN⟩ p q ⟨2000 * (m + 1) + p.val, by have := p.isLt; omega⟩ rfl]

/-! ## The block output -/

/-- What point `t` writes back to the block output's array is block `t` of `mlpH` of the six input arrays. -/
theorem flushed4_6_eq (c : Dev nD) (t : Fin cfg4.N) :
    (dat4 V c).flushed 6 t = ((cfg4.win 6).blk t).view.read (Elt Ideal) (mlpArr4 V c) := by
  show (cfg4.win 6).cut (grid4.coords t) ((dat4 V c).after 6 t) = _
  rw [after4_6, outs4_block]
  obtain ⟨-, -, -, -, e0, e1, -⟩ := blocks_of_point4 t
  have hN : grid4.N = 25 := N_4
  have ht : t.val < 25 := hN ▸ t.isLt
  show (k4_pay5 (F := Ideal) (blk4_0 V c t) (blk4_1 V c t) (blk4_2 V c t) (blk4_4 V c t) (blk4_3 V c t) (blk4_5 V c t) : S2000x128.Idx → EReal)
    = fun j : S2000x128.Idx => mlpArr4 V c (((cfg4.win 6).blk t).view.emb j)
  funext j
  obtain ⟨p, q, rfl⟩ : ∃ (p : Fin 2000) (q : Fin 128), j = ix2 p q := ⟨j 0, j 1, eq_ix2 j⟩
  have hp : p.val < 2000 := p.isLt
  refine (blk4_pay5_apply V c t p q ⟨2000 * t.val + p.val, by omega⟩ rfl).trans ?_
  refine congrArg (mlpArr4 V c) ?_
  funext a
  apply Fin.ext
  match a with
  | ⟨0, _⟩ => show 2000 * t.val + p.val = win4_6.index t (0 : Fin 2) * 2000 + 1 * p.val; rw [e0]; omega
  | ⟨1, _⟩ => show q.val = win4_6.index t (1 : Fin 2) * 128 + 1 * q.val; rw [e1]; omega

/-- Row `r` of the block output's array is written by point `r / 2000`. -/
theorem cover4_6 (i : S50000x128.Idx) :
    ∃ t : Fin cfg4.N, (cfg4.win 6).flush t = true ∧ i ∈ ((cfg4.win 6).blk t).view.set := by
  have hi0 : (i 0).val < 50000 := (i 0).isLt
  have hi1 : (i 1).val < 128 := (i 1).isLt
  have hN : grid4.N = 25 := N_4
  have hlt : (i 0).val / 2000 < grid4.N := by rw [hN]; omega
  obtain ⟨-, -, -, -, e0, e1, -⟩ := blocks_of_point4 ⟨(i 0).val / 2000, hlt⟩
  refine ⟨⟨(i 0).val / 2000, hlt⟩, flush4_6 _, ?_⟩
  show i ∈ ((View.whole main_v122_0).slice (win4_6.rect ⟨(i 0).val / 2000, hlt⟩)).set
  rw [View.set_slice_whole, Rect.mem_set_unit]
  intro a
  match a with
  | ⟨0, _⟩ =>
    show win4_6.index ⟨(i 0).val / 2000, hlt⟩ (0 : Fin 2) * 2000 ≤ (i 0).val ∧ (i 0).val < win4_6.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win4_6.index ⟨(i 0).val / 2000, hlt⟩ (1 : Fin 2) * 128 ≤ (i 1).val ∧ (i 1).val < win4_6.index ⟨(i 0).val / 2000, hlt⟩ (1 : Fin 2) * 128 + 128
    rw [e1]; omega

/-! ## The two row outputs -/

/-- At the last point row output 7 is a copy of the first accumulator. -/
theorem row4_7_last (c : Dev nD) (hn : 24 < cfg4.N) :
    (outsAt4 V c 24 hn).2.1 = (outsAt4 V c 24 hn).2.2.2.1 := by
  have h : outsAt4 V c 24 hn = _ := outsAt4_C V c ⟨24, hn⟩ (show ¬ (24 : ℕ) = 0 by decide) rfl
  rw [h]; dsimp only
  rw [valC7_4, valCS0_4]

/-- Row output 7 after the last point, at an entry: the column sum from zero. -/
theorem row4_7_at (c : Dev nD) (t : Fin cfg4.N) (h24 : t.val = 24) (z : Fin 1) (q : Fin 128) :
    (outsAt4 V c t.val t.isLt).2.1 (ix2 z q) = rowSum (mlpArr4 V c) (ix2 z q) := by
  obtain ⟨n, hn⟩ := t
  obtain rfl : n = 24 := h24
  rw [row4_7_last V c hn]
  exact (acc4_0_last V c z q hn).trans (rowSum_apply (mlpArr4 V c) z q).symm

/-- The one write-back of row output 7, at the last point, writes the column sums. -/
theorem flushed4_7_eq (c : Dev nD) (t : Fin cfg4.N) (hf : (cfg4.win 7).flush t = true) :
    (dat4 V c).flushed 7 t = ((cfg4.win 7).blk t).view.read (Elt Ideal) (rowSum (mlpArr4 V c)) := by
  have hN : grid4.N = 25 := N_4
  have ht : t.val < 25 := hN ▸ t.isLt
  have h24 : t.val = 24 := by have h := (flush4_7 t).mp hf; omega
  obtain ⟨-, -, -, -, -, -, -, -, -, -, -, -, -, -, e0, e1, -⟩ := blocks_of_point4 t
  show (cfg4.win 7).cut (grid4.coords t) ((dat4 V c).after 7 t) = _
  rw [after4_7]
  show ((outsAt4 V c t.val t.isLt).2.1 : S1x128.Idx → EReal)
    = fun j : S1x128.Idx => rowSum (mlpArr4 V c) (((cfg4.win 7).blk t).view.emb j)
  funext j
  obtain ⟨z, q, rfl⟩ : ∃ (z : Fin 1) (q : Fin 128), j = ix2 z q := ⟨j 0, j 1, eq_ix2 j⟩
  refine (row4_7_at V c t h24 z q).trans (congrArg (rowSum (mlpArr4 V c)) ?_)
  funext a
  apply Fin.ext
  match a with
  | ⟨0, _⟩ => show z.val = win4_7.index t (0 : Fin 2) * 1 + 1 * z.val; rw [e0]; omega
  | ⟨1, _⟩ => show q.val = win4_7.index t (1 : Fin 2) * 128 + 1 * q.val; rw [e1]; omega

/-- Every index of row output 7's array is in the last point's block. -/
theorem cover4_7 (i : S1x128.Idx) :
    ∃ t : Fin cfg4.N, (cfg4.win 7).flush t = true ∧ i ∈ ((cfg4.win 7).blk t).view.set := by
  have hi0 : (i 0).val < 1 := (i 0).isLt
  have hi1 : (i 1).val < 128 := (i 1).isLt
  have hN : grid4.N = 25 := N_4
  have hlt : 24 < grid4.N := by rw [hN]; omega
  obtain ⟨-, -, -, -, -, -, -, -, -, -, -, -, -, -, e0, e1, -⟩ := blocks_of_point4 ⟨24, hlt⟩
  refine ⟨⟨24, hlt⟩, (flush4_7 _).mpr rfl, ?_⟩
  show i ∈ ((View.whole main_v122_1).slice (win4_7.rect ⟨24, hlt⟩)).set
  rw [View.set_slice_whole, Rect.mem_set_unit]
  intro a
  match a with
  | ⟨0, _⟩ =>
    show win4_7.index ⟨24, hlt⟩ (0 : Fin 2) * 1 ≤ (i 0).val ∧ (i 0).val < win4_7.index ⟨24, hlt⟩ (0 : Fin 2) * 1 + 1
    rw [e0]; omega
  | ⟨1, _⟩ =>
    show win4_7.index ⟨24, hlt⟩ (1 : Fin 2) * 128 ≤ (i 1).val ∧ (i 1).val < win4_7.index ⟨24, hlt⟩ (1 : Fin 2) * 128 + 128
    rw [e1]; omega

/-- At the last point row output 8 is a copy of the second accumulator. -/
theorem row4_8_last (c : Dev nD) (hn : 24 < cfg4.N) :
    (outsAt4 V c 24 hn).2.2.1 = (outsAt4 V c 24 hn).2.2.2.2 := by
  have h : outsAt4 V c 24 hn = _ := outsAt4_C V c ⟨24, hn⟩ (show ¬ (24 : ℕ) = 0 by decide) rfl
  rw [h]; dsimp only
  rw [valC8_4, valCS1_4]

/-- Row output 8 after the last point, at an entry: the column sum from zero. -/
theorem row4_8_at (c : Dev nD) (t : Fin cfg4.N) (h24 : t.val = 24) (z : Fin 1) (q : Fin 128) :
    (outsAt4 V c t.val t.isLt).2.2.1 (ix2 z q) = rowSum (fun i => mlpArr4 V c i * mlpArr4 V c i) (ix2 z q) := by
  obtain ⟨n, hn⟩ := t
  obtain rfl : n = 24 := h24
  rw [row4_8_last V c hn]
  exact (acc4_1_last V c z q hn).trans (rowSum_apply (fun i => mlpArr4 V c i * mlpArr4 V c i) z q).symm

/-- The one write-back of row output 8, at the last point, writes the column sums. -/
theorem flushed4_8_eq (c : Dev nD) (t : Fin cfg4.N) (hf : (cfg4.win 8).flush t = true) :
    (dat4 V c).flushed 8 t = ((cfg4.win 8).blk t).view.read (Elt Ideal) (rowSum (fun i => mlpArr4 V c i * mlpArr4 V c i)) := by
  have hN : grid4.N = 25 := N_4
  have ht : t.val < 25 := hN ▸ t.isLt
  have h24 : t.val = 24 := by have h := (flush4_8 t).mp hf; omega
  obtain ⟨-, -, -, -, -, -, -, -, -, -, -, -, -, -, -, -, e0, e1⟩ := blocks_of_point4 t
  show (cfg4.win 8).cut (grid4.coords t) ((dat4 V c).after 8 t) = _
  rw [after4_8]
  show ((outsAt4 V c t.val t.isLt).2.2.1 : S1x128.Idx → EReal)
    = fun j : S1x128.Idx => rowSum (fun i => mlpArr4 V c i * mlpArr4 V c i) (((cfg4.win 8).blk t).view.emb j)
  funext j
  obtain ⟨z, q, rfl⟩ : ∃ (z : Fin 1) (q : Fin 128), j = ix2 z q := ⟨j 0, j 1, eq_ix2 j⟩
  refine (row4_8_at V c t h24 z q).trans (congrArg (rowSum (fun i => mlpArr4 V c i * mlpArr4 V c i)) ?_)
  funext a
  apply Fin.ext
  match a with
  | ⟨0, _⟩ => show z.val = win4_8.index t (0 : Fin 2) * 1 + 1 * z.val; rw [e0]; omega
  | ⟨1, _⟩ => show q.val = win4_8.index t (1 : Fin 2) * 128 + 1 * q.val; rw [e1]; omega

/-- Every index of row output 8's array is in the last point's block. -/
theorem cover4_8 (i : S1x128.Idx) :
    ∃ t : Fin cfg4.N, (cfg4.win 8).flush t = true ∧ i ∈ ((cfg4.win 8).blk t).view.set := by
  have hi0 : (i 0).val < 1 := (i 0).isLt
  have hi1 : (i 1).val < 128 := (i 1).isLt
  have hN : grid4.N = 25 := N_4
  have hlt : 24 < grid4.N := by rw [hN]; omega
  obtain ⟨-, -, -, -, -, -, -, -, -, -, -, -, -, -, -, -, e0, e1⟩ := blocks_of_point4 ⟨24, hlt⟩
  refine ⟨⟨24, hlt⟩, (flush4_8 _).mpr rfl, ?_⟩
  show i ∈ ((View.whole main_v122_2).slice (win4_8.rect ⟨24, hlt⟩)).set
  rw [View.set_slice_whole, Rect.mem_set_unit]
  intro a
  match a with
  | ⟨0, _⟩ =>
    show win4_8.index ⟨24, hlt⟩ (0 : Fin 2) * 1 ≤ (i 0).val ∧ (i 0).val < win4_8.index ⟨24, hlt⟩ (0 : Fin 2) * 1 + 1
    rw [e0]; omega
  | ⟨1, _⟩ =>
    show win4_8.index ⟨24, hlt⟩ (1 : Fin 2) * 128 ≤ (i 1).val ∧ (i 1).val < win4_8.index ⟨24, hlt⟩ (1 : Fin 2) * 128 + 128
    rw [e1]; omega

/-! ## The three arrays after the region -/

/-- After the region the block output's array is `mlpH` of the six input arrays as the region found them. -/
theorem region4_h (c : Dev nD) :
    (dat4 V c).arrAt 6 cfg4.N = mlpH (V c main_v111) (V c main_v106) (V c main_v113) (V c main_v120) (V c main_v117) (V c main_v121) :=
  (dat4 V c).arrAt_eq_of_cover 6 (mlpArr4 V c) (fun t _ => flushed4_6_eq V c t) cover4_6

/-- After the region the first row output's array is the row of column sums of that array. -/
theorem region4_s (c : Dev nD) :
    (dat4 V c).arrAt 7 cfg4.N = rowSum (mlpH (V c main_v111) (V c main_v106) (V c main_v113) (V c main_v120) (V c main_v117) (V c main_v121)) :=
  (dat4 V c).arrAt_eq_of_cover 7 (rowSum (mlpArr4 V c)) (fun t hf => flushed4_7_eq V c t hf) cover4_7

/-- After the region the second row output's array is the row of column sums of that array's entrywise square. -/
theorem region4_q (c : Dev nD) :
    (dat4 V c).arrAt 8 cfg4.N = rowSum (fun i => mlpH (V c main_v111) (V c main_v106) (V c main_v113) (V c main_v120) (V c main_v117) (V c main_v121) i * mlpH (V c main_v111) (V c main_v106) (V c main_v113) (V c main_v120) (V c main_v117) (V c main_v121) i) :=
  (dat4 V c).arrAt_eq_of_cover 8 (rowSum (fun i => mlpArr4 V c i * mlpArr4 V c i)) (fun t hf => flushed4_8_eq V c t hf) cover4_8

end MlpArr4

end Cert.KernelIdeal.Hand

end
-- ==== Proof.KiGlue.lean ====
/-
  The kernel's run, boundary by boundary, is three layers.

  The program is six stretches of host operations, each followed by a kernel region. A host stretch's effect on a
  buffer is read off its operations; a region changes only its own arrays, and what it leaves in its outputs is known
  as a function of what it found in its inputs. Reading the twelve boundaries in turn: the first stretch lays out the
  edge list and layer 0's operands, the first region leaves the perceptron's output and its two rows of column sums,
  the second stretch forms mean and variance from the rows, the second region leaves the layer's output; and the same
  twice more, the later layers re-reading the edge list and the stacked parameters, which nothing in between writes.
  Each layer's output is the layer with the one-pass variance of the layer's input.
-/
import proofs.«124822_j54752243090034_1_alg».proof.Proof.KiRun
import proofs.«124822_j54752243090034_1_alg».proof.Proof.KernelLayer
import proofs.«124822_j54752243090034_1_alg».proof.Proof.KiBnVal1
import proofs.«124822_j54752243090034_1_alg».proof.Proof.KiBnVal3
import proofs.«124822_j54752243090034_1_alg».proof.Proof.KiBnVal5
import proofs.«124822_j54752243090034_1_alg».proof.Proof.KiMlpArr0
import proofs.«124822_j54752243090034_1_alg».proof.Proof.KiMlpArr2
import proofs.«124822_j54752243090034_1_alg».proof.Proof.KiMlpArr4

set_option maxRecDepth 16384

noncomputable section

namespace Cert.KernelIdeal.Glue

open Cert.KernelIdeal Cert.KernelIdeal.Gen Cert.KernelIdeal.Hand Cert.ReferenceIdeal.RefValue Cert.KernelLayer
open Idealize.ShloMosaic Idealize.ShloMosaic.TcCoe Idealize.SL.Sem Idealize.ShloMosaic.StableHlo

/-- The source node of each edge: row 0 of the edge list. -/
def v1of (A : Valuation τ sig (Elt Ideal)) : IVec S800000 32 :=
  shapeCast _ (extractStridedSlice S1x800000 ![0, 0] (A (Proc.devRef .tc main_arg1)) slices_S2x800000_S1x800000_0_0) shapeCasts_S1x800000_S800000

/-- The destination node of each edge: row 1 of the edge list. -/
def v3of (A : Valuation τ sig (Elt Ideal)) : IVec S800000 32 :=
  shapeCast _ (extractStridedSlice S1x800000 ![1, 0] (A (Proc.devRef .tc main_arg1)) slices_S2x800000_S1x800000_1_0) shapeCasts_S1x800000_S800000

/-- The source nodes as a column of start indices, a negative number counted from the end. -/
def srcK (A : Valuation τ sig (Elt Ideal)) : IVec S800000x1 32 :=
  broadcastInDim S800000x1 ![0] bcast_S800000_S800000x1_0
    (select (cmpi .slt (v1of A) (broadcastInDim S800000 ![] bcast_S_S800000 (constantI S_ 32 0#32)))
      (addi (v1of A) (broadcastInDim S800000 ![] bcast_S_S800000 (constantI S_ 32 50000#32))) (v1of A))

/-- The destination nodes as a column of start indices. -/
def dstK (A : Valuation τ sig (Elt Ideal)) : IVec S800000x1 32 :=
  broadcastInDim S800000x1 ![0] bcast_S800000_S800000x1_0 (v3of A)

/-- Layer 0's parameters, sliced out of the kernel's arguments. -/
def kparams0 (A : Valuation τ sig (Elt Ideal)) : LayerParams Ideal where
  srcI := srcK A
  dstI := dstK A
  ew := A (Proc.devRef .tc main_arg3)
  eps := shapeCast _ (extractStridedSlice S1 ![0] (A (Proc.devRef .tc main_arg8)) slices_S3_S1_0) shapeCasts_S1_S_
  W1 := shapeCast _ (extractStridedSlice S1x128x128 ![0, 0, 0] (A (Proc.devRef .tc main_arg4)) slices_S3x128x128_S1x128x128_0_0_0) shapeCasts_S1x128x128_S128x128
  b1 := shapeCast _ (extractStridedSlice S1x128 ![0, 0] (A (Proc.devRef .tc main_arg5)) slices_S3x128_S1x128_0_0) shapeCasts_S1x128_S128
  W2 := shapeCast _ (extractStridedSlice S1x128x128 ![0, 0, 0] (A (Proc.devRef .tc main_arg6)) slices_S3x128x128_S1x128x128_0_0_0) shapeCasts_S1x128x128_S128x128
  b2 := shapeCast _ (extractStridedSlice S1x128 ![0, 0] (A (Proc.devRef .tc main_arg7)) slices_S3x128_S1x128_0_0) shapeCasts_S1x128_S128
  gamma := shapeCast _ (extractStridedSlice S1x128 ![0, 0] (A (Proc.devRef .tc main_arg9)) slices_S3x128_S1x128_0_0) shapeCasts_S1x128_S128
  beta := shapeCast _ (extractStridedSlice S1x128 ![0, 0] (A (Proc.devRef .tc main_arg10)) slices_S3x128_S1x128_0_0) shapeCasts_S1x128_S128

/-- Layer 1's parameters, sliced out of the kernel's arguments. -/
def kparams1 (A : Valuation τ sig (Elt Ideal)) : LayerParams Ideal where
  srcI := srcK A
  dstI := dstK A
  ew := A (Proc.devRef .tc main_arg3)
  eps := shapeCast _ (extractStridedSlice S1 ![1] (A (Proc.devRef .tc main_arg8)) slices_S3_S1_1) shapeCasts_S1_S_
  W1 := shapeCast _ (extractStridedSlice S1x128x128 ![1, 0, 0] (A (Proc.devRef .tc main_arg4)) slices_S3x128x128_S1x128x128_1_0_0) shapeCasts_S1x128x128_S128x128
  b1 := shapeCast _ (extractStridedSlice S1x128 ![1, 0] (A (Proc.devRef .tc main_arg5)) slices_S3x128_S1x128_1_0) shapeCasts_S1x128_S128
  W2 := shapeCast _ (extractStridedSlice S1x128x128 ![1, 0, 0] (A (Proc.devRef .tc main_arg6)) slices_S3x128x128_S1x128x128_1_0_0) shapeCasts_S1x128x128_S128x128
  b2 := shapeCast _ (extractStridedSlice S1x128 ![1, 0] (A (Proc.devRef .tc main_arg7)) slices_S3x128_S1x128_1_0) shapeCasts_S1x128_S128
  gamma := shapeCast _ (extractStridedSlice S1x128 ![1, 0] (A (Proc.devRef .tc main_arg9)) slices_S3x128_S1x128_1_0) shapeCasts_S1x128_S128
  beta := shapeCast _ (extractStridedSlice S1x128 ![1, 0] (A (Proc.devRef .tc main_arg10)) slices_S3x128_S1x128_1_0) shapeCasts_S1x128_S128

/-- Layer 2's parameters, sliced out of the kernel's arguments. -/
def kparams2 (A : Valuation τ sig (Elt Ideal)) : LayerParams Ideal where
  srcI := srcK A
  dstI := dstK A
  ew := A (Proc.devRef .tc main_arg3)
  eps := shapeCast _ (extractStridedSlice S1 ![2] (A (Proc.devRef .tc main_arg8)) slices_S3_S1_2) shapeCasts_S1_S_
  W1 := shapeCast _ (extractStridedSlice S1x128x128 ![2, 0, 0] (A (Proc.devRef .tc main_arg4)) slices_S3x128x128_S1x128x128_2_0_0) shapeCasts_S1x128x128_S128x128
  b1 := shapeCast _ (extractStridedSlice S1x128 ![2, 0] (A (Proc.devRef .tc main_arg5)) slices_S3x128_S1x128_2_0) shapeCasts_S1x128_S128
  W2 := shapeCast _ (extractStridedSlice S1x128x128 ![2, 0, 0] (A (Proc.devRef .tc main_arg6)) slices_S3x128x128_S1x128x128_2_0_0) shapeCasts_S1x128x128_S128x128
  b2 := shapeCast _ (extractStridedSlice S1x128 ![2, 0] (A (Proc.devRef .tc main_arg7)) slices_S3x128_S1x128_2_0) shapeCasts_S1x128_S128
  gamma := shapeCast _ (extractStridedSlice S1x128 ![2, 0] (A (Proc.devRef .tc main_arg9)) slices_S3x128_S1x128_2_0) shapeCasts_S1x128_S128
  beta := shapeCast _ (extractStridedSlice S1x128 ![2, 0] (A (Proc.devRef .tc main_arg10)) slices_S3x128_S1x128_2_0) shapeCasts_S1x128_S128

/-- The entrywise square of an array. -/
def sq (a : S50000x128.Idx → EReal) : S50000x128.Idx → EReal := fun j => a j * a j

/-- What a later boundary's contents W still hold of the launch contents A0: the two rows of the edge list and the
    edge weights as the first stretch of host operations laid them out, and the stacked parameter arrays. -/
structure Carries (A0 W : Valuation τ sig (Elt Ideal)) : Prop where
  v1 : W (Proc.devRef .tc main_v1) = v1of A0
  v3 : W (Proc.devRef .tc main_v3) = v3of A0
  v4 : W (Proc.devRef .tc main_v4) = broadcastInDim S800000x1 ![0] bcast_S800000_S800000x1_0 (A0 (Proc.devRef .tc main_arg3))
  a4 : W (Proc.devRef .tc main_arg4) = A0 (Proc.devRef .tc main_arg4)
  a5 : W (Proc.devRef .tc main_arg5) = A0 (Proc.devRef .tc main_arg5)
  a6 : W (Proc.devRef .tc main_arg6) = A0 (Proc.devRef .tc main_arg6)
  a7 : W (Proc.devRef .tc main_arg7) = A0 (Proc.devRef .tc main_arg7)
  a8 : W (Proc.devRef .tc main_arg8) = A0 (Proc.devRef .tc main_arg8)
  a9 : W (Proc.devRef .tc main_arg9) = A0 (Proc.devRef .tc main_arg9)
  a10 : W (Proc.devRef .tc main_arg10) = A0 (Proc.devRef .tc main_arg10)

/-- Contents that agree with W on those ten buffers carry the same. -/
theorem Carries.of_eq {A0 W W' : Valuation τ sig (Elt Ideal)} (car : Carries A0 W)
    (e1 : W' (Proc.devRef .tc main_v1) = W (Proc.devRef .tc main_v1)) (e3 : W' (Proc.devRef .tc main_v3) = W (Proc.devRef .tc main_v3))
    (e4 : W' (Proc.devRef .tc main_v4) = W (Proc.devRef .tc main_v4)) (f4 : W' (Proc.devRef .tc main_arg4) = W (Proc.devRef .tc main_arg4))
    (f5 : W' (Proc.devRef .tc main_arg5) = W (Proc.devRef .tc main_arg5)) (f6 : W' (Proc.devRef .tc main_arg6) = W (Proc.devRef .tc main_arg6))
    (f7 : W' (Proc.devRef .tc main_arg7) = W (Proc.devRef .tc main_arg7)) (f8 : W' (Proc.devRef .tc main_arg8) = W (Proc.devRef .tc main_arg8))
    (f9 : W' (Proc.devRef .tc main_arg9) = W (Proc.devRef .tc main_arg9)) (f10 : W' (Proc.devRef .tc main_arg10) = W (Proc.devRef .tc main_arg10)) : Carries A0 W' :=
  ⟨e1.trans car.v1, e3.trans car.v3, e4.trans car.v4, f4.trans car.a4, f5.trans car.a5, f6.trans car.a6, f7.trans car.a7,
    f8.trans car.a8, f9.trans car.a9, f10.trans car.a10⟩

section Host
variable (A0 W C : Valuation τ sig (Elt Ideal))

/-- After the first stretch of host operations the contents carry the launch contents. -/
theorem carries_after0 : Carries A0 (after hostOps0 A0) where
  v1 := by after_results_simp <;> rfl
  v3 := by after_results_simp <;> rfl
  v4 := by after_results_simp <;> rfl
  a4 := by after_results_simp <;> rfl
  a5 := by after_results_simp <;> rfl
  a6 := by after_results_simp <;> rfl
  a7 := by after_results_simp <;> rfl
  a8 := by after_results_simp <;> rfl
  a9 := by after_results_simp <;> rfl
  a10 := by after_results_simp <;> rfl

theorem L0_xe : after hostOps0 A0 (Proc.devRef .tc main_v21) = mulf (F := Ideal) (broadcastInDim S50000x128 ![] bcast_S_S50000x128 (addf (constant S_ .f32 0x3F800000#32) (kparams0 A0).eps)) (A0 (Proc.devRef .tc main_arg0)) := by
  after_results_simp <;> rfl

theorem L0_ag : after hostOps0 A0 (Proc.devRef .tc main_v16) = agg (A0 (Proc.devRef .tc main_arg0)) (kparams0 A0) := by
  after_results_simp <;> rfl

theorem L0_w1 : after hostOps0 A0 (Proc.devRef .tc main_v23) = (kparams0 A0).W1 := by
  after_results_simp <;> rfl

theorem L0_w2 : after hostOps0 A0 (Proc.devRef .tc main_v27) = (kparams0 A0).W2 := by
  after_results_simp <;> rfl

theorem L0_b1r : after hostOps0 A0 (Proc.devRef .tc main_v30) = shapeCast S1x128 (kparams0 A0).b1 shapeCasts_S128_S1x128 := by
  after_results_simp <;> rfl

theorem L0_b2r : after hostOps0 A0 (Proc.devRef .tc main_v31) = shapeCast S1x128 (kparams0 A0).b2 shapeCasts_S128_S1x128 := by
  after_results_simp <;> rfl

theorem L0_x : after hostOps0 A0 (Proc.devRef .tc main_arg0) = A0 (Proc.devRef .tc main_arg0) := by
  after_results_simp <;> rfl

theorem L0_a9 : after hostOps0 A0 (Proc.devRef .tc main_arg9) = A0 (Proc.devRef .tc main_arg9) := by
  after_results_simp <;> rfl

theorem L0_a10 : after hostOps0 A0 (Proc.devRef .tc main_arg10) = A0 (Proc.devRef .tc main_arg10) := by
  after_results_simp <;> rfl

theorem L1_xe (car : Carries A0 W) : after hostOps2 W (Proc.devRef .tc main_v66) = mulf (F := Ideal) (broadcastInDim S50000x128 ![] bcast_S_S50000x128 (addf (constant S_ .f32 0x3F800000#32) (kparams1 A0).eps)) (W (Proc.devRef .tc main_v49)) := by
  after_results_simp; rw [car.a8] <;> rfl

theorem L1_ag (car : Carries A0 W) : after hostOps2 W (Proc.devRef .tc main_v61) = agg (W (Proc.devRef .tc main_v49)) (kparams1 A0) := by
  after_results_simp; rw [car.v1, car.v3, car.v4] <;> rfl

theorem L1_w1 (car : Carries A0 W) : after hostOps2 W (Proc.devRef .tc main_v68) = (kparams1 A0).W1 := by
  after_results_simp; rw [car.a4] <;> rfl

theorem L1_w2 (car : Carries A0 W) : after hostOps2 W (Proc.devRef .tc main_v72) = (kparams1 A0).W2 := by
  after_results_simp; rw [car.a6] <;> rfl

theorem L1_b1r (car : Carries A0 W) : after hostOps2 W (Proc.devRef .tc main_v75) = shapeCast S1x128 (kparams1 A0).b1 shapeCasts_S128_S1x128 := by
  after_results_simp; rw [car.a5] <;> rfl

theorem L1_b2r (car : Carries A0 W) : after hostOps2 W (Proc.devRef .tc main_v76) = shapeCast S1x128 (kparams1 A0).b2 shapeCasts_S128_S1x128 := by
  after_results_simp; rw [car.a7] <;> rfl

theorem L1_x : after hostOps2 W (Proc.devRef .tc main_v49) = W (Proc.devRef .tc main_v49) := by
  after_results_simp <;> rfl

theorem L1_a9 : after hostOps2 W (Proc.devRef .tc main_arg9) = W (Proc.devRef .tc main_arg9) := by
  after_results_simp <;> rfl

theorem L1_a10 : after hostOps2 W (Proc.devRef .tc main_arg10) = W (Proc.devRef .tc main_arg10) := by
  after_results_simp <;> rfl

theorem L2_xe (car : Carries A0 W) : after hostOps4 W (Proc.devRef .tc main_v111) = mulf (F := Ideal) (broadcastInDim S50000x128 ![] bcast_S_S50000x128 (addf (constant S_ .f32 0x3F800000#32) (kparams2 A0).eps)) (W (Proc.devRef .tc main_v94)) := by
  after_results_simp; rw [car.a8] <;> rfl

theorem L2_ag (car : Carries A0 W) : after hostOps4 W (Proc.devRef .tc main_v106) = agg (W (Proc.devRef .tc main_v94)) (kparams2 A0) := by
  after_results_simp; rw [car.v1, car.v3, car.v4] <;> rfl

theorem L2_w1 (car : Carries A0 W) : after hostOps4 W (Proc.devRef .tc main_v113) = (kparams2 A0).W1 := by
  after_results_simp; rw [car.a4] <;> rfl

theorem L2_w2 (car : Carries A0 W) : after hostOps4 W (Proc.devRef .tc main_v117) = (kparams2 A0).W2 := by
  after_results_simp; rw [car.a6] <;> rfl

theorem L2_b1r (car : Carries A0 W) : after hostOps4 W (Proc.devRef .tc main_v120) = shapeCast S1x128 (kparams2 A0).b1 shapeCasts_S128_S1x128 := by
  after_results_simp; rw [car.a5] <;> rfl

theorem L2_b2r (car : Carries A0 W) : after hostOps4 W (Proc.devRef .tc main_v121) = shapeCast S1x128 (kparams2 A0).b2 shapeCasts_S128_S1x128 := by
  after_results_simp; rw [car.a7] <;> rfl

theorem L2_x : after hostOps4 W (Proc.devRef .tc main_v94) = W (Proc.devRef .tc main_v94) := by
  after_results_simp <;> rfl

theorem L2_a9 : after hostOps4 W (Proc.devRef .tc main_arg9) = W (Proc.devRef .tc main_arg9) := by
  after_results_simp <;> rfl

theorem L2_a10 : after hostOps4 W (Proc.devRef .tc main_arg10) = W (Proc.devRef .tc main_arg10) := by
  after_results_simp <;> rfl

theorem M0_h : after hostOps1 C (Proc.devRef .tc main_v32_0) = C (Proc.devRef .tc main_v32_0) := by
  after_results_simp <;> rfl

theorem M0_x : after hostOps1 C (Proc.devRef .tc main_arg0) = C (Proc.devRef .tc main_arg0) := by
  after_results_simp <;> rfl

theorem M0_r1 : after hostOps1 C (Proc.devRef .tc main_v45)
    = shapeCast S1x128 (Host.divf (F := Ideal) (φ := .f32) (shapeCast S128 (C (Proc.devRef .tc main_v32_1)) shapeCasts_S1x128_S128) count) shapeCasts_S128_S1x128 := by
  after_results_simp <;> rfl

theorem M0_r2 : after hostOps1 C (Proc.devRef .tc main_v46)
    = shapeCast S1x128 (subf (F := Ideal) (φ := .f32)
        (Host.divf (F := Ideal) (φ := .f32) (shapeCast S128 (C (Proc.devRef .tc main_v32_2)) shapeCasts_S1x128_S128) count)
        (mulf (F := Ideal) (φ := .f32) (Host.divf (F := Ideal) (φ := .f32) (shapeCast S128 (C (Proc.devRef .tc main_v32_1)) shapeCasts_S1x128_S128) count)
          (Host.divf (F := Ideal) (φ := .f32) (shapeCast S128 (C (Proc.devRef .tc main_v32_1)) shapeCasts_S1x128_S128) count))) shapeCasts_S128_S1x128 := by
  after_results_simp <;> rfl

theorem M0_r3 : after hostOps1 C (Proc.devRef .tc main_v47)
    = shapeCast S1x128 (shapeCast S128 (extractStridedSlice S1x128 ![0, 0] (C (Proc.devRef .tc main_arg9)) slices_S3x128_S1x128_0_0) shapeCasts_S1x128_S128) shapeCasts_S128_S1x128 := by
  after_results_simp <;> rfl

theorem M0_r4 : after hostOps1 C (Proc.devRef .tc main_v48)
    = shapeCast S1x128 (shapeCast S128 (extractStridedSlice S1x128 ![0, 0] (C (Proc.devRef .tc main_arg10)) slices_S3x128_S1x128_0_0) shapeCasts_S1x128_S128) shapeCasts_S128_S1x128 := by
  after_results_simp <;> rfl

theorem M1_h : after hostOps3 C (Proc.devRef .tc main_v77_0) = C (Proc.devRef .tc main_v77_0) := by
  after_results_simp <;> rfl

theorem M1_x : after hostOps3 C (Proc.devRef .tc main_v49) = C (Proc.devRef .tc main_v49) := by
  after_results_simp <;> rfl

theorem M1_r1 : after hostOps3 C (Proc.devRef .tc main_v90)
    = shapeCast S1x128 (Host.divf (F := Ideal) (φ := .f32) (shapeCast S128 (C (Proc.devRef .tc main_v77_1)) shapeCasts_S1x128_S128) count) shapeCasts_S128_S1x128 := by
  after_results_simp <;> rfl

theorem M1_r2 : after hostOps3 C (Proc.devRef .tc main_v91)
    = shapeCast S1x128 (subf (F := Ideal) (φ := .f32)
        (Host.divf (F := Ideal) (φ := .f32) (shapeCast S128 (C (Proc.devRef .tc main_v77_2)) shapeCasts_S1x128_S128) count)
        (mulf (F := Ideal) (φ := .f32) (Host.divf (F := Ideal) (φ := .f32) (shapeCast S128 (C (Proc.devRef .tc main_v77_1)) shapeCasts_S1x128_S128) count)
          (Host.divf (F := Ideal) (φ := .f32) (shapeCast S128 (C (Proc.devRef .tc main_v77_1)) shapeCasts_S1x128_S128) count))) shapeCasts_S128_S1x128 := by
  after_results_simp <;> rfl

theorem M1_r3 : after hostOps3 C (Proc.devRef .tc main_v92)
    = shapeCast S1x128 (shapeCast S128 (extractStridedSlice S1x128 ![1, 0] (C (Proc.devRef .tc main_arg9)) slices_S3x128_S1x128_1_0) shapeCasts_S1x128_S128) shapeCasts_S128_S1x128 := by
  after_results_simp <;> rfl

theorem M1_r4 : after hostOps3 C (Proc.devRef .tc main_v93)
    = shapeCast S1x128 (shapeCast S128 (extractStridedSlice S1x128 ![1, 0] (C (Proc.devRef .tc main_arg10)) slices_S3x128_S1x128_1_0) shapeCasts_S1x128_S128) shapeCasts_S128_S1x128 := by
  after_results_simp <;> rfl

theorem M2_h : after hostOps5 C (Proc.devRef .tc main_v122_0) = C (Proc.devRef .tc main_v122_0) := by
  after_results_simp <;> rfl

theorem M2_x : after hostOps5 C (Proc.devRef .tc main_v94) = C (Proc.devRef .tc main_v94) := by
  after_results_simp <;> rfl

theorem M2_r1 : after hostOps5 C (Proc.devRef .tc main_v135)
    = shapeCast S1x128 (Host.divf (F := Ideal) (φ := .f32) (shapeCast S128 (C (Proc.devRef .tc main_v122_1)) shapeCasts_S1x128_S128) count) shapeCasts_S128_S1x128 := by
  after_results_simp <;> rfl

theorem M2_r2 : after hostOps5 C (Proc.devRef .tc main_v136)
    = shapeCast S1x128 (subf (F := Ideal) (φ := .f32)
        (Host.divf (F := Ideal) (φ := .f32) (shapeCast S128 (C (Proc.devRef .tc main_v122_2)) shapeCasts_S1x128_S128) count)
        (mulf (F := Ideal) (φ := .f32) (Host.divf (F := Ideal) (φ := .f32) (shapeCast S128 (C (Proc.devRef .tc main_v122_1)) shapeCasts_S1x128_S128) count)
          (Host.divf (F := Ideal) (φ := .f32) (shapeCast S128 (C (Proc.devRef .tc main_v122_1)) shapeCasts_S1x128_S128) count))) shapeCasts_S128_S1x128 := by
  after_results_simp <;> rfl

theorem M2_r3 : after hostOps5 C (Proc.devRef .tc main_v137)
    = shapeCast S1x128 (shapeCast S128 (extractStridedSlice S1x128 ![2, 0] (C (Proc.devRef .tc main_arg9)) slices_S3x128_S1x128_2_0) shapeCasts_S1x128_S128) shapeCasts_S128_S1x128 := by
  after_results_simp <;> rfl

theorem M2_r4 : after hostOps5 C (Proc.devRef .tc main_v138)
    = shapeCast S1x128 (shapeCast S128 (extractStridedSlice S1x128 ![2, 0] (C (Proc.devRef .tc main_arg10)) slices_S3x128_S1x128_2_0) shapeCasts_S1x128_S128) shapeCasts_S128_S1x128 := by
  after_results_simp <;> rfl

end Host

section Layers
variable {A0 W : Valuation τ sig (Elt Ideal)}

/-- LAYER 0 OF THE KERNEL: host operations, the perceptron region, host operations, the normalisation region. Given
    what the two regions leave (C after the first, E after the second) the layer's output array is the layer with the
    one-pass variance, of the layer's input array and of the parameters sliced out of the launch arguments. -/
theorem layer0 (C E : Valuation τ sig (Elt Ideal))
    (hH : C (Proc.devRef .tc main_v32_0) = mlpH ((after hostOps0 A0) (Proc.devRef .tc main_v21)) ((after hostOps0 A0) (Proc.devRef .tc main_v16)) ((after hostOps0 A0) (Proc.devRef .tc main_v23)) ((after hostOps0 A0) (Proc.devRef .tc main_v30)) ((after hostOps0 A0) (Proc.devRef .tc main_v27)) ((after hostOps0 A0) (Proc.devRef .tc main_v31)))
    (hS : C (Proc.devRef .tc main_v32_1) = rowSum (mlpH ((after hostOps0 A0) (Proc.devRef .tc main_v21)) ((after hostOps0 A0) (Proc.devRef .tc main_v16)) ((after hostOps0 A0) (Proc.devRef .tc main_v23)) ((after hostOps0 A0) (Proc.devRef .tc main_v30)) ((after hostOps0 A0) (Proc.devRef .tc main_v27)) ((after hostOps0 A0) (Proc.devRef .tc main_v31))))
    (hQ : C (Proc.devRef .tc main_v32_2) = rowSum (fun j => mlpH ((after hostOps0 A0) (Proc.devRef .tc main_v21)) ((after hostOps0 A0) (Proc.devRef .tc main_v16)) ((after hostOps0 A0) (Proc.devRef .tc main_v23)) ((after hostOps0 A0) (Proc.devRef .tc main_v30)) ((after hostOps0 A0) (Proc.devRef .tc main_v27)) ((after hostOps0 A0) (Proc.devRef .tc main_v31)) j * mlpH ((after hostOps0 A0) (Proc.devRef .tc main_v21)) ((after hostOps0 A0) (Proc.devRef .tc main_v16)) ((after hostOps0 A0) (Proc.devRef .tc main_v23)) ((after hostOps0 A0) (Proc.devRef .tc main_v30)) ((after hostOps0 A0) (Proc.devRef .tc main_v27)) ((after hostOps0 A0) (Proc.devRef .tc main_v31)) j))
    (kx : C (Proc.devRef .tc main_arg0) = (after hostOps0 A0) (Proc.devRef .tc main_arg0)) (k9 : C (Proc.devRef .tc main_arg9) = (after hostOps0 A0) (Proc.devRef .tc main_arg9))
    (k10 : C (Proc.devRef .tc main_arg10) = (after hostOps0 A0) (Proc.devRef .tc main_arg10))
    (hE : E (Proc.devRef .tc main_v49) = bnWhole ((after hostOps1 C) (Proc.devRef .tc main_v32_0)) ((after hostOps1 C) (Proc.devRef .tc main_arg0)) ((after hostOps1 C) (Proc.devRef .tc main_v45)) ((after hostOps1 C) (Proc.devRef .tc main_v46)) ((after hostOps1 C) (Proc.devRef .tc main_v47)) ((after hostOps1 C) (Proc.devRef .tc main_v48))) :
    E (Proc.devRef .tc main_v49) = layerK (A0 (Proc.devRef .tc main_arg0)) (kparams0 A0) := by
  have eS : C (Proc.devRef .tc main_v32_1) = rowSum (C (Proc.devRef .tc main_v32_0)) := by rw [hS, hH]
  have eQ : C (Proc.devRef .tc main_v32_2) = rowSum (sq (C (Proc.devRef .tc main_v32_0))) := by rw [hQ, hH]; rfl
  rw [L0_w1 A0, L0_w2 A0] at hH
  rw [hE, M0_h C, M0_x C, kx, L0_x A0]
  exact kernelLayer_eq_layerK (A0 (Proc.devRef .tc main_arg0)) (kparams0 A0) shapeCasts_S128_S1x128 shapeCasts_S128_S1x128 shapeCasts_S1x128_S128
    shapeCasts_S1x128_S128 shapeCasts_S128_S1x128 shapeCasts_S128_S1x128 shapeCasts_S128_S1x128 shapeCasts_S128_S1x128
    (L0_xe A0) (L0_ag A0) (L0_b1r A0) (L0_b2r A0) hH rfl rfl
    ((M0_r1 C).trans (by rw [eS] <;> rfl)) ((M0_r2 C).trans (by rw [eS, eQ] <;> rfl))
    ((M0_r3 C).trans (by rw [k9, L0_a9 A0] <;> rfl)) ((M0_r4 C).trans (by rw [k10, L0_a10 A0] <;> rfl))

/-- LAYER 1 OF THE KERNEL: host operations, the perceptron region, host operations, the normalisation region. Given
    what the two regions leave (C after the first, E after the second) the layer's output array is the layer with the
    one-pass variance, of the layer's input array and of the parameters sliced out of the launch arguments. -/
theorem layer1 (car : Carries A0 W) (C E : Valuation τ sig (Elt Ideal))
    (hH : C (Proc.devRef .tc main_v77_0) = mlpH ((after hostOps2 W) (Proc.devRef .tc main_v66)) ((after hostOps2 W) (Proc.devRef .tc main_v61)) ((after hostOps2 W) (Proc.devRef .tc main_v68)) ((after hostOps2 W) (Proc.devRef .tc main_v75)) ((after hostOps2 W) (Proc.devRef .tc main_v72)) ((after hostOps2 W) (Proc.devRef .tc main_v76)))
    (hS : C (Proc.devRef .tc main_v77_1) = rowSum (mlpH ((after hostOps2 W) (Proc.devRef .tc main_v66)) ((after hostOps2 W) (Proc.devRef .tc main_v61)) ((after hostOps2 W) (Proc.devRef .tc main_v68)) ((after hostOps2 W) (Proc.devRef .tc main_v75)) ((after hostOps2 W) (Proc.devRef .tc main_v72)) ((after hostOps2 W) (Proc.devRef .tc main_v76))))
    (hQ : C (Proc.devRef .tc main_v77_2) = rowSum (fun j => mlpH ((after hostOps2 W) (Proc.devRef .tc main_v66)) ((after hostOps2 W) (Proc.devRef .tc main_v61)) ((after hostOps2 W) (Proc.devRef .tc main_v68)) ((after hostOps2 W) (Proc.devRef .tc main_v75)) ((after hostOps2 W) (Proc.devRef .tc main_v72)) ((after hostOps2 W) (Proc.devRef .tc main_v76)) j * mlpH ((after hostOps2 W) (Proc.devRef .tc main_v66)) ((after hostOps2 W) (Proc.devRef .tc main_v61)) ((after hostOps2 W) (Proc.devRef .tc main_v68)) ((after hostOps2 W) (Proc.devRef .tc main_v75)) ((after hostOps2 W) (Proc.devRef .tc main_v72)) ((after hostOps2 W) (Proc.devRef .tc main_v76)) j))
    (kx : C (Proc.devRef .tc main_v49) = (after hostOps2 W) (Proc.devRef .tc main_v49)) (k9 : C (Proc.devRef .tc main_arg9) = (after hostOps2 W) (Proc.devRef .tc main_arg9))
    (k10 : C (Proc.devRef .tc main_arg10) = (after hostOps2 W) (Proc.devRef .tc main_arg10))
    (hE : E (Proc.devRef .tc main_v94) = bnWhole ((after hostOps3 C) (Proc.devRef .tc main_v77_0)) ((after hostOps3 C) (Proc.devRef .tc main_v49)) ((after hostOps3 C) (Proc.devRef .tc main_v90)) ((after hostOps3 C) (Proc.devRef .tc main_v91)) ((after hostOps3 C) (Proc.devRef .tc main_v92)) ((after hostOps3 C) (Proc.devRef .tc main_v93))) :
    E (Proc.devRef .tc main_v94) = layerK (W (Proc.devRef .tc main_v49)) (kparams1 A0) := by
  have eS : C (Proc.devRef .tc main_v77_1) = rowSum (C (Proc.devRef .tc main_v77_0)) := by rw [hS, hH]
  have eQ : C (Proc.devRef .tc main_v77_2) = rowSum (sq (C (Proc.devRef .tc main_v77_0))) := by rw [hQ, hH]; rfl
  rw [L1_w1 A0 W car, L1_w2 A0 W car] at hH
  rw [hE, M1_h C, M1_x C, kx, L1_x W]
  exact kernelLayer_eq_layerK (W (Proc.devRef .tc main_v49)) (kparams1 A0) shapeCasts_S128_S1x128 shapeCasts_S128_S1x128 shapeCasts_S1x128_S128
    shapeCasts_S1x128_S128 shapeCasts_S128_S1x128 shapeCasts_S128_S1x128 shapeCasts_S128_S1x128 shapeCasts_S128_S1x128
    (L1_xe A0 W car) (L1_ag A0 W car) (L1_b1r A0 W car) (L1_b2r A0 W car) hH rfl rfl
    ((M1_r1 C).trans (by rw [eS] <;> rfl)) ((M1_r2 C).trans (by rw [eS, eQ] <;> rfl))
    ((M1_r3 C).trans (by rw [k9, L1_a9 W, car.a9] <;> rfl)) ((M1_r4 C).trans (by rw [k10, L1_a10 W, car.a10] <;> rfl))

/-- LAYER 2 OF THE KERNEL: host operations, the perceptron region, host operations, the normalisation region. Given
    what the two regions leave (C after the first, E after the second) the layer's output array is the layer with the
    one-pass variance, of the layer's input array and of the parameters sliced out of the launch arguments. -/
theorem layer2 (car : Carries A0 W) (C E : Valuation τ sig (Elt Ideal))
    (hH : C (Proc.devRef .tc main_v122_0) = mlpH ((after hostOps4 W) (Proc.devRef .tc main_v111)) ((after hostOps4 W) (Proc.devRef .tc main_v106)) ((after hostOps4 W) (Proc.devRef .tc main_v113)) ((after hostOps4 W) (Proc.devRef .tc main_v120)) ((after hostOps4 W) (Proc.devRef .tc main_v117)) ((after hostOps4 W) (Proc.devRef .tc main_v121)))
    (hS : C (Proc.devRef .tc main_v122_1) = rowSum (mlpH ((after hostOps4 W) (Proc.devRef .tc main_v111)) ((after hostOps4 W) (Proc.devRef .tc main_v106)) ((after hostOps4 W) (Proc.devRef .tc main_v113)) ((after hostOps4 W) (Proc.devRef .tc main_v120)) ((after hostOps4 W) (Proc.devRef .tc main_v117)) ((after hostOps4 W) (Proc.devRef .tc main_v121))))
    (hQ : C (Proc.devRef .tc main_v122_2) = rowSum (fun j => mlpH ((after hostOps4 W) (Proc.devRef .tc main_v111)) ((after hostOps4 W) (Proc.devRef .tc main_v106)) ((after hostOps4 W) (Proc.devRef .tc main_v113)) ((after hostOps4 W) (Proc.devRef .tc main_v120)) ((after hostOps4 W) (Proc.devRef .tc main_v117)) ((after hostOps4 W) (Proc.devRef .tc main_v121)) j * mlpH ((after hostOps4 W) (Proc.devRef .tc main_v111)) ((after hostOps4 W) (Proc.devRef .tc main_v106)) ((after hostOps4 W) (Proc.devRef .tc main_v113)) ((after hostOps4 W) (Proc.devRef .tc main_v120)) ((after hostOps4 W) (Proc.devRef .tc main_v117)) ((after hostOps4 W) (Proc.devRef .tc main_v121)) j))
    (kx : C (Proc.devRef .tc main_v94) = (after hostOps4 W) (Proc.devRef .tc main_v94)) (k9 : C (Proc.devRef .tc main_arg9) = (after hostOps4 W) (Proc.devRef .tc main_arg9))
    (k10 : C (Proc.devRef .tc main_arg10) = (after hostOps4 W) (Proc.devRef .tc main_arg10))
    (hE : E (Proc.devRef .tc main_v139) = bnWhole ((after hostOps5 C) (Proc.devRef .tc main_v122_0)) ((after hostOps5 C) (Proc.devRef .tc main_v94)) ((after hostOps5 C) (Proc.devRef .tc main_v135)) ((after hostOps5 C) (Proc.devRef .tc main_v136)) ((after hostOps5 C) (Proc.devRef .tc main_v137)) ((after hostOps5 C) (Proc.devRef .tc main_v138))) :
    E (Proc.devRef .tc main_v139) = layerK (W (Proc.devRef .tc main_v94)) (kparams2 A0) := by
  have eS : C (Proc.devRef .tc main_v122_1) = rowSum (C (Proc.devRef .tc main_v122_0)) := by rw [hS, hH]
  have eQ : C (Proc.devRef .tc main_v122_2) = rowSum (sq (C (Proc.devRef .tc main_v122_0))) := by rw [hQ, hH]; rfl
  rw [L2_w1 A0 W car, L2_w2 A0 W car] at hH
  rw [hE, M2_h C, M2_x C, kx, L2_x W]
  exact kernelLayer_eq_layerK (W (Proc.devRef .tc main_v94)) (kparams2 A0) shapeCasts_S128_S1x128 shapeCasts_S128_S1x128 shapeCasts_S1x128_S128
    shapeCasts_S1x128_S128 shapeCasts_S128_S1x128 shapeCasts_S128_S1x128 shapeCasts_S128_S1x128 shapeCasts_S128_S1x128
    (L2_xe A0 W car) (L2_ag A0 W car) (L2_b1r A0 W car) (L2_b2r A0 W car) hH rfl rfl
    ((M2_r1 C).trans (by rw [eS] <;> rfl)) ((M2_r2 C).trans (by rw [eS, eQ] <;> rfl))
    ((M2_r3 C).trans (by rw [k9, L2_a9 W, car.a9] <;> rfl)) ((M2_r4 C).trans (by rw [k10, L2_a10 W, car.a10] <;> rfl))

end Layers

/-! ### The run's boundaries -/

section Run
variable (m : (ℓ : Loc nD τ sig) → Buf (Elt Ideal) ℓ) (c : Dev nD)

/-- Entering the second layer the contents still carry the launch contents: neither a region nor a host stretch in
    between writes those buffers. -/
theorem carries_W4 : Carries (W0 m c) (W4 m c) :=
  (carries_after0 (W0 m c)).of_eq
    ((W4_of_ne m c main_v1 (by decide)).trans ((W3_keep m c main_v1 (by decide)).trans (W2_of_ne m c main_v1 (by decide))))
    ((W4_of_ne m c main_v3 (by decide)).trans ((W3_keep m c main_v3 (by decide)).trans (W2_of_ne m c main_v3 (by decide))))
    ((W4_of_ne m c main_v4 (by decide)).trans ((W3_keep m c main_v4 (by decide)).trans (W2_of_ne m c main_v4 (by decide))))
    ((W4_of_ne m c main_arg4 (by decide)).trans ((W3_keep m c main_arg4 (by decide)).trans (W2_of_ne m c main_arg4 (by decide))))
    ((W4_of_ne m c main_arg5 (by decide)).trans ((W3_keep m c main_arg5 (by decide)).trans (W2_of_ne m c main_arg5 (by decide))))
    ((W4_of_ne m c main_arg6 (by decide)).trans ((W3_keep m c main_arg6 (by decide)).trans (W2_of_ne m c main_arg6 (by decide))))
    ((W4_of_ne m c main_arg7 (by decide)).trans ((W3_keep m c main_arg7 (by decide)).trans (W2_of_ne m c main_arg7 (by decide))))
    ((W4_of_ne m c main_arg8 (by decide)).trans ((W3_keep m c main_arg8 (by decide)).trans (W2_of_ne m c main_arg8 (by decide))))
    ((W4_of_ne m c main_arg9 (by decide)).trans ((W3_keep m c main_arg9 (by decide)).trans (W2_of_ne m c main_arg9 (by decide))))
    ((W4_of_ne m c main_arg10 (by decide)).trans ((W3_keep m c main_arg10 (by decide)).trans (W2_of_ne m c main_arg10 (by decide))))

/-- ... and entering the third. -/
theorem carries_W8 : Carries (W0 m c) (W8 m c) :=
  (carries_W4 m c).of_eq
    ((W8_of_ne m c main_v1 (by decide)).trans ((W7_keep m c main_v1 (by decide)).trans ((W6_of_ne m c main_v1 (by decide)).trans (W5_keep m c main_v1 (by decide)))))
    ((W8_of_ne m c main_v3 (by decide)).trans ((W7_keep m c main_v3 (by decide)).trans ((W6_of_ne m c main_v3 (by decide)).trans (W5_keep m c main_v3 (by decide)))))
    ((W8_of_ne m c main_v4 (by decide)).trans ((W7_keep m c main_v4 (by decide)).trans ((W6_of_ne m c main_v4 (by decide)).trans (W5_keep m c main_v4 (by decide)))))
    ((W8_of_ne m c main_arg4 (by decide)).trans ((W7_keep m c main_arg4 (by decide)).trans ((W6_of_ne m c main_arg4 (by decide)).trans (W5_keep m c main_arg4 (by decide)))))
    ((W8_of_ne m c main_arg5 (by decide)).trans ((W7_keep m c main_arg5 (by decide)).trans ((W6_of_ne m c main_arg5 (by decide)).trans (W5_keep m c main_arg5 (by decide)))))
    ((W8_of_ne m c main_arg6 (by decide)).trans ((W7_keep m c main_arg6 (by decide)).trans ((W6_of_ne m c main_arg6 (by decide)).trans (W5_keep m c main_arg6 (by decide)))))
    ((W8_of_ne m c main_arg7 (by decide)).trans ((W7_keep m c main_arg7 (by decide)).trans ((W6_of_ne m c main_arg7 (by decide)).trans (W5_keep m c main_arg7 (by decide)))))
    ((W8_of_ne m c main_arg8 (by decide)).trans ((W7_keep m c main_arg8 (by decide)).trans ((W6_of_ne m c main_arg8 (by decide)).trans (W5_keep m c main_arg8 (by decide)))))
    ((W8_of_ne m c main_arg9 (by decide)).trans ((W7_keep m c main_arg9 (by decide)).trans ((W6_of_ne m c main_arg9 (by decide)).trans (W5_keep m c main_arg9 (by decide)))))
    ((W8_of_ne m c main_arg10 (by decide)).trans ((W7_keep m c main_arg10 (by decide)).trans ((W6_of_ne m c main_arg10 (by decide)).trans (W5_keep m c main_arg10 (by decide)))))

/-- The first layer's output. -/
theorem W4_out : W4 m c (Proc.devRef .tc main_v49) = layerK (W0 m c (Proc.devRef .tc main_arg0)) (kparams0 (W0 m c)) :=
  layer0 (A0 := W0 m c) (W2 m c) (W4 m c)
    ((W2_arr m c 6).trans (region0_h (U1 m) c)) ((W2_arr m c 7).trans (region0_s (U1 m) c))
    ((W2_arr m c 8).trans (region0_q (U1 m) c))
    (W2_of_ne m c main_arg0 (by decide)) (W2_of_ne m c main_arg9 (by decide)) (W2_of_ne m c main_arg10 (by decide))
    ((W4_arr m c 6).trans (region1_writes (U3 m) c))

/-- The second layer's output. -/
theorem W8_out : W8 m c (Proc.devRef .tc main_v94) = layerK (W4 m c (Proc.devRef .tc main_v49)) (kparams1 (W0 m c)) :=
  layer1 (A0 := W0 m c) (W := W4 m c) (carries_W4 m c) (W6 m c) (W8 m c)
    ((W6_arr m c 6).trans (region2_h (U5 m) c)) ((W6_arr m c 7).trans (region2_s (U5 m) c))
    ((W6_arr m c 8).trans (region2_q (U5 m) c))
    (W6_of_ne m c main_v49 (by decide)) (W6_of_ne m c main_arg9 (by decide)) (W6_of_ne m c main_arg10 (by decide))
    ((W8_arr m c 6).trans (region3_writes (U7 m) c))

/-- The third layer's output: the kernel's result. -/
theorem W12_out : W12 m c (Proc.devRef .tc main_v139) = layerK (W8 m c (Proc.devRef .tc main_v94)) (kparams2 (W0 m c)) :=
  layer2 (A0 := W0 m c) (W := W8 m c) (carries_W8 m c) (W10 m c) (W12 m c)
    ((W10_arr m c 6).trans (region4_h (U9 m) c)) ((W10_arr m c 7).trans (region4_s (U9 m) c))
    ((W10_arr m c 8).trans (region4_q (U9 m) c))
    (W10_of_ne m c main_v94 (by decide)) (W10_of_ne m c main_arg9 (by decide)) (W10_of_ne m c main_arg10 (by decide))
    ((W12_arr m c 6).trans (region5_writes (U11 m) c))

/-- THE KERNEL'S RESULT is three layers with the one-pass variance, of its first argument and of the parameters sliced
    out of its other arguments. -/
theorem W12_eq_three : W12 m c (Proc.devRef .tc main_v139)
    = layerK (layerK (layerK (W0 m c (Proc.devRef .tc main_arg0)) (kparams0 (W0 m c))) (kparams1 (W0 m c))) (kparams2 (W0 m c)) := by
  rw [W12_out, W8_out, W4_out]

end Run

end Cert.KernelIdeal.Glue

end
-- ==== Proof.LibFiniteEntries.lean ====
/-
  A conjunction "every entry's absolute value is below +∞", read back at exact arithmetic.

  On the extended reals the absolute value of x is max(x, -x), and it is below +∞ exactly when x is neither infinity,
  that is, when x is (the image of) a real number: x = ↑(x.toReal). A precondition that takes the conjunction of
  |x_i| < +∞ over all entries of an array (a reduction by "and" of the one-bit comparisons into a single result, from the
  constant 1) and states that the result is 1 therefore says that the array is the image of its real parts.
  Stated for f32 arrays of any shape, the bound being any array that reads the word of +∞ (0x7F800000) everywhere.
-/
import Idealize.ShloMosaic.PureOps.Ideal
import Idealize.ShloMosaic.PureOps.Ideal.Laws
import Idealize.ShloMosaic.Lib.ReduceAll

noncomputable section

namespace LibFiniteEntries

open Idealize.ShloMosaic

/-- The word 0x7F800000 denotes +∞. -/
theorem ofBits_inf : Ideal.ofBits .f32 0x7F800000#32 = ⊤ := by
  simp [Ideal.ofBits, Ideal.ieee]

/-- An extended real whose absolute value max(x, -x) compares below +∞ is the image of its real part. -/
theorem real_of_abs_lt (x : EReal)
    (h : FloatOps.cmpf (F := Ideal) (φ := .f32) .olt (FloatOps.hostAbsf x) (Ideal.ofBits .f32 0x7F800000#32) = 1#1) :
    x = ((x.toReal : ℝ) : EReal) := by
  rw [Ideal.cmpf_def, Ideal.hostAbsf_def, Ideal.absf_def, ofBits_inf] at h
  induction x using EReal.rec with
  | bot => simp [Ideal.cmp] at h
  | top => simp [Ideal.cmp] at h
  | coe r => rfl

/-- The scalar shape has one index. -/
instance : Subsingleton (⟨0, ![]⟩ : Shape).Idx := ⟨fun a b => funext fun d => d.elim0⟩

/-- If the conjunction over ALL entries of "|x_i| < bound_i" is 1, the bound reading +∞ everywhere, then the array x is
    the image of its real parts. -/
theorem real_of_all_abs_lt {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) :
    x = fun i => (((x i).toReal : ℝ) : EReal) :=
  funext fun i => real_of_abs_lt (x i) (by
    have hi : FloatOps.cmpf (F := Ideal) (φ := .f32) .olt (FloatOps.hostAbsf (x i)) (bound i) = 1#1 :=
      Host.reduce_andi_all _ init h hu j e i
    rw [hb i] at hi
    exact hi)

end LibFiniteEntries

end
-- ==== Proof.FiniteArgs.lean ====
/-
  From the certificate's precondition to real entries.

  The precondition evaluates, on the program's eleven arguments, a conjunction over the nine float arrays of
  "every entry's absolute value is below +∞", and states that the result is 1. A conjunction is 1 exactly when each
  conjunct is; a conjunction over all entries of an array is 1 only if each entry's comparison is; and on the extended
  reals |x| < +∞ says that x is neither infinity, a real number. So each of the nine arrays has only real entries.
  The reference's memory agrees with the kernel's on the arguments, so the same holds of the reference's arguments:
  what the layers of the reference need of their parameters.
-/
import proofs.«124822_j54752243090034_1_alg».proof.Defs
import proofs.«124822_j54752243090034_1_alg».proof.Proof.Gen.Pre_finite_inputs
import proofs.«124822_j54752243090034_1_alg».proof.Proof.LibFiniteEntries
import proofs.«124822_j54752243090034_1_alg».proof.Proof.LibIdealFinite
import proofs.«124822_j54752243090034_1_alg».proof.Proof.RefLayerFinite
import Idealize.ShloMosaic.Lib.ReduceAll
import Idealize.ShloMosaic.Lib.ValueIdx

noncomputable section

namespace Cert.FiniteArgs

open Idealize.ShloMosaic Idealize.SL.Sem LibERealMatrix LibIdealFinite

/-- An array that is the image of its real parts has only real entries. -/
theorem allFin_of_eq_coe {s : Shape} {x : s.Idx → EReal} (h : x = fun i => (((x i).toReal : ℝ) : EReal)) : AllFin x :=
  fun i => by rw [congrFun h i]; exact Fin'.coe _

/-- One conjunct of the precondition: "every |x i| is below +∞" evaluates to 1 only if x has only real entries. -/
theorem allFin_of_all_abs_lt {s u : Shape} {axes : List (Fin s.rank)} (x : FVec Ideal s .f32) (bc : (⟨0, ![]⟩ : Shape).BroadcastsInDim s ![])
    (init : u.Idx → BitVec 1) (h : s.ReducesTo axes ⟨0, ![]⟩) (hu : 0 < u.numel) (j : (⟨0, ![]⟩ : Shape).Idx)
    (e : Host.reduce IntOp.andi (cmpf .olt (Host.absf x) (broadcastInDim s ![] bc (constant ⟨0, ![]⟩ .f32 0x7F800000#32))) init h hu j = 1#1) :
    AllFin x :=
  allFin_of_eq_coe (LibFiniteEntries.real_of_all_abs_lt x _ (fun _ => rfl) init h hu j e)

section Fn
open Cert.Pre_finite_inputs
variable [Cert.Pre_finite_inputs.Facts]

/-- The precondition's function is 1 only if each of the nine float arrays has only real entries. -/
theorem allFin_of_fn (a0 : FVec Ideal S50000x128 .f32) (a1 : IVec S2x800000 32) (a2 : IVec S800000 32)
    (a3 : FVec Ideal S800000 .f32) (a4 : FVec Ideal S3x128x128 .f32) (a5 : FVec Ideal S3x128 .f32)
    (a6 : FVec Ideal S3x128x128 .f32) (a7 : FVec Ideal S3x128 .f32) (a8 : FVec Ideal S3 .f32) (a9 : FVec Ideal S3x128 .f32)
    (a10 : FVec Ideal S3x128 .f32) (h : fn (F := Ideal) a0 a1 a2 a3 a4 a5 a6 a7 a8 a9 a10 = fun _ => 1#1) :
    AllFin a0 ∧ AllFin a3 ∧ AllFin a4 ∧ AllFin a5 ∧ AllFin a6 ∧ AllFin a7 ∧ AllFin a8 ∧ AllFin a9 ∧ AllFin a10 := by
  have h0 := congrFun h ValueIdx.ix0
  dsimp only [fn, fn_part1, fn_part2] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨allFin_of_all_abs_lt a0 _ _ _ _ _ e0, allFin_of_all_abs_lt a3 _ _ _ _ _ e3, allFin_of_all_abs_lt a4 _ _ _ _ _ e4,
    allFin_of_all_abs_lt a5 _ _ _ _ _ e5, allFin_of_all_abs_lt a6 _ _ _ _ _ e6, allFin_of_all_abs_lt a7 _ _ _ _ _ e7,
    allFin_of_all_abs_lt a8 _ _ _ _ _ e8, allFin_of_all_abs_lt a9 _ _ _ _ _ e9, allFin_of_all_abs_lt a10 _ _ _ _ _ e10⟩

end Fn

section Pre
variable [Cert.Pre_finite_inputs.Facts]

/-- Under the certificate's precondition each of the kernel's nine float arguments has only real entries. -/
theorem kernel_args_finite (m : (ℓ : Loc Cert.KernelIdeal.nD Cert.KernelIdeal.τ Cert.KernelIdeal.sig) → Buf (Elt Ideal) ℓ)
    (h : Cert.Pre_KernelIdeal m) (c : Dev Cert.KernelIdeal.nD) :
    AllFin (s := Cert.Pre_finite_inputs.S50000x128) (m ((c.tc : Thread Cert.KernelIdeal.nD Cert.KernelIdeal.τ).loc Cert.KernelIdeal.main_arg0))
      ∧ AllFin (s := Cert.Pre_finite_inputs.S800000) (m ((c.tc : Thread Cert.KernelIdeal.nD Cert.KernelIdeal.τ).loc Cert.KernelIdeal.main_arg3))
      ∧ AllFin (s := Cert.Pre_finite_inputs.S3x128x128) (m ((c.tc : Thread Cert.KernelIdeal.nD Cert.KernelIdeal.τ).loc Cert.KernelIdeal.main_arg4))
      ∧ AllFin (s := Cert.Pre_finite_inputs.S3x128) (m ((c.tc : Thread Cert.KernelIdeal.nD Cert.KernelIdeal.τ).loc Cert.KernelIdeal.main_arg5))
      ∧ AllFin (s := Cert.Pre_finite_inputs.S3x128x128) (m ((c.tc : Thread Cert.KernelIdeal.nD Cert.KernelIdeal.τ).loc Cert.KernelIdeal.main_arg6))
      ∧ AllFin (s := Cert.Pre_finite_inputs.S3x128) (m ((c.tc : Thread Cert.KernelIdeal.nD Cert.KernelIdeal.τ).loc Cert.KernelIdeal.main_arg7))
      ∧ AllFin (s := Cert.Pre_finite_inputs.S3) (m ((c.tc : Thread Cert.KernelIdeal.nD Cert.KernelIdeal.τ).loc Cert.KernelIdeal.main_arg8))
      ∧ AllFin (s := Cert.Pre_finite_inputs.S3x128) (m ((c.tc : Thread Cert.KernelIdeal.nD Cert.KernelIdeal.τ).loc Cert.KernelIdeal.main_arg9))
      ∧ AllFin (s := Cert.Pre_finite_inputs.S3x128) (m ((c.tc : Thread Cert.KernelIdeal.nD Cert.KernelIdeal.τ).loc Cert.KernelIdeal.main_arg10)) :=
  allFin_of_fn _ _ _ _ _ _ _ _ _ _ _ (h c)

open Cert.ReferenceIdeal Cert.ReferenceIdeal.RefValue in
/-- ... and so has each of the reference's, its memory agreeing with the kernel's on the arguments: the features
    (the first argument) and the eight parameter arrays, as the reference's layers need them. -/
theorem ref_args_finite (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    AllFin (s := Cert.ReferenceIdeal.S50000x128) (StableHlo.launchContents m' c (Proc.devRef .tc Cert.ReferenceIdeal.main_arg0))
      ∧ FinArgs (StableHlo.launchContents m' c) := by
  obtain ⟨f0, f3, f4, f5, f6, f7, f8, f9, f10⟩ := kernel_args_finite m h c
  obtain ⟨g0, -, -, g3, g4, g5, g6, g7, g8, g9, g10⟩ := hagree
  rw [← g0] at f0; rw [← g3] at f3; rw [← g4] at f4; rw [← g5] at f5; rw [← g6] at f6; rw [← g7] at f7
  rw [← g8] at f8; rw [← g9] at f9; rw [← g10] at f10
  exact ⟨f0, { ew := f3, W1 := f4, b1 := f5, W2 := f6, b2 := f7, eps := f8, gamma := f9, beta := f10 }⟩

end Pre

end Cert.FiniteArgs

end
-- ==== Proof.KiFinal.lean ====
/-
  The two programs end with the same array.

  The kernel's result buffer ends at three layers with the one-pass variance, applied to its first argument with the
  parameters sliced out of its other arguments; the reference's at three layers with the two-pass variance, of its
  own arguments. The memories agree on the arguments, so the two parameter records are the same; the precondition
  makes every float argument real; and on real entries the two variances agree, layer after layer.
-/
import proofs.«124822_j54752243090034_1_alg».proof.Proof.KiGlue
import proofs.«124822_j54752243090034_1_alg».proof.Proof.FiniteArgs

set_option maxRecDepth 16384

noncomputable section

namespace Cert.Proof

open Cert.ReferenceIdeal.RefValue Cert.ReferenceIdeal.Value Cert.KernelIdeal.Glue Cert.KernelIdeal.Hand Cert.KernelLayer
open Idealize.ShloMosaic Idealize.ShloMosaic.TcCoe Idealize.SL.Sem Idealize.ShloMosaic.StableHlo

section Params
variable {V0 : Valuation Cert.ReferenceIdeal.τ Cert.ReferenceIdeal.sig (Elt Ideal)}
  {A0 : Valuation Cert.KernelIdeal.τ Cert.KernelIdeal.sig (Elt Ideal)}

/-! The reference's and the kernel's parameter records are the same once their argument arrays are. -/

theorem params0_eq (g1 : V0 (Proc.devRef .tc Cert.ReferenceIdeal.main_arg1) = A0 (Proc.devRef .tc Cert.KernelIdeal.main_arg1)) (g3 : V0 (Proc.devRef .tc Cert.ReferenceIdeal.main_arg3) = A0 (Proc.devRef .tc Cert.KernelIdeal.main_arg3)) (g4 : V0 (Proc.devRef .tc Cert.ReferenceIdeal.main_arg4) = A0 (Proc.devRef .tc Cert.KernelIdeal.main_arg4)) (g5 : V0 (Proc.devRef .tc Cert.ReferenceIdeal.main_arg5) = A0 (Proc.devRef .tc Cert.KernelIdeal.main_arg5)) (g6 : V0 (Proc.devRef .tc Cert.ReferenceIdeal.main_arg6) = A0 (Proc.devRef .tc Cert.KernelIdeal.main_arg6)) (g7 : V0 (Proc.devRef .tc Cert.ReferenceIdeal.main_arg7) = A0 (Proc.devRef .tc Cert.KernelIdeal.main_arg7)) (g8 : V0 (Proc.devRef .tc Cert.ReferenceIdeal.main_arg8) = A0 (Proc.devRef .tc Cert.KernelIdeal.main_arg8)) (g9 : V0 (Proc.devRef .tc Cert.ReferenceIdeal.main_arg9) = A0 (Proc.devRef .tc Cert.KernelIdeal.main_arg9)) (g10 : V0 (Proc.devRef .tc Cert.ReferenceIdeal.main_arg10) = A0 (Proc.devRef .tc Cert.KernelIdeal.main_arg10)) : params0 V0 = kparams0 A0 := by
  unfold params0 kparams0 srcOf dstOf srcK dstK Cert.ReferenceIdeal.Value.res_main_v1 Cert.ReferenceIdeal.Value.res_main_v3 v1of v3of
  rw [g1, g3, g4, g5, g6, g7, g8, g9, g10] <;> rfl

theorem params1_eq (g1 : V0 (Proc.devRef .tc Cert.ReferenceIdeal.main_arg1) = A0 (Proc.devRef .tc Cert.KernelIdeal.main_arg1)) (g3 : V0 (Proc.devRef .tc Cert.ReferenceIdeal.main_arg3) = A0 (Proc.devRef .tc Cert.KernelIdeal.main_arg3)) (g4 : V0 (Proc.devRef .tc Cert.ReferenceIdeal.main_arg4) = A0 (Proc.devRef .tc Cert.KernelIdeal.main_arg4)) (g5 : V0 (Proc.devRef .tc Cert.ReferenceIdeal.main_arg5) = A0 (Proc.devRef .tc Cert.KernelIdeal.main_arg5)) (g6 : V0 (Proc.devRef .tc Cert.ReferenceIdeal.main_arg6) = A0 (Proc.devRef .tc Cert.KernelIdeal.main_arg6)) (g7 : V0 (Proc.devRef .tc Cert.ReferenceIdeal.main_arg7) = A0 (Proc.devRef .tc Cert.KernelIdeal.main_arg7)) (g8 : V0 (Proc.devRef .tc Cert.ReferenceIdeal.main_arg8) = A0 (Proc.devRef .tc Cert.KernelIdeal.main_arg8)) (g9 : V0 (Proc.devRef .tc Cert.ReferenceIdeal.main_arg9) = A0 (Proc.devRef .tc Cert.KernelIdeal.main_arg9)) (g10 : V0 (Proc.devRef .tc Cert.ReferenceIdeal.main_arg10) = A0 (Proc.devRef .tc Cert.KernelIdeal.main_arg10)) : params1 V0 = kparams1 A0 := by
  unfold params1 kparams1 srcOf dstOf srcK dstK Cert.ReferenceIdeal.Value.res_main_v1 Cert.ReferenceIdeal.Value.res_main_v3 v1of v3of
  rw [g1, g3, g4, g5, g6, g7, g8, g9, g10] <;> rfl

theorem params2_eq (g1 : V0 (Proc.devRef .tc Cert.ReferenceIdeal.main_arg1) = A0 (Proc.devRef .tc Cert.KernelIdeal.main_arg1)) (g3 : V0 (Proc.devRef .tc Cert.ReferenceIdeal.main_arg3) = A0 (Proc.devRef .tc Cert.KernelIdeal.main_arg3)) (g4 : V0 (Proc.devRef .tc Cert.ReferenceIdeal.main_arg4) = A0 (Proc.devRef .tc Cert.KernelIdeal.main_arg4)) (g5 : V0 (Proc.devRef .tc Cert.ReferenceIdeal.main_arg5) = A0 (Proc.devRef .tc Cert.KernelIdeal.main_arg5)) (g6 : V0 (Proc.devRef .tc Cert.ReferenceIdeal.main_arg6) = A0 (Proc.devRef .tc Cert.KernelIdeal.main_arg6)) (g7 : V0 (Proc.devRef .tc Cert.ReferenceIdeal.main_arg7) = A0 (Proc.devRef .tc Cert.KernelIdeal.main_arg7)) (g8 : V0 (Proc.devRef .tc Cert.ReferenceIdeal.main_arg8) = A0 (Proc.devRef .tc Cert.KernelIdeal.main_arg8)) (g9 : V0 (Proc.devRef .tc Cert.ReferenceIdeal.main_arg9) = A0 (Proc.devRef .tc Cert.KernelIdeal.main_arg9)) (g10 : V0 (Proc.devRef .tc Cert.ReferenceIdeal.main_arg10) = A0 (Proc.devRef .tc Cert.KernelIdeal.main_arg10)) : params2 V0 = kparams2 A0 := by
  unfold params2 kparams2 srcOf dstOf srcK dstK Cert.ReferenceIdeal.Value.res_main_v1 Cert.ReferenceIdeal.Value.res_main_v3 v1of v3of
  rw [g1, g3, g4, g5, g6, g7, g8, g9, g10] <;> rfl

end Params

/-- THE RESULTS AGREE: under the precondition and from memories agreeing on the arguments, the reference's composed
    term (its three layers) is what the kernel's last region writes back. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (c : Dev Cert.ReferenceIdeal.nD) :
    layerR (res_main_v140 (launchContents m' c)) (params2 (launchContents m' c))
      = W12 m c (Proc.devRef .tc Cert.KernelIdeal.main_v139) := by
  obtain ⟨fx, fA⟩ := Cert.FiniteArgs.ref_args_finite m m' hpre c (hagree c)
  obtain ⟨g0, g1, -, g3, g4, g5, g6, g7, g8, g9, g10⟩ := hagree c
  have hx0 : W0 m c (Proc.devRef .tc Cert.KernelIdeal.main_arg0) = launchContents m' c (Proc.devRef .tc Cert.ReferenceIdeal.main_arg0) := g0.symm
  rw [W12_eq_three, res_main_v140_eq, res_main_v72_eq, hx0,
    ← params0_eq (V0 := launchContents m' c) (A0 := W0 m c) g1 g3 g4 g5 g6 g7 g8 g9 g10,
    ← params1_eq (V0 := launchContents m' c) (A0 := W0 m c) g1 g3 g4 g5 g6 g7 g8 g9 g10,
    ← params2_eq (V0 := launchContents m' c) (A0 := W0 m c) g1 g3 g4 g5 g6 g7 g8 g9 g10]
  exact (three_layers fx (finParams0 fA) (finParams1 fA) (finParams2 fA) rfl rfl rfl).symm

end Cert.Proof

end
-- ==== Proof.lean ====
/-
  A three-layer graph network (per layer: a weighted sum over incoming edges, a two-layer perceptron, a batch
  normalisation over the 50000 nodes with a residual) as six TensorCore kernel regions among host operations, against
  its array-level reference.

  Frames. Each kernel program runs as twelve segments; every region's body is run once per control case (first grid
  point: the two accumulator rows are reset; last: they are copied to the row outputs; otherwise neither), the rows'
  contents after each point stated by recursion over the points, and the regions chained over the thread state "every
  unscoped buffer at the boundary's contents". The reference's frame is its run with the result dropped.

  Value, over the extended reals. The perceptron regions leave ∑ₖ max(∑ₖ' (xe+agg)·W1 + b1, 0)·W2 + b2 row by row, and the
  column sums of it and of its squares accumulated block by block (a sum of 50000 terms taken in 25 blocks of 2000: no
  finiteness needed); the normalisation regions leave x + max(γ·(h − mean)·rsqrt(var + ε) + β, 0). The one law that
  needs finite inputs is the variance: the mean of the squared deviations from the mean is the mean of the squares
  minus the squared mean, for real entries; every layer's output is again real (the variance is a real ≥ 0, ε > 0), so
  the law applies at each of the three layers.
-/
import proofs.«124822_j54752243090034_1_alg».proof.Defs
import proofs.«124822_j54752243090034_1_alg».proof.Proof.Gen.Kernel
import proofs.«124822_j54752243090034_1_alg».proof.Proof.Gen.KernelIdeal
import proofs.«124822_j54752243090034_1_alg».proof.Proof.Gen.ReferenceIdeal
import proofs.«124822_j54752243090034_1_alg».proof.Proof.Gen.Pre_finite_inputs
import proofs.«124822_j54752243090034_1_alg».proof.Proof.Gen.ReferenceIdeal.Run
import proofs.«124822_j54752243090034_1_alg».proof.Proof.KRun
import proofs.«124822_j54752243090034_1_alg».proof.Proof.KiRun
import proofs.«124822_j54752243090034_1_alg».proof.Proof.KiFinal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run (F := Bits) m ρ)

theorem frame_ki : Cert.frame_KernelIdeal := fun m ρ _ =>
  (θ_run Cert.KernelIdeal.defs _ _).mono (fun _ h c => (h c).2) (Cert.KernelIdeal.Hand.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the same array: the kernel's result buffer at what its last region writes back, the
    reference's at its composed term, and the two are equal under finite inputs (`result_eq`). -/
theorem algebraic : Cert.algebraic_KernelIdeal_ReferenceIdeal := by
  intro m ρ m' ρ' hpre hagree
  refine ⟨fun c => Cert.KernelIdeal.Hand.W12 m c (Proc.devRef .tc Cert.KernelIdeal.main_v139),
    Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Proof.result_eq m m' hpre hagree c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
